-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S131072x876 : Shape := ⟨2, ![131072, 876]⟩
abbrev S131072 : Shape := ⟨1, ![131072]⟩
abbrev S768x876 : Shape := ⟨2, ![768, 876]⟩
abbrev S768 : Shape := ⟨1, ![768]⟩
abbrev S768x768 : Shape := ⟨2, ![768, 768]⟩
abbrev S768x2304 : Shape := ⟨2, ![768, 2304]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S131072x876 : S_.BroadcastsInDim S131072x876 (![] : Fin 0 → Fin S131072x876.rank)
  reducesTo_S131072x876_S_d0_1 : S131072x876.ReducesTo [0, 1] S_
  bcast_S_S768x876 : S_.BroadcastsInDim S768x876 (![] : Fin 0 → Fin S768x876.rank)
  reducesTo_S768x876_S_d0_1 : S768x876.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S768x2304 : S_.BroadcastsInDim S768x2304 (![] : Fin 0 → Fin S768x2304.rank)
  reducesTo_S768x2304_S_d0_1 : S768x2304.ReducesTo [0, 1] S_

variable [Facts]

def fn_part7 {F : FTy → Type} [FloatOps F] (main_v118 : IVec S_ 1) (main_v119 : FVec F S768 .f32) : IVec S_ 1 :=
  let main_cst_46 : FVec F S_ .f32 := constant S_ .f32 0x7F800000#32
  let main_v120 : FVec F S768 .f32 := broadcastInDim S768 ![] bcast_S_S768 main_cst_46
  let main_v121 : IVec S768 1 := cmpf .olt main_v119 main_v120
  let main_c_47 : IVec S_ 1 := constantI S_ 1 1#1
  let main_v122 : IVec S_ 1 := (fun x v => Host.reduce IntOp.andi x v reducesTo_S768_S_d0 h_S_) main_v121 main_c_47
  let main_v123 : IVec S_ 1 := andi main_v118 main_v122
  main_v123

def fn_part6 {F : FTy → Type} [FloatOps F] (main_arg22 : FVec F S768x2304 .f32) (main_arg23 : FVec F S768 .f32) (main_arg24 : FVec F S768x768 .f32) (main_arg25 : FVec F S768 .f32) (main_v98 : IVec S_ 1) (main_v101 : IVec S768 1) (main_c_39 : IVec S_ 1) : IVec S_ 1 :=
  let main_v102 : IVec S_ 1 := (fun x v => Host.reduce IntOp.andi x v reducesTo_S768_S_d0 h_S_) main_v101 main_c_39
  let main_v103 : IVec S_ 1 := andi main_v98 main_v102
  let main_v104 : FVec F S768x2304 .f32 := Host.absf main_arg22
  let main_cst_40 : FVec F S_ .f32 := constant S_ .f32 0x7F800000#32
  let main_v105 : FVec F S768x2304 .f32 := broadcastInDim S768x2304 ![] bcast_S_S768x2304 main_cst_40
  let main_v106 : IVec S768x2304 1 := cmpf .olt main_v104 main_v105
  let main_c_41 : IVec S_ 1 := constantI S_ 1 1#1
  let main_v107 : IVec S_ 1 := (fun x v => Host.reduce IntOp.andi x v reducesTo_S768x2304_S_d0_1 h_S_) main_v106 main_c_41
  let main_v108 : IVec S_ 1 := andi main_v103 main_v107
  let main_v109 : FVec F S768 .f32 := Host.absf main_arg23
  let main_cst_42 : FVec F S_ .f32 := constant S_ .f32 0x7F800000#32
  let main_v110 : FVec F S768 .f32 := broadcastInDim S768 ![] bcast_S_S768 main_cst_42
  let main_v111 : IVec S768 1 := cmpf .olt main_v109 main_v110
  let main_c_43 : IVec S_ 1 := constantI S_ 1 1#1
  let main_v112 : IVec S_ 1 := (fun x v => Host.reduce IntOp.andi x v reducesTo_S768_S_d0 h_S_) main_v111 main_c_43
  let main_v113 : IVec S_ 1 := andi main_v108 main_v112
  let main_v114 : FVec F S768x768 .f32 := Host.absf main_arg24
  let main_cst_44 : FVec F S_ .f32 := constant S_ .f32 0x7F800000#32
  let main_v115 : FVec F S768x768 .f32 := broadcastInDim S768x768 ![] bcast_S_S768x768 main_cst_44
  let main_v116 : IVec S768x768 1 := cmpf .olt main_v114 main_v115
  let main_c_45 : IVec S_ 1 := constantI S_ 1 1#1
  let main_v117 : IVec S_ 1 := (fun x v => Host.reduce IntOp.andi x v reducesTo_S768x768_S_d0_1 h_S_) main_v116 main_c_45
  let main_v118 : IVec S_ 1 := andi main_v113 main_v117
  let main_v119 : FVec F S768 .f32 := Host.absf main_arg25
  fn_part7 (F := F) main_v118 main_v119

def fn_part5 {F : FTy → Type} [FloatOps F] (main_arg19 : FVec F S768x768 .f32) (main_arg20 : FVec F S768 .f32) (main_arg21 : FVec F S768 .f32) (main_arg22 : FVec F S768x2304 .f32) (main_arg23 : FVec F S768 .f32) (main_arg24 : FVec F S768x768 .f32) (main_arg25 : FVec F S768 .f32) (main_v83 : IVec S_ 1) (main_v84 : FVec F S768x768 .f32) (main_cst_32 : FVec F S_ .f32) : IVec S_ 1 :=
  let main_v85 : FVec F S768x768 .f32 := broadcastInDim S768x768 ![] bcast_S_S768x768 main_cst_32
  let main_v86 : IVec S768x768 1 := cmpf .olt main_v84 main_v85
  let main_c_33 : IVec S_ 1 := constantI S_ 1 1#1
  let main_v87 : IVec S_ 1 := (fun x v => Host.reduce IntOp.andi x v reducesTo_S768x768_S_d0_1 h_S_) main_v86 main_c_33
  let main_v88 : IVec S_ 1 := andi main_v83 main_v87
  let main_v89 : FVec F S768x768 .f32 := Host.absf main_arg19
  let main_cst_34 : FVec F S_ .f32 := constant S_ .f32 0x7F800000#32
  let main_v90 : FVec F S768x768 .f32 := broadcastInDim S768x768 ![] bcast_S_S768x768 main_cst_34
  let main_v91 : IVec S768x768 1 := cmpf .olt main_v89 main_v90
  let main_c_35 : IVec S_ 1 := constantI S_ 1 1#1
  let main_v92 : IVec S_ 1 := (fun x v => Host.reduce IntOp.andi x v reducesTo_S768x768_S_d0_1 h_S_) main_v91 main_c_35
  let main_v93 : IVec S_ 1 := andi main_v88 main_v92
  let main_v94 : FVec F S768 .f32 := Host.absf main_arg20
  let main_cst_36 : FVec F S_ .f32 := constant S_ .f32 0x7F800000#32
  let main_v95 : FVec F S768 .f32 := broadcastInDim S768 ![] bcast_S_S768 main_cst_36
  let main_v96 : IVec S768 1 := cmpf .olt main_v94 main_v95
  let main_c_37 : IVec S_ 1 := constantI S_ 1 1#1
  let main_v97 : IVec S_ 1 := (fun x v => Host.reduce IntOp.andi x v reducesTo_S768_S_d0 h_S_) main_v96 main_c_37
  let main_v98 : IVec S_ 1 := andi main_v93 main_v97
  let main_v99 : FVec F S768 .f32 := Host.absf main_arg21
  let main_cst_38 : FVec F S_ .f32 := constant S_ .f32 0x7F800000#32
  let main_v100 : FVec F S768 .f32 := broadcastInDim S768 ![] bcast_S_S768 main_cst_38
  let main_v101 : IVec S768 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S768 .f32) (main_arg16 : FVec F S768x876 .f32) (main_arg17 : FVec F S768 .f32) (main_arg18 : FVec F S768x768 .f32) (main_arg19 : FVec F S768x768 .f32) (main_arg20 : FVec F S768 .f32) (main_arg21 : FVec F S768 .f32) (main_arg22 : FVec F S768x2304 .f32) (main_arg23 : FVec F S768 .f32) (main_arg24 : FVec F S768x768 .f32) (main_arg25 : FVec F S768 .f32) (main_v63 : IVec S_ 1) (main_v67 : IVec S_ 1) : IVec S_ 1 :=
  let main_v68 : IVec S_ 1 := andi main_v63 main_v67
  let main_v69 : FVec F S768 .f32 := Host.absf main_arg15
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S768x876 .f32 := Host.absf main_arg16
  let main_cst_28 : FVec F S_ .f32 := constant S_ .f32 0x7F800000#32
  let main_v75 : FVec F S768x876 .f32 := broadcastInDim S768x876 ![] bcast_S_S768x876 main_cst_28
  let main_v76 : IVec S768x876 1 := cmpf .olt main_v74 main_v75
  let main_c_29 : IVec S_ 1 := constantI S_ 1 1#1
  let main_v77 : IVec S_ 1 := (fun x v => Host.reduce IntOp.andi x v reducesTo_S768x876_S_d0_1 h_S_) main_v76 main_c_29
  let main_v78 : IVec S_ 1 := andi main_v73 main_v77
  let main_v79 : FVec F S768 .f32 := Host.absf main_arg17
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  let main_v84 : FVec F S768x768 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S768x768 .f32) (main_arg13 : FVec F S768x768 .f32) (main_arg14 : FVec F S768 .f32) (main_arg15 : FVec F S768 .f32) (main_arg16 : FVec F S768x876 .f32) (main_arg17 : FVec F S768 .f32) (main_arg18 : FVec F S768x768 .f32) (main_arg19 : FVec F S768x768 .f32) (main_arg20 : FVec F S768 .f32) (main_arg21 : FVec F S768 .f32) (main_arg22 : FVec F S768x2304 .f32) (main_arg23 : FVec F S768 .f32) (main_arg24 : FVec F S768x768 .f32) (main_arg25 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768x768 .f32 := Host.absf main_arg12
  let main_cst_20 : FVec F S_ .f32 := constant S_ .f32 0x7F800000#32
  let main_v55 : FVec F S768x768 .f32 := broadcastInDim S768x768 ![] bcast_S_S768x768 main_cst_20
  let main_v56 : IVec S768x768 1 := cmpf .olt main_v54 main_v55
  let main_c_21 : IVec S_ 1 := constantI S_ 1 1#1
  let main_v57 : IVec S_ 1 := (fun x v => Host.reduce IntOp.andi x v reducesTo_S768x768_S_d0_1 h_S_) main_v56 main_c_21
  let main_v58 : IVec S_ 1 := andi main_v53 main_v57
  let main_v59 : FVec F S768x768 .f32 := Host.absf main_arg13
  let main_cst_22 : FVec F S_ .f32 := constant S_ .f32 0x7F800000#32
  let main_v60 : FVec F S768x768 .f32 := broadcastInDim S768x768 ![] bcast_S_S768x768 main_cst_22
  let main_v61 : IVec S768x768 1 := cmpf .olt main_v59 main_v60
  let main_c_23 : IVec S_ 1 := constantI S_ 1 1#1
  let main_v62 : IVec S_ 1 := (fun x v => Host.reduce IntOp.andi x v reducesTo_S768x768_S_d0_1 h_S_) main_v61 main_c_23
  let main_v63 : IVec S_ 1 := andi main_v58 main_v62
  let main_v64 : FVec F S768 .f32 := Host.absf main_arg14
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S768 .f32) (main_arg9 : FVec F S768 .f32) (main_arg10 : FVec F S768x876 .f32) (main_arg11 : FVec F S768 .f32) (main_arg12 : FVec F S768x768 .f32) (main_arg13 : FVec F S768x768 .f32) (main_arg14 : FVec F S768 .f32) (main_arg15 : FVec F S768 .f32) (main_arg16 : FVec F S768x876 .f32) (main_arg17 : FVec F S768 .f32) (main_arg18 : FVec F S768x768 .f32) (main_arg19 : FVec F S768x768 .f32) (main_arg20 : FVec F S768 .f32) (main_arg21 : FVec F S768 .f32) (main_arg22 : FVec F S768x2304 .f32) (main_arg23 : FVec F S768 .f32) (main_arg24 : FVec F S768x768 .f32) (main_arg25 : FVec F S768 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg9
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x876 .f32 := Host.absf main_arg10
  let main_cst_16 : FVec F S_ .f32 := constant S_ .f32 0x7F800000#32
  let main_v45 : FVec F S768x876 .f32 := broadcastInDim S768x876 ![] bcast_S_S768x876 main_cst_16
  let main_v46 : IVec S768x876 1 := cmpf .olt main_v44 main_v45
  let main_c_17 : IVec S_ 1 := constantI S_ 1 1#1
  let main_v47 : IVec S_ 1 := (fun x v => Host.reduce IntOp.andi x v reducesTo_S768x876_S_d0_1 h_S_) main_v46 main_c_17
  let main_v48 : IVec S_ 1 := andi main_v43 main_v47
  let main_v49 : FVec F S768 .f32 := Host.absf main_arg11
  let main_cst_18 : FVec F S_ .f32 := constant S_ .f32 0x7F800000#32
  let main_v50 : FVec F S768 .f32 := broadcastInDim S768 ![] bcast_S_S768 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S768 .f32) (main_arg6 : FVec F S768x768 .f32) (main_arg7 : FVec F S768x768 .f32) (main_arg8 : FVec F S768 .f32) (main_arg9 : FVec F S768 .f32) (main_arg10 : FVec F S768x876 .f32) (main_arg11 : FVec F S768 .f32) (main_arg12 : FVec F S768x768 .f32) (main_arg13 : FVec F S768x768 .f32) (main_arg14 : FVec F S768 .f32) (main_arg15 : FVec F S768 .f32) (main_arg16 : FVec F S768x876 .f32) (main_arg17 : FVec F S768 .f32) (main_arg18 : FVec F S768x768 .f32) (main_arg19 : FVec F S768x768 .f32) (main_arg20 : FVec F S768 .f32) (main_arg21 : FVec F S768 .f32) (main_arg22 : FVec F S768x2304 .f32) (main_arg23 : FVec F S768 .f32) (main_arg24 : FVec F S768x768 .f32) (main_arg25 : FVec F S768 .f32) (main_v13 : IVec S_ 1) (main_v16 : IVec S768x876 1) : IVec S_ 1 :=
  let main_c_5 : IVec S_ 1 := constantI S_ 1 1#1
  let main_v17 : IVec S_ 1 := (fun x v => Host.reduce IntOp.andi x v reducesTo_S768x876_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg6
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768x768 .f32 := Host.absf main_arg7
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S8192x768 .f32) (main_arg1 : FVec F S131072x876 .f32) (main_arg2 : IVec S131072 32) (main_arg3 : FVec F S8192x768 .f32) (main_arg4 : FVec F S768x876 .f32) (main_arg5 : FVec F S768 .f32) (main_arg6 : FVec F S768x768 .f32) (main_arg7 : FVec F S768x768 .f32) (main_arg8 : FVec F S768 .f32) (main_arg9 : FVec F S768 .f32) (main_arg10 : FVec F S768x876 .f32) (main_arg11 : FVec F S768 .f32) (main_arg12 : FVec F S768x768 .f32) (main_arg13 : FVec F S768x768 .f32) (main_arg14 : FVec F S768 .f32) (main_arg15 : FVec F S768 .f32) (main_arg16 : FVec F S768x876 .f32) (main_arg17 : FVec F S768 .f32) (main_arg18 : FVec F S768x768 .f32) (main_arg19 : FVec F S768x768 .f32) (main_arg20 : FVec F S768 .f32) (main_arg21 : FVec F S768 .f32) (main_arg22 : FVec F S768x2304 .f32) (main_arg23 : FVec F S768 .f32) (main_arg24 : FVec F S768x768 .f32) (main_arg25 : FVec F S768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S131072x876 .f32 := Host.absf main_arg1
  let main_cst_0 : FVec F S_ .f32 := constant S_ .f32 0x7F800000#32
  let main_v5 : FVec F S131072x876 .f32 := broadcastInDim S131072x876 ![] bcast_S_S131072x876 main_cst_0
  let main_v6 : IVec S131072x876 1 := cmpf .olt main_v4 main_v5
  let main_c_1 : IVec S_ 1 := constantI S_ 1 1#1
  let main_v7 : IVec S_ 1 := (fun x v => Host.reduce IntOp.andi x v reducesTo_S131072x876_S_d0_1 h_S_) main_v6 main_c_1
  let main_v8 : IVec S_ 1 := andi main_v3 main_v7
  let main_v9 : FVec F S8192x768 .f32 := Host.absf main_arg3
  let main_cst_2 : FVec F S_ .f32 := constant S_ .f32 0x7F800000#32
  let main_v10 : FVec F S8192x768 .f32 := broadcastInDim S8192x768 ![] bcast_S_S8192x768 main_cst_2
  let main_v11 : IVec S8192x768 1 := cmpf .olt main_v9 main_v10
  let main_c_3 : IVec S_ 1 := constantI S_ 1 1#1
  let main_v12 : IVec S_ 1 := (fun x v => Host.reduce IntOp.andi x v reducesTo_S8192x768_S_d0_1 h_S_) main_v11 main_c_3
  let main_v13 : IVec S_ 1 := andi main_v8 main_v12
  let main_v14 : FVec F S768x876 .f32 := Host.absf main_arg4
  let main_cst_4 : FVec F S_ .f32 := constant S_ .f32 0x7F800000#32
  let main_v15 : FVec F S768x876 .f32 := broadcastInDim S768x876 ![] bcast_S_S768x876 main_cst_4
  let main_v16 : IVec S768x876 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S8192x768 : Shape := ⟨2, ![8192, 768]⟩
abbrev S131072x876 : Shape := ⟨2, ![131072, 876]⟩
abbrev S131072 : Shape := ⟨1, ![131072]⟩
abbrev S768x876 : Shape := ⟨2, ![768, 876]⟩
abbrev S768 : Shape := ⟨1, ![768]⟩
abbrev S768x768 : Shape := ⟨2, ![768, 768]⟩
abbrev S768x2304 : Shape := ⟨2, ![768, 2304]⟩
abbrev S_ : Shape := ⟨0, ![]⟩
abbrev S131072x896 : Shape := ⟨2, ![131072, 896]⟩
abbrev S8192x896 : Shape := ⟨2, ![8192, 896]⟩
abbrev S131072x1 : Shape := ⟨2, ![131072, 1]⟩
abbrev S768x896 : Shape := ⟨2, ![768, 896]⟩
abbrev S896x768 : Shape := ⟨2, ![896, 768]⟩
abbrev S1x768 : Shape := ⟨2, ![1, 768]⟩
abbrev S512x896 : Shape := ⟨2, ![512, 896]⟩
abbrev S512x768 : Shape := ⟨2, ![512, 768]⟩

abbrev nBuf : Space → Nat
  | .hbm => 197
  | .vmem => 44
  | .smem => 0
  | _ => 0

abbrev hbmTy0_0 (i : Nat) : BufTy := match i % 128 with
  | 0 => ⟨S8192x768, .f32⟩
  | 1 => ⟨S131072x876, .f32⟩
  | 2 => ⟨S131072, .i32⟩
  | 3 => ⟨S8192x768, .f32⟩
  | 4 => ⟨S768x876, .f32⟩
  | 5 => ⟨S768, .f32⟩
  | 6 => ⟨S768x768, .f32⟩
  | 7 => ⟨S768x768, .f32⟩
  | 8 => ⟨S768, .f32⟩
  | 9 => ⟨S768, .f32⟩
  | 10 => ⟨S768x876, .f32⟩
  | 11 => ⟨S768, .f32⟩
  | 12 => ⟨S768x768, .f32⟩
  | 13 => ⟨S768x768, .f32⟩
  | 14 => ⟨S768, .f32⟩
  | 15 => ⟨S768, .f32⟩
  | 16 => ⟨S768x876, .f32⟩
  | 17 => ⟨S768, .f32⟩
  | 18 => ⟨S768x768, .f32⟩
  | 19 => ⟨S768x768, .f32⟩
  | 20 => ⟨S768, .f32⟩
  | 21 => ⟨S768, .f32⟩
  | 22 => ⟨S768x2304, .f32⟩
  | 23 => ⟨S768, .f32⟩
  | 24 => ⟨S768x768, .f32⟩
  | 25 => ⟨S768, .f32⟩
  | 26 => ⟨S_, .i32⟩
  | 27 => ⟨S_, .f32⟩
  | 28 => ⟨S131072x896, .f32⟩
  | 29 => ⟨S_, .f32⟩
  | 30 => ⟨S131072x896, .f32⟩
  | 31 => ⟨S131072x896, .f32⟩
  | 32 => ⟨S_, .f32⟩
  | 33 => ⟨S8192x896, .f32⟩
  | 34 => ⟨S131072x1, .i32⟩
  | 35 => ⟨S8192x896, .f32⟩
  | 36 => ⟨S_, .i32⟩
  | 37 => ⟨S_, .f32⟩
  | 38 => ⟨S768x896, .f32⟩
  | 39 => ⟨S896x768, .f32⟩
  | 40 => ⟨S896x768, .bf16⟩
  | 41 => ⟨S_, .i32⟩
  | 42 => ⟨S_, .f32⟩
  | 43 => ⟨S768x896, .f32⟩
  | 44 => ⟨S896x768, .f32⟩
  | 45 => ⟨S896x768, .bf16⟩
  | 46 => ⟨S_, .i32⟩
  | 47 => ⟨S_, .f32⟩
  | 48 => ⟨S768x896, .f32⟩
  | 49 => ⟨S896x768, .f32⟩
  | 50 => ⟨S896x768, .bf16⟩
  | 51 => ⟨S768x768, .f32⟩
  | 52 => ⟨S768x768, .bf16⟩
  | 53 => ⟨S768x768, .f32⟩
  | 54 => ⟨S768x768, .bf16⟩
  | 55 => ⟨S768x768, .f32⟩
  | 56 => ⟨S768x768, .bf16⟩
  | 57 => ⟨S768x768, .f32⟩
  | 58 => ⟨S768x768, .bf16⟩
  | 59 => ⟨S768x768, .f32⟩
  | 60 => ⟨S768x768, .bf16⟩
  | 61 => ⟨S768x768, .f32⟩
  | 62 => ⟨S768x768, .bf16⟩
  | 63 => ⟨S1x768, .f32⟩
  | 64 => ⟨S1x768, .f32⟩
  | 65 => ⟨S1x768, .f32⟩
  | 66 => ⟨S8192x768, .bf16⟩
  | 67 => ⟨S8192x768, .bf16⟩
  | 68 => ⟨S8192x768, .bf16⟩
  | 69 => ⟨S8192x768, .f32⟩
  | 70 => ⟨S_, .f32⟩
  | 71 => ⟨S768, .f32⟩
  | 72 => ⟨S_, .f32⟩
  | 73 => ⟨S768, .f32⟩
  | 74 => ⟨S768, .f32⟩
  | 75 => ⟨S_, .i32⟩
  | 76 => ⟨S_, .f32⟩
  | 77 => ⟨S768, .f32⟩
  | 78 => ⟨S1x768, .f32⟩
  | 79 => ⟨S_, .f32⟩
  | 80 => ⟨S1x768, .f32⟩
  | 81 => ⟨S1x768, .f32⟩
  | 82 => ⟨S8192x768, .f32⟩
  | 83 => ⟨S8192x768, .f32⟩
  | 84 => ⟨S8192x768, .f32⟩
  | 85 => ⟨S_, .f32⟩
  | 86 => ⟨S_, .f32⟩
  | 87 => ⟨S_, .f32⟩
  | 88 => ⟨S_, .f32⟩
  | 89 => ⟨S768, .f32⟩
  | 90 => ⟨S768, .f32⟩
  | 91 => ⟨S768, .f32⟩
  | 92 => ⟨S_, .f32⟩
  | 93 => ⟨S_, .i1⟩
  | 94 => ⟨S_, .f32⟩
  | 95 => ⟨S_, .f32⟩
  | 96 => ⟨S768, .f32⟩
  | 97 => ⟨S768, .f32⟩
  | 98 => ⟨S_, .f32⟩
  | 99 => ⟨S768, .f32⟩
  | 100 => ⟨S768, .f32⟩
  | 101 => ⟨S768, .f32⟩
  | 102 => ⟨S768, .f32⟩
  | 103 => ⟨S768, .f32⟩
  | 104 => ⟨S768, .f32⟩
  | 105 => ⟨S1x768, .f32⟩
  | 106 => ⟨S1x768, .f32⟩
  | 107 => ⟨S8192x768, .f32⟩
  | 108 => ⟨S_, .f32⟩
  | 109 => ⟨S768, .f32⟩
  | 110 => ⟨S_, .f32⟩
  | 111 => ⟨S768, .f32⟩
  | 112 => ⟨S768, .f32⟩
  | 113 => ⟨S_, .i32⟩
  | 114 => ⟨S_, .f32⟩
  | 115 => ⟨S768, .f32⟩
  | 116 => ⟨S1x768, .f32⟩
  | 117 => ⟨S_, .f32⟩
  | 118 => ⟨S1x768, .f32⟩
  | 119 => ⟨S1x768, .f32⟩
  | 120 => ⟨S8192x768, .f32⟩
  | 121 => ⟨S8192x768, .f32⟩
  | 122 => ⟨S8192x768, .f32⟩
  | 123 => ⟨S_, .f32⟩
  | 124 => ⟨S_, .f32⟩
  | 125 => ⟨S_, .f32⟩
  | 126 => ⟨S_, .f32⟩
  | 127 => ⟨S768, .f32⟩
  | _ => ⟨S8192x768, .f32⟩

abbrev hbmTy0_1 (i : Nat) : BufTy := match i % 128 with
  | 0 => ⟨S768, .f32⟩
  | 1 => ⟨S768, .f32⟩
  | 2 => ⟨S_, .f32⟩
  | 3 => ⟨S_, .i1⟩
  | 4 => ⟨S_, .f32⟩
  | 5 => ⟨S_, .f32⟩
  | 6 => ⟨S768, .f32⟩
  | 7 => ⟨S768, .f32⟩
  | 8 => ⟨S_, .f32⟩
  | 9 => ⟨S768, .f32⟩
  | 10 => ⟨S768, .f32⟩
  | 11 => ⟨S768, .f32⟩
  | 12 => ⟨S768, .f32⟩
  | 13 => ⟨S768, .f32⟩
  | 14 => ⟨S768, .f32⟩
  | 15 => ⟨S1x768, .f32⟩
  | 16 => ⟨S1x768, .f32⟩
  | 17 => ⟨S8192x768, .f32⟩
  | 18 => ⟨S_, .f32⟩
  | 19 => ⟨S768, .f32⟩
  | 20 => ⟨S_, .f32⟩
  | 21 => ⟨S768, .f32⟩
  | 22 => ⟨S768, .f32⟩
  | 23 => ⟨S_, .i32⟩
  | 24 => ⟨S_, .f32⟩
  | 25 => ⟨S768, .f32⟩
  | 26 => ⟨S1x768, .f32⟩
  | 27 => ⟨S_, .f32⟩
  | 28 => ⟨S1x768, .f32⟩
  | 29 => ⟨S1x768, .f32⟩
  | 30 => ⟨S8192x768, .f32⟩
  | 31 => ⟨S8192x768, .f32⟩
  | 32 => ⟨S8192x768, .f32⟩
  | 33 => ⟨S_, .f32⟩
  | 34 => ⟨S_, .f32⟩
  | 35 => ⟨S_, .f32⟩
  | 36 => ⟨S_, .f32⟩
  | 37 => ⟨S768, .f32⟩
  | 38 => ⟨S768, .f32⟩
  | 39 => ⟨S768, .f32⟩
  | 40 => ⟨S_, .f32⟩
  | 41 => ⟨S_, .i1⟩
  | 42 => ⟨S_, .f32⟩
  | 43 => ⟨S_, .f32⟩
  | 44 => ⟨S768, .f32⟩
  | 45 => ⟨S768, .f32⟩
  | 46 => ⟨S_, .f32⟩
  | 47 => ⟨S768, .f32⟩
  | 48 => ⟨S768, .f32⟩
  | 49 => ⟨S768, .f32⟩
  | 50 => ⟨S768, .f32⟩
  | 51 => ⟨S768, .f32⟩
  | 52 => ⟨S768, .f32⟩
  | 53 => ⟨S1x768, .f32⟩
  | 54 => ⟨S1x768, .f32⟩
  | 55 => ⟨S768x768, .f32⟩
  | 56 => ⟨S768x768, .f32⟩
  | 57 => ⟨S768x768, .bf16⟩
  | 58 => ⟨S768x768, .f32⟩
  | 59 => ⟨S768x768, .f32⟩
  | 60 => ⟨S768x768, .bf16⟩
  | 61 => ⟨S768x768, .f32⟩
  | 62 => ⟨S768x768, .f32⟩
  | 63 => ⟨S768x768, .bf16⟩
  | 64 => ⟨S1x768, .f32⟩
  | 65 => ⟨S768x768, .f32⟩
  | 66 => ⟨S768x768, .bf16⟩
  | 67 => ⟨S1x768, .f32⟩
  | 68 => ⟨S8192x768, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | .local _ .vmem, ⟨0, _⟩ => ⟨S512x896, .f32⟩
  | .local _ .vmem, ⟨1, _⟩ => ⟨S512x896, .f32⟩
  | .local _ .vmem, ⟨2, _⟩ => ⟨S512x768, .f32⟩
  | .local _ .vmem, ⟨3, _⟩ => ⟨S512x768, .f32⟩
  | .local _ .vmem, ⟨4, _⟩ => ⟨S896x768, .bf16⟩
  | .local _ .vmem, ⟨5, _⟩ => ⟨S1x768, .f32⟩
  | .local _ .vmem, ⟨6, _⟩ => ⟨S768x768, .bf16⟩
  | .local _ .vmem, ⟨7, _⟩ => ⟨S896x768, .bf16⟩
  | .local _ .vmem, ⟨8, _⟩ => ⟨S1x768, .f32⟩
  | .local _ .vmem, ⟨9, _⟩ => ⟨S768x768, .bf16⟩
  | .local _ .vmem, ⟨10, _⟩ => ⟨S896x768, .bf16⟩
  | .local _ .vmem, ⟨11, _⟩ => ⟨S1x768, .f32⟩
  | .local _ .vmem, ⟨12, _⟩ => ⟨S768x768, .bf16⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S512x768, .bf16⟩
  | .local _ .vmem, ⟨22, _⟩ => ⟨S512x768, .bf16⟩
  | .local _ .vmem, ⟨23, _⟩ => ⟨S512x768, .bf16⟩
  | .local _ .vmem, ⟨24, _⟩ => ⟨S512x768, .bf16⟩
  | .local _ .vmem, ⟨25, _⟩ => ⟨S1x768, .f32⟩
  | .local _ .vmem, ⟨26, _⟩ => ⟨S1x768, .f32⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S1x768, .f32⟩
  | .local _ .vmem, ⟨31, _⟩ => ⟨S768x768, .bf16⟩
  | .local _ .vmem, ⟨32, _⟩ => ⟨S768x768, .bf16⟩
  | .local _ .vmem, ⟨33, _⟩ => ⟨S768x768, .bf16⟩
  | .local _ .vmem, ⟨34, _⟩ => ⟨S768x768, .bf16⟩
  | .local _ .vmem, ⟨35, _⟩ => ⟨S768x768, .bf16⟩
  | .local _ .vmem, ⟨36, _⟩ => ⟨S768x768, .bf16⟩
  | .local _ .vmem, ⟨37, _⟩ => ⟨S1x768, .f32⟩
  | .local _ .vmem, ⟨38, _⟩ => ⟨S768x768, .bf16⟩
  | .local _ .vmem, ⟨39, _⟩ => ⟨S1x768, .f32⟩
  | .local _ .vmem, ⟨40, _⟩ => ⟨S512x768, .f32⟩
  | .local _ .vmem, ⟨41, _⟩ => ⟨S512x768, .f32⟩
  | .local _ .vmem, ⟨42, _⟩ => ⟨S512x768, .f32⟩
  | .local _ .vmem, ⟨43, _⟩ => ⟨S512x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_call0_v0 : Ref sig .tc := ⟨.hbm, 27, rfl⟩
abbrev main_v0 : Ref sig .tc := ⟨.hbm, 28, rfl⟩
abbrev main_call1_cst : Ref sig .tc := ⟨.hbm, 29, rfl⟩
abbrev main_call1_v0 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_c_0 : Ref sig .tc := ⟨.hbm, 36, rfl⟩
abbrev main_call2_v0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_c_1 : Ref sig .tc := ⟨.hbm, 41, rfl⟩
abbrev main_call3_v0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_c_2 : Ref sig .tc := ⟨.hbm, 46, rfl⟩
abbrev main_call4_v0 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29_0 : Ref sig .tc := ⟨.hbm, 66, rfl⟩
abbrev main_v29_1 : Ref sig .tc := ⟨.hbm, 67, rfl⟩
abbrev main_v29_2 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_c_5 : Ref sig .tc := ⟨.hbm, 75, rfl⟩
abbrev main_call5_cst : Ref sig .tc := ⟨.hbm, 76, rfl⟩
abbrev main_call5_v0 : Ref sig .tc := ⟨.hbm, 77, rfl⟩
abbrev main_call5_v1 : Ref sig .tc := ⟨.hbm, 78, rfl⟩
abbrev main_call5_cst_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_v7 : Ref sig .tc := ⟨.hbm, 85, rfl⟩
abbrev main_call5_cst_1 : Ref sig .tc := ⟨.hbm, 86, rfl⟩
abbrev main_call5_v8 : Ref sig .tc := ⟨.hbm, 87, rfl⟩
abbrev main_call5_cst_2 : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_cst_3 : Ref sig .tc := ⟨.hbm, 92, rfl⟩
abbrev main_call5_v12 : Ref sig .tc := ⟨.hbm, 93, rfl⟩
abbrev main_call5_cst_4 : Ref sig .tc := ⟨.hbm, 94, rfl⟩
abbrev main_call5_call0_v0 : Ref sig .tc := ⟨.hbm, 95, rfl⟩
abbrev main_call5_call0_v1 : Ref sig .tc := ⟨.hbm, 96, rfl⟩
abbrev main_v34 : Ref sig .tc := ⟨.hbm, 97, rfl⟩
abbrev main_cst_6 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_7 : Ref sig .tc := ⟨.hbm, 108, rfl⟩
abbrev main_v44 : Ref sig .tc := ⟨.hbm, 109, rfl⟩
abbrev main_cst_8 : Ref sig .tc := ⟨.hbm, 110, rfl⟩
abbrev main_v45 : Ref sig .tc := ⟨.hbm, 111, rfl⟩
abbrev main_v46 : Ref sig .tc := ⟨.hbm, 112, rfl⟩
abbrev main_c_9 : Ref sig .tc := ⟨.hbm, 113, rfl⟩
abbrev main_call6_cst : Ref sig .tc := ⟨.hbm, 114, rfl⟩
abbrev main_call6_v0 : Ref sig .tc := ⟨.hbm, 115, rfl⟩
abbrev main_call6_v1 : Ref sig .tc := ⟨.hbm, 116, rfl⟩
abbrev main_call6_cst_0 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_v6 : Ref sig .tc := ⟨.hbm, 122, rfl⟩
abbrev main_call6_v7 : Ref sig .tc := ⟨.hbm, 123, rfl⟩
abbrev main_call6_cst_1 : Ref sig .tc := ⟨.hbm, 124, rfl⟩
abbrev main_call6_v8 : Ref sig .tc := ⟨.hbm, 125, rfl⟩
abbrev main_call6_cst_2 : Ref sig .tc := ⟨.hbm, 126, rfl⟩
abbrev main_call6_v9 : Ref sig .tc := ⟨.hbm, 127, rfl⟩
abbrev main_call6_v10 : Ref sig .tc := ⟨.hbm, 128, rfl⟩
abbrev main_call6_v11 : Ref sig .tc := ⟨.hbm, 129, rfl⟩
abbrev main_call6_cst_3 : Ref sig .tc := ⟨.hbm, 130, rfl⟩
abbrev main_call6_v12 : Ref sig .tc := ⟨.hbm, 131, rfl⟩
abbrev main_call6_cst_4 : Ref sig .tc := ⟨.hbm, 132, rfl⟩
abbrev main_call6_call0_v0 : Ref sig .tc := ⟨.hbm, 133, rfl⟩
abbrev main_call6_call0_v1 : Ref sig .tc := ⟨.hbm, 134, rfl⟩
abbrev main_v47 : Ref sig .tc := ⟨.hbm, 135, rfl⟩
abbrev main_cst_10 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_cst_11 : Ref sig .tc := ⟨.hbm, 146, rfl⟩
abbrev main_v57 : Ref sig .tc := ⟨.hbm, 147, rfl⟩
abbrev main_cst_12 : Ref sig .tc := ⟨.hbm, 148, rfl⟩
abbrev main_v58 : Ref sig .tc := ⟨.hbm, 149, rfl⟩
abbrev main_v59 : Ref sig .tc := ⟨.hbm, 150, rfl⟩
abbrev main_c_13 : Ref sig .tc := ⟨.hbm, 151, rfl⟩
abbrev main_call7_cst : Ref sig .tc := ⟨.hbm, 152, rfl⟩
abbrev main_call7_v0 : Ref sig .tc := ⟨.hbm, 153, rfl⟩
abbrev main_call7_v1 : Ref sig .tc := ⟨.hbm, 154, rfl⟩
abbrev main_call7_cst_0 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_v5 : Ref sig .tc := ⟨.hbm, 159, rfl⟩
abbrev main_call7_v6 : Ref sig .tc := ⟨.hbm, 160, rfl⟩
abbrev main_call7_v7 : Ref sig .tc := ⟨.hbm, 161, rfl⟩
abbrev main_call7_cst_1 : Ref sig .tc := ⟨.hbm, 162, rfl⟩
abbrev main_call7_v8 : Ref sig .tc := ⟨.hbm, 163, rfl⟩
abbrev main_call7_cst_2 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_cst_3 : Ref sig .tc := ⟨.hbm, 168, rfl⟩
abbrev main_call7_v12 : Ref sig .tc := ⟨.hbm, 169, rfl⟩
abbrev main_call7_cst_4 : Ref sig .tc := ⟨.hbm, 170, rfl⟩
abbrev main_call7_call0_v0 : Ref sig .tc := ⟨.hbm, 171, rfl⟩
abbrev main_call7_call0_v1 : Ref sig .tc := ⟨.hbm, 172, rfl⟩
abbrev main_v60 : Ref sig .tc := ⟨.hbm, 173, rfl⟩
abbrev main_cst_14 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg15_0 : Ref sig .tc := ⟨.vmem, 37, rfl⟩
abbrev cc1_stg16_0 : Ref sig .tc := ⟨.vmem, 38, rfl⟩
abbrev cc1_stg17_0 : Ref sig .tc := ⟨.vmem, 39, rfl⟩
abbrev cc1_stg18_0 : Ref sig .tc := ⟨.vmem, 40, rfl⟩
abbrev cc1_stg18_1 : Ref sig .tc := ⟨.vmem, 41, rfl⟩
abbrev cc1_stg19_0 : Ref sig .tc := ⟨.vmem, 42, rfl⟩
abbrev cc1_stg19_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem15_0 : DmaSem sig := 37
abbrev cc1_sem16_0 : DmaSem sig := 38
abbrev cc1_sem17_0 : DmaSem sig := 39
abbrev cc1_sem18_0 : DmaSem sig := 40
abbrev cc1_sem18_1 : DmaSem sig := 41
abbrev cc1_sem19_0 : DmaSem sig := 42
abbrev cc1_sem19_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S896x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S896x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S768x768 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S768x768 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S768x768 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S768x768 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S768x768 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S768x768 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x768 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S768x768 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x768 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S512x768 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S512x768 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

class Facts₀ : Prop where
  pads_S131072x876_S131072x896_000_0200 : S131072x876.Pads (![0, 0] : Fin 2 → Nat) ![0, 20] ![0, 0] S131072x896
  h_S_ : 0 < S_.numel
  bcast_S_S131072x896 : S_.BroadcastsInDim S131072x896 (![] : Fin 0 → Fin S131072x896.rank)
  bcast_S_S8192x896 : S_.BroadcastsInDim S8192x896 (![] : Fin 0 → Fin S8192x896.rank)
  bcast_S131072_S131072x1_0 : S131072.BroadcastsInDim S131072x1 (![0] : Fin 1 → Fin S131072x1.rank)
  pads_S768x876_S768x896_000_0200 : S768x876.Pads (![0, 0] : Fin 2 → Nat) ![0, 20] ![0, 0] S768x896
  transposes_S768x896_S896x768_1_0 : S768x896.Transposes [1, 0] S896x768
  bitsLt_bf16_f32 : FTy.bits .bf16 < FTy.bits .f32
  transposes_S768x768_S768x768_1_0 : S768x768.Transposes [1, 0] S768x768
  shapeCasts_S768_S1x768 : S768.ShapeCasts S1x768
  inb_S512x896_S512x896_0_0 : ∀ a, (![0, 0] : Fin 2 → Nat) a + S512x896.size a ≤ S512x896.size a
  h_S512x896 : 0 < S512x896.numel
  shapeCasts_S512x896_S512x896 : S512x896.ShapeCasts S512x896
  inb_S512x768_S512x768_0_0 : ∀ a, (![0, 0] : Fin 2 → Nat) a + S512x768.size a ≤ S512x768.size a
  h_S512x768 : 0 < S512x768.numel
  inb_S896x768_S896x768_0_0 : ∀ a, (![0, 0] : Fin 2 → Nat) a + S896x768.size a ≤ S896x768.size a
  h_S896x768 : 0 < S896x768.numel
  shapeCasts_S896x768_S896x768 : S896x768.ShapeCasts S896x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  packedbf16_S512x768_S512x768_0_0 : (Rect.unit (s := S512x768) ![0, 0] S512x768.size inb_S512x768_S512x768_0_0).PackedRows (EltTy.packing .bf16)
  reducesTo_S8192x768_S768_d0 : S8192x768.ReducesTo [0] S768
  bcast_S_S768 : S_.BroadcastsInDim S768 (![] : Fin 0 → Fin S768.rank)
  bcast_S768_S1x768_1 : S768.BroadcastsInDim S1x768 (![1] : Fin 1 → Fin S1x768.rank)
  bcast_S_S1x768 : S_.BroadcastsInDim S1x768 (![] : Fin 0 → Fin S1x768.rank)
  bcast_S1x768_S8192x768_0_1 : S1x768.BroadcastsInDim S8192x768 (![0, 1] : Fin 2 → Fin S8192x768.rank)
  slices_S768x2304_S768x768_0_0 : S768x2304.Slices ![0, 0] S768x768
  slices_S768x2304_S768x768_0_768 : S768x2304.Slices ![0, 768] S768x768
  slices_S768x2304_S768x768_0_1536 : S768x2304.Slices ![0, 1536] S768x768
  shapeCasts_S512x768_S512x768 : S512x768.ShapeCasts S512x768
  scatter_S8192x896_S131072x1_S131072x896_1_0_0_1_wf : ScatterDims.WF S8192x896 S131072x1 S131072x896 [1] [0] [0] 1
  dot_S512x896_S896x768_S512x768_1_0_0_1_n_n_wf : DotDims.WF S512x896 S896x768 S512x768 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x896.size a ≤ S8192x896.size a
  hwx0_0 : ∀ i : grid0.Coords, EltTy.bits .f32 = 32 ∨ (Rect.block (s := S8192x896) S512x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .f32 = 32 ∨ (Rect.block (s := S8192x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x768.size a ≤ S896x768.size a
  hwx0_2 : ∀ i : grid0.Coords, EltTy.bits .bf16 = 32 ∨ (Rect.block (s := S896x768) S896x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S896x768.size a ≤ S896x768.size a
  hwx0_5 : ∀ i : grid0.Coords, EltTy.bits .bf16 = 32 ∨ (Rect.block (s := S896x768) S896x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .bf16 = 32 ∨ (Rect.block (s := S768x768) S768x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S896x768.size a ≤ S896x768.size a
  hwx0_8 : ∀ i : grid0.Coords, EltTy.bits .bf16 = 32 ∨ (Rect.block (s := S896x768) S896x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x768.size a ≤ S768x768.size a
  hwx0_10 : ∀ i : grid0.Coords, EltTy.bits .bf16 = 32 ∨ (Rect.block (s := S768x768) S768x768.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x768.size a ≤ S8192x768.size a
  hwx0_11 : ∀ i : grid0.Coords, EltTy.bits .bf16 = 32 ∨ (Rect.block (s := S8192x768) S512x768.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x768.size a ≤ S8192x768.size a
  hwx0_12 : ∀ i : grid0.Coords, EltTy.bits .bf16 = 32 ∨ (Rect.block (s := S8192x768) S512x768.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x768.size a ≤ S8192x768.size a
  hwx0_13 : ∀ i : grid0.Coords, EltTy.bits .bf16 = 32 ∨ (Rect.block (s := S8192x768) S512x768.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S8192x768.size a
  hwx1_0 : ∀ i : grid1.Coords, EltTy.bits .bf16 = 32 ∨ (Rect.block (s := S8192x768) S512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S8192x768.size a
  hwx1_1 : ∀ i : grid1.Coords, EltTy.bits .bf16 = 32 ∨ (Rect.block (s := S8192x768) S512x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x768.size a ≤ S8192x768.size a
  hwx1_2 : ∀ i : grid1.Coords, EltTy.bits .bf16 = 32 ∨ (Rect.block (s := S8192x768) S512x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x768.size a ≤ S1x768.size a
  hwx1_6 : ∀ i : grid1.Coords, EltTy.bits .f32 = 32 ∨ (Rect.block (s := S1x768) S1x768.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x768.size a ≤ S1x768.size a
  hwx1_7 : ∀ i : grid1.Coords, EltTy.bits .f32 = 32 ∨ (Rect.block (s := S1x768) S1x768.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x768.size a ≤ S1x768.size a
  hwx1_8 : ∀ i : grid1.Coords, EltTy.bits .f32 = 32 ∨ (Rect.block (s := S1x768) S1x768.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S768x768.size a ≤ S768x768.size a
  hwx1_9 : ∀ i : grid1.Coords, EltTy.bits .bf16 = 32 ∨ (Rect.block (s := S768x768) S768x768.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S768x768.size a ≤ S768x768.size a
  hwx1_10 : ∀ i : grid1.Coords, EltTy.bits .bf16 = 32 ∨ (Rect.block (s := S768x768) S768x768.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S768x768.size a ≤ S768x768.size a
  hwx1_11 : ∀ i : grid1.Coords, EltTy.bits .bf16 = 32 ∨ (Rect.block (s := S768x768) S768x768.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S768x768.size a ≤ S768x768.size a
  hwx1_12 : ∀ i : grid1.Coords, EltTy.bits .bf16 = 32 ∨ (Rect.block (s := S768x768) S768x768.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S768x768.size a ≤ S768x768.size a
  hwx1_13 : ∀ i : grid1.Coords, EltTy.bits .bf16 = 32 ∨ (Rect.block (s := S768x768) S768x768.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S768x768.size a ≤ S768x768.size a
  hwx1_14 : ∀ i : grid1.Coords, EltTy.bits .bf16 = 32 ∨ (Rect.block (s := S768x768) S768x768.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x768.size a ≤ S1x768.size a
  hwx1_15 : ∀ i : grid1.Coords, EltTy.bits .f32 = 32 ∨ (Rect.block (s := S1x768) S1x768.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S768x768.size a ≤ S768x768.size a
  hwx1_16 : ∀ i : grid1.Coords, EltTy.bits .bf16 = 32 ∨ (Rect.block (s := S768x768) S768x768.size (cc1_transform_16 i) (hinb1_16 i)).WholeWords (EltTy.packing .bf16)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x768.size a ≤ S1x768.size a
  hwx1_17 : ∀ i : grid1.Coords, EltTy.bits .f32 = 32 ∨ (Rect.block (s := S1x768) S1x768.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S512x768.size a ≤ S8192x768.size a
  hwx1_18 : ∀ i : grid1.Coords, EltTy.bits .f32 = 32 ∨ (Rect.block (s := S8192x768) S512x768.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S512x768.size a ≤ S8192x768.size a
  hwx1_19 : ∀ i : grid1.Coords, EltTy.bits .f32 = 32 ∨ (Rect.block (s := S8192x768) S512x768.size (cc1_transform_19 i) (hinb1_19 i)).WholeWords (EltTy.packing .f32)

variable [Facts₀]

def scatter_S8192x896_S131072x1_S131072x896_1_0_0_1 : ScatterDims S8192x896 S131072x1 S131072x896 where
  updateWindowDims := [1]
  insertedWindowDims := [0]
  scatterDimsToOperandDims := [0]
  indexVectorDim := 1
  wf := scatter_S8192x896_S131072x1_S131072x896_1_0_0_1_wf
def dot_S512x896_S896x768_S512x768_1_0_0_1_n_n : DotDims S512x896 S896x768 S512x768 where
  lhsContracting := [1]
  rhsContracting := [0]
  lhsNonContracting := [0]
  rhsNonContracting := [1]
  lhsBatch := []
  rhsBatch := []
  wf := dot_S512x896_S896x768_S512x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v4) S512x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S896x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S896x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S896x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S768x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29_0) S512x768.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v29_1) S512x768.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v29_2) S512x768.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v29_0) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_1) S512x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29_2) S512x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S1x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v68) S1x768.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S768x768.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23) S768x768.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v25) S768x768.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v71) S768x768.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v74) S768x768.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v77) S768x768.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v78) S1x768.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v80) S768x768.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v81) S1x768.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_arg3) S512x768.size cc1_transform_18 reads1_18 false false 2 stage1_18 sem1_18
    hrank1 hreads1_18 hinb1_18 nbuf1_18 (Memref.isWhole_whole _) hwx1_18 hstage1_18

abbrev win1_19 : Pipeline.Window sig grid1 :=
  Pipeline.Window.ofSpec (Memref.whole main_v82) S512x768.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

class Facts : Prop extends Facts₀ where

variable [Facts]
-- ==== ReferenceIdeal.lean ====
abbrev S8192x768 : Shape := ⟨2, ![8192, 768]⟩
abbrev S131072x876 : Shape := ⟨2, ![131072, 876]⟩
abbrev S131072 : Shape := ⟨1, ![131072]⟩
abbrev S768x876 : Shape := ⟨2, ![768, 876]⟩
abbrev S768 : Shape := ⟨1, ![768]⟩
abbrev S768x768 : Shape := ⟨2, ![768, 768]⟩
abbrev S768x2304 : Shape := ⟨2, ![768, 2304]⟩
abbrev S_ : Shape := ⟨0, ![]⟩
abbrev S8192x876 : Shape := ⟨2, ![8192, 876]⟩
abbrev S131072x1 : Shape := ⟨2, ![131072, 1]⟩
abbrev S876x768 : Shape := ⟨2, ![876, 768]⟩
abbrev S1x768 : Shape := ⟨2, ![1, 768]⟩
abbrev S8192x2304 : Shape := ⟨2, ![8192, 2304]⟩
abbrev S2304x768 : Shape := ⟨2, ![2304, 768]⟩

abbrev nBuf : Space → Nat
  | .hbm => 233
  | .vmem => 0
  | .smem => 0
  | _ => 0

abbrev hbmTy0_0 (i : Nat) : BufTy := match i % 128 with
  | 0 => ⟨S8192x768, .f32⟩
  | 1 => ⟨S131072x876, .f32⟩
  | 2 => ⟨S131072, .i32⟩
  | 3 => ⟨S8192x768, .f32⟩
  | 4 => ⟨S768x876, .f32⟩
  | 5 => ⟨S768, .f32⟩
  | 6 => ⟨S768x768, .f32⟩
  | 7 => ⟨S768x768, .f32⟩
  | 8 => ⟨S768, .f32⟩
  | 9 => ⟨S768, .f32⟩
  | 10 => ⟨S768x876, .f32⟩
  | 11 => ⟨S768, .f32⟩
  | 12 => ⟨S768x768, .f32⟩
  | 13 => ⟨S768x768, .f32⟩
  | 14 => ⟨S768, .f32⟩
  | 15 => ⟨S768, .f32⟩
  | 16 => ⟨S768x876, .f32⟩
  | 17 => ⟨S768, .f32⟩
  | 18 => ⟨S768x768, .f32⟩
  | 19 => ⟨S768x768, .f32⟩
  | 20 => ⟨S768, .f32⟩
  | 21 => ⟨S768, .f32⟩
  | 22 => ⟨S768x2304, .f32⟩
  | 23 => ⟨S768, .f32⟩
  | 24 => ⟨S768x768, .f32⟩
  | 25 => ⟨S768, .f32⟩
  | 26 => ⟨S_, .f32⟩
  | 27 => ⟨S131072x876, .f32⟩
  | 28 => ⟨S131072x876, .f32⟩
  | 29 => ⟨S_, .f32⟩
  | 30 => ⟨S8192x876, .f32⟩
  | 31 => ⟨S131072x1, .i32⟩
  | 32 => ⟨S8192x876, .f32⟩
  | 33 => ⟨S876x768, .f32⟩
  | 34 => ⟨S8192x768, .f32⟩
  | 35 => ⟨S8192x768, .f32⟩
  | 36 => ⟨S1x768, .f32⟩
  | 37 => ⟨S8192x768, .f32⟩
  | 38 => ⟨S8192x768, .f32⟩
  | 39 => ⟨S768x768, .f32⟩
  | 40 => ⟨S8192x768, .f32⟩
  | 41 => ⟨S_, .f32⟩
  | 42 => ⟨S768, .f32⟩
  | 43 => ⟨S_, .f32⟩
  | 44 => ⟨S768, .f32⟩
  | 45 => ⟨S768, .f32⟩
  | 46 => ⟨S_, .i32⟩
  | 47 => ⟨S_, .f32⟩
  | 48 => ⟨S768, .f32⟩
  | 49 => ⟨S1x768, .f32⟩
  | 50 => ⟨S_, .f32⟩
  | 51 => ⟨S1x768, .f32⟩
  | 52 => ⟨S1x768, .f32⟩
  | 53 => ⟨S8192x768, .f32⟩
  | 54 => ⟨S8192x768, .f32⟩
  | 55 => ⟨S8192x768, .f32⟩
  | 56 => ⟨S_, .f32⟩
  | 57 => ⟨S_, .f32⟩
  | 58 => ⟨S_, .f32⟩
  | 59 => ⟨S_, .f32⟩
  | 60 => ⟨S768, .f32⟩
  | 61 => ⟨S768, .f32⟩
  | 62 => ⟨S768, .f32⟩
  | 63 => ⟨S_, .f32⟩
  | 64 => ⟨S_, .i1⟩
  | 65 => ⟨S_, .f32⟩
  | 66 => ⟨S_, .f32⟩
  | 67 => ⟨S768, .f32⟩
  | 68 => ⟨S768, .f32⟩
  | 69 => ⟨S1x768, .f32⟩
  | 70 => ⟨S8192x768, .f32⟩
  | 71 => ⟨S8192x768, .f32⟩
  | 72 => ⟨S_, .f32⟩
  | 73 => ⟨S768, .f32⟩
  | 74 => ⟨S768, .f32⟩
  | 75 => ⟨S768, .f32⟩
  | 76 => ⟨S1x768, .f32⟩
  | 77 => ⟨S8192x768, .f32⟩
  | 78 => ⟨S8192x768, .f32⟩
  | 79 => ⟨S1x768, .f32⟩
  | 80 => ⟨S8192x768, .f32⟩
  | 81 => ⟨S8192x768, .f32⟩
  | 82 => ⟨S1x768, .f32⟩
  | 83 => ⟨S8192x768, .f32⟩
  | 84 => ⟨S8192x768, .f32⟩
  | 85 => ⟨S_, .f32⟩
  | 86 => ⟨S8192x768, .f32⟩
  | 87 => ⟨S8192x768, .f32⟩
  | 88 => ⟨S768x768, .f32⟩
  | 89 => ⟨S8192x768, .f32⟩
  | 90 => ⟨S_, .f32⟩
  | 91 => ⟨S131072x876, .f32⟩
  | 92 => ⟨S131072x876, .f32⟩
  | 93 => ⟨S_, .f32⟩
  | 94 => ⟨S8192x876, .f32⟩
  | 95 => ⟨S131072x1, .i32⟩
  | 96 => ⟨S8192x876, .f32⟩
  | 97 => ⟨S876x768, .f32⟩
  | 98 => ⟨S8192x768, .f32⟩
  | 99 => ⟨S8192x768, .f32⟩
  | 100 => ⟨S1x768, .f32⟩
  | 101 => ⟨S8192x768, .f32⟩
  | 102 => ⟨S8192x768, .f32⟩
  | 103 => ⟨S768x768, .f32⟩
  | 104 => ⟨S8192x768, .f32⟩
  | 105 => ⟨S_, .f32⟩
  | 106 => ⟨S768, .f32⟩
  | 107 => ⟨S_, .f32⟩
  | 108 => ⟨S768, .f32⟩
  | 109 => ⟨S768, .f32⟩
  | 110 => ⟨S_, .i32⟩
  | 111 => ⟨S_, .f32⟩
  | 112 => ⟨S768, .f32⟩
  | 113 => ⟨S1x768, .f32⟩
  | 114 => ⟨S_, .f32⟩
  | 115 => ⟨S1x768, .f32⟩
  | 116 => ⟨S1x768, .f32⟩
  | 117 => ⟨S8192x768, .f32⟩
  | 118 => ⟨S8192x768, .f32⟩
  | 119 => ⟨S8192x768, .f32⟩
  | 120 => ⟨S_, .f32⟩
  | 121 => ⟨S_, .f32⟩
  | 122 => ⟨S_, .f32⟩
  | 123 => ⟨S_, .f32⟩
  | 124 => ⟨S768, .f32⟩
  | 125 => ⟨S768, .f32⟩
  | 126 => ⟨S768, .f32⟩
  | 127 => ⟨S_, .f32⟩
  | _ => ⟨S8192x768, .f32⟩

abbrev hbmTy0_1 (i : Nat) : BufTy := match i % 128 with
  | 0 => ⟨S_, .i1⟩
  | 1 => ⟨S_, .f32⟩
  | 2 => ⟨S_, .f32⟩
  | 3 => ⟨S768, .f32⟩
  | 4 => ⟨S768, .f32⟩
  | 5 => ⟨S1x768, .f32⟩
  | 6 => ⟨S8192x768, .f32⟩
  | 7 => ⟨S8192x768, .f32⟩
  | 8 => ⟨S_, .f32⟩
  | 9 => ⟨S768, .f32⟩
  | 10 => ⟨S768, .f32⟩
  | 11 => ⟨S768, .f32⟩
  | 12 => ⟨S1x768, .f32⟩
  | 13 => ⟨S8192x768, .f32⟩
  | 14 => ⟨S8192x768, .f32⟩
  | 15 => ⟨S1x768, .f32⟩
  | 16 => ⟨S8192x768, .f32⟩
  | 17 => ⟨S8192x768, .f32⟩
  | 18 => ⟨S1x768, .f32⟩
  | 19 => ⟨S8192x768, .f32⟩
  | 20 => ⟨S8192x768, .f32⟩
  | 21 => ⟨S_, .f32⟩
  | 22 => ⟨S8192x768, .f32⟩
  | 23 => ⟨S8192x768, .f32⟩
  | 24 => ⟨S768x768, .f32⟩
  | 25 => ⟨S8192x768, .f32⟩
  | 26 => ⟨S_, .f32⟩
  | 27 => ⟨S131072x876, .f32⟩
  | 28 => ⟨S131072x876, .f32⟩
  | 29 => ⟨S_, .f32⟩
  | 30 => ⟨S8192x876, .f32⟩
  | 31 => ⟨S131072x1, .i32⟩
  | 32 => ⟨S8192x876, .f32⟩
  | 33 => ⟨S876x768, .f32⟩
  | 34 => ⟨S8192x768, .f32⟩
  | 35 => ⟨S8192x768, .f32⟩
  | 36 => ⟨S1x768, .f32⟩
  | 37 => ⟨S8192x768, .f32⟩
  | 38 => ⟨S8192x768, .f32⟩
  | 39 => ⟨S768x768, .f32⟩
  | 40 => ⟨S8192x768, .f32⟩
  | 41 => ⟨S_, .f32⟩
  | 42 => ⟨S768, .f32⟩
  | 43 => ⟨S_, .f32⟩
  | 44 => ⟨S768, .f32⟩
  | 45 => ⟨S768, .f32⟩
  | 46 => ⟨S_, .i32⟩
  | 47 => ⟨S_, .f32⟩
  | 48 => ⟨S768, .f32⟩
  | 49 => ⟨S1x768, .f32⟩
  | 50 => ⟨S_, .f32⟩
  | 51 => ⟨S1x768, .f32⟩
  | 52 => ⟨S1x768, .f32⟩
  | 53 => ⟨S8192x768, .f32⟩
  | 54 => ⟨S8192x768, .f32⟩
  | 55 => ⟨S8192x768, .f32⟩
  | 56 => ⟨S_, .f32⟩
  | 57 => ⟨S_, .f32⟩
  | 58 => ⟨S_, .f32⟩
  | 59 => ⟨S_, .f32⟩
  | 60 => ⟨S768, .f32⟩
  | 61 => ⟨S768, .f32⟩
  | 62 => ⟨S768, .f32⟩
  | 63 => ⟨S_, .f32⟩
  | 64 => ⟨S_, .i1⟩
  | 65 => ⟨S_, .f32⟩
  | 66 => ⟨S_, .f32⟩
  | 67 => ⟨S768, .f32⟩
  | 68 => ⟨S768, .f32⟩
  | 69 => ⟨S1x768, .f32⟩
  | 70 => ⟨S8192x768, .f32⟩
  | 71 => ⟨S8192x768, .f32⟩
  | 72 => ⟨S_, .f32⟩
  | 73 => ⟨S768, .f32⟩
  | 74 => ⟨S768, .f32⟩
  | 75 => ⟨S768, .f32⟩
  | 76 => ⟨S1x768, .f32⟩
  | 77 => ⟨S8192x768, .f32⟩
  | 78 => ⟨S8192x768, .f32⟩
  | 79 => ⟨S1x768, .f32⟩
  | 80 => ⟨S8192x768, .f32⟩
  | 81 => ⟨S8192x768, .f32⟩
  | 82 => ⟨S1x768, .f32⟩
  | 83 => ⟨S8192x768, .f32⟩
  | 84 => ⟨S8192x768, .f32⟩
  | 85 => ⟨S_, .f32⟩
  | 86 => ⟨S8192x768, .f32⟩
  | 87 => ⟨S8192x768, .f32⟩
  | 88 => ⟨S768x768, .f32⟩
  | 89 => ⟨S8192x768, .f32⟩
  | 90 => ⟨S8192x2304, .f32⟩
  | 91 => ⟨S2304x768, .f32⟩
  | 92 => ⟨S8192x768, .f32⟩
  | 93 => ⟨S1x768, .f32⟩
  | 94 => ⟨S8192x768, .f32⟩
  | 95 => ⟨S8192x768, .f32⟩
  | 96 => ⟨S_, .f32⟩
  | 97 => ⟨S8192x768, .f32⟩
  | 98 => ⟨S8192x768, .f32⟩
  | 99 => ⟨S8192x768, .f32⟩
  | 100 => ⟨S768x768, .f32⟩
  | 101 => ⟨S8192x768, .f32⟩
  | 102 => ⟨S1x768, .f32⟩
  | 103 => ⟨S8192x768, .f32⟩
  | 104 => ⟨S8192x768, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_cst : Ref sig .tc := ⟨.hbm, 26, rfl⟩
abbrev main_call0_v0 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_c : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_cst_2 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_cst_3 : Ref sig .tc := ⟨.hbm, 63, rfl⟩
abbrev main_call1_v12 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_2 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_call2_cst : Ref sig .tc := ⟨.hbm, 85, rfl⟩
abbrev main_call2_v0 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_call3_cst : Ref sig .tc := ⟨.hbm, 90, rfl⟩
abbrev main_call3_v0 : Ref sig .tc := ⟨.hbm, 91, rfl⟩
abbrev main_v34 : Ref sig .tc := ⟨.hbm, 92, rfl⟩
abbrev main_cst_3 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_4 : Ref sig .tc := ⟨.hbm, 105, rfl⟩
abbrev main_v46 : Ref sig .tc := ⟨.hbm, 106, rfl⟩
abbrev main_cst_5 : Ref sig .tc := ⟨.hbm, 107, rfl⟩
abbrev main_v47 : Ref sig .tc := ⟨.hbm, 108, rfl⟩
abbrev main_v48 : Ref sig .tc := ⟨.hbm, 109, rfl⟩
abbrev main_c_6 : Ref sig .tc := ⟨.hbm, 110, rfl⟩
abbrev main_call4_cst : Ref sig .tc := ⟨.hbm, 111, rfl⟩
abbrev main_call4_v0 : Ref sig .tc := ⟨.hbm, 112, rfl⟩
abbrev main_call4_v1 : Ref sig .tc := ⟨.hbm, 113, rfl⟩
abbrev main_call4_cst_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_v7 : Ref sig .tc := ⟨.hbm, 120, rfl⟩
abbrev main_call4_cst_1 : Ref sig .tc := ⟨.hbm, 121, rfl⟩
abbrev main_call4_v8 : Ref sig .tc := ⟨.hbm, 122, rfl⟩
abbrev main_call4_cst_2 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_cst_3 : Ref sig .tc := ⟨.hbm, 127, rfl⟩
abbrev main_call4_v12 : Ref sig .tc := ⟨.hbm, 128, rfl⟩
abbrev main_call4_cst_4 : Ref sig .tc := ⟨.hbm, 129, rfl⟩
abbrev main_call4_call0_v0 : Ref sig .tc := ⟨.hbm, 130, rfl⟩
abbrev main_call4_call0_v1 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_cst_7 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_call5_cst : Ref sig .tc := ⟨.hbm, 149, rfl⟩
abbrev main_call5_v0 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_call6_cst : Ref sig .tc := ⟨.hbm, 154, rfl⟩
abbrev main_call6_v0 : Ref sig .tc := ⟨.hbm, 155, rfl⟩
abbrev main_v68 : Ref sig .tc := ⟨.hbm, 156, rfl⟩
abbrev main_cst_8 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_cst_9 : Ref sig .tc := ⟨.hbm, 169, rfl⟩
abbrev main_v80 : Ref sig .tc := ⟨.hbm, 170, rfl⟩
abbrev main_cst_10 : Ref sig .tc := ⟨.hbm, 171, rfl⟩
abbrev main_v81 : Ref sig .tc := ⟨.hbm, 172, rfl⟩
abbrev main_v82 : Ref sig .tc := ⟨.hbm, 173, rfl⟩
abbrev main_c_11 : Ref sig .tc := ⟨.hbm, 174, rfl⟩
abbrev main_call7_cst : Ref sig .tc := ⟨.hbm, 175, rfl⟩
abbrev main_call7_v0 : Ref sig .tc := ⟨.hbm, 176, rfl⟩
abbrev main_call7_v1 : Ref sig .tc := ⟨.hbm, 177, rfl⟩
abbrev main_call7_cst_0 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_v6 : Ref sig .tc := ⟨.hbm, 183, rfl⟩
abbrev main_call7_v7 : Ref sig .tc := ⟨.hbm, 184, rfl⟩
abbrev main_call7_cst_1 : Ref sig .tc := ⟨.hbm, 185, rfl⟩
abbrev main_call7_v8 : Ref sig .tc := ⟨.hbm, 186, rfl⟩
abbrev main_call7_cst_2 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_cst_3 : Ref sig .tc := ⟨.hbm, 191, rfl⟩
abbrev main_call7_v12 : Ref sig .tc := ⟨.hbm, 192, rfl⟩
abbrev main_call7_cst_4 : Ref sig .tc := ⟨.hbm, 193, rfl⟩
abbrev main_call7_call0_v0 : Ref sig .tc := ⟨.hbm, 194, rfl⟩
abbrev main_call7_call0_v1 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_cst_12 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_call8_cst : Ref sig .tc := ⟨.hbm, 213, rfl⟩
abbrev main_call8_v0 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_call9_cst : Ref sig .tc := ⟨.hbm, 224, rfl⟩
abbrev main_call9_v0 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩

abbrev nD : Nat := 1
abbrev τ : Topo := Topo.v7x

variable {F : FTy → Type} [FloatOps F]

class Facts₀ : Prop where
  bcast_S_S131072x876 : S_.BroadcastsInDim S131072x876 (![] : Fin 0 → Fin S131072x876.rank)
  bcast_S_S8192x876 : S_.BroadcastsInDim S8192x876 (![] : Fin 0 → Fin S8192x876.rank)
  bcast_S131072_S131072x1_0 : S131072.BroadcastsInDim S131072x1 (![0] : Fin 1 → Fin S131072x1.rank)
  transposes_S768x876_S876x768_1_0 : S768x876.Transposes [1, 0] S876x768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  transposes_S768x768_S768x768_1_0 : S768x768.Transposes [1, 0] S768x768
  reducesTo_S8192x768_S768_d0 : S8192x768.ReducesTo [0] S768
  h_S_ : 0 < S_.numel
  bcast_S_S768 : S_.BroadcastsInDim S768 (![] : Fin 0 → Fin S768.rank)
  bcast_S_S1x768 : S_.BroadcastsInDim S1x768 (![] : Fin 0 → Fin S1x768.rank)
  bcast_S_S8192x768 : S_.BroadcastsInDim S8192x768 (![] : Fin 0 → Fin S8192x768.rank)
  concatenates_S8192x768_S8192x768_S8192x768_S8192x2304_d1 : Shape.Concatenates [S8192x768, S8192x768, S8192x768] S8192x2304 1
  transposes_S768x2304_S2304x768_1_0 : S768x2304.Transposes [1, 0] S2304x768
  scatter_S8192x876_S131072x1_S131072x876_1_0_0_1_wf : ScatterDims.WF S8192x876 S131072x1 S131072x876 [1] [0] [0] 1
  dot_S8192x876_S876x768_S8192x768_1_0_0_1_n_n_wf : DotDims.WF S8192x876 S876x768 S8192x768 [1] [0] [0] [1] [] []
  dot_S8192x768_S768x768_S8192x768_1_0_0_1_n_n_wf : DotDims.WF S8192x768 S768x768 S8192x768 [1] [0] [0] [1] [] []
  dot_S8192x2304_S2304x768_S8192x768_1_0_0_1_n_n_wf : DotDims.WF S8192x2304 S2304x768 S8192x768 [1] [0] [0] [1] [] []

variable [Facts₀]

def scatter_S8192x876_S131072x1_S131072x876_1_0_0_1 : ScatterDims S8192x876 S131072x1 S131072x876 where
  updateWindowDims := [1]
  insertedWindowDims := [0]
  scatterDimsToOperandDims := [0]
  indexVectorDim := 1
  wf := scatter_S8192x876_S131072x1_S131072x876_1_0_0_1_wf
def dot_S8192x876_S876x768_S8192x768_1_0_0_1_n_n : DotDims S8192x876 S876x768 S8192x768 where
  lhsContracting := [1]
  rhsContracting := [0]
  lhsNonContracting := [0]
  rhsNonContracting := [1]
  lhsBatch := []
  rhsBatch := []
  wf := dot_S8192x876_S876x768_S8192x768_1_0_0_1_n_n_wf
def dot_S8192x768_S768x768_S8192x768_1_0_0_1_n_n : DotDims S8192x768 S768x768 S8192x768 where
  lhsContracting := [1]
  rhsContracting := [0]
  lhsNonContracting := [0]
  rhsNonContracting := [1]
  lhsBatch := []
  rhsBatch := []
  wf := dot_S8192x768_S768x768_S8192x768_1_0_0_1_n_n_wf
def dot_S8192x2304_S2304x768_S8192x768_1_0_0_1_n_n : DotDims S8192x2304 S2304x768 S8192x768 where
  lhsContracting := [1]
  rhsContracting := [0]
  lhsNonContracting := [0]
  rhsNonContracting := [1]
  lhsBatch := []
  rhsBatch := []
  wf := dot_S8192x2304_S2304x768_S8192x768_1_0_0_1_n_n_wf

class Facts : Prop extends Facts₀ where

variable [Facts]
-- ==== Proof.Spec.lean ====
/-
  The specification both programs are measured against, as functions of the argument arrays over the extended reals.

  Three branches i = 1, 2, 3 share one shape. With M the segment sums of the rectified edge features (one row per node),
    h_i = (src + M · We_iᵀ) + be_i,      z_i = h_i · Wa_iᵀ,
  the column mean and the column variance of z_i over the 8192 rows are taken by ONE chain of host operations, the
  same on both sides (`meanChain`, `varChain`: whole-array definitions, the printed operations composed), and the
  normalised rows are written in two ways:
    the reference:  y = ((z − mean) / sqrt (var + ε)) · g + b,
    the kernel:     y = z · (g · rsqrt (var + ε)) + (b − mean · (g · rsqrt (var + ε))).
  Then o_i = max(y_i, 0) · Wb_iᵀ, and the head: a = [o_1 | o_2 | o_3] · lin1ᵀ + b1 (the reference: one sum over the 2304
  concatenated columns; the kernel: the three 768-column pieces summed one after the other), and
  out = (max(a, 0) · dropout) · lin2ᵀ + b2.
-/
import Idealize.ShloMosaic.PureOps.Ideal
import Idealize.ShloMosaic.Lib.ValueIdx

noncomputable section

namespace Cert.Spec

open Idealize.ShloMosaic Idealize.ShloMosaic.ValueIdx

abbrev S_ : Shape := ⟨0, ![]⟩
abbrev S768 : Shape := ⟨1, ![768]⟩
abbrev S1x768 : Shape := ⟨2, ![1, 768]⟩
abbrev S8192x768 : Shape := ⟨2, ![8192, 768]⟩
abbrev S8192x876 : Shape := ⟨2, ![8192, 876]⟩
abbrev S768x876 : Shape := ⟨2, ![768, 876]⟩
abbrev S768x768 : Shape := ⟨2, ![768, 768]⟩
abbrev S768x2304 : Shape := ⟨2, ![768, 2304]⟩

/-- A matrix of extended reals with 8192 rows and 768 columns, by row and column. -/
abbrev Rows := Fin 8192 → Fin 768 → EReal

/-- The float zero and the variance's offset, as the patterns both programs print. -/
abbrev c0 : EReal := Ideal.ofBits .f32 0x00000000#32
abbrev eps : EReal := Ideal.ofBits .f32 0x3727C5AC#32

/-! ## The two shared chains, whole-array -/

/-- The column means: the sum over the rows from zero, divided by 8192. -/
def meanChain (Z : FVec Ideal S8192x768 .f32) : FVec Ideal S768 .f32 :=
  Host.divf (Host.reduceAdd Z (constant S_ .f32 0x00000000#32) (by decide : S8192x768.ReducesTo [0] S768) (by decide : 0 < S_.numel))
    (broadcastInDim S768 ![] (by decide) (constant S_ .f32 0x46000000#32))

/-- The column variances (no degrees of freedom removed): the mean of the squared deviations from the column mean,
    selected against a junk value by the comparison "8192 − 0 > 0". -/
def varChain (Z : FVec Ideal S8192x768 .f32) : FVec Ideal S768 .f32 :=
  let v0 : FVec Ideal S768 .f32 := Host.reduceAdd Z (constant S_ .f32 0x00000000#32) (by decide : S8192x768.ReducesTo [0] S768) (by decide : 0 < S_.numel)
  let v1 : FVec Ideal S1x768 .f32 := broadcastInDim S1x768 ![1] (by decide) v0
  let v2 : FVec Ideal S1x768 .f32 := broadcastInDim S1x768 ![] (by decide) (constant S_ .f32 0x46000000#32)
  let v3 : FVec Ideal S1x768 .f32 := Host.divf v1 v2
  let v4 : FVec Ideal S8192x768 .f32 := broadcastInDim S8192x768 ![0, 1] (by decide) v3
  let v5 : FVec Ideal S8192x768 .f32 := subf Z v4
  let v6 : FVec Ideal S8192x768 .f32 := mulf v5 v5
  let v7 : FVec Ideal S_ .f32 := sitofp .f32 (constantI S_ 32 0#32)
  let v8 : FVec Ideal S_ .f32 := subf (constant S_ .f32 0x46000000#32) v7
  let v9 : FVec Ideal S768 .f32 := Host.reduceAdd v6 (constant S_ .f32 0x00000000#32) (by decide : S8192x768.ReducesTo [0] S768) (by decide : 0 < S_.numel)
  let v10 : FVec Ideal S768 .f32 := broadcastInDim S768 ![] (by decide) v8
  let v11 : FVec Ideal S768 .f32 := Host.divf v9 v10
  let v12 : IVec S_ 1 := cmpf .ogt v8 (constant S_ .f32 0x00000000#32)
  let w1 : FVec Ideal S768 .f32 := broadcastInDim S768 ![] (by decide) (id (constant S_ .f32 0x7FC00000#32))
  select (broadcastInDim S768 ![] (by decide) v12) v11 w1

/-! ## Index by index -/

/-- A matrix by row and column as an array. -/
def arr (z : Rows) : FVec Ideal S8192x768 .f32 := fun i => z (i 0) (i 1)

/-- h = (src + M · Weᵀ) + be. -/
def hid (M : FVec Ideal S8192x876 .f32) (src : FVec Ideal S8192x768 .f32) (We : FVec Ideal S768x876 .f32)
    (be : FVec Ideal S768 .f32) : Rows := fun n k =>
  (src (ix2 n k) + ∑ e : Fin 876, M (ix2 n e) * We (ix2 k e)) + be (ix1 k)

/-- z = h · Waᵀ. -/
def zed (h : Rows) (Wa : FVec Ideal S768x768 .f32) : Rows := fun n j => ∑ k : Fin 768, h n k * Wa (ix2 j k)

/-- The reference's normalisation. -/
def yR (z : Rows) (mu va g b : FVec Ideal S768 .f32) : Rows := fun n j =>
  Ideal.div (z n j - mu (ix1 j)) (Ideal.sqrt (va (ix1 j) + eps)) * g (ix1 j) + b (ix1 j)

/-- The kernel's normalisation: a scale and a shift per column. -/
def yK (z : Rows) (mu va g b : FVec Ideal S768 .f32) : Rows := fun n j =>
  z n j * (g (ix1 j) * Ideal.rsqrt (va (ix1 j) + eps))
    + (b (ix1 j) - mu (ix1 j) * (g (ix1 j) * Ideal.rsqrt (va (ix1 j) + eps)))

/-- o = max(y, 0) · Wbᵀ. -/
def outB (y : Rows) (Wb : FVec Ideal S768x768 .f32) : Rows := fun n l => ∑ p : Fin 768, max (y n p) c0 * Wb (ix2 l p)

/-- One branch as the reference computes it, from z. -/
def branchR (z : Rows) (Wb : FVec Ideal S768x768 .f32) (g b : FVec Ideal S768 .f32) : Rows :=
  outB (yR z (meanChain (arr z)) (varChain (arr z)) g b) Wb

/-- One branch as the kernel computes it, from z. -/
def branchK (z : Rows) (Wb : FVec Ideal S768x768 .f32) (g b : FVec Ideal S768 .f32) : Rows :=
  outB (yK z (meanChain (arr z)) (varChain (arr z)) g b) Wb

/-- The three branch results side by side: column q of the 2304. -/
def cat (o1 o2 o3 : Rows) (n : Fin 8192) (q : Fin 2304) : EReal :=
  if h : q.val < 768 then o1 n ⟨q.val, h⟩
  else if h2 : q.val < 1536 then o2 n ⟨q.val - 768, by omega⟩ else o3 n ⟨q.val - 1536, by omega⟩

/-- The reference's first head layer: one sum over the 2304 columns. -/
def aR (o1 o2 o3 : Rows) (lin1 : FVec Ideal S768x2304 .f32) (b1 : FVec Ideal S768 .f32) : Rows := fun n k =>
  (∑ q : Fin 2304, cat o1 o2 o3 n q * lin1 (ix2 k q)) + b1 (ix1 k)

/-- The kernel's first head layer: the three pieces one after the other. -/
def aK (o1 o2 o3 : Rows) (lin1 : FVec Ideal S768x2304 .f32) (b1 : FVec Ideal S768 .f32) : Rows := fun n k =>
  (((∑ l : Fin 768, o1 n l * lin1 (ix2 k ⟨l.val, by omega⟩))
      + ∑ l : Fin 768, o2 n l * lin1 (ix2 k ⟨768 + l.val, by omega⟩))
    + ∑ l : Fin 768, o3 n l * lin1 (ix2 k ⟨1536 + l.val, by omega⟩)) + b1 (ix1 k)

/-- out = (max(a, 0) · dropout) · lin2ᵀ + b2. -/
def fin (a : Rows) (drop : FVec Ideal S8192x768 .f32) (lin2 : FVec Ideal S768x768 .f32) (b2 : FVec Ideal S768 .f32) : Rows :=
  fun n j => (∑ k : Fin 768, (max (a n k) c0 * drop (ix2 n k)) * lin2 (ix2 j k)) + b2 (ix1 j)

/-- The reference's result from the three z. -/
def headR (z1 z2 z3 : Rows) (Wb1 Wb2 Wb3 : FVec Ideal S768x768 .f32) (g1 b1 g2 b2 g3 b3 : FVec Ideal S768 .f32)
    (lin1 : FVec Ideal S768x2304 .f32) (l1b : FVec Ideal S768 .f32) (drop : FVec Ideal S8192x768 .f32)
    (lin2 : FVec Ideal S768x768 .f32) (l2b : FVec Ideal S768 .f32) : Rows :=
  fin (aR (branchR z1 Wb1 g1 b1) (branchR z2 Wb2 g2 b2) (branchR z3 Wb3 g3 b3) lin1 l1b) drop lin2 l2b

/-- The kernel's result from the three z. -/
def headK (z1 z2 z3 : Rows) (Wb1 Wb2 Wb3 : FVec Ideal S768x768 .f32) (g1 b1 g2 b2 g3 b3 : FVec Ideal S768 .f32)
    (lin1 : FVec Ideal S768x2304 .f32) (l1b : FVec Ideal S768 .f32) (drop : FVec Ideal S8192x768 .f32)
    (lin2 : FVec Ideal S768x768 .f32) (l2b : FVec Ideal S768 .f32) : Rows :=
  fin (aK (branchK z1 Wb1 g1 b1) (branchK z2 Wb2 g2 b2) (branchK z3 Wb3 g3 b3) lin1 l1b) drop lin2 l2b

end Cert.Spec

end
-- ==== Proof.Consts.lean ====
/-
  The float patterns the two programs print, as the extended reals they denote: the row count 8192 and the variance's
  offset, a positive real (10995116 · 2⁻⁴⁰, the single-precision value nearest to one hundred-thousandth).
-/
import Idealize.ShloMosaic.PureOps.Ideal
import Idealize.ShloMosaic.PureOps.Ideal.Laws

noncomputable section

namespace Cert.Consts

open Idealize.ShloMosaic

/-- The pattern of 8192.0 denotes the real 8192. -/
theorem ofBits_8192 : Ideal.ofBits .f32 0x46000000#32 = ((8192 : ℝ) : EReal) := by
  simp [Ideal.ofBits, Ideal.ieee, -EReal.coe_mul]; norm_num

/-- The variance's offset as a real number. -/
def epsR : ℝ := 10995116 / 1099511627776

theorem epsR_pos : 0 < epsR := by unfold epsR; norm_num

/-- The offset's pattern denotes that real. -/
theorem ofBits_eps : Ideal.ofBits .f32 0x3727C5AC#32 = ((epsR : ℝ) : EReal) := by
  unfold epsR
  simp [Ideal.ofBits, Ideal.ieee, -EReal.coe_mul]; norm_num

end Cert.Consts

end
-- ==== Proof.SpecNorm.lean ====
/-
  The two ways of writing the normalised rows agree wherever every quantity is a real number and the variance is not
  negative. With s = sqrt (var + ε) > 0 both are ((z − mean) · s⁻¹) · g + b: on the reals this is distributivity and
  commutativity; on the extended reals it is false at the infinities, which is why it is stated for reals.
-/
import proofs.«165818_j2173253452173_2_alg».proof.Proof.Spec
import proofs.«165818_j2173253452173_2_alg».proof.Proof.Consts

noncomputable section

namespace Cert.Spec

open Idealize.ShloMosaic Idealize.ShloMosaic.ValueIdx

/-- The square root of a real that is not negative is the real square root. -/
theorem sqrt_coe {r : ℝ} (h : 0 ≤ r) : Ideal.sqrt (r : EReal) = ((Real.sqrt r : ℝ) : EReal) := by
  show (if r < 0 then (⊥ : EReal) else ((Real.sqrt r : ℝ) : EReal)) = _
  rw [if_neg (not_lt.mpr h)]

/-- The reciprocal square root of a positive real is the inverse of the real square root. -/
theorem rsqrt_coe {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- Scale-and-shift is subtract-divide-multiply-add, on reals with a variance that is not negative. -/
theorem norm_eq (z mu g b v : ℝ) (hv : 0 ≤ v) :
    (z : EReal) * ((g : EReal) * Ideal.rsqrt ((v : EReal) + eps))
        + ((b : EReal) - (mu : EReal) * ((g : EReal) * Ideal.rsqrt ((v : EReal) + eps)))
      = Ideal.div ((z : EReal) - (mu : EReal)) (Ideal.sqrt ((v : EReal) + eps)) * (g : EReal) + (b : EReal) := by
  have hpos : 0 < v + Consts.epsR := add_pos_of_nonneg_of_pos hv Consts.epsR_pos
  have hs : 0 < Real.sqrt (v + Consts.epsR) := Real.sqrt_pos.mpr hpos
  have he : (v : EReal) + eps = ((v + Consts.epsR : ℝ) : EReal) := by
    show (v : EReal) + Ideal.ofBits .f32 0x3727C5AC#32 = _
    rw [Consts.ofBits_eps, EReal.coe_add]
  rw [he, rsqrt_coe hpos, sqrt_coe hpos.le, Ideal.div_coe hs.ne']
  rw [← EReal.coe_mul, ← EReal.coe_mul, ← EReal.coe_mul, ← EReal.coe_sub, ← EReal.coe_add, ← EReal.coe_sub,
    ← EReal.coe_mul, ← EReal.coe_mul, ← EReal.coe_add]
  congr 1
  rw [one_div]
  ring

/-- The kernel's normalised rows are the reference's, column by column, where everything is real. -/
theorem yK_eq_yR (z : Rows) (mu va g b : FVec Ideal S768 .f32) (n : Fin 8192) (j : Fin 768)
    (hz : ∃ r : ℝ, z n j = (r : EReal)) (hmu : ∃ r : ℝ, mu (ix1 j) = (r : EReal))
    (hva : ∃ r : ℝ, 0 ≤ r ∧ va (ix1 j) = (r : EReal)) (hg : ∃ r : ℝ, g (ix1 j) = (r : EReal))
    (hb : ∃ r : ℝ, b (ix1 j) = (r : EReal)) : yK z mu va g b n j = yR z mu va g b n j := by
  obtain ⟨z', hz'⟩ := hz; obtain ⟨m', hm'⟩ := hmu; obtain ⟨v', hv0, hv'⟩ := hva
  obtain ⟨g', hg'⟩ := hg; obtain ⟨b', hb'⟩ := hb
  unfold yK yR
  rw [hz', hm', hv', hg', hb']
  exact norm_eq z' m' g' b' v' hv0

end Cert.Spec

end
-- ==== Proof.LibRealSums.lean ====
/-
  Arithmetic of extended reals that are in fact real numbers: a finite sum, a product, a sum or a maximum of reals is a
  real, and a real factor moves across a finite sum of products of reals. On the extended reals themselves the last law
  fails at the infinities, which is why every array that meets it is first shown to hold real numbers only.
-/
import Idealize.ShloMosaic.PureOps.Ideal

namespace Cert.Algebra

open Finset

/-- The embedding of the reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_sum]; exact Finset.sum_congr rfl hg⟩

/-- A product of two reals is a real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- A sum of two reals is a real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The maximum of two reals is a real. -/
theorem max_real {a b : EReal} (ha : ∃ r : ℝ, a = (r : EReal)) (hb : ∃ r : ℝ, b = (r : EReal)) :
    ∃ r : ℝ, max a b = (r : EReal) := by
  rcases max_choice a b with h | h <;> rw [h] <;> assumption

/-- A real factor moves across a finite sum of products of reals:
    the sum over k of (a k · n) · w k is (the sum over k of a k · w k) · n. -/
theorem scale_sum {ι : Type*} [Fintype ι] (a w : ι → EReal) (n : EReal) (ha : ∀ k, ∃ r : ℝ, a k = (r : EReal))
    (hw : ∀ k, ∃ r : ℝ, w k = (r : EReal)) (hn : ∃ r : ℝ, n = (r : EReal)) :
    ∑ k, (a k * n) * w k = (∑ k, a k * w k) * n := by
  choose x hx using ha
  choose y hy using hw
  obtain ⟨z, rfl⟩ := hn
  have e1 : ∀ k, (a k * (z : EReal)) * w k = ((x k * z * y k : ℝ) : EReal) := fun k => by
    rw [hx, hy, ← EReal.coe_mul, ← EReal.coe_mul]
  have e2 : ∀ k, a k * w k = ((x k * y k : ℝ) : EReal) := fun k => by rw [hx, hy, ← EReal.coe_mul]
  rw [Finset.sum_congr rfl (fun k _ => e1 k), Finset.sum_congr rfl (fun k _ => e2 k), ← coe_sum, ← coe_sum,
    ← EReal.coe_mul]
  congr 1
  rw [Finset.sum_mul]
  exact Finset.sum_congr rfl fun k _ => by ring

end Cert.Algebra
-- ==== Proof.SpecChains.lean ====
/-
  The two shared chains read at a column. The column mean is (0 + the sum over the 8192 rows) / 8192; the column
  variance is the selection, by the comparison "8192 − 0 > 0", of (0 + the sum of the squared deviations from that mean)
  / (8192 − 0) against a junk value. Where the matrix holds real numbers only, the mean is a real and the variance a
  real that is not negative (a sum of squares over a positive count).
-/
import proofs.«165818_j2173253452173_2_alg».proof.Proof.Spec
import proofs.«165818_j2173253452173_2_alg».proof.Proof.Consts
import proofs.«165818_j2173253452173_2_alg».proof.Proof.LibRealSums
import Idealize.ShloMosaic.PureOps.Ideal.Laws

noncomputable section

namespace Cert.Spec

open Idealize.ShloMosaic Idealize.ShloMosaic.ValueIdx

/-- The host's division, entry by entry. -/
theorem hostDivf_apply {s : Shape} (a b : FVec Ideal s .f32) (i : s.Idx) : Host.divf a b i = Ideal.div (a i) (b i) := rfl

/-- A [1,768] row spread over 8192 rows, at (n, j): the row at column j. -/
theorem bcRows (v : FVec Ideal S1x768 .f32) (h : S1x768.BroadcastsInDim S8192x768 ![0, 1]) (n : Fin 8192) (j : Fin 768) :
    broadcastInDim S8192x768 ![0, 1] h v (ix2 n j) = v (ix2 (0 : Fin 1) j) :=
  congrArg v (by funext a; match a with | ⟨0, _⟩ => exact Fin.ext rfl | ⟨1, _⟩ => exact Fin.ext rfl)

/-- A [768] vector laid as a [1,768] row, at (0, j): the vector at j. -/
theorem bcRow1 (v : FVec Ideal S768 .f32) (h : S768.BroadcastsInDim S1x768 ![1]) (j : Fin 768) :
    broadcastInDim S1x768 ![1] h v (ix2 (0 : Fin 1) j) = v (ix1 j) :=
  congrArg v (by funext a; match a with | ⟨0, _⟩ => exact Fin.ext rfl)

theorem redA (Z : FVec Ideal S8192x768 .f32) (j : Fin 768) :
    Host.reduceAdd Z (constant S_ .f32 0x00000000#32) (by decide : S8192x768.ReducesTo [0] S768) (by decide : 0 < S_.numel) (ix1 j)
      = c0 + ∑ n : Fin 8192, Z (ix2 n j) := by
  show Ideal.hostReduceAdd (by decide : S8192x768.ReducesTo [0] S768) Z _ (ix1 j) = _
  rw [Ideal.hostReduceAdd_single _ (by decide : S8192x768.Reduces [0] S768)]
  refine congrArg₂ (· + ·) rfl (Finset.sum_congr rfl fun n _ => congrArg Z ?_)
  funext a
  match a with
  | ⟨0, _⟩ => exact Fin.ext rfl
  | ⟨1, _⟩ => exact Fin.ext rfl

/-- The count the variance divides by: 8192 less the integer zero read as a float. -/
abbrev cnt : EReal := Ideal.ofBits .f32 0x46000000#32 - (((0#32 : BitVec 32).toInt : ℝ) : EReal)

/-- The column mean as the variance chain takes it. -/
def mu' (Z : FVec Ideal S8192x768 .f32) (j : Fin 768) : EReal :=
  Ideal.div (c0 + ∑ n : Fin 8192, Z (ix2 n j)) (Ideal.ofBits .f32 0x46000000#32)

theorem varChain_apply (Z : FVec Ideal S8192x768 .f32) (j : Fin 768) :
    varChain Z (ix1 j) = Scalar.select (Ideal.cmp .ogt cnt c0)
      (Ideal.div (c0 + ∑ n : Fin 8192, (Z (ix2 n j) - mu' Z j) * (Z (ix2 n j) - mu' Z j)) cnt)
      (Ideal.ofBits .f32 0x7FC00000#32) := by
  unfold varChain
  dsimp only
  rw [select_apply]
  refine congrArg₂ (fun a b => Scalar.select a b _) rfl ?_
  rw [hostDivf_apply, redA]
  refine congrArg₂ Ideal.div (congrArg₂ (· + ·) rfl (Finset.sum_congr rfl fun n _ => ?_)) rfl
  rw [mulf_apply, subf_apply, bcRows, hostDivf_apply, bcRow1, redA]
  rfl

/-- The column mean chain at a column. -/
theorem meanChain_apply (Z : FVec Ideal S8192x768 .f32) (j : Fin 768) : meanChain Z (ix1 j) = mu' Z j := by
  unfold meanChain mu'
  rw [hostDivf_apply, redA]
  rfl

/-- Over a matrix of reals the column sum from zero is a real. -/
theorem colsum_real (Z : FVec Ideal S8192x768 .f32) (hZ : ∀ i, ∃ r : ℝ, Z i = (r : EReal)) (j : Fin 768) :
    ∃ r : ℝ, c0 + ∑ n : Fin 8192, Z (ix2 n j) = (r : EReal) := by
  obtain ⟨s, hs⟩ := Cert.Algebra.sum_real Finset.univ (fun n : Fin 8192 => Z (ix2 n j)) (fun n _ => hZ _)
  exact ⟨s, by rw [hs]; show Ideal.ofBits .f32 0x00000000#32 + _ = _; rw [Ideal.ofBits_zero_f32, zero_add]⟩

/-- Over a matrix of reals the column mean is a real. -/
theorem mu'_real (Z : FVec Ideal S8192x768 .f32) (hZ : ∀ i, ∃ r : ℝ, Z i = (r : EReal)) (j : Fin 768) :
    ∃ r : ℝ, mu' Z j = (r : EReal) := by
  obtain ⟨s, hs⟩ := colsum_real Z hZ j
  refine ⟨s * (1 / 8192), ?_⟩
  unfold mu'
  rw [hs, Consts.ofBits_8192, Ideal.div_coe (by norm_num : (8192 : ℝ) ≠ 0), ← EReal.coe_mul]

theorem meanChain_real (Z : FVec Ideal S8192x768 .f32) (hZ : ∀ i, ∃ r : ℝ, Z i = (r : EReal)) (j : Fin 768) :
    ∃ r : ℝ, meanChain Z (ix1 j) = (r : EReal) := by
  rw [meanChain_apply]; exact mu'_real Z hZ j

/-- The count is the real 8192, which is above zero: the selection takes the quotient. -/
theorem cnt_eq : cnt = ((8192 : ℝ) : EReal) := by
  unfold cnt
  rw [Consts.ofBits_8192]
  simp

theorem cmp_cnt : Ideal.cmp .ogt cnt c0 = 1#1 := by
  rw [cnt_eq]
  show BitVec.ofBool (decide (Ideal.ofBits .f32 0x00000000#32 < ((8192 : ℝ) : EReal))) = 1#1
  rw [Ideal.ofBits_zero_f32, decide_eq_true (by exact_mod_cast (by norm_num : (0 : ℝ) < 8192))]
  rfl

/-- Over a matrix of reals the column variance is a real that is not negative. -/
theorem varChain_real (Z : FVec Ideal S8192x768 .f32) (hZ : ∀ i, ∃ r : ℝ, Z i = (r : EReal)) (j : Fin 768) :
    ∃ r : ℝ, 0 ≤ r ∧ varChain Z (ix1 j) = (r : EReal) := by
  obtain ⟨m, hm⟩ := mu'_real Z hZ j
  choose f hf using fun n : Fin 8192 => hZ (ix2 n j)
  have hsq : ∀ n : Fin 8192, (Z (ix2 n j) - mu' Z j) * (Z (ix2 n j) - mu' Z j) = (((f n - m) * (f n - m) : ℝ) : EReal) :=
    fun n => by rw [hf n, hm, ← EReal.coe_sub, ← EReal.coe_mul]
  rw [varChain_apply, cmp_cnt, select_one, Finset.sum_congr rfl (fun n _ => hsq n), ← Cert.Algebra.coe_sum]
  refine ⟨(∑ n : Fin 8192, (f n - m) * (f n - m)) * (1 / 8192), ?_, ?_⟩
  · exact mul_nonneg (Finset.sum_nonneg fun n _ => mul_self_nonneg _) (by norm_num)
  · show Ideal.div (Ideal.ofBits .f32 0x00000000#32 + _) cnt = _
    rw [Ideal.ofBits_zero_f32, zero_add, cnt_eq, Ideal.div_coe (by norm_num : (8192 : ℝ) ≠ 0), ← EReal.coe_mul]

end Cert.Spec

end
-- ==== Proof.SpecAlgebra.lean ====
/-
  The kernel's arrangement of the whole computation is the reference's, where the three z matrices and the
  normalisation's gains and offsets are real numbers. Two laws carry it: per branch, scale-and-shift is
  subtract-divide-multiply-add (on reals, the variance not negative); in the head, one sum over the 2304 concatenated
  columns is the sum of the three sums over 768 columns each (a regrouping of one finite sum, valid for every
  extended real).
-/
import proofs.«165818_j2173253452173_2_alg».proof.Proof.SpecNorm
import proofs.«165818_j2173253452173_2_alg».proof.Proof.SpecChains

noncomputable section

namespace Cert.Spec

open Idealize.ShloMosaic Idealize.ShloMosaic.ValueIdx

/-- One branch: the kernel's rows are the reference's. -/
theorem branchK_eq_branchR (z : Rows) (Wb : FVec Ideal S768x768 .f32) (g b : FVec Ideal S768 .f32)
    (hz : ∀ n j, ∃ r : ℝ, z n j = (r : EReal)) (hg : ∀ i, ∃ r : ℝ, g i = (r : EReal))
    (hb : ∀ i, ∃ r : ℝ, b i = (r : EReal)) : branchK z Wb g b = branchR z Wb g b := by
  funext n l
  unfold branchK branchR outB
  refine Finset.sum_congr rfl fun p _ => ?_
  rw [yK_eq_yR z (meanChain (arr z)) (varChain (arr z)) g b n p (hz n p)
    (meanChain_real (arr z) (fun i => hz (i 0) (i 1)) p) (varChain_real (arr z) (fun i => hz (i 0) (i 1)) p) (hg _) (hb _)]

/-- A sum over 2304 columns is the sum of its three thirds. -/
theorem sum_three (f : Fin 2304 → EReal) :
    ∑ q : Fin 2304, f q = ((∑ l : Fin 768, f ⟨l.val, by omega⟩) + ∑ l : Fin 768, f ⟨768 + l.val, by omega⟩)
      + ∑ l : Fin 768, f ⟨1536 + l.val, by omega⟩ := by
  calc ∑ q : Fin 2304, f q
      = (∑ i : Fin 1536, f (Fin.castAdd 768 i)) + ∑ i : Fin 768, f (Fin.natAdd 1536 i) :=
        Fin.sum_univ_add (a := 1536) (b := 768) f
    _ = ((∑ l : Fin 768, f (Fin.castAdd 768 (Fin.castAdd 768 l)))
          + ∑ l : Fin 768, f (Fin.castAdd 768 (Fin.natAdd 768 l))) + ∑ i : Fin 768, f (Fin.natAdd 1536 i) := by
        rw [Fin.sum_univ_add (a := 768) (b := 768) (fun i => f (Fin.castAdd 768 i))]
    _ = _ := rfl

theorem cat_lo (o1 o2 o3 : Rows) (n : Fin 8192) (l : Fin 768) (h : l.val < 2304) :
    cat o1 o2 o3 n ⟨l.val, h⟩ = o1 n l := by
  unfold cat; rw [dif_pos l.isLt]

theorem cat_mid (o1 o2 o3 : Rows) (n : Fin 8192) (l : Fin 768) (h : 768 + l.val < 2304) :
    cat o1 o2 o3 n ⟨768 + l.val, h⟩ = o2 n l := by
  have h1 : ¬ (768 + l.val < 768) := by omega
  have h2 : 768 + l.val < 1536 := by have := l.isLt; omega
  unfold cat; rw [dif_neg h1, dif_pos h2]
  exact congrArg (o2 n) (Fin.ext (by simp))

theorem cat_hi (o1 o2 o3 : Rows) (n : Fin 8192) (l : Fin 768) (h : 1536 + l.val < 2304) :
    cat o1 o2 o3 n ⟨1536 + l.val, h⟩ = o3 n l := by
  have h1 : ¬ (1536 + l.val < 768) := by omega
  have h2 : ¬ (1536 + l.val < 1536) := by omega
  unfold cat; rw [dif_neg h1, dif_neg h2]
  exact congrArg (o3 n) (Fin.ext (by simp))

/-- The head's first layer: the three pieces one after the other are the one sum over the concatenation. -/
theorem aK_eq_aR (o1 o2 o3 : Rows) (lin1 : FVec Ideal S768x2304 .f32) (b1 : FVec Ideal S768 .f32) :
    aK o1 o2 o3 lin1 b1 = aR o1 o2 o3 lin1 b1 := by
  funext n k
  unfold aK aR
  rw [sum_three]
  simp only [cat_lo, cat_mid, cat_hi]

/-- The whole: the kernel's result is the reference's. -/
theorem headK_eq_headR (z1 z2 z3 : Rows) (Wb1 Wb2 Wb3 : FVec Ideal S768x768 .f32) (g1 b1 g2 b2 g3 b3 : FVec Ideal S768 .f32)
    (lin1 : FVec Ideal S768x2304 .f32) (l1b : FVec Ideal S768 .f32) (drop : FVec Ideal S8192x768 .f32)
    (lin2 : FVec Ideal S768x768 .f32) (l2b : FVec Ideal S768 .f32)
    (hz1 : ∀ n j, ∃ r : ℝ, z1 n j = (r : EReal)) (hz2 : ∀ n j, ∃ r : ℝ, z2 n j = (r : EReal))
    (hz3 : ∀ n j, ∃ r : ℝ, z3 n j = (r : EReal))
    (hg1 : ∀ i, ∃ r : ℝ, g1 i = (r : EReal)) (hb1 : ∀ i, ∃ r : ℝ, b1 i = (r : EReal))
    (hg2 : ∀ i, ∃ r : ℝ, g2 i = (r : EReal)) (hb2 : ∀ i, ∃ r : ℝ, b2 i = (r : EReal))
    (hg3 : ∀ i, ∃ r : ℝ, g3 i = (r : EReal)) (hb3 : ∀ i, ∃ r : ℝ, b3 i = (r : EReal)) :
    headK z1 z2 z3 Wb1 Wb2 Wb3 g1 b1 g2 b2 g3 b3 lin1 l1b drop lin2 l2b
      = headR z1 z2 z3 Wb1 Wb2 Wb3 g1 b1 g2 b2 g3 b3 lin1 l1b drop lin2 l2b := by
  unfold headK headR
  rw [branchK_eq_branchR z1 Wb1 g1 b1 hz1 hg1 hb1, branchK_eq_branchR z2 Wb2 g2 b2 hz2 hg2 hb2,
    branchK_eq_branchR z3 Wb3 g3 b3 hz3 hg3 hb3, aK_eq_aR]

/-- z is real where the segment sums, the sources and the weights are. -/
theorem zed_real (M : FVec Ideal S8192x876 .f32) (src : FVec Ideal S8192x768 .f32) (We : FVec Ideal S768x876 .f32)
    (be : FVec Ideal S768 .f32) (Wa : FVec Ideal S768x768 .f32)
    (hM : ∀ i, ∃ r : ℝ, M i = (r : EReal)) (hsrc : ∀ i, ∃ r : ℝ, src i = (r : EReal))
    (hWe : ∀ i, ∃ r : ℝ, We i = (r : EReal)) (hbe : ∀ i, ∃ r : ℝ, be i = (r : EReal))
    (hWa : ∀ i, ∃ r : ℝ, Wa i = (r : EReal)) (n : Fin 8192) (j : Fin 768) :
    ∃ r : ℝ, zed (hid M src We be) Wa n j = (r : EReal) := by
  unfold zed hid
  refine Cert.Algebra.sum_real _ _ fun k _ => Cert.Algebra.mul_real (Cert.Algebra.add_real (Cert.Algebra.add_real (hsrc _) ?_) (hbe _)) (hWa _)
  exact Cert.Algebra.sum_real _ _ fun e _ => Cert.Algebra.mul_real (hM _) (hWe _)

end Cert.Spec

end
-- ==== Proof.SpecMsgs.lean ====
/-
  The segment sums: row n of M is the sum, over the edges whose segment number is n, of the rectified edge features
  (a host scatter-add of max(edge, 0) into a zero matrix by the segment numbers). At the ideal values it is, entry by
  entry, zero plus a finite sum of entries max(edge, 0): a real number wherever the edge features are real.
-/
import proofs.«165818_j2173253452173_2_alg».proof.Proof.Spec
import proofs.«165818_j2173253452173_2_alg».proof.Proof.LibRealSums
import Idealize.ShloMosaic.PureOps.Ideal.Laws

noncomputable section

namespace Cert.Spec

open Idealize.ShloMosaic Idealize.ShloMosaic.ValueIdx

abbrev S131072 : Shape := ⟨1, ![131072]⟩
abbrev S131072x1 : Shape := ⟨2, ![131072, 1]⟩
abbrev S131072x876 : Shape := ⟨2, ![131072, 876]⟩

/-- The scatter's dimension numbers: update (e, k) goes to row (segment of e), column k. -/
def scat : ScatterDims S8192x876 S131072x1 S131072x876 where
  updateWindowDims := [1]
  insertedWindowDims := [0]
  scatterDimsToOperandDims := [0]
  indexVectorDim := 1
  wf := by decide

/-- The segment sums of the rectified edge features. -/
def msgs (edge : FVec Ideal S131072x876 .f32) (seg : IVec S131072 32) : FVec Ideal S8192x876 .f32 :=
  Host.scatterAdd scat (broadcastInDim S8192x876 ![] (by decide) (constant S_ .f32 0x00000000#32))
    (broadcastInDim S131072x1 ![0] (by decide) seg)
    (maximumf edge (broadcastInDim S131072x876 ![] (by decide) (constant S_ .f32 0x00000000#32)))

/-- A host scatter-add of reals into reals holds reals. -/
theorem scatterAdd_real {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) := by
  show ∃ r : ℝ, x i + ∑ j ∈ Finset.univ.filter (fun j => d.resultIdx? j idx = some i), upd j = (r : EReal)
  exact Cert.Algebra.add_real (hx i) (Cert.Algebra.sum_real _ _ fun j _ => hu j)

/-- The segment sums are real where the edge features are. -/
theorem msgs_real (edge : FVec Ideal S131072x876 .f32) (seg : IVec S131072 32)
    (he : ∀ i, ∃ r : ℝ, edge i = (r : EReal)) (i : S8192x876.Idx) : ∃ r : ℝ, msgs edge seg i = (r : EReal) := by
  have h0 : ∃ r : ℝ, Ideal.ofBits .f32 0x00000000#32 = (r : EReal) := ⟨0, by rw [Ideal.ofBits_zero_f32]; rfl⟩
  unfold msgs
  exact scatterAdd_real _ _ _ _ (fun _ => h0) (fun j => Cert.Algebra.max_real (he j) h0) i

end Cert.Spec

end
-- ==== Proof.SpecResult.lean ====
/-
  The result both programs end with, as one function of the twenty-six argument arrays: the reference's arrangement
  (`headR`) of the three z matrices built from the segment sums. The kernel ends with its own arrangement (`headK`)
  of the three matrices its first stage leaves; where those matrices are the three z and the arguments are real, the
  two arrangements are one function.
-/
import proofs.«165818_j2173253452173_2_alg».proof.Proof.SpecAlgebra
import proofs.«165818_j2173253452173_2_alg».proof.Proof.SpecMsgs

noncomputable section

namespace Cert.Spec

open Idealize.ShloMosaic Idealize.ShloMosaic.ValueIdx

/-- The result array as a function of the arguments (in the programs' argument order). -/
def result (A0 : FVec Ideal S8192x768 .f32) (A1 : FVec Ideal S131072x876 .f32) (A2 : IVec S131072 32) (A3 : FVec Ideal S8192x768 .f32) (A4 : FVec Ideal S768x876 .f32) (A5 : FVec Ideal S768 .f32) (A6 : FVec Ideal S768x768 .f32) (A7 : FVec Ideal S768x768 .f32) (A8 : FVec Ideal S768 .f32) (A9 : FVec Ideal S768 .f32) (A10 : FVec Ideal S768x876 .f32) (A11 : FVec Ideal S768 .f32) (A12 : FVec Ideal S768x768 .f32) (A13 : FVec Ideal S768x768 .f32) (A14 : FVec Ideal S768 .f32) (A15 : FVec Ideal S768 .f32) (A16 : FVec Ideal S768x876 .f32) (A17 : FVec Ideal S768 .f32) (A18 : FVec Ideal S768x768 .f32) (A19 : FVec Ideal S768x768 .f32) (A20 : FVec Ideal S768 .f32) (A21 : FVec Ideal S768 .f32) (A22 : FVec Ideal S768x2304 .f32) (A23 : FVec Ideal S768 .f32) (A24 : FVec Ideal S768x768 .f32) (A25 : FVec Ideal S768 .f32) : FVec Ideal S8192x768 .f32 := fun i =>
  headR (zed (hid (msgs A1 A2) A0 A4 A5) A6) (zed (hid (msgs A1 A2) A0 A10 A11) A12) (zed (hid (msgs A1 A2) A0 A16 A17) A18)
    A7 A13 A19 A8 A9 A14 A15 A20 A21 A22 A23 A3 A24 A25 (i 0) (i 1)

/-- The kernel's arrangement over its first stage's three matrices is the result, where those are the three z
    and the arguments that meet the normalisation are real. -/
theorem result_of_kernel (A0 : FVec Ideal S8192x768 .f32) (A1 : FVec Ideal S131072x876 .f32) (A2 : IVec S131072 32) (A3 : FVec Ideal S8192x768 .f32) (A4 : FVec Ideal S768x876 .f32) (A5 : FVec Ideal S768 .f32) (A6 : FVec Ideal S768x768 .f32) (A7 : FVec Ideal S768x768 .f32) (A8 : FVec Ideal S768 .f32) (A9 : FVec Ideal S768 .f32) (A10 : FVec Ideal S768x876 .f32) (A11 : FVec Ideal S768 .f32) (A12 : FVec Ideal S768x768 .f32) (A13 : FVec Ideal S768x768 .f32) (A14 : FVec Ideal S768 .f32) (A15 : FVec Ideal S768 .f32) (A16 : FVec Ideal S768x876 .f32) (A17 : FVec Ideal S768 .f32) (A18 : FVec Ideal S768x768 .f32) (A19 : FVec Ideal S768x768 .f32) (A20 : FVec Ideal S768 .f32) (A21 : FVec Ideal S768 .f32) (A22 : FVec Ideal S768x2304 .f32) (A23 : FVec Ideal S768 .f32) (A24 : FVec Ideal S768x768 .f32) (A25 : FVec Ideal S768 .f32)
    (Z1 Z2 Z3 : S8192x768.Idx → EReal)
    (h0 : ∀ i, ∃ r : ℝ, A0 i = (r : EReal)) (h1 : ∀ i, ∃ r : ℝ, A1 i = (r : EReal)) (h4 : ∀ i, ∃ r : ℝ, A4 i = (r : EReal)) (h5 : ∀ i, ∃ r : ℝ, A5 i = (r : EReal)) (h6 : ∀ i, ∃ r : ℝ, A6 i = (r : EReal)) (h8 : ∀ i, ∃ r : ℝ, A8 i = (r : EReal)) (h9 : ∀ i, ∃ r : ℝ, A9 i = (r : EReal)) (h10 : ∀ i, ∃ r : ℝ, A10 i = (r : EReal)) (h11 : ∀ i, ∃ r : ℝ, A11 i = (r : EReal)) (h12 : ∀ i, ∃ r : ℝ, A12 i = (r : EReal)) (h14 : ∀ i, ∃ r : ℝ, A14 i = (r : EReal)) (h15 : ∀ i, ∃ r : ℝ, A15 i = (r : EReal)) (h16 : ∀ i, ∃ r : ℝ, A16 i = (r : EReal)) (h17 : ∀ i, ∃ r : ℝ, A17 i = (r : EReal)) (h18 : ∀ i, ∃ r : ℝ, A18 i = (r : EReal)) (h20 : ∀ i, ∃ r : ℝ, A20 i = (r : EReal)) (h21 : ∀ i, ∃ r : ℝ, A21 i = (r : EReal))
    (e1 : ∀ n j, Z1 (ix2 n j) = (zed (hid (msgs A1 A2) A0 A4 A5) A6) n j)
    (e2 : ∀ n j, Z2 (ix2 n j) = (zed (hid (msgs A1 A2) A0 A10 A11) A12) n j)
    (e3 : ∀ n j, Z3 (ix2 n j) = (zed (hid (msgs A1 A2) A0 A16 A17) A18) n j) :
    (fun i : S8192x768.Idx => headK (fun n j => Z1 (ix2 n j)) (fun n j => Z2 (ix2 n j)) (fun n j => Z3 (ix2 n j))
      A7 A13 A19 A8 A9 A14 A15 A20 A21 A22 A23 A3 A24 A25 (i 0) (i 1)) = result A0 A1 A2 A3 A4 A5 A6 A7 A8 A9 A10 A11 A12 A13 A14 A15 A16 A17 A18 A19 A20 A21 A22 A23 A24 A25 := by
  have f1 : (fun (n : Fin 8192) (j : Fin 768) => Z1 (ix2 n j)) = (zed (hid (msgs A1 A2) A0 A4 A5) A6) := funext fun n => funext fun j => e1 n j
  have f2 : (fun (n : Fin 8192) (j : Fin 768) => Z2 (ix2 n j)) = (zed (hid (msgs A1 A2) A0 A10 A11) A12) := funext fun n => funext fun j => e2 n j
  have f3 : (fun (n : Fin 8192) (j : Fin 768) => Z3 (ix2 n j)) = (zed (hid (msgs A1 A2) A0 A16 A17) A18) := funext fun n => funext fun j => e3 n j
  have hM := msgs_real A1 A2 h1
  rw [f1, f2, f3]
  funext i
  unfold result
  rw [headK_eq_headR _ _ _ _ _ _ _ _ _ _ _ _ _ _ _ _ _
    (zed_real _ _ _ _ _ hM h0 h4 h5 h6) (zed_real _ _ _ _ _ hM h0 h10 h11 h12) (zed_real _ _ _ _ _ hM h0 h16 h17 h18)
    h8 h9 h14 h15 h20 h21]

end Cert.Spec

end
-- ==== Proof.PreFinite.lean ====
/-
  The precondition read back: it is the conjunction, over the twenty-five float arguments, of "every entry's absolute
  value is below +inf", each conjunct a reduction by `and` over all axes. A reduction by `and` that is 1 met only ones;
  an extended real whose absolute value is below +inf is neither infinity, so it is a real number.
-/
import proofs.«165818_j2173253452173_2_alg».proof.Pre_finite_inputs
import proofs.«165818_j2173253452173_2_alg».proof.Proof.Gen.Pre_finite_inputs
import Idealize.ShloMosaic.PureOps.Ideal.Laws
import Idealize.ShloMosaic.Lib.ReduceAll
import Idealize.ShloMosaic.Lib.ValueIdx

noncomputable section

namespace Cert.PreFinite

open Idealize.ShloMosaic Idealize.ShloMosaic.ValueIdx Cert.Pre_finite_inputs

/-- The pattern of +inf denotes the top element. -/
theorem ofBits_inf : Ideal.ofBits .f32 0x7F800000#32 = (⊤ : EReal) := by
  simp [Ideal.ofBits, Ideal.ieee]

/-- An extended real whose absolute value compares below +inf is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  have h' : max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h; exact absurd h (by decide)
  induction x using EReal.rec with
  | bot => exact absurd h' (by simp)
  | coe r => exact ⟨r, rfl⟩
  | top => exact absurd h' (by simp)

instance : Subsingleton S_.Idx := ⟨fun a b => funext fun d => d.elim0⟩

/-- One conjunct: the reduction by `and` of "absolute value below +inf" being 1 makes every entry a real. -/
theorem real_of_all {s : Shape} {axes : List (Fin s.rank)} (x : FVec Ideal s .f32) (hb : S_.BroadcastsInDim s ![])
    (hr : s.ReducesTo axes S_) (h0 : 0 < S_.numel)
    (h : Host.reduce IntOp.andi (cmpf .olt (Host.absf x) (broadcastInDim s ![] hb (constant S_ .f32 0x7F800000#32)))
      (constantI S_ 1 1#1) hr h0 ix0 = 1#1) (i : s.Idx) : ∃ r : ℝ, x i = (r : EReal) :=
  real_of_abs_lt (x i) (Host.reduce_andi_all _ _ hr h0 ix0 h i)

/-- The precondition makes every entry of every float argument a real number. -/
theorem all_real (a0 : FVec Ideal S8192x768 .f32) (a1 : FVec Ideal S131072x876 .f32) (a2 : IVec S131072 32) (a3 : FVec Ideal S8192x768 .f32) (a4 : FVec Ideal S768x876 .f32) (a5 : FVec Ideal S768 .f32) (a6 : FVec Ideal S768x768 .f32) (a7 : FVec Ideal S768x768 .f32) (a8 : FVec Ideal S768 .f32) (a9 : FVec Ideal S768 .f32) (a10 : FVec Ideal S768x876 .f32) (a11 : FVec Ideal S768 .f32) (a12 : FVec Ideal S768x768 .f32) (a13 : FVec Ideal S768x768 .f32) (a14 : FVec Ideal S768 .f32) (a15 : FVec Ideal S768 .f32) (a16 : FVec Ideal S768x876 .f32) (a17 : FVec Ideal S768 .f32) (a18 : FVec Ideal S768x768 .f32) (a19 : FVec Ideal S768x768 .f32) (a20 : FVec Ideal S768 .f32) (a21 : FVec Ideal S768 .f32) (a22 : FVec Ideal S768x2304 .f32) (a23 : FVec Ideal S768 .f32) (a24 : FVec Ideal S768x768 .f32) (a25 : FVec Ideal S768 .f32)
    (h : fn (F := Ideal) a0 a1 a2 a3 a4 a5 a6 a7 a8 a9 a10 a11 a12 a13 a14 a15 a16 a17 a18 a19 a20 a21 a22 a23 a24 a25 = fun _ => 1#1) :
    (∀ i, ∃ r : ℝ, a0 i = (r : EReal))
      ∧ (∀ i, ∃ r : ℝ, a1 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal))
      ∧ (∀ i, ∃ r : ℝ, a19 i = (r : EReal))
      ∧ (∀ i, ∃ r : ℝ, a20 i = (r : EReal))
      ∧ (∀ i, ∃ r : ℝ, a21 i = (r : EReal))
      ∧ (∀ i, ∃ r : ℝ, a22 i = (r : EReal))
      ∧ (∀ i, ∃ r : ℝ, a23 i = (r : EReal))
      ∧ (∀ i, ∃ r : ℝ, a24 i = (r : EReal))
      ∧ (∀ i, ∃ r : ℝ, a25 i = (r : EReal)) := by
  have h0 := congrFun h ix0
  dsimp only [fn, fn_part1, fn_part2, fn_part3, fn_part4, fn_part5, fn_part6, fn_part7, andi] at h0
  simp only [IntOp.andi_eq_one] at h0
  obtain ⟨⟨⟨⟨⟨⟨⟨⟨⟨⟨⟨⟨⟨⟨⟨⟨⟨⟨⟨⟨⟨⟨⟨⟨h0, h1⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩ := h0
  exact ⟨real_of_all _ _ _ _ h0, real_of_all _ _ _ _ h1, real_of_all _ _ _ _ h3, real_of_all _ _ _ _ h4, real_of_all _ _ _ _ h5, real_of_all _ _ _ _ h6, real_of_all _ _ _ _ h7, real_of_all _ _ _ _ h8, real_of_all _ _ _ _ h9, real_of_all _ _ _ _ h10, real_of_all _ _ _ _ h11, real_of_all _ _ _ _ h12, real_of_all _ _ _ _ h13, real_of_all _ _ _ _ h14, real_of_all _ _ _ _ h15, real_of_all _ _ _ _ h16, real_of_all _ _ _ _ h17, real_of_all _ _ _ _ h18, real_of_all _ _ _ _ h19, real_of_all _ _ _ _ h20, real_of_all _ _ _ _ h21, real_of_all _ _ _ _ h22, real_of_all _ _ _ _ h23, real_of_all _ _ _ _ h24, real_of_all _ _ _ _ h25⟩

end Cert.PreFinite

end
-- ==== Proof.KerRun.lean ====
import proofs.«165818_j2173253452173_2_alg».proof.Proof.Gen.KernelIdeal.Frame

/-!
# The kernel program's run, with its result named

The program is nineteen segments: ten stretches of host operations, the first blocked
kernel, seven stretches of host operations, the second blocked kernel.  Every execution
terminates, the twenty-six argument arrays end as launched, and the result buffer ends at
the contents `Gen.W19` gives it: the fold of every segment's effect from the launch memory.
-/

set_option maxRecDepth 16384

noncomputable section

namespace Cert.KernelIdeal.KerVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without fault; in every final state
    the result buffer holds the last boundary's contents and each argument array is as launched. -/
theorem run_named : θ_run defs (onTc (τ := τ) (main (F := F))) ⟨m, fun _ => 0, ρ⟩ (fun r => ∀ c : Dev nD,
      r.2.mem ((c.tc : Thread nD τ).loc main_v82) = W19 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v82 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c),
       (h c _ (mem_uc main_arg19 (by decide))).trans (W19_main_arg19 m ρ c),
       (h c _ (mem_uc main_arg20 (by decide))).trans (W19_main_arg20 m ρ c),
       (h c _ (mem_uc main_arg21 (by decide))).trans (W19_main_arg21 m ρ c),
       (h c _ (mem_uc main_arg22 (by decide))).trans (W19_main_arg22 m ρ c),
       (h c _ (mem_uc main_arg23 (by decide))).trans (W19_main_arg23 m ρ c),
       (h c _ (mem_uc main_arg24 (by decide))).trans (W19_main_arg24 m ρ c),
       (h c _ (mem_uc main_arg25 (by decide))).trans (W19_main_arg25 m ρ c)⟩)

end Cert.KernelIdeal.KerVal

end
-- ==== Proof.KerPayload1.lean ====
import proofs.«165818_j2173253452173_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueIdxCoords
import Idealize.ShloMosaic.Lib.Pipeline.Value

/-!
# The second kernel's body at an index

Over the extended reals every format change is the identity and a product into the zero
accumulator is the plain sum over the shared axis.  So the value the body stores at row p and
column q of its block depends on row p of the three z blocks and of the mask block and on the
whole small arrays: each z row is scaled, shifted and rectified and multiplied into its
matrix; the three results go through their three head matrices and are added in order with
the bias; that is rectified, multiplied by the mask row, multiplied into the last matrix, and
the last bias is added.
-/

set_option maxRecDepth 16384

noncomputable section

namespace Cert.KernelIdeal.KerVal

open Idealize.ShloMosaic Idealize.ShloMosaic.ValueIdx
open Cert.KernelIdeal Cert.KernelIdeal.Gen

/-- The float zero as both programs print it. -/
abbrev zero32 : EReal := Ideal.ofBits .f32 0x00000000#32

local notation "D768" => dot_S512x768_S768x768_S512x768_1_0_0_1_n_n

theorem lhs_0 (i : S512x768.Idx) (c : (D768).contr.Idx) : ((D768).lhsIdx i c 0).val = (i 0).val := by
  unfold DotDims.lhsIdx
  rw [dif_neg (show ¬(0 : Fin S512x768.rank) ∈ (D768).lhsBatch by decide), dif_pos (show (0 : Fin S512x768.rank) ∈ (D768).lhsNonContracting by decide)]
  rfl
theorem lhs_1 (i : S512x768.Idx) (c : (D768).contr.Idx) : ((D768).lhsIdx i c 1).val = (c ⟨0, by decide⟩).val :=
  (D768).lhsIdx_val_of_single rfl i c
theorem rhs_0 (i : S512x768.Idx) (c : (D768).contr.Idx) : ((D768).rhsIdx i c 0).val = (c ⟨0, by decide⟩).val :=
  (D768).rhsIdx_val_of_single rfl i c
theorem rhs_1 (i : S512x768.Idx) (c : (D768).contr.Idx) : ((D768).rhsIdx i c 1).val = (i 1).val := by
  unfold DotDims.rhsIdx
  rw [dif_neg (show ¬(1 : Fin S768x768.rank) ∈ (D768).rhsBatch by decide), dif_pos (show (1 : Fin S768x768.rank) ∈ (D768).rhsNonContracting by decide)]
  rfl

/-- A [512,768] by [768,768] product into the zero accumulator, at row p and column q: the sum over the shared axis. -/
theorem mm768 (A : FVec Ideal S512x768 .bf16) (B : FVec Ideal S768x768 .bf16) (p : Fin 512) (q : Fin 768) :
    matmul D768 none A B (constant S512x768 .f32 0x00000000#32) (ix2 p q)
      = ∑ k : Fin 768, A (ix2 p k) * B (ix2 k q) := by
  refine (Ideal.matmul_constant_zero_apply D768 none A B (ix2 p q)).trans ?_
  rw [← Equiv.sum_comp (contrEquiv1 D768 768 rfl rfl).symm]
  refine Finset.sum_congr rfl fun k _ => ?_
  have hk := contrEquiv1_symm_val D768 768 rfl rfl k
  have el : (D768).lhsIdx (ix2 p q) ((contrEquiv1 D768 768 rfl rfl).symm k) = ix2 p k := funext fun a => Fin.ext (by
    match a with
    | ⟨0, _⟩ => exact lhs_0 _ _
    | ⟨1, _⟩ => exact (lhs_1 _ _).trans hk)
  have er : (D768).rhsIdx (ix2 p q) ((contrEquiv1 D768 768 rfl rfl).symm k) = ix2 k q := funext fun a => Fin.ext (by
    match a with
    | ⟨0, _⟩ => exact (rhs_0 _ _).trans hk
    | ⟨1, _⟩ => exact rhs_1 _ _)
  rw [el, er]

/-- A [1,768] row broadcast over 512 rows, read at (p, k). -/
theorem bcast_row (v : FVec Ideal S1x768 .f32) (p : Fin 512) (k : Fin 768) :
    broadcastTo S512x768 v broadcasts_S1x768_S512x768 (ix2 p k) = v (ix2 0 k) := by
  refine broadcastTo_apply v _ (ix2 p k) (ix2 0 k) fun a => ?_
  match a with
  | ⟨0, _⟩ => rfl
  | ⟨1, _⟩ => rfl

/-- One branch at a row: the row of z scaled, shifted and rectified, against a [768,768] matrix. -/
def rowO (z : Fin 768 → EReal) (sc sh : Vec Ideal S1x768 .f32) (WbT : Vec Ideal S768x768 .bf16) : Fin 768 → EReal :=
  fun l => ∑ k : Fin 768, max (z k * sc (ix2 0 k) + sh (ix2 0 k)) zero32 * WbT (ix2 k l)

/-- The first head layer at a row: the three branch rows against their matrices, added in order, plus the bias. -/
def rowA (o1 o2 o3 : Fin 768 → EReal) (W1 W2 W3 : Vec Ideal S768x768 .bf16) (b : Vec Ideal S1x768 .f32) : Fin 768 → EReal :=
  fun k => (((∑ l : Fin 768, o1 l * W1 (ix2 l k)) + ∑ l : Fin 768, o2 l * W2 (ix2 l k))
    + ∑ l : Fin 768, o3 l * W3 (ix2 l k)) + b (ix2 0 k)

/-- The second head layer at a row: the rectified first layer times the mask row, against the last matrix, plus the bias. -/
def rowOut (a d : Fin 768 → EReal) (L2 : Vec Ideal S768x768 .bf16) (b2 : Vec Ideal S1x768 .f32) : Fin 768 → EReal :=
  fun j => (∑ k : Fin 768, (max (a k) zero32 * d k) * L2 (ix2 k j)) + b2 (ix2 0 j)

/-- One output row from the three z rows, the mask row and the small arrays. -/
def rowK (r0 r1 r2 : Fin 768 → EReal) (x3 x4 x5 x6 x7 x8 : Vec Ideal S1x768 .f32)
    (x9 x10 x11 x12 x13 x14 : Vec Ideal S768x768 .bf16) (x15 : Vec Ideal S1x768 .f32) (x16 : Vec Ideal S768x768 .bf16)
    (x17 : Vec Ideal S1x768 .f32) (r18 : Fin 768 → EReal) : Fin 768 → EReal :=
  rowOut (rowA (rowO r0 x3 x4 x9) (rowO r1 x5 x6 x10) (rowO r2 x7 x8 x11) x12 x13 x14 x15) r18 x16 x17

/-- The activation of a half-width block: widen, scale, shift, rectify, narrow — the widening and narrowing are the identity. -/
theorem act_apply (v0 : Vec Ideal S512x768 .bf16) (v3 v7 : Vec Ideal S1x768 .f32) (p : Fin 512) (k : Fin 768) :
    (truncf .bf16
        (maximumf
          (addf
            (mulf (extf .f32 (shapeCast S512x768 v0 shapeCasts_S512x768_S512x768) bitsLt_bf16_f32)
              (broadcastTo S512x768 (shapeCast S1x768 v3 shapeCasts_S1x768_S1x768) broadcasts_S1x768_S512x768))
            (broadcastTo S512x768 (shapeCast S1x768 v7 shapeCasts_S1x768_S1x768) broadcasts_S1x768_S512x768))
          (broadcast S512x768 (FloatOps.ofBits (F := Ideal) .f32 0#32)))
        bitsLt_bf16_f32 : FVec Ideal S512x768 .bf16) (ix2 p k)
      = max (v0 (ix2 p k) * v3 (ix2 0 k) + v7 (ix2 0 k)) zero32 := by
  rw [shapeCast_self, shapeCast_self, shapeCast_self]
  show max (v0 (ix2 p k) * broadcastTo S512x768 v3 broadcasts_S1x768_S512x768 (ix2 p k)
      + broadcastTo S512x768 v7 broadcasts_S1x768_S512x768 (ix2 p k)) zero32 = _
  rw [bcast_row, bcast_row]

/-- The same activation of a block already widened. -/
theorem act3_apply (v36 : FVec Ideal S512x768 .f32) (v3 v7 : Vec Ideal S1x768 .f32) (p : Fin 512) (k : Fin 768) :
    (truncf .bf16
        (maximumf
          (addf
            (mulf v36
              (broadcastTo S512x768 (shapeCast S1x768 v3 shapeCasts_S1x768_S1x768) broadcasts_S1x768_S512x768))
            (broadcastTo S512x768 (shapeCast S1x768 v7 shapeCasts_S1x768_S1x768) broadcasts_S1x768_S512x768))
          (broadcast S512x768 (FloatOps.ofBits (F := Ideal) .f32 0#32)))
        bitsLt_bf16_f32 : FVec Ideal S512x768 .bf16) (ix2 p k)
      = max (v36 (ix2 p k) * v3 (ix2 0 k) + v7 (ix2 0 k)) zero32 := by
  rw [shapeCast_self, shapeCast_self]
  show max (v36 (ix2 p k) * broadcastTo S512x768 v3 broadcasts_S1x768_S512x768 (ix2 p k)
      + broadcastTo S512x768 v7 broadcasts_S1x768_S512x768 (ix2 p k)) zero32 = _
  rw [bcast_row, bcast_row]

theorem pay2_apply (v0 : Vec Ideal S512x768 .bf16) (v3 v7 : Vec Ideal S1x768 .f32) (v14 : Vec Ideal S768x768 .bf16) (p : Fin 512) (l : Fin 768) :
    k1_pay2 v0 v3 v7 v14 (ix2 p l) = rowO (fun k => v0 (ix2 p k)) v3 v7 v14 l := by
  unfold k1_pay2 rowO
  refine (mm768 _ _ p l).trans ?_
  refine Finset.sum_congr rfl fun k _ => ?_
  rw [shapeCast_self (v := v14)]
  exact congrArg (· * v14 (ix2 k l)) (act_apply v0 v3 v7 p k)

theorem pay3_apply (v0 : Vec Ideal S512x768 .bf16) (v3 v7 : Vec Ideal S1x768 .f32) (v14 : Vec Ideal S768x768 .bf16) (p : Fin 512) (l : Fin 768) :
    k1_pay3 v0 v3 v7 v14 (ix2 p l) = rowO (fun k => v0 (ix2 p k)) v3 v7 v14 l := by
  unfold k1_pay3 rowO
  refine (mm768 _ _ p l).trans ?_
  refine Finset.sum_congr rfl fun k _ => ?_
  rw [shapeCast_self (v := v14)]
  exact congrArg (· * v14 (ix2 k l)) (act_apply v0 v3 v7 p k)

theorem pay4_apply (v34 : Vec Ideal S512x768 .bf16) (p : Fin 512) (l : Fin 768) : k1_pay4 v34 (ix2 p l) = v34 (ix2 p l) := by
  unfold k1_pay4
  rw [shapeCast_self]
  rfl

theorem pay5_apply (v16 v33 v36 : FVec Ideal S512x768 .f32) (v37 v41 : Vec Ideal S1x768 .f32) (v48 v52 v56 v61 : Vec Ideal S768x768 .bf16)
    (v65 : Vec Ideal S1x768 .f32) (v71 : Vec Ideal S512x768 .f32) (p : Fin 512) (k : Fin 768) :
    k1_pay5 v16 v33 v36 v37 v41 v48 v52 v56 v61 v65 v71 (ix2 p k)
      = max (rowA (fun l => v16 (ix2 p l)) (fun l => v33 (ix2 p l)) (rowO (fun l => v36 (ix2 p l)) v37 v41 v48) v52 v56 v61 v65 k) zero32
          * v71 (ix2 p k) := by
  unfold k1_pay5 rowA
  rw [shapeCast_self (v := v52), shapeCast_self (v := v56), shapeCast_self (v := v61), shapeCast_self (v := v65)]
  show max ((((matmul D768 none (truncf .bf16 v16 bitsLt_bf16_f32) v52 (constant S512x768 .f32 0x00000000#32) (ix2 p k)
      + matmul D768 none (truncf .bf16 v33 bitsLt_bf16_f32) v56 (constant S512x768 .f32 0x00000000#32) (ix2 p k))
      + matmul D768 none _ v61 (constant S512x768 .f32 0x00000000#32) (ix2 p k))
      + broadcastTo S512x768 v65 broadcasts_S1x768_S512x768 (ix2 p k))) zero32 * v71 (ix2 p k) = _
  rw [mm768, mm768, mm768, bcast_row]
  refine congrArg (fun x => max x zero32 * v71 (ix2 p k)) ?_
  refine congrArg (· + v65 (ix2 0 k)) ?_
  refine congrArg₂ (· + ·) rfl ?_
  refine Finset.sum_congr rfl fun l _ => ?_
  refine congrArg (· * v61 (ix2 l k)) ?_
  unfold rowO
  refine (mm768 _ _ p l).trans ?_
  refine Finset.sum_congr rfl fun k' _ => ?_
  rw [shapeCast_self (v := v48)]
  exact congrArg (· * v48 (ix2 k' l)) (act3_apply v36 v37 v41 p k')

theorem pay1_apply (v73 : FVec Ideal S512x768 .bf16) (v74 : Vec Ideal S768x768 .bf16) (v77 : Vec Ideal S1x768 .f32) (p : Fin 512) (q : Fin 768) :
    k1_pay1 v73 v74 v77 (ix2 p q) = (∑ k : Fin 768, v73 (ix2 p k) * v74 (ix2 k q)) + v77 (ix2 0 q) := by
  unfold k1_pay1
  rw [shapeCast_self (v := v74), shapeCast_self (v := v77)]
  show matmul D768 none v73 v74 (constant S512x768 .f32 0x00000000#32) (ix2 p q)
      + broadcastTo S512x768 v77 broadcasts_S1x768_S512x768 (ix2 p q) = _
  rw [mm768, bcast_row]

/-- THE BODY'S RESULT AT ROW p AND COLUMN q of a block: the row function of the three z rows and the mask row at p. -/
theorem pay_apply (x0 x1 x2 : Vec Ideal S512x768 .bf16) (x3 x4 x5 x6 x7 x8 : Vec Ideal S1x768 .f32)
    (x9 x10 x11 x12 x13 x14 : Vec Ideal S768x768 .bf16) (x15 : Vec Ideal S1x768 .f32) (x16 : Vec Ideal S768x768 .bf16)
    (x17 : Vec Ideal S1x768 .f32) (x18 : Vec Ideal S512x768 .f32) (p : Fin 512) (q : Fin 768) :
    k1_pay1 (k1_pay5 (k1_pay2 x0 x3 x4 x9) (k1_pay3 x1 x5 x6 x10) (k1_pay4 x2) x7 x8 x11 x12 x13 x14 x15 x18) x16 x17 (ix2 p q)
      = rowK (fun k => x0 (ix2 p k)) (fun k => x1 (ix2 p k)) (fun k => x2 (ix2 p k)) x3 x4 x5 x6 x7 x8 x9 x10 x11 x12 x13 x14 x15 x16 x17
          (fun k => x18 (ix2 p k)) q := by
  refine (pay1_apply _ x16 x17 p q).trans ?_
  unfold rowK rowOut
  refine congrArg (· + x17 (ix2 0 q)) ?_
  refine Finset.sum_congr rfl fun k _ => ?_
  refine congrArg (· * x16 (ix2 k q)) ?_
  refine (pay5_apply _ _ _ x7 x8 x11 x12 x13 x14 x15 x18 p k).trans ?_
  have e1 : (fun l => k1_pay2 x0 x3 x4 x9 (ix2 p l)) = rowO (fun k => x0 (ix2 p k)) x3 x4 x9 := funext fun l => pay2_apply x0 x3 x4 x9 p l
  have e2 : (fun l => k1_pay3 x1 x5 x6 x10 (ix2 p l)) = rowO (fun k => x1 (ix2 p k)) x5 x6 x10 := funext fun l => pay3_apply x1 x5 x6 x10 p l
  have e3 : (fun l => k1_pay4 x2 (ix2 p l)) = fun l => x2 (ix2 p l) := funext fun l => pay4_apply x2 p l
  rw [e1, e2, e3]

end Cert.KernelIdeal.KerVal

end
-- ==== Proof.KerRegion1.lean ====
import proofs.«165818_j2173253452173_2_alg».proof.Proof.Gen.KernelIdeal.Frame
import proofs.«165818_j2173253452173_2_alg».proof.Proof.KerPayload1
import Idealize.ShloMosaic.Lib.Pipeline.Value
import Idealize.ShloMosaic.Lib.Tactic

/-!
# The second kernel's output array as one function of its input arrays

The grid has sixteen points.  At point t the three z windows, the mask window and the output
window hold rows 512·t … 512·t + 511 of their [8192,768] arrays, and every small window holds
its whole array.  The body's result at row p of its block is the row function of row
512·t + p of the big arrays; the sixteen blocks tile the output array, so after the last point
the array holds that row function everywhere.  All of it is stated at ANY contents the
kernel may find in its buffers when it is entered.
-/

set_option maxRecDepth 16384

noncomputable section

namespace Cert.KernelIdeal.KerVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole output array from the nineteen input arrays: row (i 0) of the big ones, the small ones whole, column (i 1). -/
def G1 (a0 a1 a2 : S8192x768.Idx → EReal) (a3 a4 a5 a6 a7 a8 : Vec Ideal S1x768 .f32)
    (a9 a10 a11 a12 a13 a14 : Vec Ideal S768x768 .bf16) (a15 : Vec Ideal S1x768 .f32) (a16 : Vec Ideal S768x768 .bf16)
    (a17 : Vec Ideal S1x768 .f32) (a18 : S8192x768.Idx → EReal) : S8192x768.Idx → EReal := fun i =>
  rowK (fun k => a0 (ix2 (i 0) k)) (fun k => a1 (ix2 (i 0) k)) (fun k => a2 (ix2 (i 0) k)) a3 a4 a5 a6 a7 a8 a9 a10 a11 a12 a13 a14 a15 a16 a17
    (fun k => a18 (ix2 (i 0) k)) (i 1)

/-- The block indices over the grid: a big window's block at point t is block t along the rows and the only one along the
    columns; a small window's block is its whole array at every point. -/
theorem idx_facts : ∀ t : Fin cfg1.N, win1_19.index t (0 : Fin 2) = t.val
    ∧ win1_19.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_18.index t (0 : Fin 2) = t.val
    ∧ win1_18.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0
    ∧ win1_14.index t (0 : Fin 2) = 0
    ∧ win1_14.index t (1 : Fin 2) = 0
    ∧ win1_15.index t (0 : Fin 2) = 0
    ∧ win1_15.index t (1 : Fin 2) = 0
    ∧ win1_16.index t (0 : Fin 2) = 0
    ∧ win1_16.index t (1 : Fin 2) = 0
    ∧ win1_17.index t (0 : Fin 2) = 0
    ∧ win1_17.index t (1 : Fin 2) = 0 :=
  (by decide +kernel : ∀ t : Fin grid1.N, _)

theorem blk3 (c : Dev nD) (t : Fin cfg1.N) : (iblk1 V c 3 t : Vec Ideal S1x768 .f32) = V c main_v41 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v41 (((cfg1.win 3).blk t).view.emb y) = V c main_v41 y
  refine congrArg (V c main_v41) (funext fun a => Fin.ext ?_)
  match a with
  | ⟨0, _⟩ => show win1_3.index t (0 : Fin 2) * 1 + 1 * (y 0).val = (y 0).val; rw [f3_0]; omega
  | ⟨1, _⟩ => show win1_3.index t (1 : Fin 2) * 768 + 1 * (y 1).val = (y 1).val; rw [f3_1]; omega

theorem blk4 (c : Dev nD) (t : Fin cfg1.N) : (iblk1 V c 4 t : Vec Ideal S1x768 .f32) = V c main_v42 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v42 (((cfg1.win 4).blk t).view.emb y) = V c main_v42 y
  refine congrArg (V c main_v42) (funext fun a => Fin.ext ?_)
  match a with
  | ⟨0, _⟩ => show win1_4.index t (0 : Fin 2) * 1 + 1 * (y 0).val = (y 0).val; rw [f4_0]; omega
  | ⟨1, _⟩ => show win1_4.index t (1 : Fin 2) * 768 + 1 * (y 1).val = (y 1).val; rw [f4_1]; omega

theorem blk5 (c : Dev nD) (t : Fin cfg1.N) : (iblk1 V c 5 t : Vec Ideal S1x768 .f32) = V c main_v54 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v54 (((cfg1.win 5).blk t).view.emb y) = V c main_v54 y
  refine congrArg (V c main_v54) (funext fun a => Fin.ext ?_)
  match a with
  | ⟨0, _⟩ => show win1_5.index t (0 : Fin 2) * 1 + 1 * (y 0).val = (y 0).val; rw [f5_0]; omega
  | ⟨1, _⟩ => show win1_5.index t (1 : Fin 2) * 768 + 1 * (y 1).val = (y 1).val; rw [f5_1]; omega

theorem blk6 (c : Dev nD) (t : Fin cfg1.N) : (iblk1 V c 6 t : Vec Ideal S1x768 .f32) = V c main_v55 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v55 (((cfg1.win 6).blk t).view.emb y) = V c main_v55 y
  refine congrArg (V c main_v55) (funext fun a => Fin.ext ?_)
  match a with
  | ⟨0, _⟩ => show win1_6.index t (0 : Fin 2) * 1 + 1 * (y 0).val = (y 0).val; rw [f6_0]; omega
  | ⟨1, _⟩ => show win1_6.index t (1 : Fin 2) * 768 + 1 * (y 1).val = (y 1).val; rw [f6_1]; omega

theorem blk7 (c : Dev nD) (t : Fin cfg1.N) : (iblk1 V c 7 t : Vec Ideal S1x768 .f32) = V c main_v67 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v67 (((cfg1.win 7).blk t).view.emb y) = V c main_v67 y
  refine congrArg (V c main_v67) (funext fun a => Fin.ext ?_)
  match a with
  | ⟨0, _⟩ => show win1_7.index t (0 : Fin 2) * 1 + 1 * (y 0).val = (y 0).val; rw [f7_0]; omega
  | ⟨1, _⟩ => show win1_7.index t (1 : Fin 2) * 768 + 1 * (y 1).val = (y 1).val; rw [f7_1]; omega

theorem blk8 (c : Dev nD) (t : Fin cfg1.N) : (iblk1 V c 8 t : Vec Ideal S1x768 .f32) = V c main_v68 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v68 (((cfg1.win 8).blk t).view.emb y) = V c main_v68 y
  refine congrArg (V c main_v68) (funext fun a => Fin.ext ?_)
  match a with
  | ⟨0, _⟩ => show win1_8.index t (0 : Fin 2) * 1 + 1 * (y 0).val = (y 0).val; rw [f8_0]; omega
  | ⟨1, _⟩ => show win1_8.index t (1 : Fin 2) * 768 + 1 * (y 1).val = (y 1).val; rw [f8_1]; omega

theorem blk9 (c : Dev nD) (t : Fin cfg1.N) : (iblk1 V c 9 t : Vec Ideal S768x768 .bf16) = V c main_v21 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v21 (((cfg1.win 9).blk t).view.emb y) = V c main_v21 y
  refine congrArg (V c main_v21) (funext fun a => Fin.ext ?_)
  match a with
  | ⟨0, _⟩ => show win1_9.index t (0 : Fin 2) * 768 + 1 * (y 0).val = (y 0).val; rw [f9_0]; omega
  | ⟨1, _⟩ => show win1_9.index t (1 : Fin 2) * 768 + 1 * (y 1).val = (y 1).val; rw [f9_1]; omega

theorem blk10 (c : Dev nD) (t : Fin cfg1.N) : (iblk1 V c 10 t : Vec Ideal S768x768 .bf16) = V c main_v23 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v23 (((cfg1.win 10).blk t).view.emb y) = V c main_v23 y
  refine congrArg (V c main_v23) (funext fun a => Fin.ext ?_)
  match a with
  | ⟨0, _⟩ => show win1_10.index t (0 : Fin 2) * 768 + 1 * (y 0).val = (y 0).val; rw [f10_0]; omega
  | ⟨1, _⟩ => show win1_10.index t (1 : Fin 2) * 768 + 1 * (y 1).val = (y 1).val; rw [f10_1]; omega

theorem blk11 (c : Dev nD) (t : Fin cfg1.N) : (iblk1 V c 11 t : Vec Ideal S768x768 .bf16) = V c main_v25 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v25 (((cfg1.win 11).blk t).view.emb y) = V c main_v25 y
  refine congrArg (V c main_v25) (funext fun a => Fin.ext ?_)
  match a with
  | ⟨0, _⟩ => show win1_11.index t (0 : Fin 2) * 768 + 1 * (y 0).val = (y 0).val; rw [f11_0]; omega
  | ⟨1, _⟩ => show win1_11.index t (1 : Fin 2) * 768 + 1 * (y 1).val = (y 1).val; rw [f11_1]; omega

theorem blk12 (c : Dev nD) (t : Fin cfg1.N) : (iblk1 V c 12 t : Vec Ideal S768x768 .bf16) = V c main_v71 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v71 (((cfg1.win 12).blk t).view.emb y) = V c main_v71 y
  refine congrArg (V c main_v71) (funext fun a => Fin.ext ?_)
  match a with
  | ⟨0, _⟩ => show win1_12.index t (0 : Fin 2) * 768 + 1 * (y 0).val = (y 0).val; rw [f12_0]; omega
  | ⟨1, _⟩ => show win1_12.index t (1 : Fin 2) * 768 + 1 * (y 1).val = (y 1).val; rw [f12_1]; omega

theorem blk13 (c : Dev nD) (t : Fin cfg1.N) : (iblk1 V c 13 t : Vec Ideal S768x768 .bf16) = V c main_v74 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v74 (((cfg1.win 13).blk t).view.emb y) = V c main_v74 y
  refine congrArg (V c main_v74) (funext fun a => Fin.ext ?_)
  match a with
  | ⟨0, _⟩ => show win1_13.index t (0 : Fin 2) * 768 + 1 * (y 0).val = (y 0).val; rw [f13_0]; omega
  | ⟨1, _⟩ => show win1_13.index t (1 : Fin 2) * 768 + 1 * (y 1).val = (y 1).val; rw [f13_1]; omega

theorem blk14 (c : Dev nD) (t : Fin cfg1.N) : (iblk1 V c 14 t : Vec Ideal S768x768 .bf16) = V c main_v77 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v77 (((cfg1.win 14).blk t).view.emb y) = V c main_v77 y
  refine congrArg (V c main_v77) (funext fun a => Fin.ext ?_)
  match a with
  | ⟨0, _⟩ => show win1_14.index t (0 : Fin 2) * 768 + 1 * (y 0).val = (y 0).val; rw [f14_0]; omega
  | ⟨1, _⟩ => show win1_14.index t (1 : Fin 2) * 768 + 1 * (y 1).val = (y 1).val; rw [f14_1]; omega

theorem blk15 (c : Dev nD) (t : Fin cfg1.N) : (iblk1 V c 15 t : Vec Ideal S1x768 .f32) = V c main_v78 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v78 (((cfg1.win 15).blk t).view.emb y) = V c main_v78 y
  refine congrArg (V c main_v78) (funext fun a => Fin.ext ?_)
  match a with
  | ⟨0, _⟩ => show win1_15.index t (0 : Fin 2) * 1 + 1 * (y 0).val = (y 0).val; rw [f15_0]; omega
  | ⟨1, _⟩ => show win1_15.index t (1 : Fin 2) * 768 + 1 * (y 1).val = (y 1).val; rw [f15_1]; omega

theorem blk16 (c : Dev nD) (t : Fin cfg1.N) : (iblk1 V c 16 t : Vec Ideal S768x768 .bf16) = V c main_v80 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v80 (((cfg1.win 16).blk t).view.emb y) = V c main_v80 y
  refine congrArg (V c main_v80) (funext fun a => Fin.ext ?_)
  match a with
  | ⟨0, _⟩ => show win1_16.index t (0 : Fin 2) * 768 + 1 * (y 0).val = (y 0).val; rw [f16_0]; omega
  | ⟨1, _⟩ => show win1_16.index t (1 : Fin 2) * 768 + 1 * (y 1).val = (y 1).val; rw [f16_1]; omega

theorem blk17 (c : Dev nD) (t : Fin cfg1.N) : (iblk1 V c 17 t : Vec Ideal S1x768 .f32) = V c main_v81 := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  funext y
  show V c main_v81 (((cfg1.win 17).blk t).view.emb y) = V c main_v81 y
  refine congrArg (V c main_v81) (funext fun a => Fin.ext ?_)
  match a with
  | ⟨0, _⟩ => show win1_17.index t (0 : Fin 2) * 1 + 1 * (y 0).val = (y 0).val; rw [f17_0]; omega
  | ⟨1, _⟩ => show win1_17.index t (1 : Fin 2) * 768 + 1 * (y 1).val = (y 1).val; rw [f17_1]; omega

theorem row0 (c : Dev nD) (t : Fin cfg1.N) (p : Fin 512) (k : Fin 768) (r : Fin 8192) (hr : r.val = 512 * t.val + p.val) :
    (iblk1 V c 0 t : Vec Ideal S512x768 .bf16) (ix2 p k) = V c main_v29_0 (ix2 r k) := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  show V c main_v29_0 (((cfg1.win 0).blk t).view.emb (ix2 p k)) = V c main_v29_0 (ix2 r k)
  refine congrArg (V c main_v29_0) (funext fun a => Fin.ext ?_)
  match a with
  | ⟨0, _⟩ => show win1_0.index t (0 : Fin 2) * 512 + 1 * p.val = r.val; rw [f0_0, hr]; omega
  | ⟨1, _⟩ => show win1_0.index t (1 : Fin 2) * 768 + 1 * k.val = k.val; rw [f0_1]; omega

theorem row1 (c : Dev nD) (t : Fin cfg1.N) (p : Fin 512) (k : Fin 768) (r : Fin 8192) (hr : r.val = 512 * t.val + p.val) :
    (iblk1 V c 1 t : Vec Ideal S512x768 .bf16) (ix2 p k) = V c main_v29_1 (ix2 r k) := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  show V c main_v29_1 (((cfg1.win 1).blk t).view.emb (ix2 p k)) = V c main_v29_1 (ix2 r k)
  refine congrArg (V c main_v29_1) (funext fun a => Fin.ext ?_)
  match a with
  | ⟨0, _⟩ => show win1_1.index t (0 : Fin 2) * 512 + 1 * p.val = r.val; rw [f1_0, hr]; omega
  | ⟨1, _⟩ => show win1_1.index t (1 : Fin 2) * 768 + 1 * k.val = k.val; rw [f1_1]; omega

theorem row2 (c : Dev nD) (t : Fin cfg1.N) (p : Fin 512) (k : Fin 768) (r : Fin 8192) (hr : r.val = 512 * t.val + p.val) :
    (iblk1 V c 2 t : Vec Ideal S512x768 .bf16) (ix2 p k) = V c main_v29_2 (ix2 r k) := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  show V c main_v29_2 (((cfg1.win 2).blk t).view.emb (ix2 p k)) = V c main_v29_2 (ix2 r k)
  refine congrArg (V c main_v29_2) (funext fun a => Fin.ext ?_)
  match a with
  | ⟨0, _⟩ => show win1_2.index t (0 : Fin 2) * 512 + 1 * p.val = r.val; rw [f2_0, hr]; omega
  | ⟨1, _⟩ => show win1_2.index t (1 : Fin 2) * 768 + 1 * k.val = k.val; rw [f2_1]; omega

theorem row18 (c : Dev nD) (t : Fin cfg1.N) (p : Fin 512) (k : Fin 768) (r : Fin 8192) (hr : r.val = 512 * t.val + p.val) :
    (iblk1 V c 18 t : Vec Ideal S512x768 .f32) (ix2 p k) = V c main_arg3 (ix2 r k) := by
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  show V c main_arg3 (((cfg1.win 18).blk t).view.emb (ix2 p k)) = V c main_arg3 (ix2 r k)
  refine congrArg (V c main_arg3) (funext fun a => Fin.ext ?_)
  match a with
  | ⟨0, _⟩ => show win1_18.index t (0 : Fin 2) * 512 + 1 * p.val = r.val; rw [f18_0, hr]; omega
  | ⟨1, _⟩ => show win1_18.index t (1 : Fin 2) * 768 + 1 * k.val = k.val; rw [f18_1]; omega

/-- WHAT POINT t WRITES BACK is block t of the whole-array function. -/
theorem flushed_eq (c : Dev nD) (t : Fin cfg1.N) :
    (dat1 V c).flushed 19 t = ((cfg1.win 19).blk t).view.read (Elt Ideal) (G1 (V c main_v29_0) (V c main_v29_1) (V c main_v29_2) (V c main_v41) (V c main_v42) (V c main_v54) (V c main_v55) (V c main_v67) (V c main_v68) (V c main_v21) (V c main_v23) (V c main_v25) (V c main_v71) (V c main_v74) (V c main_v77) (V c main_v78) (V c main_v80) (V c main_v81) (V c main_arg3)) := by
  show (cfg1.win 19).cut (grid1.coords t) ((dat1 V c).after 19 t) = _
  rw [after1_19]
  unfold out1_19
  rw [View.canon_unit_zero hz]
  simp only [View.ld_unit_zero (S := S512x768) hz, View.ld_unit_zero (S := S1x768) hz, View.ld_unit_zero (S := S768x768) hz]
  funext j
  obtain ⟨p, q, rfl⟩ : ∃ (p : Fin 512) (q : Fin 768), j = ix2 p q := ⟨j 0, j 1, eq_ix2 j⟩
  have ht : t.val < 16 := lt_of_lt_of_eq t.isLt (show cfg1.N = 16 from N_1)
  obtain ⟨r, hr⟩ : ∃ r : Fin 8192, r.val = 512 * t.val + p.val := ⟨⟨512 * t.val + p.val, by have := p.isLt; omega⟩, rfl⟩
  have hE : ((cfg1.win 19).blk t).view.emb (ix2 p q) = (ix2 r q : S8192x768.Idx) := by
    obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
    refine funext fun a => Fin.ext ?_
    match a with
    | ⟨0, _⟩ => show win1_19.index t (0 : Fin 2) * 512 + 1 * p.val = r.val; rw [f19_0, hr]; omega
    | ⟨1, _⟩ => show win1_19.index t (1 : Fin 2) * 768 + 1 * q.val = q.val; rw [f19_1]; omega
  show k1_pay1 (k1_pay5 (k1_pay2 (iblk1 V c 0 t) (iblk1 V c 3 t) (iblk1 V c 4 t) (iblk1 V c 9 t))
          (k1_pay3 (iblk1 V c 1 t) (iblk1 V c 5 t) (iblk1 V c 6 t) (iblk1 V c 10 t)) (k1_pay4 (iblk1 V c 2 t))
          (iblk1 V c 7 t) (iblk1 V c 8 t) (iblk1 V c 11 t) (iblk1 V c 12 t) (iblk1 V c 13 t) (iblk1 V c 14 t)
          (iblk1 V c 15 t) (iblk1 V c 18 t)) (iblk1 V c 16 t) (iblk1 V c 17 t) (ix2 p q)
      = G1 (V c main_v29_0) (V c main_v29_1) (V c main_v29_2) (V c main_v41) (V c main_v42) (V c main_v54) (V c main_v55) (V c main_v67) (V c main_v68) (V c main_v21) (V c main_v23) (V c main_v25) (V c main_v71) (V c main_v74) (V c main_v77) (V c main_v78) (V c main_v80) (V c main_v81) (V c main_arg3) (((cfg1.win 19).blk t).view.emb (ix2 p q))
  rw [hE]
  refine (pay_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) p q).trans ?_
  rw [blk3 V c t, blk4 V c t, blk5 V c t, blk6 V c t, blk7 V c t, blk8 V c t, blk9 V c t, blk10 V c t, blk11 V c t, blk12 V c t, blk13 V c t, blk14 V c t, blk15 V c t, blk16 V c t, blk17 V c t]
  have e0 : (fun k => (iblk1 V c 0 t : Vec Ideal S512x768 .bf16) (ix2 p k)) = fun k => V c main_v29_0 (ix2 r k) := funext fun k => row0 V c t p k r hr
  have e1 : (fun k => (iblk1 V c 1 t : Vec Ideal S512x768 .bf16) (ix2 p k)) = fun k => V c main_v29_1 (ix2 r k) := funext fun k => row1 V c t p k r hr
  have e2 : (fun k => (iblk1 V c 2 t : Vec Ideal S512x768 .bf16) (ix2 p k)) = fun k => V c main_v29_2 (ix2 r k) := funext fun k => row2 V c t p k r hr
  have e18 : (fun k => (iblk1 V c 18 t : Vec Ideal S512x768 .f32) (ix2 p k)) = fun k => V c main_arg3 (ix2 r k) := funext fun k => row18 V c t p k r hr
  rw [e0, e1, e2, e18]
  rfl

/-- An index of the array is in point t's block iff each coordinate is in the block's range on its axis. -/
theorem mem_blk (t : Fin cfg1.N) (i : S8192x768.Idx) :
    i ∈ ((cfg1.win 19).blk t).view.set ↔ ∀ a : Fin 2, win1_19.index t a * S512x768.size a ≤ (i a).val ∧ (i a).val < win1_19.index t a * S512x768.size a + S512x768.size a := by
  show i ∈ ((View.whole main_v82).slice (win1_19.rect t)).set ↔ _
  rw [View.set_slice_whole, Rect.mem_set_unit]
  exact Iff.rfl

/-- Every index of the output array is in the block of the point its row falls in. -/
theorem cover (i : S8192x768.Idx) : ∃ t : Fin cfg1.N, (cfg1.win 19).flush t = true ∧ i ∈ ((cfg1.win 19).blk t).view.set := by
  have hi0 : (i 0).val < 8192 := (i 0).isLt
  have hi1 : (i 1).val < 768 := (i 1).isLt
  let t : Fin cfg1.N := ⟨(i 0).val / 512, by rw [show cfg1.N = 16 from N_1]; omega⟩
  have htv : t.val = (i 0).val / 512 := rfl
  obtain ⟨f19_0, f19_1, f0_0, f0_1, f1_0, f1_1, f2_0, f2_1, f18_0, f18_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, f16_0, f16_1, f17_0, f17_1⟩ := idx_facts t
  refine ⟨t, flush1_19 t, ?_⟩
  rw [mem_blk]
  intro a
  match a with
  | ⟨0, _⟩ => show win1_19.index t (0 : Fin 2) * 512 ≤ (i 0).val ∧ (i 0).val < win1_19.index t (0 : Fin 2) * 512 + 512; rw [f19_0, htv]; omega
  | ⟨1, _⟩ => show win1_19.index t (1 : Fin 2) * 768 ≤ (i 1).val ∧ (i 1).val < win1_19.index t (1 : Fin 2) * 768 + 768; rw [f19_1]; omega

/-- THE OUTPUT ARRAY after the last point: the whole-array function of the arrays the kernel found. -/
theorem final1 (c : Dev nD) : (dat1 V c).arrAt 19 cfg1.N = G1 (V c main_v29_0) (V c main_v29_1) (V c main_v29_2) (V c main_v41) (V c main_v42) (V c main_v54) (V c main_v55) (V c main_v67) (V c main_v68) (V c main_v21) (V c main_v23) (V c main_v25) (V c main_v71) (V c main_v74) (V c main_v77) (V c main_v78) (V c main_v80) (V c main_v81) (V c main_arg3) :=
  (dat1 V c).arrAt_eq_of_cover 19 _ (fun t _ => flushed_eq V c t) cover

end Cert.KernelIdeal.KerVal

end
-- ==== Proof.KerLayout1.lean ====
import proofs.«165818_j2173253452173_2_alg».proof.Proof.Gen.KernelIdeal.Frame
import Idealize.ShloMosaic.Lib.StableHlo.Run
import Idealize.ShloMosaic.Lib.ValueIdx
import Idealize.ShloMosaic.Lib.ValueIdxCoords
import Idealize.ShloMosaic.Lib.Pipeline.Value
import Idealize.ShloMosaic.Lib.Tactic

/-!
# The arrays the second kernel finds, apart from the scale and shift rows

Between the two kernels the host runs seven stretches of operations.  None of them writes the
first kernel's three outputs or an argument array, so those reach the second kernel as the
first kernel left them or as launched.  The three second-layer matrices of the branches were
transposed before the first kernel and are not touched afterwards.  The last stretch cuts the
first head matrix into three 768-column pieces and transposes each, transposes the second head
matrix, and reshapes the two head biases to one row.  Each is read here as a whole array and
then at an index: a transposed matrix at (p, l) is the matrix at (l, p), a piece at column l is
the matrix at column offset + l, a reshaped vector at (0, j) is the vector at j.
-/

set_option maxRecDepth 16384

noncomputable section

namespace Cert.KernelIdeal.KerVal

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ) (ρ : Dev nD → PrngReg)

/-! ## Buffers the seven stretches between the kernels do not write -/

set_option maxHeartbeats 2000000 in
theorem keep_v29_0 (c : Dev nD) : V18 m ρ c main_v29_0 = W11 m ρ c (Proc.devRef .tc main_v29_0) := by
    dsimp only [V18, W18]
    after_results
set_option maxHeartbeats 2000000 in
theorem keep_v29_1 (c : Dev nD) : V18 m ρ c main_v29_1 = W11 m ρ c (Proc.devRef .tc main_v29_1) := by
    dsimp only [V18, W18]
    after_results
set_option maxHeartbeats 2000000 in
theorem keep_v29_2 (c : Dev nD) : V18 m ρ c main_v29_2 = W11 m ρ c (Proc.devRef .tc main_v29_2) := by
    dsimp only [V18, W18]
    after_results

/-- An argument the first kernel does not stage holds at its exit what was launched. -/
theorem W11_arg3 (c : Dev nD) : W11 m ρ c (Proc.devRef .tc main_arg3) = (m ((c : Thread nD τ).loc main_arg3)) := by
  rw [W11_of_ne m ρ c main_arg3 (by decide)]
  show StableHlo.after hostOps0_9 (W9 m ρ c) (Proc.devRef .tc main_arg3) = _
  after_results
theorem W11_arg22 (c : Dev nD) : W11 m ρ c (Proc.devRef .tc main_arg22) = (m ((c : Thread nD τ).loc main_arg22)) := by
  rw [W11_of_ne m ρ c main_arg22 (by decide)]
  show StableHlo.after hostOps0_9 (W9 m ρ c) (Proc.devRef .tc main_arg22) = _
  after_results
theorem W11_arg23 (c : Dev nD) : W11 m ρ c (Proc.devRef .tc main_arg23) = (m ((c : Thread nD τ).loc main_arg23)) := by
  rw [W11_of_ne m ρ c main_arg23 (by decide)]
  show StableHlo.after hostOps0_9 (W9 m ρ c) (Proc.devRef .tc main_arg23) = _
  after_results
theorem W11_arg24 (c : Dev nD) : W11 m ρ c (Proc.devRef .tc main_arg24) = (m ((c : Thread nD τ).loc main_arg24)) := by
  rw [W11_of_ne m ρ c main_arg24 (by decide)]
  show StableHlo.after hostOps0_9 (W9 m ρ c) (Proc.devRef .tc main_arg24) = _
  after_results
theorem W11_arg25 (c : Dev nD) : W11 m ρ c (Proc.devRef .tc main_arg25) = (m ((c : Thread nD τ).loc main_arg25)) := by
  rw [W11_of_ne m ρ c main_arg25 (by decide)]
  show StableHlo.after hostOps0_9 (W9 m ρ c) (Proc.devRef .tc main_arg25) = _
  after_results

/-! ## The layout windows, whole -/

set_option maxHeartbeats 2000000 in
/-- The mask array reaches the second kernel as launched. -/
theorem V18_arg3 (c : Dev nD) : V18 m ρ c main_arg3 = (m ((c : Thread nD τ).loc main_arg3)) := by
  have h : V18 m ρ c main_arg3 = W11 m ρ c (Proc.devRef .tc main_arg3) := by
    dsimp only [V18, W18]
    after_results
  rw [h, W11_arg3]

set_option maxHeartbeats 2000000 in
/-- A branch's second matrix, transposed before the first kernel, is still there when the second is entered. -/
theorem V18_v21 (c : Dev nD) : @Eq (FVec Ideal S768x768 .bf16) (V18 m ρ c main_v21)
    (truncf .bf16 (transpose S768x768 [1, 0] (m ((c : Thread nD τ).loc main_arg7)) transposes_S768x768_S768x768_1_0) bitsLt_bf16_f32) := by
  have h : V18 m ρ c main_v21 = W11 m ρ c (Proc.devRef .tc main_v21) := by
    dsimp only [V18, W18]
    after_results
  rw [h, W11_of_ne m ρ c main_v21 (by decide)]
  show StableHlo.after hostOps0_9 (W9 m ρ c) (Proc.devRef .tc main_v21) = _
  after_results
set_option maxHeartbeats 2000000 in
/-- A branch's second matrix, transposed before the first kernel, is still there when the second is entered. -/
theorem V18_v23 (c : Dev nD) : @Eq (FVec Ideal S768x768 .bf16) (V18 m ρ c main_v23)
    (truncf .bf16 (transpose S768x768 [1, 0] (m ((c : Thread nD τ).loc main_arg13)) transposes_S768x768_S768x768_1_0) bitsLt_bf16_f32) := by
  have h : V18 m ρ c main_v23 = W11 m ρ c (Proc.devRef .tc main_v23) := by
    dsimp only [V18, W18]
    after_results
  rw [h, W11_of_ne m ρ c main_v23 (by decide)]
  show StableHlo.after hostOps0_9 (W9 m ρ c) (Proc.devRef .tc main_v23) = _
  after_results
set_option maxHeartbeats 2000000 in
/-- A branch's second matrix, transposed before the first kernel, is still there when the second is entered. -/
theorem V18_v25 (c : Dev nD) : @Eq (FVec Ideal S768x768 .bf16) (V18 m ρ c main_v25)
    (truncf .bf16 (transpose S768x768 [1, 0] (m ((c : Thread nD τ).loc main_arg19)) transposes_S768x768_S768x768_1_0) bitsLt_bf16_f32) := by
  have h : V18 m ρ c main_v25 = W11 m ρ c (Proc.devRef .tc main_v25) := by
    dsimp only [V18, W18]
    after_results
  rw [h, W11_of_ne m ρ c main_v25 (by decide)]
  show StableHlo.after hostOps0_9 (W9 m ρ c) (Proc.devRef .tc main_v25) = _
  after_results

set_option maxHeartbeats 2000000 in
/-- A 768-column piece of the first head matrix, transposed. -/
theorem V18_v71 (c : Dev nD) : @Eq (FVec Ideal S768x768 .bf16) (V18 m ρ c main_v71)
    (truncf .bf16 (transpose S768x768 [1, 0] (extractStridedSlice S768x768 ![0, 0] (m ((c : Thread nD τ).loc main_arg22)) slices_S768x2304_S768x768_0_0) transposes_S768x768_S768x768_1_0) bitsLt_bf16_f32) := by
  dsimp only [V18, W18]
  after_results
  rw [W11_arg22]
set_option maxHeartbeats 2000000 in
/-- A 768-column piece of the first head matrix, transposed. -/
theorem V18_v74 (c : Dev nD) : @Eq (FVec Ideal S768x768 .bf16) (V18 m ρ c main_v74)
    (truncf .bf16 (transpose S768x768 [1, 0] (extractStridedSlice S768x768 ![0, 768] (m ((c : Thread nD τ).loc main_arg22)) slices_S768x2304_S768x768_0_768) transposes_S768x768_S768x768_1_0) bitsLt_bf16_f32) := by
  dsimp only [V18, W18]
  after_results
  rw [W11_arg22]
set_option maxHeartbeats 2000000 in
/-- A 768-column piece of the first head matrix, transposed. -/
theorem V18_v77 (c : Dev nD) : @Eq (FVec Ideal S768x768 .bf16) (V18 m ρ c main_v77)
    (truncf .bf16 (transpose S768x768 [1, 0] (extractStridedSlice S768x768 ![0, 1536] (m ((c : Thread nD τ).loc main_arg22)) slices_S768x2304_S768x768_0_1536) transposes_S768x768_S768x768_1_0) bitsLt_bf16_f32) := by
  dsimp only [V18, W18]
  after_results
  rw [W11_arg22]

set_option maxHeartbeats 2000000 in
theorem V18_v78 (c : Dev nD) : @Eq (FVec Ideal S1x768 .f32) (V18 m ρ c main_v78)
    (shapeCast S1x768 (m ((c : Thread nD τ).loc main_arg23)) shapeCasts_S768_S1x768) := by
  dsimp only [V18, W18]
  after_results
  rw [W11_arg23]
  rfl

set_option maxHeartbeats 2000000 in
theorem V18_v80 (c : Dev nD) : @Eq (FVec Ideal S768x768 .bf16) (V18 m ρ c main_v80)
    (truncf .bf16 (transpose S768x768 [1, 0] (m ((c : Thread nD τ).loc main_arg24)) transposes_S768x768_S768x768_1_0) bitsLt_bf16_f32) := by
  dsimp only [V18, W18]
  after_results
  rw [W11_arg24]

set_option maxHeartbeats 2000000 in
theorem V18_v81 (c : Dev nD) : @Eq (FVec Ideal S1x768 .f32) (V18 m ρ c main_v81)
    (shapeCast S1x768 (m ((c : Thread nD τ).loc main_arg25)) shapeCasts_S768_S1x768) := by
  dsimp only [V18, W18]
  after_results
  rw [W11_arg25]
  rfl

/-! ## The layout windows at an index -/

/-- A transposed matrix at (p, l) is the matrix at (l, p). -/
theorem wb1_apply (c : Dev nD) (p l : Fin 768) : V18 m ρ c main_v21 (ix2 p l) = (m ((c : Thread nD τ).loc main_arg7)) (ix2 l p) := by
  refine (congrFun (V18_v21 m ρ c) (ix2 p l)).trans ?_
  exact transpose_apply [1, 0] _ transposes_S768x768_S768x768_1_0 (ix2 p l) (ix2 l p) (fun b => by
    match b with
    | ⟨0, _⟩ => rfl
    | ⟨1, _⟩ => rfl)
/-- A transposed matrix at (p, l) is the matrix at (l, p). -/
theorem wb2_apply (c : Dev nD) (p l : Fin 768) : V18 m ρ c main_v23 (ix2 p l) = (m ((c : Thread nD τ).loc main_arg13)) (ix2 l p) := by
  refine (congrFun (V18_v23 m ρ c) (ix2 p l)).trans ?_
  exact transpose_apply [1, 0] _ transposes_S768x768_S768x768_1_0 (ix2 p l) (ix2 l p) (fun b => by
    match b with
    | ⟨0, _⟩ => rfl
    | ⟨1, _⟩ => rfl)
/-- A transposed matrix at (p, l) is the matrix at (l, p). -/
theorem wb3_apply (c : Dev nD) (p l : Fin 768) : V18 m ρ c main_v25 (ix2 p l) = (m ((c : Thread nD τ).loc main_arg19)) (ix2 l p) := by
  refine (congrFun (V18_v25 m ρ c) (ix2 p l)).trans ?_
  exact transpose_apply [1, 0] _ transposes_S768x768_S768x768_1_0 (ix2 p l) (ix2 l p) (fun b => by
    match b with
    | ⟨0, _⟩ => rfl
    | ⟨1, _⟩ => rfl)
/-- A transposed matrix at (p, l) is the matrix at (l, p). -/
theorem lin2_apply (c : Dev nD) (p l : Fin 768) : V18 m ρ c main_v80 (ix2 p l) = (m ((c : Thread nD τ).loc main_arg24)) (ix2 l p) := by
  refine (congrFun (V18_v80 m ρ c) (ix2 p l)).trans ?_
  exact transpose_apply [1, 0] _ transposes_S768x768_S768x768_1_0 (ix2 p l) (ix2 l p) (fun b => by
    match b with
    | ⟨0, _⟩ => rfl
    | ⟨1, _⟩ => rfl)

/-- A transposed 768-column piece of the first head matrix at (l, k) is the matrix at (k, 0 + l). -/
theorem lin1a_apply (c : Dev nD) (l k : Fin 768) (q : Fin 2304) (hq : q.val = 0 + l.val) :
    V18 m ρ c main_v71 (ix2 l k) = (m ((c : Thread nD τ).loc main_arg22)) (ix2 k q) := by
  refine (congrFun (V18_v71 m ρ c) (ix2 l k)).trans ?_
  show transpose S768x768 [1, 0] (extractStridedSlice S768x768 ![0, 0] (m ((c : Thread nD τ).loc main_arg22)) slices_S768x2304_S768x768_0_0) transposes_S768x768_S768x768_1_0 (ix2 l k) = _
  refine (transpose_apply [1, 0] _ transposes_S768x768_S768x768_1_0 (ix2 l k) (ix2 k l) (fun b => by
    match b with
    | ⟨0, _⟩ => rfl
    | ⟨1, _⟩ => rfl)).trans ?_
  refine extractStridedSlice_apply ![0, 0] _ slices_S768x2304_S768x768_0_0 (ix2 k l) (ix2 k q) (fun a => ?_)
  match a with
  | ⟨0, _⟩ => show k.val = 0 + k.val; omega
  | ⟨1, _⟩ => show q.val = 0 + l.val; exact hq
/-- A transposed 768-column piece of the first head matrix at (l, k) is the matrix at (k, 768 + l). -/
theorem lin1b_apply (c : Dev nD) (l k : Fin 768) (q : Fin 2304) (hq : q.val = 768 + l.val) :
    V18 m ρ c main_v74 (ix2 l k) = (m ((c : Thread nD τ).loc main_arg22)) (ix2 k q) := by
  refine (congrFun (V18_v74 m ρ c) (ix2 l k)).trans ?_
  show transpose S768x768 [1, 0] (extractStridedSlice S768x768 ![0, 768] (m ((c : Thread nD τ).loc main_arg22)) slices_S768x2304_S768x768_0_768) transposes_S768x768_S768x768_1_0 (ix2 l k) = _
  refine (transpose_apply [1, 0] _ transposes_S768x768_S768x768_1_0 (ix2 l k) (ix2 k l) (fun b => by
    match b with
    | ⟨0, _⟩ => rfl
    | ⟨1, _⟩ => rfl)).trans ?_
  refine extractStridedSlice_apply ![0, 768] _ slices_S768x2304_S768x768_0_768 (ix2 k l) (ix2 k q) (fun a => ?_)
  match a with
  | ⟨0, _⟩ => show k.val = 0 + k.val; omega
  | ⟨1, _⟩ => show q.val = 768 + l.val; exact hq
/-- A transposed 768-column piece of the first head matrix at (l, k) is the matrix at (k, 1536 + l). -/
theorem lin1c_apply (c : Dev nD) (l k : Fin 768) (q : Fin 2304) (hq : q.val = 1536 + l.val) :
    V18 m ρ c main_v77 (ix2 l k) = (m ((c : Thread nD τ).loc main_arg22)) (ix2 k q) := by
  refine (congrFun (V18_v77 m ρ c) (ix2 l k)).trans ?_
  show transpose S768x768 [1, 0] (extractStridedSlice S768x768 ![0, 1536] (m ((c : Thread nD τ).loc main_arg22)) slices_S768x2304_S768x768_0_1536) transposes_S768x768_S768x768_1_0 (ix2 l k) = _
  refine (transpose_apply [1, 0] _ transposes_S768x768_S768x768_1_0 (ix2 l k) (ix2 k l) (fun b => by
    match b with
    | ⟨0, _⟩ => rfl
    | ⟨1, _⟩ => rfl)).trans ?_
  refine extractStridedSlice_apply ![0, 1536] _ slices_S768x2304_S768x768_0_1536 (ix2 k l) (ix2 k q) (fun a => ?_)
  match a with
  | ⟨0, _⟩ => show k.val = 0 + k.val; omega
  | ⟨1, _⟩ => show q.val = 1536 + l.val; exact hq

/-- A [768] vector reshaped to [1,768] at (0, j) is the vector at j. -/
theorem bias1_apply (c : Dev nD) (j : Fin 768) : V18 m ρ c main_v78 (ix2 (0 : Fin 1) j) = (m ((c : Thread nD τ).loc main_arg23)) (ix1 j) := by
  refine (congrFun (V18_v78 m ρ c) (ix2 (0 : Fin 1) j)).trans ?_
  refine shapeCast_apply _ shapeCasts_S768_S1x768 (ix2 (0 : Fin 1) j) (ix1 j) ?_
  rw [Shape.rowMajor_val_one, Shape.rowMajor_val_two]
  show j.val = 0 * 768 + j.val
  omega
/-- A [768] vector reshaped to [1,768] at (0, j) is the vector at j. -/
theorem bias2_apply (c : Dev nD) (j : Fin 768) : V18 m ρ c main_v81 (ix2 (0 : Fin 1) j) = (m ((c : Thread nD τ).loc main_arg25)) (ix1 j) := by
  refine (congrFun (V18_v81 m ρ c) (ix2 (0 : Fin 1) j)).trans ?_
  refine shapeCast_apply _ shapeCasts_S768_S1x768 (ix2 (0 : Fin 1) j) (ix1 j) ?_
  rw [Shape.rowMajor_val_one, Shape.rowMajor_val_two]
  show j.val = 0 * 768 + j.val
  omega

end Cert.KernelIdeal.KerVal

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.KerScaleShift.lean ====
/-
  The per-column scale and shift the second stage multiplies and adds: for branch i, with Z the first stage's i-th
  output read as floats, scale = gain · rsqrt (var Z + ε) and shift = offset − mean Z · scale, each laid out as a
  [1, 768] row. The host operations between the two stages compute them; read back, the column mean and the column
  variance are the shared chains of the specification, applied to Z.
-/
import proofs.«165818_j2173253452173_2_alg».proof.Proof.Gen.KernelIdeal.Frame
import proofs.«165818_j2173253452173_2_alg».proof.Proof.Spec
import proofs.«165818_j2173253452173_2_alg».proof.Proof.LibTypedRefs
import Idealize.ShloMosaic.Lib.ValueIdx
import Idealize.ShloMosaic.Lib.ValueLayout
import Idealize.ShloMosaic.Lib.StableHlo.Run

set_option maxRecDepth 16384

noncomputable section

namespace Cert.KernelIdeal.KerVal

open Cert.KernelIdeal Cert.KernelIdeal.Gen Idealize.ShloMosaic Idealize.ShloMosaic.TcCoe Idealize.SL.Sem
open Idealize.ShloMosaic.ValueIdx Idealize.ShloMosaic.StableHlo

/-- A stretch of host operations that writes none of them leaves a buffer as it was. -/
macro "keeps " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

/-- The first stage's three outputs, read as floats (the change of format is the identity). -/
abbrev Zf0 (c : Dev nD) : FVec Ideal S8192x768 .f32 := extf .f32 (W11 m ρ c (Proc.devRef .tc main_v29_0)) bitsLt_bf16_f32
abbrev Zf1 (c : Dev nD) : FVec Ideal S8192x768 .f32 := extf .f32 (W11 m ρ c (Proc.devRef .tc main_v29_1)) bitsLt_bf16_f32
abbrev Zf2 (c : Dev nD) : FVec Ideal S8192x768 .f32 := extf .f32 (W11 m ρ c (Proc.devRef .tc main_v29_2)) bitsLt_bf16_f32

/-- A [768] argument array at its own type. -/
abbrev vec768 (x : FVec Ideal S768 .f32) : FVec Ideal S768 .f32 := x

/-- The variance's offset as a [768] vector. -/
abbrev epsV : FVec Ideal S768 .f32 := broadcastInDim S768 ![] bcast_S_S768 (constant S_ .f32 0x3727C5AC#32)

/-- No host operation before the first stage, and not the first stage, writes argument 8. -/
theorem arg8_W11 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := by keeps hostOps0_9
    _ = W8 m ρ c (Proc.devRef .tc main_arg8) := by keeps hostOps0_8
    _ = W7 m ρ c (Proc.devRef .tc main_arg8) := by keeps hostOps0_7
    _ = W6 m ρ c (Proc.devRef .tc main_arg8) := by keeps hostOps0_6
    _ = W5 m ρ c (Proc.devRef .tc main_arg8) := by keeps hostOps0_5
    _ = W4 m ρ c (Proc.devRef .tc main_arg8) := by keeps hostOps0_4
    _ = W3 m ρ c (Proc.devRef .tc main_arg8) := by keeps hostOps0_3
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c : Thread nD τ).loc main_arg8) := rfl

/-- No host operation before the first stage, and not the first stage, writes argument 9. -/
theorem arg9_W11 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := by keeps hostOps0_9
    _ = W8 m ρ c (Proc.devRef .tc main_arg9) := by keeps hostOps0_8
    _ = W7 m ρ c (Proc.devRef .tc main_arg9) := by keeps hostOps0_7
    _ = W6 m ρ c (Proc.devRef .tc main_arg9) := by keeps hostOps0_6
    _ = W5 m ρ c (Proc.devRef .tc main_arg9) := by keeps hostOps0_5
    _ = W4 m ρ c (Proc.devRef .tc main_arg9) := by keeps hostOps0_4
    _ = W3 m ρ c (Proc.devRef .tc main_arg9) := by keeps hostOps0_3
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c : Thread nD τ).loc main_arg9) := rfl

/-- No host operation before the first stage, and not the first stage, writes argument 14. -/
theorem arg14_W11 (c : Dev nD) : W11 m ρ c (Proc.devRef .tc main_arg14) = m ((c : Thread nD τ).loc main_arg14) :=
  calc W11 m ρ c (Proc.devRef .tc main_arg14)
    _ = W10 m ρ c (Proc.devRef .tc main_arg14) := W11_of_ne m ρ c main_arg14 (by decide)
    _ = W9 m ρ c (Proc.devRef .tc main_arg14) := by keeps hostOps0_9
    _ = W8 m ρ c (Proc.devRef .tc main_arg14) := by keeps hostOps0_8
    _ = W7 m ρ c (Proc.devRef .tc main_arg14) := by keeps hostOps0_7
    _ = W6 m ρ c (Proc.devRef .tc main_arg14) := by keeps hostOps0_6
    _ = W5 m ρ c (Proc.devRef .tc main_arg14) := by keeps hostOps0_5
    _ = W4 m ρ c (Proc.devRef .tc main_arg14) := by keeps hostOps0_4
    _ = W3 m ρ c (Proc.devRef .tc main_arg14) := by keeps hostOps0_3
    _ = W2 m ρ c (Proc.devRef .tc main_arg14) := by keeps hostOps0_2
    _ = W1 m ρ c (Proc.devRef .tc main_arg14) := by keeps hostOps0_1
    _ = W0 m ρ c (Proc.devRef .tc main_arg14) := by keeps hostOps0
    _ = m ((c : Thread nD τ).loc main_arg14) := rfl

/-- No host operation before the first stage, and not the first stage, writes argument 15. -/
theorem arg15_W11 (c : Dev nD) : W11 m ρ c (Proc.devRef .tc main_arg15) = m ((c : Thread nD τ).loc main_arg15) :=
  calc W11 m ρ c (Proc.devRef .tc main_arg15)
    _ = W10 m ρ c (Proc.devRef .tc main_arg15) := W11_of_ne m ρ c main_arg15 (by decide)
    _ = W9 m ρ c (Proc.devRef .tc main_arg15) := by keeps hostOps0_9
    _ = W8 m ρ c (Proc.devRef .tc main_arg15) := by keeps hostOps0_8
    _ = W7 m ρ c (Proc.devRef .tc main_arg15) := by keeps hostOps0_7
    _ = W6 m ρ c (Proc.devRef .tc main_arg15) := by keeps hostOps0_6
    _ = W5 m ρ c (Proc.devRef .tc main_arg15) := by keeps hostOps0_5
    _ = W4 m ρ c (Proc.devRef .tc main_arg15) := by keeps hostOps0_4
    _ = W3 m ρ c (Proc.devRef .tc main_arg15) := by keeps hostOps0_3
    _ = W2 m ρ c (Proc.devRef .tc main_arg15) := by keeps hostOps0_2
    _ = W1 m ρ c (Proc.devRef .tc main_arg15) := by keeps hostOps0_1
    _ = W0 m ρ c (Proc.devRef .tc main_arg15) := by keeps hostOps0
    _ = m ((c : Thread nD τ).loc main_arg15) := rfl

/-- No host operation before the first stage, and not the first stage, writes argument 20. -/
theorem arg20_W11 (c : Dev nD) : W11 m ρ c (Proc.devRef .tc main_arg20) = m ((c : Thread nD τ).loc main_arg20) :=
  calc W11 m ρ c (Proc.devRef .tc main_arg20)
    _ = W10 m ρ c (Proc.devRef .tc main_arg20) := W11_of_ne m ρ c main_arg20 (by decide)
    _ = W9 m ρ c (Proc.devRef .tc main_arg20) := by keeps hostOps0_9
    _ = W8 m ρ c (Proc.devRef .tc main_arg20) := by keeps hostOps0_8
    _ = W7 m ρ c (Proc.devRef .tc main_arg20) := by keeps hostOps0_7
    _ = W6 m ρ c (Proc.devRef .tc main_arg20) := by keeps hostOps0_6
    _ = W5 m ρ c (Proc.devRef .tc main_arg20) := by keeps hostOps0_5
    _ = W4 m ρ c (Proc.devRef .tc main_arg20) := by keeps hostOps0_4
    _ = W3 m ρ c (Proc.devRef .tc main_arg20) := by keeps hostOps0_3
    _ = W2 m ρ c (Proc.devRef .tc main_arg20) := by keeps hostOps0_2
    _ = W1 m ρ c (Proc.devRef .tc main_arg20) := by keeps hostOps0_1
    _ = W0 m ρ c (Proc.devRef .tc main_arg20) := by keeps hostOps0
    _ = m ((c : Thread nD τ).loc main_arg20) := rfl

/-- No host operation before the first stage, and not the first stage, writes argument 21. -/
theorem arg21_W11 (c : Dev nD) : W11 m ρ c (Proc.devRef .tc main_arg21) = m ((c : Thread nD τ).loc main_arg21) :=
  calc W11 m ρ c (Proc.devRef .tc main_arg21)
    _ = W10 m ρ c (Proc.devRef .tc main_arg21) := W11_of_ne m ρ c main_arg21 (by decide)
    _ = W9 m ρ c (Proc.devRef .tc main_arg21) := by keeps hostOps0_9
    _ = W8 m ρ c (Proc.devRef .tc main_arg21) := by keeps hostOps0_8
    _ = W7 m ρ c (Proc.devRef .tc main_arg21) := by keeps hostOps0_7
    _ = W6 m ρ c (Proc.devRef .tc main_arg21) := by keeps hostOps0_6
    _ = W5 m ρ c (Proc.devRef .tc main_arg21) := by keeps hostOps0_5
    _ = W4 m ρ c (Proc.devRef .tc main_arg21) := by keeps hostOps0_4
    _ = W3 m ρ c (Proc.devRef .tc main_arg21) := by keeps hostOps0_3
    _ = W2 m ρ c (Proc.devRef .tc main_arg21) := by keeps hostOps0_2
    _ = W1 m ρ c (Proc.devRef .tc main_arg21) := by keeps hostOps0_1
    _ = W0 m ρ c (Proc.devRef .tc main_arg21) := by keeps hostOps0
    _ = m ((c : Thread nD τ).loc main_arg21) := rfl

/-! ## Branch 1 -/

theorem v41_up (c : Dev nD) : W18 m ρ c (Proc.devRef .tc main_v41) = W14 m ρ c (Proc.devRef .tc main_v41) :=
  calc W18 m ρ c (Proc.devRef .tc main_v41)
    _ = W17 m ρ c (Proc.devRef .tc main_v41) := by keeps hostOps1_6
    _ = W16 m ρ c (Proc.devRef .tc main_v41) := by keeps hostOps1_5
    _ = W15 m ρ c (Proc.devRef .tc main_v41) := by keeps hostOps1_4
    _ = W14 m ρ c (Proc.devRef .tc main_v41) := by keeps hostOps1_3

theorem v42_up (c : Dev nD) : W18 m ρ c (Proc.devRef .tc main_v42) = W14 m ρ c (Proc.devRef .tc main_v42) :=
  calc W18 m ρ c (Proc.devRef .tc main_v42)
    _ = W17 m ρ c (Proc.devRef .tc main_v42) := by keeps hostOps1_6
    _ = W16 m ρ c (Proc.devRef .tc main_v42) := by keeps hostOps1_5
    _ = W15 m ρ c (Proc.devRef .tc main_v42) := by keeps hostOps1_4
    _ = W14 m ρ c (Proc.devRef .tc main_v42) := by keeps hostOps1_3

set_option maxHeartbeats 4000000 in
/-- Branch 1's scale row, whole. -/
theorem scale1_arr (c : Dev nD) : W18 m ρ c (Proc.devRef .tc main_v41)
    = shapeCast S1x768 (mulf (m ((c : Thread nD τ).loc main_arg8))
        (Host.rsqrt (addf (Cert.Spec.varChain (Zf0 m ρ c)) epsV))) shapeCasts_S768_S1x768 := by
  rw [v41_up, ← arg8_W11 m ρ c]
  simp only [W14, hostOps1_2]
  after_results_simp
  rfl

set_option maxHeartbeats 4000000 in
/-- Branch 1's shift row, whole. -/
theorem shift1_arr (c : Dev nD) : W18 m ρ c (Proc.devRef .tc main_v42)
    = shapeCast S1x768 (subf (m ((c : Thread nD τ).loc main_arg9)) (mulf (Cert.Spec.meanChain (Zf0 m ρ c))
        (mulf (m ((c : Thread nD τ).loc main_arg8)) (Host.rsqrt (addf (Cert.Spec.varChain (Zf0 m ρ c)) epsV)))))
        shapeCasts_S768_S1x768 := by
  rw [v42_up, ← arg8_W11 m ρ c, ← arg9_W11 m ρ c]
  simp only [W14, hostOps1_2]
  after_results_simp
  rfl

/-- The first stage's output 1, read as floats, is the matrix of its entries. -/
theorem Zf0_eq (c : Dev nD) :
    Zf0 m ρ c = Cert.Spec.arr (fun n j => W11 m ρ c (Proc.devRef .tc main_v29_0) (ix2 n j)) := by
  funext i
  exact congrArg (W11 m ρ c (Proc.devRef .tc main_v29_0)) (eq_ix2 i)

/-- Branch 1's scale at column j. -/
theorem scale1 (c : Dev nD) (j : Fin 768) : V18 m ρ c main_v41 (ix2 (0 : Fin 1) j)
    = vec768 (m ((c : Thread nD τ).loc main_arg8)) (ix1 j)
      * Ideal.rsqrt (Cert.Spec.varChain (Cert.Spec.arr (fun n j => W11 m ρ c (Proc.devRef .tc main_v29_0) (ix2 n j))) (ix1 j)
          + Cert.Spec.eps) := by
  show W18 m ρ c (Proc.devRef .tc main_v41) (ix2 (0 : Fin 1) j) = _
  rw [scale1_arr, shapeCast_a_1a_apply, ← Zf0_eq]
  rfl

/-- Branch 1's shift at column j. -/
theorem shift1 (c : Dev nD) (j : Fin 768) : V18 m ρ c main_v42 (ix2 (0 : Fin 1) j)
    = vec768 (m ((c : Thread nD τ).loc main_arg9)) (ix1 j)
      - Cert.Spec.meanChain (Cert.Spec.arr (fun n j => W11 m ρ c (Proc.devRef .tc main_v29_0) (ix2 n j))) (ix1 j)
        * (vec768 (m ((c : Thread nD τ).loc main_arg8)) (ix1 j)
          * Ideal.rsqrt (Cert.Spec.varChain (Cert.Spec.arr (fun n j => W11 m ρ c (Proc.devRef .tc main_v29_0) (ix2 n j))) (ix1 j)
              + Cert.Spec.eps)) := by
  show W18 m ρ c (Proc.devRef .tc main_v42) (ix2 (0 : Fin 1) j) = _
  rw [shift1_arr, shapeCast_a_1a_apply, ← Zf0_eq]
  rfl

/-! ## Branch 2 -/

theorem v54_up (c : Dev nD) : W18 m ρ c (Proc.devRef .tc main_v54) = W16 m ρ c (Proc.devRef .tc main_v54) :=
  calc W18 m ρ c (Proc.devRef .tc main_v54)
    _ = W17 m ρ c (Proc.devRef .tc main_v54) := by keeps hostOps1_6
    _ = W16 m ρ c (Proc.devRef .tc main_v54) := by keeps hostOps1_5

theorem v55_up (c : Dev nD) : W18 m ρ c (Proc.devRef .tc main_v55) = W16 m ρ c (Proc.devRef .tc main_v55) :=
  calc W18 m ρ c (Proc.devRef .tc main_v55)
    _ = W17 m ρ c (Proc.devRef .tc main_v55) := by keeps hostOps1_6
    _ = W16 m ρ c (Proc.devRef .tc main_v55) := by keeps hostOps1_5

set_option maxHeartbeats 4000000 in
/-- Branch 2's scale row, whole. -/
theorem scale2_arr (c : Dev nD) : W18 m ρ c (Proc.devRef .tc main_v54)
    = shapeCast S1x768 (mulf (m ((c : Thread nD τ).loc main_arg14))
        (Host.rsqrt (addf (Cert.Spec.varChain (Zf1 m ρ c)) epsV))) shapeCasts_S768_S1x768 := by
  rw [v54_up, ← arg14_W11 m ρ c]
  simp only [W16, hostOps1_4]
  after_results_simp
  rfl

set_option maxHeartbeats 4000000 in
/-- Branch 2's shift row, whole. -/
theorem shift2_arr (c : Dev nD) : W18 m ρ c (Proc.devRef .tc main_v55)
    = shapeCast S1x768 (subf (m ((c : Thread nD τ).loc main_arg15)) (mulf (Cert.Spec.meanChain (Zf1 m ρ c))
        (mulf (m ((c : Thread nD τ).loc main_arg14)) (Host.rsqrt (addf (Cert.Spec.varChain (Zf1 m ρ c)) epsV)))))
        shapeCasts_S768_S1x768 := by
  rw [v55_up, ← arg14_W11 m ρ c, ← arg15_W11 m ρ c]
  simp only [W16, hostOps1_4]
  after_results_simp
  rfl

/-- The first stage's output 2, read as floats, is the matrix of its entries. -/
theorem Zf1_eq (c : Dev nD) :
    Zf1 m ρ c = Cert.Spec.arr (fun n j => W11 m ρ c (Proc.devRef .tc main_v29_1) (ix2 n j)) := by
  funext i
  exact congrArg (W11 m ρ c (Proc.devRef .tc main_v29_1)) (eq_ix2 i)

/-- Branch 2's scale at column j. -/
theorem scale2 (c : Dev nD) (j : Fin 768) : V18 m ρ c main_v54 (ix2 (0 : Fin 1) j)
    = vec768 (m ((c : Thread nD τ).loc main_arg14)) (ix1 j)
      * Ideal.rsqrt (Cert.Spec.varChain (Cert.Spec.arr (fun n j => W11 m ρ c (Proc.devRef .tc main_v29_1) (ix2 n j))) (ix1 j)
          + Cert.Spec.eps) := by
  show W18 m ρ c (Proc.devRef .tc main_v54) (ix2 (0 : Fin 1) j) = _
  rw [scale2_arr, shapeCast_a_1a_apply, ← Zf1_eq]
  rfl

/-- Branch 2's shift at column j. -/
theorem shift2 (c : Dev nD) (j : Fin 768) : V18 m ρ c main_v55 (ix2 (0 : Fin 1) j)
    = vec768 (m ((c : Thread nD τ).loc main_arg15)) (ix1 j)
      - Cert.Spec.meanChain (Cert.Spec.arr (fun n j => W11 m ρ c (Proc.devRef .tc main_v29_1) (ix2 n j))) (ix1 j)
        * (vec768 (m ((c : Thread nD τ).loc main_arg14)) (ix1 j)
          * Ideal.rsqrt (Cert.Spec.varChain (Cert.Spec.arr (fun n j => W11 m ρ c (Proc.devRef .tc main_v29_1) (ix2 n j))) (ix1 j)
              + Cert.Spec.eps)) := by
  show W18 m ρ c (Proc.devRef .tc main_v55) (ix2 (0 : Fin 1) j) = _
  rw [shift2_arr, shapeCast_a_1a_apply, ← Zf1_eq]
  rfl

/-! ## Branch 3 -/

set_option maxHeartbeats 4000000 in
/-- Branch 3's scale row, whole. -/
theorem scale3_arr (c : Dev nD) : W18 m ρ c (Proc.devRef .tc main_v67)
    = shapeCast S1x768 (mulf (m ((c : Thread nD τ).loc main_arg20))
        (Host.rsqrt (addf (Cert.Spec.varChain (Zf2 m ρ c)) epsV))) shapeCasts_S768_S1x768 := by
  rw [← arg20_W11 m ρ c]
  simp only [W18, hostOps1_6]
  after_results_simp
  rfl

set_option maxHeartbeats 4000000 in
/-- Branch 3's shift row, whole. -/
theorem shift3_arr (c : Dev nD) : W18 m ρ c (Proc.devRef .tc main_v68)
    = shapeCast S1x768 (subf (m ((c : Thread nD τ).loc main_arg21)) (mulf (Cert.Spec.meanChain (Zf2 m ρ c))
        (mulf (m ((c : Thread nD τ).loc main_arg20)) (Host.rsqrt (addf (Cert.Spec.varChain (Zf2 m ρ c)) epsV)))))
        shapeCasts_S768_S1x768 := by
  rw [← arg20_W11 m ρ c, ← arg21_W11 m ρ c]
  simp only [W18, hostOps1_6]
  after_results_simp
  rfl

/-- The first stage's output 3, read as floats, is the matrix of its entries. -/
theorem Zf2_eq (c : Dev nD) :
    Zf2 m ρ c = Cert.Spec.arr (fun n j => W11 m ρ c (Proc.devRef .tc main_v29_2) (ix2 n j)) := by
  funext i
  exact congrArg (W11 m ρ c (Proc.devRef .tc main_v29_2)) (eq_ix2 i)

/-- Branch 3's scale at column j. -/
theorem scale3 (c : Dev nD) (j : Fin 768) : V18 m ρ c main_v67 (ix2 (0 : Fin 1) j)
    = vec768 (m ((c : Thread nD τ).loc main_arg20)) (ix1 j)
      * Ideal.rsqrt (Cert.Spec.varChain (Cert.Spec.arr (fun n j => W11 m ρ c (Proc.devRef .tc main_v29_2) (ix2 n j))) (ix1 j)
          + Cert.Spec.eps) := by
  show W18 m ρ c (Proc.devRef .tc main_v67) (ix2 (0 : Fin 1) j) = _
  rw [scale3_arr, shapeCast_a_1a_apply, ← Zf2_eq]
  rfl

/-- Branch 3's shift at column j. -/
theorem shift3 (c : Dev nD) (j : Fin 768) : V18 m ρ c main_v68 (ix2 (0 : Fin 1) j)
    = vec768 (m ((c : Thread nD τ).loc main_arg21)) (ix1 j)
      - Cert.Spec.meanChain (Cert.Spec.arr (fun n j => W11 m ρ c (Proc.devRef .tc main_v29_2) (ix2 n j))) (ix1 j)
        * (vec768 (m ((c : Thread nD τ).loc main_arg20)) (ix1 j)
          * Ideal.rsqrt (Cert.Spec.varChain (Cert.Spec.arr (fun n j => W11 m ρ c (Proc.devRef .tc main_v29_2) (ix2 n j))) (ix1 j)
              + Cert.Spec.eps)) := by
  show W18 m ρ c (Proc.devRef .tc main_v68) (ix2 (0 : Fin 1) j) = _
  rw [shift3_arr, shapeCast_a_1a_apply, ← Zf2_eq]
  rfl

end Cert.KernelIdeal.KerVal

end
-- ==== Proof.KerHeadSpec.lean ====
import proofs.«165818_j2173253452173_2_alg».proof.Proof.KerPayload1
import proofs.«165818_j2173253452173_2_alg».proof.Proof.Spec

/-!
# The kernel's row function is the specification's head

Pure reading, no algebra: if the nineteen arrays the second kernel finds are, index by index,
the three z matrices, the per-column scale g · rsqrt(var + ε) and shift b − mean · scale of each
branch, the transposed second-layer matrices, the three transposed 768-column pieces of the
first head matrix, the transposed second head matrix, the two biases as rows and the mask, then
the kernel's whole-array function is the specification's head of those, term by term.
-/

set_option maxRecDepth 16384

noncomputable section

namespace Cert.KernelIdeal.KerVal

open Idealize.ShloMosaic Idealize.ShloMosaic.ValueIdx
open Cert.KernelIdeal Cert.KernelIdeal.Gen
open Cert.Spec (Rows meanChain varChain arr eps branchK outB yK aK headK)

/-- The whole output array from the nineteen input arrays: row (i 0) of the big ones, the small ones whole, column (i 1). -/
def G1' (a0 a1 a2 : S8192x768.Idx → EReal) (a3 a4 a5 a6 a7 a8 : Vec Ideal S1x768 .f32)
    (a9 a10 a11 a12 a13 a14 : Vec Ideal S768x768 .bf16) (a15 : Vec Ideal S1x768 .f32) (a16 : Vec Ideal S768x768 .bf16)
    (a17 : Vec Ideal S1x768 .f32) (a18 : S8192x768.Idx → EReal) : S8192x768.Idx → EReal := fun i =>
  rowK (fun k => a0 (ix2 (i 0) k)) (fun k => a1 (ix2 (i 0) k)) (fun k => a2 (ix2 (i 0) k)) a3 a4 a5 a6 a7 a8 a9 a10 a11 a12 a13 a14 a15 a16 a17
    (fun k => a18 (ix2 (i 0) k)) (i 1)

/-- One branch at a row. -/
theorem branch_eq (z : S8192x768.Idx → EReal) (sc sh : Vec Ideal S1x768 .f32) (wb : Vec Ideal S768x768 .bf16)
    (Z : Rows) (Wb : FVec Ideal Cert.Spec.S768x768 .f32) (g b : FVec Ideal Cert.Spec.S768 .f32)
    (hz : ∀ (n : Fin 8192) (k : Fin 768), z (ix2 n k) = Z n k)
    (hsc : ∀ j : Fin 768, sc (ix2 (0 : Fin 1) j) = g (ix1 j) * Ideal.rsqrt (varChain (arr Z) (ix1 j) + eps))
    (hsh : ∀ j : Fin 768, sh (ix2 (0 : Fin 1) j)
      = b (ix1 j) - meanChain (arr Z) (ix1 j) * (g (ix1 j) * Ideal.rsqrt (varChain (arr Z) (ix1 j) + eps)))
    (hwb : ∀ p l : Fin 768, wb (ix2 p l) = Wb (ix2 l p)) (n : Fin 8192) (l : Fin 768) :
    rowO (fun k => z (ix2 n k)) sc sh wb l = branchK Z Wb g b n l := by
  unfold rowO branchK outB yK
  refine Finset.sum_congr rfl fun p _ => ?_
  show max (z (ix2 n p) * sc (ix2 (0 : Fin 1) p) + sh (ix2 (0 : Fin 1) p)) zero32 * wb (ix2 p l) = _
  rw [hz n p, hsc p, hsh p, hwb p l]

/-- The whole-array function is the head. -/
theorem head_generic (a0 a1 a2 : S8192x768.Idx → EReal) (a3 a4 a5 a6 a7 a8 : Vec Ideal S1x768 .f32)
    (a9 a10 a11 a12 a13 a14 : Vec Ideal S768x768 .bf16) (a15 : Vec Ideal S1x768 .f32) (a16 : Vec Ideal S768x768 .bf16)
    (a17 : Vec Ideal S1x768 .f32) (a18 : S8192x768.Idx → EReal)
    (Z1 Z2 Z3 : Rows) (Wb1 Wb2 Wb3 : FVec Ideal Cert.Spec.S768x768 .f32) (g1 b1 g2 b2 g3 b3 : FVec Ideal Cert.Spec.S768 .f32)
    (lin1 : FVec Ideal Cert.Spec.S768x2304 .f32) (l1b : FVec Ideal Cert.Spec.S768 .f32) (drop : FVec Ideal Cert.Spec.S8192x768 .f32)
    (lin2 : FVec Ideal Cert.Spec.S768x768 .f32) (l2b : FVec Ideal Cert.Spec.S768 .f32)
    (h0 : ∀ (n : Fin 8192) (k : Fin 768), a0 (ix2 n k) = Z1 n k)
    (h1 : ∀ (n : Fin 8192) (k : Fin 768), a1 (ix2 n k) = Z2 n k)
    (h2 : ∀ (n : Fin 8192) (k : Fin 768), a2 (ix2 n k) = Z3 n k)
    (h3 : ∀ j : Fin 768, a3 (ix2 (0 : Fin 1) j) = g1 (ix1 j) * Ideal.rsqrt (varChain (arr Z1) (ix1 j) + eps))
    (h4 : ∀ j : Fin 768, a4 (ix2 (0 : Fin 1) j) = b1 (ix1 j) - meanChain (arr Z1) (ix1 j) * (g1 (ix1 j) * Ideal.rsqrt (varChain (arr Z1) (ix1 j) + eps)))
    (h5 : ∀ j : Fin 768, a5 (ix2 (0 : Fin 1) j) = g2 (ix1 j) * Ideal.rsqrt (varChain (arr Z2) (ix1 j) + eps))
    (h6 : ∀ j : Fin 768, a6 (ix2 (0 : Fin 1) j) = b2 (ix1 j) - meanChain (arr Z2) (ix1 j) * (g2 (ix1 j) * Ideal.rsqrt (varChain (arr Z2) (ix1 j) + eps)))
    (h7 : ∀ j : Fin 768, a7 (ix2 (0 : Fin 1) j) = g3 (ix1 j) * Ideal.rsqrt (varChain (arr Z3) (ix1 j) + eps))
    (h8 : ∀ j : Fin 768, a8 (ix2 (0 : Fin 1) j) = b3 (ix1 j) - meanChain (arr Z3) (ix1 j) * (g3 (ix1 j) * Ideal.rsqrt (varChain (arr Z3) (ix1 j) + eps)))
    (h9 : ∀ p l : Fin 768, a9 (ix2 p l) = Wb1 (ix2 l p))
    (h10 : ∀ p l : Fin 768, a10 (ix2 p l) = Wb2 (ix2 l p))
    (h11 : ∀ p l : Fin 768, a11 (ix2 p l) = Wb3 (ix2 l p))
    (h12 : ∀ (l k : Fin 768) (q : Fin 2304), q.val = 0 + l.val → a12 (ix2 l k) = lin1 (ix2 k q))
    (h13 : ∀ (l k : Fin 768) (q : Fin 2304), q.val = 768 + l.val → a13 (ix2 l k) = lin1 (ix2 k q))
    (h14 : ∀ (l k : Fin 768) (q : Fin 2304), q.val = 1536 + l.val → a14 (ix2 l k) = lin1 (ix2 k q))
    (h15 : ∀ j : Fin 768, a15 (ix2 (0 : Fin 1) j) = l1b (ix1 j))
    (h16 : ∀ p l : Fin 768, a16 (ix2 p l) = lin2 (ix2 l p))
    (h17 : ∀ j : Fin 768, a17 (ix2 (0 : Fin 1) j) = l2b (ix1 j))
    (h18 : ∀ (n : Fin 8192) (k : Fin 768), a18 (ix2 n k) = drop (ix2 n k))
    (i : S8192x768.Idx) :
    G1' a0 a1 a2 a3 a4 a5 a6 a7 a8 a9 a10 a11 a12 a13 a14 a15 a16 a17 a18 i
      = headK Z1 Z2 Z3 Wb1 Wb2 Wb3 g1 b1 g2 b2 g3 b3 lin1 l1b drop lin2 l2b (i 0) (i 1) := by
  unfold G1' rowK rowOut headK Cert.Spec.fin
  refine congrArg₂ (· + ·) (Finset.sum_congr rfl fun k _ => ?_) (h17 (i 1))
  refine congrArg₂ (· * ·) (congrArg₂ (· * ·) (congrArg (max · zero32) ?_) (h18 (i 0) k)) (h16 k (i 1))
  unfold rowA aK
  refine congrArg₂ (· + ·) (congrArg₂ (· + ·) (congrArg₂ (· + ·) (Finset.sum_congr rfl fun l _ => ?_) (Finset.sum_congr rfl fun l _ => ?_))
    (Finset.sum_congr rfl fun l _ => ?_)) (h15 k)
  · exact congrArg₂ (· * ·) (branch_eq a0 a3 a4 a9 Z1 Wb1 g1 b1 h0 h3 h4 h9 (i 0) l) (h12 l k _ (by simp))
  · exact congrArg₂ (· * ·) (branch_eq a1 a5 a6 a10 Z2 Wb2 g2 b2 h1 h5 h6 h10 (i 0) l) (h13 l k _ rfl)
  · exact congrArg₂ (· * ·) (branch_eq a2 a7 a8 a11 Z3 Wb3 g3 b3 h2 h7 h8 h11 (i 0) l) (h14 l k _ rfl)

end Cert.KernelIdeal.KerVal

end
-- ==== Proof.KerValue.lean ====
import proofs.«165818_j2173253452173_2_alg».proof.Proof.KerRun
import proofs.«165818_j2173253452173_2_alg».proof.Proof.KerRegion1
import proofs.«165818_j2173253452173_2_alg».proof.Proof.KerLayout1
import proofs.«165818_j2173253452173_2_alg».proof.Proof.KerScaleShift
import proofs.«165818_j2173253452173_2_alg».proof.Proof.KerHeadSpec
import proofs.«165818_j2173253452173_2_alg».proof.Proof.Spec
import Idealize.ShloMosaic.Lib.Pipeline.Value
import Idealize.ShloMosaic.Lib.Tactic

/-!
# The kernel program's result

The second kernel's output array is the whole-array function of the arrays it finds
(its blocks tile the array); those arrays are the first kernel's three outputs, the scale
and shift rows the host computed from them, and transposed, sliced or reshaped argument
arrays.  Substituting each of them turns the row function into the specification's head,
term by term: no algebra is used, only the reading of each array at an index.
-/

set_option maxRecDepth 16384

noncomputable section

namespace Cert.KernelIdeal.KerVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The result buffer at the end of the run, index by index: the second kernel's whole-array function on the arrays it
    finds, each of them read back to the first kernel's outputs and the argument arrays. -/
theorem value (c : Dev nD) : W19 m ρ c (Proc.devRef .tc main_v82)
    = fun i => Cert.Spec.headK (fun n j => W11 m ρ c (Proc.devRef .tc main_v29_0) (ix2 n j)) (fun n j => W11 m ρ c (Proc.devRef .tc main_v29_1) (ix2 n j)) (fun n j => W11 m ρ c (Proc.devRef .tc main_v29_2) (ix2 n j)) (m ((c : Thread nD τ).loc main_arg7)) (m ((c : Thread nD τ).loc main_arg13)) (m ((c : Thread nD τ).loc main_arg19)) (m ((c : Thread nD τ).loc main_arg8)) (m ((c : Thread nD τ).loc main_arg9)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23)) (m ((c : Thread nD τ).loc main_arg3)) (m ((c : Thread nD τ).loc main_arg24)) (m ((c : Thread nD τ).loc main_arg25)) (i 0) (i 1) := by
  refine (W19_arr m ρ c 19).trans ((final1 (V18 m ρ) c).trans (funext fun i => ?_))
  exact head_generic
      (V18 m ρ c main_v29_0)
      (V18 m ρ c main_v29_1)
      (V18 m ρ c main_v29_2)
      (V18 m ρ c main_v41)
      (V18 m ρ c main_v42)
      (V18 m ρ c main_v54)
      (V18 m ρ c main_v55)
      (V18 m ρ c main_v67)
      (V18 m ρ c main_v68)
      (V18 m ρ c main_v21)
      (V18 m ρ c main_v23)
      (V18 m ρ c main_v25)
      (V18 m ρ c main_v71)
      (V18 m ρ c main_v74)
      (V18 m ρ c main_v77)
      (V18 m ρ c main_v78)
      (V18 m ρ c main_v80)
      (V18 m ρ c main_v81)
      (V18 m ρ c main_arg3)
      (fun n j => W11 m ρ c (Proc.devRef .tc main_v29_0) (ix2 n j)) (fun n j => W11 m ρ c (Proc.devRef .tc main_v29_1) (ix2 n j)) (fun n j => W11 m ρ c (Proc.devRef .tc main_v29_2) (ix2 n j))
      (m ((c : Thread nD τ).loc main_arg7)) (m ((c : Thread nD τ).loc main_arg13)) (m ((c : Thread nD τ).loc main_arg19)) (m ((c : Thread nD τ).loc main_arg8)) (m ((c : Thread nD τ).loc main_arg9)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23)) (m ((c : Thread nD τ).loc main_arg3)) (m ((c : Thread nD τ).loc main_arg24)) (m ((c : Thread nD τ).loc main_arg25))
      (fun n k => congrFun (keep_v29_0 m ρ c) (ix2 n k)) (fun n k => congrFun (keep_v29_1 m ρ c) (ix2 n k))
      (fun n k => congrFun (keep_v29_2 m ρ c) (ix2 n k))
      (scale1 m ρ c) (shift1 m ρ c) (scale2 m ρ c) (shift2 m ρ c) (scale3 m ρ c) (shift3 m ρ c)
      (wb1_apply m ρ c) (wb2_apply m ρ c) (wb3_apply m ρ c)
      (lin1a_apply m ρ c) (lin1b_apply m ρ c) (lin1c_apply m ρ c)
      (bias1_apply m ρ c) (lin2_apply m ρ c) (bias2_apply m ρ c)
      (fun n k => congrFun (V18_arg3 m ρ c) (ix2 n k)) i

/-- THE KERNEL PROGRAM'S RUN: it terminates, the result is the specification's head of the first kernel's three outputs and
    of the argument arrays, and the arguments end as launched. -/
theorem ker_value : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v82)
        = (fun i => Cert.Spec.headK (fun n j => W11 m ρ c (Proc.devRef .tc main_v29_0) (ix2 n j)) (fun n j => W11 m ρ c (Proc.devRef .tc main_v29_1) (ix2 n j)) (fun n j => W11 m ρ c (Proc.devRef .tc main_v29_2) (ix2 n j)) (m ((c : Thread nD τ).loc main_arg7)) (m ((c : Thread nD τ).loc main_arg13)) (m ((c : Thread nD τ).loc main_arg19)) (m ((c : Thread nD τ).loc main_arg8)) (m ((c : Thread nD τ).loc main_arg9)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23)) (m ((c : Thread nD τ).loc main_arg3)) (m ((c : Thread nD τ).loc main_arg24)) (m ((c : Thread nD τ).loc main_arg25)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans (value m ρ c), (h c).2⟩) (run_named m ρ)

end Cert.KernelIdeal.KerVal

end
-- ==== Proof.ConvPayload.lean ====
/-
  The first kernel's arithmetic, read at one element.

  A block of the first kernel is 512 rows. For one row p of the block and one output column q the body computes
    ∑ k, ((src[p,k] + ∑ e, msgs[p,e] · WeT[e,k]) + be[0,k]) · WaT[k,q]
  where msgs is the row block of the segment sums (896 padded columns), src the row block of the node features, WeT
  the transposed padded edge weights [896,768], be the bias as one row, WaT the transposed second weights
  [768,768]. The two matrix products start from a zero accumulator, the bias row is repeated down the 512 rows, and
  the changes of float format are the identity on extended reals.
-/
import proofs.«165818_j2173253452173_2_alg».proof.Proof.Gen.KernelIdeal.Skeleton
import Idealize.ShloMosaic.Lib.ValueIdx
import Idealize.ShloMosaic.PureOps.Ideal.Laws
import Idealize.ShloMosaic.Lib.Pipeline.Value

noncomputable section

open scoped BigOperators

namespace Cert.KernelIdeal.KerConv

open Idealize.ShloMosaic Idealize.ShloMosaic.ValueIdx Cert.KernelIdeal Cert.KernelIdeal.Gen

/-- A product of a [512,896] block with a [896,768] matrix from the zero accumulator, at row p and column k. -/
theorem matmul896_apply (a : FVec Ideal S512x896 .bf16) (w : FVec Ideal S896x768 .bf16) (p : Fin 512) (k : Fin 768) :
    matmul dot_S512x896_S896x768_S512x768_1_0_0_1_n_n none a w (constant S512x768 .f32 0x00000000#32) (ix2 p k)
      = ∑ e : Fin 896, a (ix2 p e) * w (ix2 e k) := by
  refine (Ideal.matmul_constant_zero_apply dot_S512x896_S896x768_S512x768_1_0_0_1_n_n none a w (ix2 p k)).trans ?_
  rw [← Equiv.sum_comp (contrEquiv1 dot_S512x896_S896x768_S512x768_1_0_0_1_n_n 896 rfl rfl).symm]
  refine Finset.sum_congr rfl fun e _ => ?_
  have hl : dot_S512x896_S896x768_S512x768_1_0_0_1_n_n.lhsIdx (ix2 p k)
      ((contrEquiv1 dot_S512x896_S896x768_S512x768_1_0_0_1_n_n 896 rfl rfl).symm e) = ix2 p e := by
    funext a; refine Fin.ext ?_
    match a with
    | ⟨0, _⟩ => rfl
    | ⟨1, _⟩ =>
      exact (dot_S512x896_S896x768_S512x768_1_0_0_1_n_n.lhsIdx_val_of_single (cl := 1) rfl _ _).trans
        (contrEquiv1_symm_val _ 896 rfl rfl e)
  have hr : dot_S512x896_S896x768_S512x768_1_0_0_1_n_n.rhsIdx (ix2 p k)
      ((contrEquiv1 dot_S512x896_S896x768_S512x768_1_0_0_1_n_n 896 rfl rfl).symm e) = ix2 e k := by
    funext a; refine Fin.ext ?_
    match a with
    | ⟨0, _⟩ =>
      exact (dot_S512x896_S896x768_S512x768_1_0_0_1_n_n.rhsIdx_val_of_single (cr := 0) rfl _ _).trans
        (contrEquiv1_symm_val _ 896 rfl rfl e)
    | ⟨1, _⟩ => rfl
  rw [hl, hr]

/-- A product of a [512,768] block with a [768,768] matrix from the zero accumulator, at row p and column q. -/
theorem matmul768_apply (a : FVec Ideal S512x768 .bf16) (w : FVec Ideal S768x768 .bf16) (p : Fin 512) (q : Fin 768) :
    matmul dot_S512x768_S768x768_S512x768_1_0_0_1_n_n none a w (constant S512x768 .f32 0x00000000#32) (ix2 p q)
      = ∑ k : Fin 768, a (ix2 p k) * w (ix2 k q) := by
  refine (Ideal.matmul_constant_zero_apply dot_S512x768_S768x768_S512x768_1_0_0_1_n_n none a w (ix2 p q)).trans ?_
  rw [← Equiv.sum_comp (contrEquiv1 dot_S512x768_S768x768_S512x768_1_0_0_1_n_n 768 rfl rfl).symm]
  refine Finset.sum_congr rfl fun e _ => ?_
  have hl : dot_S512x768_S768x768_S512x768_1_0_0_1_n_n.lhsIdx (ix2 p q)
      ((contrEquiv1 dot_S512x768_S768x768_S512x768_1_0_0_1_n_n 768 rfl rfl).symm e) = ix2 p e := by
    funext a; refine Fin.ext ?_
    match a with
    | ⟨0, _⟩ => rfl
    | ⟨1, _⟩ =>
      exact (dot_S512x768_S768x768_S512x768_1_0_0_1_n_n.lhsIdx_val_of_single (cl := 1) rfl _ _).trans
        (contrEquiv1_symm_val _ 768 rfl rfl e)
  have hr : dot_S512x768_S768x768_S512x768_1_0_0_1_n_n.rhsIdx (ix2 p q)
      ((contrEquiv1 dot_S512x768_S768x768_S512x768_1_0_0_1_n_n 768 rfl rfl).symm e) = ix2 e q := by
    funext a; refine Fin.ext ?_
    match a with
    | ⟨0, _⟩ =>
      exact (dot_S512x768_S768x768_S512x768_1_0_0_1_n_n.rhsIdx_val_of_single (cr := 0) rfl _ _).trans
        (contrEquiv1_symm_val _ 768 rfl rfl e)
    | ⟨1, _⟩ => rfl
  rw [hl, hr]

/-- The bias row repeated down the 512 rows, at row p and column k. -/
theorem biasRow_apply (b : FVec Ideal S1x768 .f32) (p : Fin 512) (k : Fin 768) :
    broadcastTo S512x768 b broadcasts_S1x768_S512x768 (ix2 p k) = b (ix2 (0 : Fin 1) k) := by
  refine broadcastTo_apply b broadcasts_S1x768_S512x768 (ix2 p k) (ix2 (0 : Fin 1) k) fun a => ?_
  match a with
  | ⟨0, _⟩ => rfl
  | ⟨1, _⟩ => rfl

/-- One branch of the first kernel at row p, column q of its block: the closed form every output shares. -/
def convAt (x0 : Vec Ideal S512x896 .f32) (x1 : Vec Ideal S512x768 .f32) (w : Vec Ideal S896x768 .bf16)
    (b : Vec Ideal S1x768 .f32) (wa : Vec Ideal S768x768 .bf16) (p : Fin 512) (q : Fin 768) : EReal :=
  ∑ k : Fin 768, ((x1 (ix2 p k) + ∑ e : Fin 896, x0 (ix2 p e) * w (ix2 e k)) + b (ix2 (0 : Fin 1) k)) * wa (ix2 k q)

/-- The shared tail of the three branches: from the (format-changed) message block to the stored value. -/
theorem branch_apply (a : FVec Ideal S512x896 .bf16) (x1 : Vec Ideal S512x768 .f32) (w : Vec Ideal S896x768 .bf16)
    (b : Vec Ideal S1x768 .f32) (wa : Vec Ideal S768x768 .bf16) (p : Fin 512) (q : Fin 768) :
    k0_pay1 (F := Ideal) a x1 w b wa (ix2 p q)
      = ∑ k : Fin 768, ((x1 (ix2 p k) + ∑ e : Fin 896, a (ix2 p e) * w (ix2 e k)) + b (ix2 (0 : Fin 1) k)) * wa (ix2 k q) := by
  unfold k0_pay1
  simp only [shapeCast_self]
  refine (matmul768_apply _ _ p q).trans ?_
  refine Finset.sum_congr rfl fun k _ => ?_
  refine congrArg (· * wa (ix2 k q)) ?_
  show (x1 (ix2 p k) + matmul (F := Ideal) dot_S512x896_S896x768_S512x768_1_0_0_1_n_n none a w (constant S512x768 .f32 0x00000000#32) (ix2 p k))
      + broadcastTo S512x768 b broadcasts_S1x768_S512x768 (ix2 p k) = _
  rw [matmul896_apply, biasRow_apply]

theorem pay2_eq (x0 : Vec Ideal S512x896 .f32) : k0_pay2 (F := Ideal) x0 = x0 := by
  unfold k0_pay2
  simp only [shapeCast_self]
  rfl

/-- The third output's stored value at row p, column q. -/
theorem pay1_apply (x0 : Vec Ideal S512x896 .f32) (x1 : Vec Ideal S512x768 .f32) (w : Vec Ideal S896x768 .bf16)
    (b : Vec Ideal S1x768 .f32) (wa : Vec Ideal S768x768 .bf16) (p : Fin 512) (q : Fin 768) :
    k0_pay1 (F := Ideal) (k0_pay2 x0) x1 w b wa (ix2 p q) = convAt x0 x1 w b wa p q := by
  rw [pay2_eq]; exact branch_apply x0 x1 w b wa p q

/-- The first output's stored value at row p, column q. -/
theorem pay3_apply (x0 : Vec Ideal S512x896 .f32) (x1 : Vec Ideal S512x768 .f32) (w : Vec Ideal S896x768 .bf16)
    (b : Vec Ideal S1x768 .f32) (wa : Vec Ideal S768x768 .bf16) (p : Fin 512) (q : Fin 768) :
    k0_pay3 (F := Ideal) x0 x1 w b wa (ix2 p q) = convAt x0 x1 w b wa p q := by
  unfold k0_pay3
  simp only [shapeCast_self, pay2_eq]
  refine (matmul768_apply _ _ p q).trans ?_
  refine Finset.sum_congr rfl fun k _ => ?_
  refine congrArg (· * wa (ix2 k q)) ?_
  show (x1 (ix2 p k) + matmul (F := Ideal) dot_S512x896_S896x768_S512x768_1_0_0_1_n_n none x0 w (constant S512x768 .f32 0x00000000#32) (ix2 p k))
      + broadcastTo S512x768 b broadcasts_S1x768_S512x768 (ix2 p k) = _
  rw [matmul896_apply, biasRow_apply]

/-- The second output's stored value at row p, column q. -/
theorem pay4_apply (x0 : Vec Ideal S512x896 .f32) (x1 : Vec Ideal S512x768 .f32) (w : Vec Ideal S896x768 .bf16)
    (b : Vec Ideal S1x768 .f32) (wa : Vec Ideal S768x768 .bf16) (p : Fin 512) (q : Fin 768) :
    k0_pay4 (F := Ideal) x0 x1 w b wa (ix2 p q) = convAt x0 x1 w b wa p q := by
  unfold k0_pay4
  simp only [shapeCast_self, pay2_eq]
  refine (matmul768_apply _ _ p q).trans ?_
  refine Finset.sum_congr rfl fun k _ => ?_
  refine congrArg (· * wa (ix2 k q)) ?_
  show (x1 (ix2 p k) + matmul (F := Ideal) dot_S512x896_S896x768_S512x768_1_0_0_1_n_n none x0 w (constant S512x768 .f32 0x00000000#32) (ix2 p k))
      + broadcastTo S512x768 b broadcasts_S1x768_S512x768 (ix2 p k) = _
  rw [matmul896_apply, biasRow_apply]

end Cert.KernelIdeal.KerConv

end
-- ==== Proof.ConvBlocks.lean ====
/-
  The first kernel's blocks as pieces of the arrays it is launched on.

  The kernel runs over 16 grid points. At point t it sees rows 512·t … 512·t + 511 of the message array [8192,896] and
  of the node features [8192,768], and the whole of each weight matrix and bias row. Row p of a row block at point t
  is row n = 512·t + p of the array. An output element at row n, column j is
    ∑ k, ((src[n,k] + ∑ e, msgs[n,e] · WeT[e,k]) + be[0,k]) · WaT[k,j].
-/
import proofs.«165818_j2173253452173_2_alg».proof.Proof.Gen.KernelIdeal.Frame
import proofs.«165818_j2173253452173_2_alg».proof.Proof.ConvPayload
import Idealize.ShloMosaic.Lib.Pipeline.Value
import Idealize.ShloMosaic.Lib.Tactic

noncomputable section

open scoped BigOperators

namespace Cert.KernelIdeal.KerConv

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- One element of an output array: row n, column j. -/
def zRow (A0 : FVec Ideal S8192x896 .f32) (A1 : FVec Ideal S8192x768 .f32) (W : FVec Ideal S896x768 .bf16)
    (b : FVec Ideal S1x768 .f32) (Wa : FVec Ideal S768x768 .bf16) (n : Fin 8192) (j : Fin 768) : EReal :=
  ∑ k : Fin 768, ((A1 (ix2 n k) + ∑ e : Fin 896, A0 (ix2 n e) * W (ix2 e k)) + b (ix2 (0 : Fin 1) k)) * Wa (ix2 k j)

/-- An output array, whole. -/
def zArr (A0 : FVec Ideal S8192x896 .f32) (A1 : FVec Ideal S8192x768 .f32) (W : FVec Ideal S896x768 .bf16)
    (b : FVec Ideal S1x768 .f32) (Wa : FVec Ideal S768x768 .bf16) : FVec Ideal S8192x768 .bf16 :=
  fun i => zRow A0 A1 W b Wa (i 0) (i 1)

/-- A block's closed form is the array's, once the block's two row-blocked inputs are rows of the arrays. -/
theorem convAt_rows (x0 : Vec Ideal S512x896 .f32) (x1 : Vec Ideal S512x768 .f32) (A0 : FVec Ideal S8192x896 .f32)
    (A1 : FVec Ideal S8192x768 .f32) (W : FVec Ideal S896x768 .bf16) (b : FVec Ideal S1x768 .f32)
    (Wa : FVec Ideal S768x768 .bf16) (p : Fin 512) (q : Fin 768) (n : Fin 8192)
    (h0 : ∀ e : Fin 896, x0 (ix2 p e) = A0 (ix2 n e)) (h1 : ∀ k : Fin 768, x1 (ix2 p k) = A1 (ix2 n k)) :
    convAt x0 x1 W b Wa p q = zRow A0 A1 W b Wa n q := by
  unfold convAt zRow
  simp only [h0, h1]

/-! ## Where each window's block sits, decided over the 16 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

variable (V : (c : Dev nD) → (b : Ref sig .tc) → Buf (Elt Ideal) ((c : Thread nD τ).loc b))

/-! ## The input blocks as pieces of the arrays -/

/-- Row p of window 0's block at point t is row 512·t + p of its array. -/
theorem blk0_apply (c : Dev nD) (t : Fin cfg0.N) (p : Fin 512) (e : Fin 896) (n : Fin 8192) (hn : n.val = 512 * t.val + p.val) :
    (iblk0 V c 0 t : Vec Ideal S512x896 .f32) (ix2 p e) = (V c (Pipeline.arrRef spec0 0) : S8192x896.Idx → EReal) (ix2 n e) := by
  unfold iblk0
  rw [View.read_apply]
  refine congrArg (V c (Pipeline.arrRef spec0 0)) ?_
  funext a; apply Fin.ext
  match a with
  | ⟨0, _⟩ => show win0_0.index t (0 : Fin 2) * 512 + 1 * p.val = n.val; rw [(idx0 t).1, hn]; omega
  | ⟨1, _⟩ => show win0_0.index t (1 : Fin 2) * 896 + 1 * e.val = e.val; rw [(idx0 t).2]; omega

/-- Row p of window 1's block at point t is row 512·t + p of its array. -/
theorem blk1_apply (c : Dev nD) (t : Fin cfg0.N) (p : Fin 512) (e : Fin 768) (n : Fin 8192) (hn : n.val = 512 * t.val + p.val) :
    (iblk0 V c 1 t : Vec Ideal S512x768 .f32) (ix2 p e) = (V c (Pipeline.arrRef spec0 1) : S8192x768.Idx → EReal) (ix2 n e) := by
  unfold iblk0
  rw [View.read_apply]
  refine congrArg (V c (Pipeline.arrRef spec0 1)) ?_
  funext a; apply Fin.ext
  match a with
  | ⟨0, _⟩ => show win0_1.index t (0 : Fin 2) * 512 + 1 * p.val = n.val; rw [(idx1 t).1, hn]; omega
  | ⟨1, _⟩ => show win0_1.index t (1 : Fin 2) * 768 + 1 * e.val = e.val; rw [(idx1 t).2]; omega

/-- Window 2's block is its whole array at every point. -/
theorem blk2_eq (c : Dev nD) (t : Fin cfg0.N) :
    (iblk0 V c 2 t : Vec Ideal S896x768 .bf16) = (V c (Pipeline.arrRef spec0 2) : S896x768.Idx → EReal) := by
  refine funext fun (y : S896x768.Idx) => ?_
  unfold iblk0
  rw [View.read_apply]
  refine congrArg (V c (Pipeline.arrRef spec0 2)) ?_
  funext a; apply Fin.ext
  match a with
  | ⟨0, _⟩ => show win0_2.index t (0 : Fin 2) * 896 + 1 * (y 0).val = (y 0).val; rw [(idx2 t).1]; omega
  | ⟨1, _⟩ => show win0_2.index t (1 : Fin 2) * 768 + 1 * (y 1).val = (y 1).val; rw [(idx2 t).2]; omega

/-- Window 3's block is its whole array at every point. -/
theorem blk3_eq (c : Dev nD) (t : Fin cfg0.N) :
    (iblk0 V c 3 t : Vec Ideal S1x768 .f32) = (V c (Pipeline.arrRef spec0 3) : S1x768.Idx → EReal) := by
  refine funext fun (y : S1x768.Idx) => ?_
  unfold iblk0
  rw [View.read_apply]
  refine congrArg (V c (Pipeline.arrRef spec0 3)) ?_
  funext a; apply Fin.ext
  match a with
  | ⟨0, _⟩ => show win0_3.index t (0 : Fin 2) * 1 + 1 * (y 0).val = (y 0).val; rw [(idx3 t).1]; omega
  | ⟨1, _⟩ => show win0_3.index t (1 : Fin 2) * 768 + 1 * (y 1).val = (y 1).val; rw [(idx3 t).2]; omega

/-- Window 4's block is its whole array at every point. -/
theorem blk4_eq (c : Dev nD) (t : Fin cfg0.N) :
    (iblk0 V c 4 t : Vec Ideal S768x768 .bf16) = (V c (Pipeline.arrRef spec0 4) : S768x768.Idx → EReal) := by
  refine funext fun (y : S768x768.Idx) => ?_
  unfold iblk0
  rw [View.read_apply]
  refine congrArg (V c (Pipeline.arrRef spec0 4)) ?_
  funext a; apply Fin.ext
  match a with
  | ⟨0, _⟩ => show win0_4.index t (0 : Fin 2) * 768 + 1 * (y 0).val = (y 0).val; rw [(idx4 t).1]; omega
  | ⟨1, _⟩ => show win0_4.index t (1 : Fin 2) * 768 + 1 * (y 1).val = (y 1).val; rw [(idx4 t).2]; omega

/-- Window 5's block is its whole array at every point. -/
theorem blk5_eq (c : Dev nD) (t : Fin cfg0.N) :
    (iblk0 V c 5 t : Vec Ideal S896x768 .bf16) = (V c (Pipeline.arrRef spec0 5) : S896x768.Idx → EReal) := by
  refine funext fun (y : S896x768.Idx) => ?_
  unfold iblk0
  rw [View.read_apply]
  refine congrArg (V c (Pipeline.arrRef spec0 5)) ?_
  funext a; apply Fin.ext
  match a with
  | ⟨0, _⟩ => show win0_5.index t (0 : Fin 2) * 896 + 1 * (y 0).val = (y 0).val; rw [(idx5 t).1]; omega
  | ⟨1, _⟩ => show win0_5.index t (1 : Fin 2) * 768 + 1 * (y 1).val = (y 1).val; rw [(idx5 t).2]; omega

/-- Window 6's block is its whole array at every point. -/
theorem blk6_eq (c : Dev nD) (t : Fin cfg0.N) :
    (iblk0 V c 6 t : Vec Ideal S1x768 .f32) = (V c (Pipeline.arrRef spec0 6) : S1x768.Idx → EReal) := by
  refine funext fun (y : S1x768.Idx) => ?_
  unfold iblk0
  rw [View.read_apply]
  refine congrArg (V c (Pipeline.arrRef spec0 6)) ?_
  funext a; apply Fin.ext
  match a with
  | ⟨0, _⟩ => show win0_6.index t (0 : Fin 2) * 1 + 1 * (y 0).val = (y 0).val; rw [(idx6 t).1]; omega
  | ⟨1, _⟩ => show win0_6.index t (1 : Fin 2) * 768 + 1 * (y 1).val = (y 1).val; rw [(idx6 t).2]; omega

/-- Window 7's block is its whole array at every point. -/
theorem blk7_eq (c : Dev nD) (t : Fin cfg0.N) :
    (iblk0 V c 7 t : Vec Ideal S768x768 .bf16) = (V c (Pipeline.arrRef spec0 7) : S768x768.Idx → EReal) := by
  refine funext fun (y : S768x768.Idx) => ?_
  unfold iblk0
  rw [View.read_apply]
  refine congrArg (V c (Pipeline.arrRef spec0 7)) ?_
  funext a; apply Fin.ext
  match a with
  | ⟨0, _⟩ => show win0_7.index t (0 : Fin 2) * 768 + 1 * (y 0).val = (y 0).val; rw [(idx7 t).1]; omega
  | ⟨1, _⟩ => show win0_7.index t (1 : Fin 2) * 768 + 1 * (y 1).val = (y 1).val; rw [(idx7 t).2]; omega

/-- Window 8's block is its whole array at every point. -/
theorem blk8_eq (c : Dev nD) (t : Fin cfg0.N) :
    (iblk0 V c 8 t : Vec Ideal S896x768 .bf16) = (V c (Pipeline.arrRef spec0 8) : S896x768.Idx → EReal) := by
  refine funext fun (y : S896x768.Idx) => ?_
  unfold iblk0
  rw [View.read_apply]
  refine congrArg (V c (Pipeline.arrRef spec0 8)) ?_
  funext a; apply Fin.ext
  match a with
  | ⟨0, _⟩ => show win0_8.index t (0 : Fin 2) * 896 + 1 * (y 0).val = (y 0).val; rw [(idx8 t).1]; omega
  | ⟨1, _⟩ => show win0_8.index t (1 : Fin 2) * 768 + 1 * (y 1).val = (y 1).val; rw [(idx8 t).2]; omega

/-- Window 9's block is its whole array at every point. -/
theorem blk9_eq (c : Dev nD) (t : Fin cfg0.N) :
    (iblk0 V c 9 t : Vec Ideal S1x768 .f32) = (V c (Pipeline.arrRef spec0 9) : S1x768.Idx → EReal) := by
  refine funext fun (y : S1x768.Idx) => ?_
  unfold iblk0
  rw [View.read_apply]
  refine congrArg (V c (Pipeline.arrRef spec0 9)) ?_
  funext a; apply Fin.ext
  match a with
  | ⟨0, _⟩ => show win0_9.index t (0 : Fin 2) * 1 + 1 * (y 0).val = (y 0).val; rw [(idx9 t).1]; omega
  | ⟨1, _⟩ => show win0_9.index t (1 : Fin 2) * 768 + 1 * (y 1).val = (y 1).val; rw [(idx9 t).2]; omega

/-- Window 10's block is its whole array at every point. -/
theorem blk10_eq (c : Dev nD) (t : Fin cfg0.N) :
    (iblk0 V c 10 t : Vec Ideal S768x768 .bf16) = (V c (Pipeline.arrRef spec0 10) : S768x768.Idx → EReal) := by
  refine funext fun (y : S768x768.Idx) => ?_
  unfold iblk0
  rw [View.read_apply]
  refine congrArg (V c (Pipeline.arrRef spec0 10)) ?_
  funext a; apply Fin.ext
  match a with
  | ⟨0, _⟩ => show win0_10.index t (0 : Fin 2) * 768 + 1 * (y 0).val = (y 0).val; rw [(idx10 t).1]; omega
  | ⟨1, _⟩ => show win0_10.index t (1 : Fin 2) * 768 + 1 * (y 1).val = (y 1).val; rw [(idx10 t).2]; omega

/-! ## What each point writes back, the cover, and the arrays -/

end Cert.KernelIdeal.KerConv

end
-- ==== Proof.ConvRegion.lean ====
/-
  The first kernel's three output arrays as whole-array functions of the arrays it is launched on.

  At grid point t the kernel writes rows 512·t … 512·t + 511 of each of its three outputs [8192,768]; row p of the block
  written at point t is row n = 512·t + p of the output and depends on row n of the two row-blocked inputs only. So
  what each point writes back is a block of ONE whole-array function, and the 16 blocks cover the 8192 rows (row n lies
  in the block of point n / 512): after the region each output array is that function.
-/
import proofs.«165818_j2173253452173_2_alg».proof.Proof.ConvBlocks

noncomputable section

open scoped BigOperators

namespace Cert.KernelIdeal.KerConv

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## What each point writes back, the cover, and the arrays -/

set_option maxHeartbeats 1000000 in
/-- What point t writes back to output window 11 is block t of the whole-array function. -/
theorem flushed11_eq (c : Dev nD) (t : Fin cfg0.N) :
    (dat0 V c).flushed 11 t = ((cfg0.win 11).blk t).view.read (Elt Ideal) (zArr (V c (Pipeline.arrRef spec0 0)) (V c (Pipeline.arrRef spec0 1)) (V c (Pipeline.arrRef spec0 2)) (V c (Pipeline.arrRef spec0 3)) (V c (Pipeline.arrRef spec0 4))) := by
  show (cfg0.win 11).cut (grid0.coords t) ((dat0 V c).after 11 t) = _
  rw [after0_11]
  unfold out0_11
  rw [View.canon_unit_zero hz]
  simp only [View.ld_unit_zero (S := S512x896) hz, View.ld_unit_zero (S := S512x768) hz, View.ld_unit_zero (S := S896x768) hz,
    View.ld_unit_zero (S := S1x768) hz, View.ld_unit_zero (S := S768x768) hz]
  refine funext fun (y : S512x768.Idx) => ?_
  obtain ⟨p, q, rfl⟩ : ∃ (p : Fin 512) (q : Fin 768), y = ix2 p q := ⟨y 0, y 1, eq_ix2 y⟩
  have hn : ((((cfg0.win 11).blk t).view.emb (ix2 p q)) 0).val = 512 * t.val + p.val := by
    show win0_11.index t (0 : Fin 2) * 512 + 1 * p.val = _
    rw [(idx11 t).1]; omega
  have hq : (((cfg0.win 11).blk t).view.emb (ix2 p q)) 1 = q := Fin.ext (by
    show win0_11.index t (1 : Fin 2) * 768 + 1 * q.val = q.val
    rw [(idx11 t).2]; omega)
  refine (pay3_apply (iblk0 V c 0 t) (iblk0 V c 1 t) (iblk0 V c 2 t) (iblk0 V c 3 t) (iblk0 V c 4 t) p q).trans ?_
  rw [blk2_eq V c t, blk3_eq V c t, blk4_eq V c t]
  show _ = zRow (V c (Pipeline.arrRef spec0 0)) (V c (Pipeline.arrRef spec0 1)) (V c (Pipeline.arrRef spec0 2)) (V c (Pipeline.arrRef spec0 3)) (V c (Pipeline.arrRef spec0 4)) ((((cfg0.win 11).blk t).view.emb (ix2 p q)) 0) ((((cfg0.win 11).blk t).view.emb (ix2 p q)) 1)
  rw [hq]
  exact convAt_rows (iblk0 V c 0 t) (iblk0 V c 1 t) (V c (Pipeline.arrRef spec0 0)) (V c (Pipeline.arrRef spec0 1)) (V c (Pipeline.arrRef spec0 2)) (V c (Pipeline.arrRef spec0 3)) (V c (Pipeline.arrRef spec0 4)) p q ((((cfg0.win 11).blk t).view.emb (ix2 p q)) 0)
    (fun e => blk0_apply V c t p e ((((cfg0.win 11).blk t).view.emb (ix2 p q)) 0) hn) (fun k => blk1_apply V c t p k ((((cfg0.win 11).blk t).view.emb (ix2 p q)) 0) hn)

/-- An index of the array is in point t's block iff each coordinate is in the block's range on its axis. -/
theorem mem_blk11 (t : Fin cfg0.N) (i : S8192x768.Idx) :
    i ∈ ((cfg0.win 11).blk t).view.set ↔ ∀ a : Fin 2, win0_11.index t a * S512x768.size a ≤ (i a).val ∧ (i a).val < win0_11.index t a * S512x768.size a + S512x768.size a := by
  show i ∈ ((View.whole main_v29_0).slice (win0_11.rect t)).set ↔ _
  rw [View.set_slice_whole, Rect.mem_set_unit]
  exact Iff.rfl

/-- Row n of the array lies in the block of point n / 512. -/
theorem cover11 (i : S8192x768.Idx) : ∃ t : Fin cfg0.N, (cfg0.win 11).flush t = true ∧ i ∈ ((cfg0.win 11).blk t).view.set := by
  have hi0 : (i 0).val < 8192 := (i 0).isLt
  have hi1 : (i 1).val < 768 := (i 1).isLt
  have hN : cfg0.N = 16 := N_0
  refine ⟨⟨(i 0).val / 512, by rw [hN]; omega⟩, flush0_11 _, ?_⟩
  rw [mem_blk11]
  intro a
  match a with
  | ⟨0, _⟩ =>
    show win0_11.index _ (0 : Fin 2) * 512 ≤ (i 0).val ∧ (i 0).val < win0_11.index _ (0 : Fin 2) * 512 + 512
    rw [(idx11 _).1]; show (i 0).val / 512 * 512 ≤ (i 0).val ∧ (i 0).val < (i 0).val / 512 * 512 + 512; omega
  | ⟨1, _⟩ =>
    show win0_11.index _ (1 : Fin 2) * 768 ≤ (i 1).val ∧ (i 1).val < win0_11.index _ (1 : Fin 2) * 768 + 768
    rw [(idx11 _).2]; omega

/-- Output window 11's array after the region. -/
theorem final11 (c : Dev nD) : (dat0 V c).arrAt 11 cfg0.N = zArr (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 11 (zArr (V c (Pipeline.arrRef spec0 0)) (V c (Pipeline.arrRef spec0 1)) (V c (Pipeline.arrRef spec0 2)) (V c (Pipeline.arrRef spec0 3)) (V c (Pipeline.arrRef spec0 4))) (fun t _ => flushed11_eq V c t) cover11

set_option maxHeartbeats 1000000 in
/-- What point t writes back to output window 12 is block t of the whole-array function. -/
theorem flushed12_eq (c : Dev nD) (t : Fin cfg0.N) :
    (dat0 V c).flushed 12 t = ((cfg0.win 12).blk t).view.read (Elt Ideal) (zArr (V c (Pipeline.arrRef spec0 0)) (V c (Pipeline.arrRef spec0 1)) (V c (Pipeline.arrRef spec0 5)) (V c (Pipeline.arrRef spec0 6)) (V c (Pipeline.arrRef spec0 7))) := by
  show (cfg0.win 12).cut (grid0.coords t) ((dat0 V c).after 12 t) = _
  rw [after0_12]
  unfold out0_12
  rw [View.canon_unit_zero hz]
  simp only [View.ld_unit_zero (S := S512x896) hz, View.ld_unit_zero (S := S512x768) hz, View.ld_unit_zero (S := S896x768) hz,
    View.ld_unit_zero (S := S1x768) hz, View.ld_unit_zero (S := S768x768) hz]
  refine funext fun (y : S512x768.Idx) => ?_
  obtain ⟨p, q, rfl⟩ : ∃ (p : Fin 512) (q : Fin 768), y = ix2 p q := ⟨y 0, y 1, eq_ix2 y⟩
  have hn : ((((cfg0.win 12).blk t).view.emb (ix2 p q)) 0).val = 512 * t.val + p.val := by
    show win0_12.index t (0 : Fin 2) * 512 + 1 * p.val = _
    rw [(idx12 t).1]; omega
  have hq : (((cfg0.win 12).blk t).view.emb (ix2 p q)) 1 = q := Fin.ext (by
    show win0_12.index t (1 : Fin 2) * 768 + 1 * q.val = q.val
    rw [(idx12 t).2]; omega)
  refine (pay4_apply (iblk0 V c 0 t) (iblk0 V c 1 t) (iblk0 V c 5 t) (iblk0 V c 6 t) (iblk0 V c 7 t) p q).trans ?_
  rw [blk5_eq V c t, blk6_eq V c t, blk7_eq V c t]
  show _ = zRow (V c (Pipeline.arrRef spec0 0)) (V c (Pipeline.arrRef spec0 1)) (V c (Pipeline.arrRef spec0 5)) (V c (Pipeline.arrRef spec0 6)) (V c (Pipeline.arrRef spec0 7)) ((((cfg0.win 12).blk t).view.emb (ix2 p q)) 0) ((((cfg0.win 12).blk t).view.emb (ix2 p q)) 1)
  rw [hq]
  exact convAt_rows (iblk0 V c 0 t) (iblk0 V c 1 t) (V c (Pipeline.arrRef spec0 0)) (V c (Pipeline.arrRef spec0 1)) (V c (Pipeline.arrRef spec0 5)) (V c (Pipeline.arrRef spec0 6)) (V c (Pipeline.arrRef spec0 7)) p q ((((cfg0.win 12).blk t).view.emb (ix2 p q)) 0)
    (fun e => blk0_apply V c t p e ((((cfg0.win 12).blk t).view.emb (ix2 p q)) 0) hn) (fun k => blk1_apply V c t p k ((((cfg0.win 12).blk t).view.emb (ix2 p q)) 0) hn)

/-- An index of the array is in point t's block iff each coordinate is in the block's range on its axis. -/
theorem mem_blk12 (t : Fin cfg0.N) (i : S8192x768.Idx) :
    i ∈ ((cfg0.win 12).blk t).view.set ↔ ∀ a : Fin 2, win0_12.index t a * S512x768.size a ≤ (i a).val ∧ (i a).val < win0_12.index t a * S512x768.size a + S512x768.size a := by
  show i ∈ ((View.whole main_v29_1).slice (win0_12.rect t)).set ↔ _
  rw [View.set_slice_whole, Rect.mem_set_unit]
  exact Iff.rfl

/-- Row n of the array lies in the block of point n / 512. -/
theorem cover12 (i : S8192x768.Idx) : ∃ t : Fin cfg0.N, (cfg0.win 12).flush t = true ∧ i ∈ ((cfg0.win 12).blk t).view.set := by
  have hi0 : (i 0).val < 8192 := (i 0).isLt
  have hi1 : (i 1).val < 768 := (i 1).isLt
  have hN : cfg0.N = 16 := N_0
  refine ⟨⟨(i 0).val / 512, by rw [hN]; omega⟩, flush0_12 _, ?_⟩
  rw [mem_blk12]
  intro a
  match a with
  | ⟨0, _⟩ =>
    show win0_12.index _ (0 : Fin 2) * 512 ≤ (i 0).val ∧ (i 0).val < win0_12.index _ (0 : Fin 2) * 512 + 512
    rw [(idx12 _).1]; show (i 0).val / 512 * 512 ≤ (i 0).val ∧ (i 0).val < (i 0).val / 512 * 512 + 512; omega
  | ⟨1, _⟩ =>
    show win0_12.index _ (1 : Fin 2) * 768 ≤ (i 1).val ∧ (i 1).val < win0_12.index _ (1 : Fin 2) * 768 + 768
    rw [(idx12 _).2]; omega

/-- Output window 12's array after the region. -/
theorem final12 (c : Dev nD) : (dat0 V c).arrAt 12 cfg0.N = zArr (V c (Pipeline.arrRef spec0 0)) (V c (Pipeline.arrRef spec0 1)) (V c (Pipeline.arrRef spec0 5)) (V c (Pipeline.arrRef spec0 6)) (V c (Pipeline.arrRef spec0 7)) :=
  (dat0 V c).arrAt_eq_of_cover 12 (zArr (V c (Pipeline.arrRef spec0 0)) (V c (Pipeline.arrRef spec0 1)) (V c (Pipeline.arrRef spec0 5)) (V c (Pipeline.arrRef spec0 6)) (V c (Pipeline.arrRef spec0 7))) (fun t _ => flushed12_eq V c t) cover12

set_option maxHeartbeats 1000000 in
/-- What point t writes back to output window 13 is block t of the whole-array function. -/
theorem flushed13_eq (c : Dev nD) (t : Fin cfg0.N) :
    (dat0 V c).flushed 13 t = ((cfg0.win 13).blk t).view.read (Elt Ideal) (zArr (V c (Pipeline.arrRef spec0 0)) (V c (Pipeline.arrRef spec0 1)) (V c (Pipeline.arrRef spec0 8)) (V c (Pipeline.arrRef spec0 9)) (V c (Pipeline.arrRef spec0 10))) := by
  show (cfg0.win 13).cut (grid0.coords t) ((dat0 V c).after 13 t) = _
  rw [after0_13]
  unfold out0_13
  rw [View.canon_unit_zero hz]
  simp only [View.ld_unit_zero (S := S512x896) hz, View.ld_unit_zero (S := S512x768) hz, View.ld_unit_zero (S := S896x768) hz,
    View.ld_unit_zero (S := S1x768) hz, View.ld_unit_zero (S := S768x768) hz]
  refine funext fun (y : S512x768.Idx) => ?_
  obtain ⟨p, q, rfl⟩ : ∃ (p : Fin 512) (q : Fin 768), y = ix2 p q := ⟨y 0, y 1, eq_ix2 y⟩
  have hn : ((((cfg0.win 13).blk t).view.emb (ix2 p q)) 0).val = 512 * t.val + p.val := by
    show win0_13.index t (0 : Fin 2) * 512 + 1 * p.val = _
    rw [(idx13 t).1]; omega
  have hq : (((cfg0.win 13).blk t).view.emb (ix2 p q)) 1 = q := Fin.ext (by
    show win0_13.index t (1 : Fin 2) * 768 + 1 * q.val = q.val
    rw [(idx13 t).2]; omega)
  refine (pay1_apply (iblk0 V c 0 t) (iblk0 V c 1 t) (iblk0 V c 8 t) (iblk0 V c 9 t) (iblk0 V c 10 t) p q).trans ?_
  rw [blk8_eq V c t, blk9_eq V c t, blk10_eq V c t]
  show _ = zRow (V c (Pipeline.arrRef spec0 0)) (V c (Pipeline.arrRef spec0 1)) (V c (Pipeline.arrRef spec0 8)) (V c (Pipeline.arrRef spec0 9)) (V c (Pipeline.arrRef spec0 10)) ((((cfg0.win 13).blk t).view.emb (ix2 p q)) 0) ((((cfg0.win 13).blk t).view.emb (ix2 p q)) 1)
  rw [hq]
  exact convAt_rows (iblk0 V c 0 t) (iblk0 V c 1 t) (V c (Pipeline.arrRef spec0 0)) (V c (Pipeline.arrRef spec0 1)) (V c (Pipeline.arrRef spec0 8)) (V c (Pipeline.arrRef spec0 9)) (V c (Pipeline.arrRef spec0 10)) p q ((((cfg0.win 13).blk t).view.emb (ix2 p q)) 0)
    (fun e => blk0_apply V c t p e ((((cfg0.win 13).blk t).view.emb (ix2 p q)) 0) hn) (fun k => blk1_apply V c t p k ((((cfg0.win 13).blk t).view.emb (ix2 p q)) 0) hn)

/-- An index of the array is in point t's block iff each coordinate is in the block's range on its axis. -/
theorem mem_blk13 (t : Fin cfg0.N) (i : S8192x768.Idx) :
    i ∈ ((cfg0.win 13).blk t).view.set ↔ ∀ a : Fin 2, win0_13.index t a * S512x768.size a ≤ (i a).val ∧ (i a).val < win0_13.index t a * S512x768.size a + S512x768.size a := by
  show i ∈ ((View.whole main_v29_2).slice (win0_13.rect t)).set ↔ _
  rw [View.set_slice_whole, Rect.mem_set_unit]
  exact Iff.rfl

/-- Row n of the array lies in the block of point n / 512. -/
theorem cover13 (i : S8192x768.Idx) : ∃ t : Fin cfg0.N, (cfg0.win 13).flush t = true ∧ i ∈ ((cfg0.win 13).blk t).view.set := by
  have hi0 : (i 0).val < 8192 := (i 0).isLt
  have hi1 : (i 1).val < 768 := (i 1).isLt
  have hN : cfg0.N = 16 := N_0
  refine ⟨⟨(i 0).val / 512, by rw [hN]; omega⟩, flush0_13 _, ?_⟩
  rw [mem_blk13]
  intro a
  match a with
  | ⟨0, _⟩ =>
    show win0_13.index _ (0 : Fin 2) * 512 ≤ (i 0).val ∧ (i 0).val < win0_13.index _ (0 : Fin 2) * 512 + 512
    rw [(idx13 _).1]; show (i 0).val / 512 * 512 ≤ (i 0).val ∧ (i 0).val < (i 0).val / 512 * 512 + 512; omega
  | ⟨1, _⟩ =>
    show win0_13.index _ (1 : Fin 2) * 768 ≤ (i 1).val ∧ (i 1).val < win0_13.index _ (1 : Fin 2) * 768 + 768
    rw [(idx13 _).2]; omega

/-- Output window 13's array after the region. -/
theorem final13 (c : Dev nD) : (dat0 V c).arrAt 13 cfg0.N = zArr (V c (Pipeline.arrRef spec0 0)) (V c (Pipeline.arrRef spec0 1)) (V c (Pipeline.arrRef spec0 8)) (V c (Pipeline.arrRef spec0 9)) (V c (Pipeline.arrRef spec0 10)) :=
  (dat0 V c).arrAt_eq_of_cover 13 (zArr (V c (Pipeline.arrRef spec0 0)) (V c (Pipeline.arrRef spec0 1)) (V c (Pipeline.arrRef spec0 8)) (V c (Pipeline.arrRef spec0 9)) (V c (Pipeline.arrRef spec0 10))) (fun t _ => flushed13_eq V c t) cover13

/-! ## The three arrays as the region leaves them in the run -/

section Run
variable (m : (ℓ : Loc nD τ sig) → Buf (Elt Ideal) ℓ) (ρ : Dev nD → PrngReg)

theorem W11_main_v29_0 (c : Dev nD) :
    W11 m ρ c (Proc.devRef .tc main_v29_0) = zArr (V10 m ρ c (Pipeline.arrRef spec0 0)) (V10 m ρ c (Pipeline.arrRef spec0 1)) (V10 m ρ c (Pipeline.arrRef spec0 2)) (V10 m ρ c (Pipeline.arrRef spec0 3)) (V10 m ρ c (Pipeline.arrRef spec0 4)) :=
  (W11_arr m ρ c 11).trans (final11 (V10 m ρ) c)

theorem W11_main_v29_1 (c : Dev nD) :
    W11 m ρ c (Proc.devRef .tc main_v29_1) = zArr (V10 m ρ c (Pipeline.arrRef spec0 0)) (V10 m ρ c (Pipeline.arrRef spec0 1)) (V10 m ρ c (Pipeline.arrRef spec0 5)) (V10 m ρ c (Pipeline.arrRef spec0 6)) (V10 m ρ c (Pipeline.arrRef spec0 7)) :=
  (W11_arr m ρ c 12).trans (final12 (V10 m ρ) c)

theorem W11_main_v29_2 (c : Dev nD) :
    W11 m ρ c (Proc.devRef .tc main_v29_2) = zArr (V10 m ρ c (Pipeline.arrRef spec0 0)) (V10 m ρ c (Pipeline.arrRef spec0 1)) (V10 m ρ c (Pipeline.arrRef spec0 8)) (V10 m ρ c (Pipeline.arrRef spec0 9)) (V10 m ρ c (Pipeline.arrRef spec0 10)) :=
  (W11_arr m ρ c 13).trans (final13 (V10 m ρ) c)

end Run

end Cert.KernelIdeal.KerConv

end
-- ==== Proof.ConvHostOps.lean ====
/-
  The host operations that prepare the first kernel's inputs, as functions of the argument arrays, read at an element.

  * A weight matrix We [768,876] is padded with 20 zero columns, transposed and narrowed (the identity on extended
    reals): element (e, k) of the result is We[k, e] for e < 876 and the padding value, zero, for 876 ≤ e < 896.
  * A weight matrix Wa [768,768] is transposed and narrowed: element (k, j) is Wa[j, k].
  * A bias [768] is reshaped to one row [1,768]: element (0, k) is be[k].
  * The edge features [131072,876] are padded with 20 zero columns and rectified: element (s, e) for e < 876 is
    max(edge[s, e], 0).
-/
import proofs.«165818_j2173253452173_2_alg».proof.Proof.Gen.KernelIdeal.Skeleton
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.KerConv

open Idealize.ShloMosaic Idealize.ShloMosaic.ValueIdx Cert.KernelIdeal Cert.KernelIdeal.Gen

/-- The padding value both pads use: the integer zero converted. -/
def padVal : FVec Ideal S_ .f32 := sitofp .f32 (constantI S_ 32 0#32)

theorem padVal_apply (i : S_.Idx) : padVal i = 0 := by
  show (((0#32 : BitVec 32).toInt : ℝ) : EReal) = 0
  simp

/-- A first-layer weight matrix as the kernel receives it: padded, transposed, narrowed. -/
def weT (W : FVec Ideal S768x876 .f32) : FVec Ideal S896x768 .bf16 :=
  truncf .bf16 (transpose S896x768 [1, 0] (pad S768x896 ![0, 0] ![0, 20] ![0, 0] W padVal pads_S768x876_S768x896_000_0200 h_S_)
    transposes_S768x896_S896x768_1_0) bitsLt_bf16_f32

/-- Its padded columns hold zero, the others the matrix transposed. -/
theorem weT_apply (W : FVec Ideal S768x876 .f32) (e : Fin 896) (k : Fin 768) :
    weT W (ix2 e k) = if h : e.val < 876 then W (ix2 k ⟨e.val, h⟩) else 0 := by
  unfold weT
  rw [truncf_apply]
  rw [transpose_apply [1, 0] _ transposes_S768x896_S896x768_1_0 (ix2 e k) (ix2 k e) (fun b => by
    match b with
    | ⟨0, _⟩ => rfl
    | ⟨1, _⟩ => rfl)]
  by_cases h : e.val < 876
  · rw [dif_pos h]
    exact pad_apply_of_inside ![0, 0] ![0, 20] ![0, 0] W padVal pads_S768x876_S768x896_000_0200 h_S_ (ix2 k e) (ix2 k ⟨e.val, h⟩)
      (fun a => by
        match a with
        | ⟨0, _⟩ => show k.val = 0 + k.val * (0 + 1); omega
        | ⟨1, _⟩ => show e.val = 0 + e.val * (0 + 1); omega)
  · rw [dif_neg h]
    refine (pad_apply_of_not_inside ![0, 0] ![0, 20] ![0, 0] W padVal pads_S768x876_S768x896_000_0200 h_S_ (ix2 k e) 1 ?_).trans
      (padVal_apply _)
    rintro ⟨-, -, h3⟩
    have h3' : (e.val - 0) / (0 + 1) < 876 := h3
    omega

/-- A second-layer weight matrix as the kernel receives it: transposed, narrowed. -/
def waT (W : FVec Ideal S768x768 .f32) : FVec Ideal S768x768 .bf16 :=
  truncf .bf16 (transpose S768x768 [1, 0] W transposes_S768x768_S768x768_1_0) bitsLt_bf16_f32

theorem waT_apply (W : FVec Ideal S768x768 .f32) (k j : Fin 768) : waT W (ix2 k j) = W (ix2 j k) := by
  unfold waT
  rw [truncf_apply]
  exact transpose_apply [1, 0] _ transposes_S768x768_S768x768_1_0 (ix2 k j) (ix2 j k) (fun b => by
    match b with
    | ⟨0, _⟩ => rfl
    | ⟨1, _⟩ => rfl)

/-- A bias as the kernel receives it: one row. -/
def beR (b : FVec Ideal S768 .f32) : FVec Ideal S1x768 .f32 := shapeCast S1x768 b shapeCasts_S768_S1x768

theorem beR_apply (b : FVec Ideal S768 .f32) (k : Fin 768) : beR b (ix2 (0 : Fin 1) k) = b (ix1 k) := by
  unfold beR
  refine shapeCast_apply b shapeCasts_S768_S1x768 (ix2 (0 : Fin 1) k) (ix1 k) ?_
  rw [Shape.rowMajor_val_one, Shape.rowMajor_val_two]
  show k.val = 0 * 768 + k.val
  omega

/-- The rectified edge features, padded. -/
def edgeP (A : FVec Ideal S131072x876 .f32) : FVec Ideal S131072x896 .f32 :=
  maximumf (pad S131072x896 ![0, 0] ![0, 20] ![0, 0] A padVal pads_S131072x876_S131072x896_000_0200 h_S_)
    (broadcastInDim S131072x896 ![] bcast_S_S131072x896 (constant S_ .f32 0x00000000#32))

theorem edgeP_apply (A : FVec Ideal S131072x876 .f32) (s : Fin 131072) (e : Fin 876) :
    edgeP A (ix2 s (⟨e.val, by omega⟩ : Fin 896)) = max (A (ix2 s e)) (Ideal.ofBits .f32 0x00000000#32) := by
  unfold edgeP
  rw [maximumf_apply]
  refine congrArg₂ max ?_ rfl
  exact pad_apply_of_inside ![0, 0] ![0, 20] ![0, 0] A padVal pads_S131072x876_S131072x896_000_0200 h_S_
    (ix2 s (⟨e.val, by omega⟩ : Fin 896)) (ix2 s e) (fun a => by
      match a with
      | ⟨0, _⟩ => show s.val = 0 + s.val * (0 + 1); omega
      | ⟨1, _⟩ => show e.val = 0 + e.val * (0 + 1); omega)

/-- The segment sums over the padded columns, as the kernel's program computes them. -/
def msgsP (A1 : FVec Ideal S131072x876 .f32) (A2 : IVec S131072 32) : FVec Ideal S8192x896 .f32 :=
  Host.scatterAdd scatter_S8192x896_S131072x1_S131072x896_1_0_0_1
    (broadcastInDim S8192x896 ![] bcast_S_S8192x896 (constant S_ .f32 0x00000000#32))
    (broadcastInDim S131072x1 ![0] bcast_S131072_S131072x1_0 A2) (edgeP A1)

end Cert.KernelIdeal.KerConv

end
-- ==== Proof.ConvHost.lean ====
/-
  The buffers the first kernel is launched on, read back through the host operations before it.

  The program's first part is ten stretches of host operations, the contents after each a fold over the contents before
  it. A buffer no operation of a stretch writes is unchanged by the stretch; a buffer an operation writes holds that
  operation's function of what its operands held. Walking each of the kernel's eleven input arrays back to the
  launch: the message array is the segment sum of the padded, rectified edge features; the node features are an
  argument; each first-layer weight is its argument padded, transposed and narrowed; each bias its argument as one
  row; each second-layer weight its argument transposed and narrowed.
-/
import proofs.«165818_j2173253452173_2_alg».proof.Proof.Gen.KernelIdeal.Frame
import proofs.«165818_j2173253452173_2_alg».proof.Proof.LibTypedRefs
import proofs.«165818_j2173253452173_2_alg».proof.Proof.ConvHostOps
import Idealize.ShloMosaic.Lib.StableHlo.Run
import Idealize.ShloMosaic.Lib.Tactic

set_option maxRecDepth 16384

noncomputable section

namespace Cert.KernelIdeal.KerConv

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ) (ρ : Dev nD → PrngReg)

/-- A buffer that no operation of a stretch writes holds after the stretch what it held before. -/
macro "unwritten " s:ident : tactic =>
  `(tactic| exact StableHlo.after_of_forall_not_mem _ _ (List.forall_iff_forall_mem.mp (by
      simp only [$s:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- What an operation of a stretch writes, from the contents before the stretch. -/
macro "written " s:ident : tactic =>
  `(tactic| (simp only [$s:ident]; after_results; try rfl))

/-! ## The arguments are as launched -/

theorem W0_arg0 (c : Dev nD) : W0 m ρ c (Proc.devRef .tc main_arg0) = (m ((c : Thread nD τ).loc main_arg0)) := rfl
theorem W1_arg0 (c : Dev nD) : W1 m ρ c (Proc.devRef .tc main_arg0) = (m ((c : Thread nD τ).loc main_arg0)) :=
  (by unwritten hostOps0 : W1 m ρ c (Proc.devRef .tc main_arg0) = W0 m ρ c (Proc.devRef .tc main_arg0)).trans (W0_arg0 m ρ c)
theorem W2_arg0 (c : Dev nD) : W2 m ρ c (Proc.devRef .tc main_arg0) = (m ((c : Thread nD τ).loc main_arg0)) :=
  (by unwritten hostOps0_1 : W2 m ρ c (Proc.devRef .tc main_arg0) = W1 m ρ c (Proc.devRef .tc main_arg0)).trans (W1_arg0 m ρ c)
theorem W3_arg0 (c : Dev nD) : W3 m ρ c (Proc.devRef .tc main_arg0) = (m ((c : Thread nD τ).loc main_arg0)) :=
  (by unwritten hostOps0_2 : W3 m ρ c (Proc.devRef .tc main_arg0) = W2 m ρ c (Proc.devRef .tc main_arg0)).trans (W2_arg0 m ρ c)
theorem W4_arg0 (c : Dev nD) : W4 m ρ c (Proc.devRef .tc main_arg0) = (m ((c : Thread nD τ).loc main_arg0)) :=
  (by unwritten hostOps0_3 : W4 m ρ c (Proc.devRef .tc main_arg0) = W3 m ρ c (Proc.devRef .tc main_arg0)).trans (W3_arg0 m ρ c)
theorem W5_arg0 (c : Dev nD) : W5 m ρ c (Proc.devRef .tc main_arg0) = (m ((c : Thread nD τ).loc main_arg0)) :=
  (by unwritten hostOps0_4 : W5 m ρ c (Proc.devRef .tc main_arg0) = W4 m ρ c (Proc.devRef .tc main_arg0)).trans (W4_arg0 m ρ c)
theorem W6_arg0 (c : Dev nD) : W6 m ρ c (Proc.devRef .tc main_arg0) = (m ((c : Thread nD τ).loc main_arg0)) :=
  (by unwritten hostOps0_5 : W6 m ρ c (Proc.devRef .tc main_arg0) = W5 m ρ c (Proc.devRef .tc main_arg0)).trans (W5_arg0 m ρ c)
theorem W7_arg0 (c : Dev nD) : W7 m ρ c (Proc.devRef .tc main_arg0) = (m ((c : Thread nD τ).loc main_arg0)) :=
  (by unwritten hostOps0_6 : W7 m ρ c (Proc.devRef .tc main_arg0) = W6 m ρ c (Proc.devRef .tc main_arg0)).trans (W6_arg0 m ρ c)
theorem W8_arg0 (c : Dev nD) : W8 m ρ c (Proc.devRef .tc main_arg0) = (m ((c : Thread nD τ).loc main_arg0)) :=
  (by unwritten hostOps0_7 : W8 m ρ c (Proc.devRef .tc main_arg0) = W7 m ρ c (Proc.devRef .tc main_arg0)).trans (W7_arg0 m ρ c)
theorem W9_arg0 (c : Dev nD) : W9 m ρ c (Proc.devRef .tc main_arg0) = (m ((c : Thread nD τ).loc main_arg0)) :=
  (by unwritten hostOps0_8 : W9 m ρ c (Proc.devRef .tc main_arg0) = W8 m ρ c (Proc.devRef .tc main_arg0)).trans (W8_arg0 m ρ c)
theorem W10_arg0 (c : Dev nD) : W10 m ρ c (Proc.devRef .tc main_arg0) = (m ((c : Thread nD τ).loc main_arg0)) :=
  (by unwritten hostOps0_9 : W10 m ρ c (Proc.devRef .tc main_arg0) = W9 m ρ c (Proc.devRef .tc main_arg0)).trans (W9_arg0 m ρ c)
theorem W0_arg1 (c : Dev nD) : W0 m ρ c (Proc.devRef .tc main_arg1) = (m ((c : Thread nD τ).loc main_arg1)) := rfl
theorem W1_arg1 (c : Dev nD) : W1 m ρ c (Proc.devRef .tc main_arg1) = (m ((c : Thread nD τ).loc main_arg1)) :=
  (by unwritten hostOps0 : W1 m ρ c (Proc.devRef .tc main_arg1) = W0 m ρ c (Proc.devRef .tc main_arg1)).trans (W0_arg1 m ρ c)
theorem W0_arg2 (c : Dev nD) : W0 m ρ c (Proc.devRef .tc main_arg2) = (m ((c : Thread nD τ).loc main_arg2)) := rfl
theorem W1_arg2 (c : Dev nD) : W1 m ρ c (Proc.devRef .tc main_arg2) = (m ((c : Thread nD τ).loc main_arg2)) :=
  (by unwritten hostOps0 : W1 m ρ c (Proc.devRef .tc main_arg2) = W0 m ρ c (Proc.devRef .tc main_arg2)).trans (W0_arg2 m ρ c)
theorem W2_arg2 (c : Dev nD) : W2 m ρ c (Proc.devRef .tc main_arg2) = (m ((c : Thread nD τ).loc main_arg2)) :=
  (by unwritten hostOps0_1 : W2 m ρ c (Proc.devRef .tc main_arg2) = W1 m ρ c (Proc.devRef .tc main_arg2)).trans (W1_arg2 m ρ c)
theorem W3_arg2 (c : Dev nD) : W3 m ρ c (Proc.devRef .tc main_arg2) = (m ((c : Thread nD τ).loc main_arg2)) :=
  (by unwritten hostOps0_2 : W3 m ρ c (Proc.devRef .tc main_arg2) = W2 m ρ c (Proc.devRef .tc main_arg2)).trans (W2_arg2 m ρ c)
theorem W0_arg4 (c : Dev nD) : W0 m ρ c (Proc.devRef .tc main_arg4) = (m ((c : Thread nD τ).loc main_arg4)) := rfl
theorem W1_arg4 (c : Dev nD) : W1 m ρ c (Proc.devRef .tc main_arg4) = (m ((c : Thread nD τ).loc main_arg4)) :=
  (by unwritten hostOps0 : W1 m ρ c (Proc.devRef .tc main_arg4) = W0 m ρ c (Proc.devRef .tc main_arg4)).trans (W0_arg4 m ρ c)
theorem W2_arg4 (c : Dev nD) : W2 m ρ c (Proc.devRef .tc main_arg4) = (m ((c : Thread nD τ).loc main_arg4)) :=
  (by unwritten hostOps0_1 : W2 m ρ c (Proc.devRef .tc main_arg4) = W1 m ρ c (Proc.devRef .tc main_arg4)).trans (W1_arg4 m ρ c)
theorem W3_arg4 (c : Dev nD) : W3 m ρ c (Proc.devRef .tc main_arg4) = (m ((c : Thread nD τ).loc main_arg4)) :=
  (by unwritten hostOps0_2 : W3 m ρ c (Proc.devRef .tc main_arg4) = W2 m ρ c (Proc.devRef .tc main_arg4)).trans (W2_arg4 m ρ c)
theorem W4_arg4 (c : Dev nD) : W4 m ρ c (Proc.devRef .tc main_arg4) = (m ((c : Thread nD τ).loc main_arg4)) :=
  (by unwritten hostOps0_3 : W4 m ρ c (Proc.devRef .tc main_arg4) = W3 m ρ c (Proc.devRef .tc main_arg4)).trans (W3_arg4 m ρ c)
theorem W0_arg5 (c : Dev nD) : W0 m ρ c (Proc.devRef .tc main_arg5) = (m ((c : Thread nD τ).loc main_arg5)) := rfl
theorem W1_arg5 (c : Dev nD) : W1 m ρ c (Proc.devRef .tc main_arg5) = (m ((c : Thread nD τ).loc main_arg5)) :=
  (by unwritten hostOps0 : W1 m ρ c (Proc.devRef .tc main_arg5) = W0 m ρ c (Proc.devRef .tc main_arg5)).trans (W0_arg5 m ρ c)
theorem W2_arg5 (c : Dev nD) : W2 m ρ c (Proc.devRef .tc main_arg5) = (m ((c : Thread nD τ).loc main_arg5)) :=
  (by unwritten hostOps0_1 : W2 m ρ c (Proc.devRef .tc main_arg5) = W1 m ρ c (Proc.devRef .tc main_arg5)).trans (W1_arg5 m ρ c)
theorem W3_arg5 (c : Dev nD) : W3 m ρ c (Proc.devRef .tc main_arg5) = (m ((c : Thread nD τ).loc main_arg5)) :=
  (by unwritten hostOps0_2 : W3 m ρ c (Proc.devRef .tc main_arg5) = W2 m ρ c (Proc.devRef .tc main_arg5)).trans (W2_arg5 m ρ c)
theorem W4_arg5 (c : Dev nD) : W4 m ρ c (Proc.devRef .tc main_arg5) = (m ((c : Thread nD τ).loc main_arg5)) :=
  (by unwritten hostOps0_3 : W4 m ρ c (Proc.devRef .tc main_arg5) = W3 m ρ c (Proc.devRef .tc main_arg5)).trans (W3_arg5 m ρ c)
theorem W5_arg5 (c : Dev nD) : W5 m ρ c (Proc.devRef .tc main_arg5) = (m ((c : Thread nD τ).loc main_arg5)) :=
  (by unwritten hostOps0_4 : W5 m ρ c (Proc.devRef .tc main_arg5) = W4 m ρ c (Proc.devRef .tc main_arg5)).trans (W4_arg5 m ρ c)
theorem W6_arg5 (c : Dev nD) : W6 m ρ c (Proc.devRef .tc main_arg5) = (m ((c : Thread nD τ).loc main_arg5)) :=
  (by unwritten hostOps0_5 : W6 m ρ c (Proc.devRef .tc main_arg5) = W5 m ρ c (Proc.devRef .tc main_arg5)).trans (W5_arg5 m ρ c)
theorem W7_arg5 (c : Dev nD) : W7 m ρ c (Proc.devRef .tc main_arg5) = (m ((c : Thread nD τ).loc main_arg5)) :=
  (by unwritten hostOps0_6 : W7 m ρ c (Proc.devRef .tc main_arg5) = W6 m ρ c (Proc.devRef .tc main_arg5)).trans (W6_arg5 m ρ c)
theorem W8_arg5 (c : Dev nD) : W8 m ρ c (Proc.devRef .tc main_arg5) = (m ((c : Thread nD τ).loc main_arg5)) :=
  (by unwritten hostOps0_7 : W8 m ρ c (Proc.devRef .tc main_arg5) = W7 m ρ c (Proc.devRef .tc main_arg5)).trans (W7_arg5 m ρ c)
theorem W9_arg5 (c : Dev nD) : W9 m ρ c (Proc.devRef .tc main_arg5) = (m ((c : Thread nD τ).loc main_arg5)) :=
  (by unwritten hostOps0_8 : W9 m ρ c (Proc.devRef .tc main_arg5) = W8 m ρ c (Proc.devRef .tc main_arg5)).trans (W8_arg5 m ρ c)
theorem W0_arg6 (c : Dev nD) : W0 m ρ c (Proc.devRef .tc main_arg6) = (m ((c : Thread nD τ).loc main_arg6)) := rfl
theorem W1_arg6 (c : Dev nD) : W1 m ρ c (Proc.devRef .tc main_arg6) = (m ((c : Thread nD τ).loc main_arg6)) :=
  (by unwritten hostOps0 : W1 m ρ c (Proc.devRef .tc main_arg6) = W0 m ρ c (Proc.devRef .tc main_arg6)).trans (W0_arg6 m ρ c)
theorem W2_arg6 (c : Dev nD) : W2 m ρ c (Proc.devRef .tc main_arg6) = (m ((c : Thread nD τ).loc main_arg6)) :=
  (by unwritten hostOps0_1 : W2 m ρ c (Proc.devRef .tc main_arg6) = W1 m ρ c (Proc.devRef .tc main_arg6)).trans (W1_arg6 m ρ c)
theorem W3_arg6 (c : Dev nD) : W3 m ρ c (Proc.devRef .tc main_arg6) = (m ((c : Thread nD τ).loc main_arg6)) :=
  (by unwritten hostOps0_2 : W3 m ρ c (Proc.devRef .tc main_arg6) = W2 m ρ c (Proc.devRef .tc main_arg6)).trans (W2_arg6 m ρ c)
theorem W4_arg6 (c : Dev nD) : W4 m ρ c (Proc.devRef .tc main_arg6) = (m ((c : Thread nD τ).loc main_arg6)) :=
  (by unwritten hostOps0_3 : W4 m ρ c (Proc.devRef .tc main_arg6) = W3 m ρ c (Proc.devRef .tc main_arg6)).trans (W3_arg6 m ρ c)
theorem W5_arg6 (c : Dev nD) : W5 m ρ c (Proc.devRef .tc main_arg6) = (m ((c : Thread nD τ).loc main_arg6)) :=
  (by unwritten hostOps0_4 : W5 m ρ c (Proc.devRef .tc main_arg6) = W4 m ρ c (Proc.devRef .tc main_arg6)).trans (W4_arg6 m ρ c)
theorem W6_arg6 (c : Dev nD) : W6 m ρ c (Proc.devRef .tc main_arg6) = (m ((c : Thread nD τ).loc main_arg6)) :=
  (by unwritten hostOps0_5 : W6 m ρ c (Proc.devRef .tc main_arg6) = W5 m ρ c (Proc.devRef .tc main_arg6)).trans (W5_arg6 m ρ c)
theorem W7_arg6 (c : Dev nD) : W7 m ρ c (Proc.devRef .tc main_arg6) = (m ((c : Thread nD τ).loc main_arg6)) :=
  (by unwritten hostOps0_6 : W7 m ρ c (Proc.devRef .tc main_arg6) = W6 m ρ c (Proc.devRef .tc main_arg6)).trans (W6_arg6 m ρ c)
theorem W8_arg6 (c : Dev nD) : W8 m ρ c (Proc.devRef .tc main_arg6) = (m ((c : Thread nD τ).loc main_arg6)) :=
  (by unwritten hostOps0_7 : W8 m ρ c (Proc.devRef .tc main_arg6) = W7 m ρ c (Proc.devRef .tc main_arg6)).trans (W7_arg6 m ρ c)
theorem W9_arg6 (c : Dev nD) : W9 m ρ c (Proc.devRef .tc main_arg6) = (m ((c : Thread nD τ).loc main_arg6)) :=
  (by unwritten hostOps0_8 : W9 m ρ c (Proc.devRef .tc main_arg6) = W8 m ρ c (Proc.devRef .tc main_arg6)).trans (W8_arg6 m ρ c)
theorem W0_arg10 (c : Dev nD) : W0 m ρ c (Proc.devRef .tc main_arg10) = (m ((c : Thread nD τ).loc main_arg10)) := rfl
theorem W1_arg10 (c : Dev nD) : W1 m ρ c (Proc.devRef .tc main_arg10) = (m ((c : Thread nD τ).loc main_arg10)) :=
  (by unwritten hostOps0 : W1 m ρ c (Proc.devRef .tc main_arg10) = W0 m ρ c (Proc.devRef .tc main_arg10)).trans (W0_arg10 m ρ c)
theorem W2_arg10 (c : Dev nD) : W2 m ρ c (Proc.devRef .tc main_arg10) = (m ((c : Thread nD τ).loc main_arg10)) :=
  (by unwritten hostOps0_1 : W2 m ρ c (Proc.devRef .tc main_arg10) = W1 m ρ c (Proc.devRef .tc main_arg10)).trans (W1_arg10 m ρ c)
theorem W3_arg10 (c : Dev nD) : W3 m ρ c (Proc.devRef .tc main_arg10) = (m ((c : Thread nD τ).loc main_arg10)) :=
  (by unwritten hostOps0_2 : W3 m ρ c (Proc.devRef .tc main_arg10) = W2 m ρ c (Proc.devRef .tc main_arg10)).trans (W2_arg10 m ρ c)
theorem W4_arg10 (c : Dev nD) : W4 m ρ c (Proc.devRef .tc main_arg10) = (m ((c : Thread nD τ).loc main_arg10)) :=
  (by unwritten hostOps0_3 : W4 m ρ c (Proc.devRef .tc main_arg10) = W3 m ρ c (Proc.devRef .tc main_arg10)).trans (W3_arg10 m ρ c)
theorem W5_arg10 (c : Dev nD) : W5 m ρ c (Proc.devRef .tc main_arg10) = (m ((c : Thread nD τ).loc main_arg10)) :=
  (by unwritten hostOps0_4 : W5 m ρ c (Proc.devRef .tc main_arg10) = W4 m ρ c (Proc.devRef .tc main_arg10)).trans (W4_arg10 m ρ c)
theorem W6_arg10 (c : Dev nD) : W6 m ρ c (Proc.devRef .tc main_arg10) = (m ((c : Thread nD τ).loc main_arg10)) :=
  (by unwritten hostOps0_5 : W6 m ρ c (Proc.devRef .tc main_arg10) = W5 m ρ c (Proc.devRef .tc main_arg10)).trans (W5_arg10 m ρ c)
theorem W0_arg11 (c : Dev nD) : W0 m ρ c (Proc.devRef .tc main_arg11) = (m ((c : Thread nD τ).loc main_arg11)) := rfl
theorem W1_arg11 (c : Dev nD) : W1 m ρ c (Proc.devRef .tc main_arg11) = (m ((c : Thread nD τ).loc main_arg11)) :=
  (by unwritten hostOps0 : W1 m ρ c (Proc.devRef .tc main_arg11) = W0 m ρ c (Proc.devRef .tc main_arg11)).trans (W0_arg11 m ρ c)
theorem W2_arg11 (c : Dev nD) : W2 m ρ c (Proc.devRef .tc main_arg11) = (m ((c : Thread nD τ).loc main_arg11)) :=
  (by unwritten hostOps0_1 : W2 m ρ c (Proc.devRef .tc main_arg11) = W1 m ρ c (Proc.devRef .tc main_arg11)).trans (W1_arg11 m ρ c)
theorem W3_arg11 (c : Dev nD) : W3 m ρ c (Proc.devRef .tc main_arg11) = (m ((c : Thread nD τ).loc main_arg11)) :=
  (by unwritten hostOps0_2 : W3 m ρ c (Proc.devRef .tc main_arg11) = W2 m ρ c (Proc.devRef .tc main_arg11)).trans (W2_arg11 m ρ c)
theorem W4_arg11 (c : Dev nD) : W4 m ρ c (Proc.devRef .tc main_arg11) = (m ((c : Thread nD τ).loc main_arg11)) :=
  (by unwritten hostOps0_3 : W4 m ρ c (Proc.devRef .tc main_arg11) = W3 m ρ c (Proc.devRef .tc main_arg11)).trans (W3_arg11 m ρ c)
theorem W5_arg11 (c : Dev nD) : W5 m ρ c (Proc.devRef .tc main_arg11) = (m ((c : Thread nD τ).loc main_arg11)) :=
  (by unwritten hostOps0_4 : W5 m ρ c (Proc.devRef .tc main_arg11) = W4 m ρ c (Proc.devRef .tc main_arg11)).trans (W4_arg11 m ρ c)
theorem W6_arg11 (c : Dev nD) : W6 m ρ c (Proc.devRef .tc main_arg11) = (m ((c : Thread nD τ).loc main_arg11)) :=
  (by unwritten hostOps0_5 : W6 m ρ c (Proc.devRef .tc main_arg11) = W5 m ρ c (Proc.devRef .tc main_arg11)).trans (W5_arg11 m ρ c)
theorem W7_arg11 (c : Dev nD) : W7 m ρ c (Proc.devRef .tc main_arg11) = (m ((c : Thread nD τ).loc main_arg11)) :=
  (by unwritten hostOps0_6 : W7 m ρ c (Proc.devRef .tc main_arg11) = W6 m ρ c (Proc.devRef .tc main_arg11)).trans (W6_arg11 m ρ c)
theorem W8_arg11 (c : Dev nD) : W8 m ρ c (Proc.devRef .tc main_arg11) = (m ((c : Thread nD τ).loc main_arg11)) :=
  (by unwritten hostOps0_7 : W8 m ρ c (Proc.devRef .tc main_arg11) = W7 m ρ c (Proc.devRef .tc main_arg11)).trans (W7_arg11 m ρ c)
theorem W9_arg11 (c : Dev nD) : W9 m ρ c (Proc.devRef .tc main_arg11) = (m ((c : Thread nD τ).loc main_arg11)) :=
  (by unwritten hostOps0_8 : W9 m ρ c (Proc.devRef .tc main_arg11) = W8 m ρ c (Proc.devRef .tc main_arg11)).trans (W8_arg11 m ρ c)
theorem W0_arg12 (c : Dev nD) : W0 m ρ c (Proc.devRef .tc main_arg12) = (m ((c : Thread nD τ).loc main_arg12)) := rfl
theorem W1_arg12 (c : Dev nD) : W1 m ρ c (Proc.devRef .tc main_arg12) = (m ((c : Thread nD τ).loc main_arg12)) :=
  (by unwritten hostOps0 : W1 m ρ c (Proc.devRef .tc main_arg12) = W0 m ρ c (Proc.devRef .tc main_arg12)).trans (W0_arg12 m ρ c)
theorem W2_arg12 (c : Dev nD) : W2 m ρ c (Proc.devRef .tc main_arg12) = (m ((c : Thread nD τ).loc main_arg12)) :=
  (by unwritten hostOps0_1 : W2 m ρ c (Proc.devRef .tc main_arg12) = W1 m ρ c (Proc.devRef .tc main_arg12)).trans (W1_arg12 m ρ c)
theorem W3_arg12 (c : Dev nD) : W3 m ρ c (Proc.devRef .tc main_arg12) = (m ((c : Thread nD τ).loc main_arg12)) :=
  (by unwritten hostOps0_2 : W3 m ρ c (Proc.devRef .tc main_arg12) = W2 m ρ c (Proc.devRef .tc main_arg12)).trans (W2_arg12 m ρ c)
theorem W4_arg12 (c : Dev nD) : W4 m ρ c (Proc.devRef .tc main_arg12) = (m ((c : Thread nD τ).loc main_arg12)) :=
  (by unwritten hostOps0_3 : W4 m ρ c (Proc.devRef .tc main_arg12) = W3 m ρ c (Proc.devRef .tc main_arg12)).trans (W3_arg12 m ρ c)
theorem W5_arg12 (c : Dev nD) : W5 m ρ c (Proc.devRef .tc main_arg12) = (m ((c : Thread nD τ).loc main_arg12)) :=
  (by unwritten hostOps0_4 : W5 m ρ c (Proc.devRef .tc main_arg12) = W4 m ρ c (Proc.devRef .tc main_arg12)).trans (W4_arg12 m ρ c)
theorem W6_arg12 (c : Dev nD) : W6 m ρ c (Proc.devRef .tc main_arg12) = (m ((c : Thread nD τ).loc main_arg12)) :=
  (by unwritten hostOps0_5 : W6 m ρ c (Proc.devRef .tc main_arg12) = W5 m ρ c (Proc.devRef .tc main_arg12)).trans (W5_arg12 m ρ c)
theorem W7_arg12 (c : Dev nD) : W7 m ρ c (Proc.devRef .tc main_arg12) = (m ((c : Thread nD τ).loc main_arg12)) :=
  (by unwritten hostOps0_6 : W7 m ρ c (Proc.devRef .tc main_arg12) = W6 m ρ c (Proc.devRef .tc main_arg12)).trans (W6_arg12 m ρ c)
theorem W8_arg12 (c : Dev nD) : W8 m ρ c (Proc.devRef .tc main_arg12) = (m ((c : Thread nD τ).loc main_arg12)) :=
  (by unwritten hostOps0_7 : W8 m ρ c (Proc.devRef .tc main_arg12) = W7 m ρ c (Proc.devRef .tc main_arg12)).trans (W7_arg12 m ρ c)
theorem W9_arg12 (c : Dev nD) : W9 m ρ c (Proc.devRef .tc main_arg12) = (m ((c : Thread nD τ).loc main_arg12)) :=
  (by unwritten hostOps0_8 : W9 m ρ c (Proc.devRef .tc main_arg12) = W8 m ρ c (Proc.devRef .tc main_arg12)).trans (W8_arg12 m ρ c)
theorem W0_arg16 (c : Dev nD) : W0 m ρ c (Proc.devRef .tc main_arg16) = (m ((c : Thread nD τ).loc main_arg16)) := rfl
theorem W1_arg16 (c : Dev nD) : W1 m ρ c (Proc.devRef .tc main_arg16) = (m ((c : Thread nD τ).loc main_arg16)) :=
  (by unwritten hostOps0 : W1 m ρ c (Proc.devRef .tc main_arg16) = W0 m ρ c (Proc.devRef .tc main_arg16)).trans (W0_arg16 m ρ c)
theorem W2_arg16 (c : Dev nD) : W2 m ρ c (Proc.devRef .tc main_arg16) = (m ((c : Thread nD τ).loc main_arg16)) :=
  (by unwritten hostOps0_1 : W2 m ρ c (Proc.devRef .tc main_arg16) = W1 m ρ c (Proc.devRef .tc main_arg16)).trans (W1_arg16 m ρ c)
theorem W3_arg16 (c : Dev nD) : W3 m ρ c (Proc.devRef .tc main_arg16) = (m ((c : Thread nD τ).loc main_arg16)) :=
  (by unwritten hostOps0_2 : W3 m ρ c (Proc.devRef .tc main_arg16) = W2 m ρ c (Proc.devRef .tc main_arg16)).trans (W2_arg16 m ρ c)
theorem W4_arg16 (c : Dev nD) : W4 m ρ c (Proc.devRef .tc main_arg16) = (m ((c : Thread nD τ).loc main_arg16)) :=
  (by unwritten hostOps0_3 : W4 m ρ c (Proc.devRef .tc main_arg16) = W3 m ρ c (Proc.devRef .tc main_arg16)).trans (W3_arg16 m ρ c)
theorem W5_arg16 (c : Dev nD) : W5 m ρ c (Proc.devRef .tc main_arg16) = (m ((c : Thread nD τ).loc main_arg16)) :=
  (by unwritten hostOps0_4 : W5 m ρ c (Proc.devRef .tc main_arg16) = W4 m ρ c (Proc.devRef .tc main_arg16)).trans (W4_arg16 m ρ c)
theorem W6_arg16 (c : Dev nD) : W6 m ρ c (Proc.devRef .tc main_arg16) = (m ((c : Thread nD τ).loc main_arg16)) :=
  (by unwritten hostOps0_5 : W6 m ρ c (Proc.devRef .tc main_arg16) = W5 m ρ c (Proc.devRef .tc main_arg16)).trans (W5_arg16 m ρ c)
theorem W7_arg16 (c : Dev nD) : W7 m ρ c (Proc.devRef .tc main_arg16) = (m ((c : Thread nD τ).loc main_arg16)) :=
  (by unwritten hostOps0_6 : W7 m ρ c (Proc.devRef .tc main_arg16) = W6 m ρ c (Proc.devRef .tc main_arg16)).trans (W6_arg16 m ρ c)
theorem W8_arg16 (c : Dev nD) : W8 m ρ c (Proc.devRef .tc main_arg16) = (m ((c : Thread nD τ).loc main_arg16)) :=
  (by unwritten hostOps0_7 : W8 m ρ c (Proc.devRef .tc main_arg16) = W7 m ρ c (Proc.devRef .tc main_arg16)).trans (W7_arg16 m ρ c)
theorem W0_arg17 (c : Dev nD) : W0 m ρ c (Proc.devRef .tc main_arg17) = (m ((c : Thread nD τ).loc main_arg17)) := rfl
theorem W1_arg17 (c : Dev nD) : W1 m ρ c (Proc.devRef .tc main_arg17) = (m ((c : Thread nD τ).loc main_arg17)) :=
  (by unwritten hostOps0 : W1 m ρ c (Proc.devRef .tc main_arg17) = W0 m ρ c (Proc.devRef .tc main_arg17)).trans (W0_arg17 m ρ c)
theorem W2_arg17 (c : Dev nD) : W2 m ρ c (Proc.devRef .tc main_arg17) = (m ((c : Thread nD τ).loc main_arg17)) :=
  (by unwritten hostOps0_1 : W2 m ρ c (Proc.devRef .tc main_arg17) = W1 m ρ c (Proc.devRef .tc main_arg17)).trans (W1_arg17 m ρ c)
theorem W3_arg17 (c : Dev nD) : W3 m ρ c (Proc.devRef .tc main_arg17) = (m ((c : Thread nD τ).loc main_arg17)) :=
  (by unwritten hostOps0_2 : W3 m ρ c (Proc.devRef .tc main_arg17) = W2 m ρ c (Proc.devRef .tc main_arg17)).trans (W2_arg17 m ρ c)
theorem W4_arg17 (c : Dev nD) : W4 m ρ c (Proc.devRef .tc main_arg17) = (m ((c : Thread nD τ).loc main_arg17)) :=
  (by unwritten hostOps0_3 : W4 m ρ c (Proc.devRef .tc main_arg17) = W3 m ρ c (Proc.devRef .tc main_arg17)).trans (W3_arg17 m ρ c)
theorem W5_arg17 (c : Dev nD) : W5 m ρ c (Proc.devRef .tc main_arg17) = (m ((c : Thread nD τ).loc main_arg17)) :=
  (by unwritten hostOps0_4 : W5 m ρ c (Proc.devRef .tc main_arg17) = W4 m ρ c (Proc.devRef .tc main_arg17)).trans (W4_arg17 m ρ c)
theorem W6_arg17 (c : Dev nD) : W6 m ρ c (Proc.devRef .tc main_arg17) = (m ((c : Thread nD τ).loc main_arg17)) :=
  (by unwritten hostOps0_5 : W6 m ρ c (Proc.devRef .tc main_arg17) = W5 m ρ c (Proc.devRef .tc main_arg17)).trans (W5_arg17 m ρ c)
theorem W7_arg17 (c : Dev nD) : W7 m ρ c (Proc.devRef .tc main_arg17) = (m ((c : Thread nD τ).loc main_arg17)) :=
  (by unwritten hostOps0_6 : W7 m ρ c (Proc.devRef .tc main_arg17) = W6 m ρ c (Proc.devRef .tc main_arg17)).trans (W6_arg17 m ρ c)
theorem W8_arg17 (c : Dev nD) : W8 m ρ c (Proc.devRef .tc main_arg17) = (m ((c : Thread nD τ).loc main_arg17)) :=
  (by unwritten hostOps0_7 : W8 m ρ c (Proc.devRef .tc main_arg17) = W7 m ρ c (Proc.devRef .tc main_arg17)).trans (W7_arg17 m ρ c)
theorem W9_arg17 (c : Dev nD) : W9 m ρ c (Proc.devRef .tc main_arg17) = (m ((c : Thread nD τ).loc main_arg17)) :=
  (by unwritten hostOps0_8 : W9 m ρ c (Proc.devRef .tc main_arg17) = W8 m ρ c (Proc.devRef .tc main_arg17)).trans (W8_arg17 m ρ c)
theorem W0_arg18 (c : Dev nD) : W0 m ρ c (Proc.devRef .tc main_arg18) = (m ((c : Thread nD τ).loc main_arg18)) := rfl
theorem W1_arg18 (c : Dev nD) : W1 m ρ c (Proc.devRef .tc main_arg18) = (m ((c : Thread nD τ).loc main_arg18)) :=
  (by unwritten hostOps0 : W1 m ρ c (Proc.devRef .tc main_arg18) = W0 m ρ c (Proc.devRef .tc main_arg18)).trans (W0_arg18 m ρ c)
theorem W2_arg18 (c : Dev nD) : W2 m ρ c (Proc.devRef .tc main_arg18) = (m ((c : Thread nD τ).loc main_arg18)) :=
  (by unwritten hostOps0_1 : W2 m ρ c (Proc.devRef .tc main_arg18) = W1 m ρ c (Proc.devRef .tc main_arg18)).trans (W1_arg18 m ρ c)
theorem W3_arg18 (c : Dev nD) : W3 m ρ c (Proc.devRef .tc main_arg18) = (m ((c : Thread nD τ).loc main_arg18)) :=
  (by unwritten hostOps0_2 : W3 m ρ c (Proc.devRef .tc main_arg18) = W2 m ρ c (Proc.devRef .tc main_arg18)).trans (W2_arg18 m ρ c)
theorem W4_arg18 (c : Dev nD) : W4 m ρ c (Proc.devRef .tc main_arg18) = (m ((c : Thread nD τ).loc main_arg18)) :=
  (by unwritten hostOps0_3 : W4 m ρ c (Proc.devRef .tc main_arg18) = W3 m ρ c (Proc.devRef .tc main_arg18)).trans (W3_arg18 m ρ c)
theorem W5_arg18 (c : Dev nD) : W5 m ρ c (Proc.devRef .tc main_arg18) = (m ((c : Thread nD τ).loc main_arg18)) :=
  (by unwritten hostOps0_4 : W5 m ρ c (Proc.devRef .tc main_arg18) = W4 m ρ c (Proc.devRef .tc main_arg18)).trans (W4_arg18 m ρ c)
theorem W6_arg18 (c : Dev nD) : W6 m ρ c (Proc.devRef .tc main_arg18) = (m ((c : Thread nD τ).loc main_arg18)) :=
  (by unwritten hostOps0_5 : W6 m ρ c (Proc.devRef .tc main_arg18) = W5 m ρ c (Proc.devRef .tc main_arg18)).trans (W5_arg18 m ρ c)
theorem W7_arg18 (c : Dev nD) : W7 m ρ c (Proc.devRef .tc main_arg18) = (m ((c : Thread nD τ).loc main_arg18)) :=
  (by unwritten hostOps0_6 : W7 m ρ c (Proc.devRef .tc main_arg18) = W6 m ρ c (Proc.devRef .tc main_arg18)).trans (W6_arg18 m ρ c)
theorem W8_arg18 (c : Dev nD) : W8 m ρ c (Proc.devRef .tc main_arg18) = (m ((c : Thread nD τ).loc main_arg18)) :=
  (by unwritten hostOps0_7 : W8 m ρ c (Proc.devRef .tc main_arg18) = W7 m ρ c (Proc.devRef .tc main_arg18)).trans (W7_arg18 m ρ c)
theorem W9_arg18 (c : Dev nD) : W9 m ρ c (Proc.devRef .tc main_arg18) = (m ((c : Thread nD τ).loc main_arg18)) :=
  (by unwritten hostOps0_8 : W9 m ρ c (Proc.devRef .tc main_arg18) = W8 m ρ c (Proc.devRef .tc main_arg18)).trans (W8_arg18 m ρ c)

/-! ## Buffers carried unchanged through later stretches -/

theorem W5_v4_carried (c : Dev nD) : W5 m ρ c (Proc.devRef .tc main_v4) = W4 m ρ c (Proc.devRef .tc main_v4) :=
  (by unwritten hostOps0_4 : W5 m ρ c (Proc.devRef .tc main_v4) = W4 m ρ c (Proc.devRef .tc main_v4))
theorem W6_v4_carried (c : Dev nD) : W6 m ρ c (Proc.devRef .tc main_v4) = W4 m ρ c (Proc.devRef .tc main_v4) :=
  (by unwritten hostOps0_5 : W6 m ρ c (Proc.devRef .tc main_v4) = W5 m ρ c (Proc.devRef .tc main_v4)).trans (W5_v4_carried m ρ c)
theorem W7_v4_carried (c : Dev nD) : W7 m ρ c (Proc.devRef .tc main_v4) = W4 m ρ c (Proc.devRef .tc main_v4) :=
  (by unwritten hostOps0_6 : W7 m ρ c (Proc.devRef .tc main_v4) = W6 m ρ c (Proc.devRef .tc main_v4)).trans (W6_v4_carried m ρ c)
theorem W8_v4_carried (c : Dev nD) : W8 m ρ c (Proc.devRef .tc main_v4) = W4 m ρ c (Proc.devRef .tc main_v4) :=
  (by unwritten hostOps0_7 : W8 m ρ c (Proc.devRef .tc main_v4) = W7 m ρ c (Proc.devRef .tc main_v4)).trans (W7_v4_carried m ρ c)
theorem W9_v4_carried (c : Dev nD) : W9 m ρ c (Proc.devRef .tc main_v4) = W4 m ρ c (Proc.devRef .tc main_v4) :=
  (by unwritten hostOps0_8 : W9 m ρ c (Proc.devRef .tc main_v4) = W8 m ρ c (Proc.devRef .tc main_v4)).trans (W8_v4_carried m ρ c)
theorem W10_v4_carried (c : Dev nD) : W10 m ρ c (Proc.devRef .tc main_v4) = W4 m ρ c (Proc.devRef .tc main_v4) :=
  (by unwritten hostOps0_9 : W10 m ρ c (Proc.devRef .tc main_v4) = W9 m ρ c (Proc.devRef .tc main_v4)).trans (W9_v4_carried m ρ c)
theorem W7_v7_carried (c : Dev nD) : W7 m ρ c (Proc.devRef .tc main_v7) = W6 m ρ c (Proc.devRef .tc main_v7) :=
  (by unwritten hostOps0_6 : W7 m ρ c (Proc.devRef .tc main_v7) = W6 m ρ c (Proc.devRef .tc main_v7))
theorem W8_v7_carried (c : Dev nD) : W8 m ρ c (Proc.devRef .tc main_v7) = W6 m ρ c (Proc.devRef .tc main_v7) :=
  (by unwritten hostOps0_7 : W8 m ρ c (Proc.devRef .tc main_v7) = W7 m ρ c (Proc.devRef .tc main_v7)).trans (W7_v7_carried m ρ c)
theorem W9_v7_carried (c : Dev nD) : W9 m ρ c (Proc.devRef .tc main_v7) = W6 m ρ c (Proc.devRef .tc main_v7) :=
  (by unwritten hostOps0_8 : W9 m ρ c (Proc.devRef .tc main_v7) = W8 m ρ c (Proc.devRef .tc main_v7)).trans (W8_v7_carried m ρ c)
theorem W10_v7_carried (c : Dev nD) : W10 m ρ c (Proc.devRef .tc main_v7) = W6 m ρ c (Proc.devRef .tc main_v7) :=
  (by unwritten hostOps0_9 : W10 m ρ c (Proc.devRef .tc main_v7) = W9 m ρ c (Proc.devRef .tc main_v7)).trans (W9_v7_carried m ρ c)
theorem W9_v10_carried (c : Dev nD) : W9 m ρ c (Proc.devRef .tc main_v10) = W8 m ρ c (Proc.devRef .tc main_v10) :=
  (by unwritten hostOps0_8 : W9 m ρ c (Proc.devRef .tc main_v10) = W8 m ρ c (Proc.devRef .tc main_v10))
theorem W10_v10_carried (c : Dev nD) : W10 m ρ c (Proc.devRef .tc main_v10) = W8 m ρ c (Proc.devRef .tc main_v10) :=
  (by unwritten hostOps0_9 : W10 m ρ c (Proc.devRef .tc main_v10) = W9 m ρ c (Proc.devRef .tc main_v10)).trans (W9_v10_carried m ρ c)

/-! ## What each stretch writes -/

theorem s0_c (c : Dev nD) : @Eq (IVec S_ 32) (W1 m ρ c (Proc.devRef .tc main_c)) (constantI S_ 32 0#32) := by
  show StableHlo.after hostOps0 (W0 m ρ c) (Proc.devRef .tc main_c) = _
  generalize W0 m ρ c = X
  written hostOps0

theorem s1_v0 (c : Dev nD) : @Eq (FVec Ideal S131072x896 .f32) (W2 m ρ c (Proc.devRef .tc main_v0)) (pad S131072x896 ![0, 0] ![0, 20] ![0, 0] (W1 m ρ c (Proc.devRef .tc main_arg1)) (sitofp .f32 (W1 m ρ c (Proc.devRef .tc main_c))) pads_S131072x876_S131072x896_000_0200 h_S_) := by
  show StableHlo.after hostOps0_1 (W1 m ρ c) (Proc.devRef .tc main_v0) = _
  generalize W1 m ρ c = X
  written hostOps0_1

theorem s2_v1 (c : Dev nD) : @Eq (FVec Ideal S131072x896 .f32) (W3 m ρ c (Proc.devRef .tc main_v1)) (maximumf (W2 m ρ c (Proc.devRef .tc main_v0)) (broadcastInDim S131072x896 ![] bcast_S_S131072x896 (constant S_ .f32 0x00000000#32))) := by
  show StableHlo.after hostOps0_2 (W2 m ρ c) (Proc.devRef .tc main_v1) = _
  generalize W2 m ρ c = X
  written hostOps0_2

theorem s3_v4 (c : Dev nD) : @Eq (FVec Ideal S8192x896 .f32) (W4 m ρ c (Proc.devRef .tc main_v4)) (Host.scatterAdd scatter_S8192x896_S131072x1_S131072x896_1_0_0_1 (broadcastInDim S8192x896 ![] bcast_S_S8192x896 (constant S_ .f32 0x00000000#32)) (broadcastInDim S131072x1 ![0] bcast_S131072_S131072x1_0 (W3 m ρ c (Proc.devRef .tc main_arg2))) (W3 m ρ c (Proc.devRef .tc main_v1))) := by
  show StableHlo.after hostOps0_3 (W3 m ρ c) (Proc.devRef .tc main_v4) = _
  generalize W3 m ρ c = X
  written hostOps0_3

theorem s3_c0 (c : Dev nD) : @Eq (IVec S_ 32) (W4 m ρ c (Proc.devRef .tc main_c_0)) (constantI S_ 32 0#32) := by
  show StableHlo.after hostOps0_3 (W3 m ρ c) (Proc.devRef .tc main_c_0) = _
  generalize W3 m ρ c = X
  written hostOps0_3

theorem s4_v5 (c : Dev nD) : @Eq (FVec Ideal S768x896 .f32) (W5 m ρ c (Proc.devRef .tc main_v5)) (pad S768x896 ![0, 0] ![0, 20] ![0, 0] (W4 m ρ c (Proc.devRef .tc main_arg4)) (sitofp .f32 (W4 m ρ c (Proc.devRef .tc main_c_0))) pads_S768x876_S768x896_000_0200 h_S_) := by
  show StableHlo.after hostOps0_4 (W4 m ρ c) (Proc.devRef .tc main_v5) = _
  generalize W4 m ρ c = X
  written hostOps0_4

theorem s5_v7 (c : Dev nD) : @Eq (FVec Ideal S896x768 .bf16) (W6 m ρ c (Proc.devRef .tc main_v7)) (truncf .bf16 (transpose S896x768 [1, 0] (W5 m ρ c (Proc.devRef .tc main_v5)) transposes_S768x896_S896x768_1_0) bitsLt_bf16_f32) := by
  show StableHlo.after hostOps0_5 (W5 m ρ c) (Proc.devRef .tc main_v7) = _
  generalize W5 m ρ c = X
  written hostOps0_5

theorem s5_c1 (c : Dev nD) : @Eq (IVec S_ 32) (W6 m ρ c (Proc.devRef .tc main_c_1)) (constantI S_ 32 0#32) := by
  show StableHlo.after hostOps0_5 (W5 m ρ c) (Proc.devRef .tc main_c_1) = _
  generalize W5 m ρ c = X
  written hostOps0_5

theorem s6_v8 (c : Dev nD) : @Eq (FVec Ideal S768x896 .f32) (W7 m ρ c (Proc.devRef .tc main_v8)) (pad S768x896 ![0, 0] ![0, 20] ![0, 0] (W6 m ρ c (Proc.devRef .tc main_arg10)) (sitofp .f32 (W6 m ρ c (Proc.devRef .tc main_c_1))) pads_S768x876_S768x896_000_0200 h_S_) := by
  show StableHlo.after hostOps0_6 (W6 m ρ c) (Proc.devRef .tc main_v8) = _
  generalize W6 m ρ c = X
  written hostOps0_6

theorem s7_v10 (c : Dev nD) : @Eq (FVec Ideal S896x768 .bf16) (W8 m ρ c (Proc.devRef .tc main_v10)) (truncf .bf16 (transpose S896x768 [1, 0] (W7 m ρ c (Proc.devRef .tc main_v8)) transposes_S768x896_S896x768_1_0) bitsLt_bf16_f32) := by
  show StableHlo.after hostOps0_7 (W7 m ρ c) (Proc.devRef .tc main_v10) = _
  generalize W7 m ρ c = X
  written hostOps0_7

theorem s7_c2 (c : Dev nD) : @Eq (IVec S_ 32) (W8 m ρ c (Proc.devRef .tc main_c_2)) (constantI S_ 32 0#32) := by
  show StableHlo.after hostOps0_7 (W7 m ρ c) (Proc.devRef .tc main_c_2) = _
  generalize W7 m ρ c = X
  written hostOps0_7

theorem s8_v11 (c : Dev nD) : @Eq (FVec Ideal S768x896 .f32) (W9 m ρ c (Proc.devRef .tc main_v11)) (pad S768x896 ![0, 0] ![0, 20] ![0, 0] (W8 m ρ c (Proc.devRef .tc main_arg16)) (sitofp .f32 (W8 m ρ c (Proc.devRef .tc main_c_2))) pads_S768x876_S768x896_000_0200 h_S_) := by
  show StableHlo.after hostOps0_8 (W8 m ρ c) (Proc.devRef .tc main_v11) = _
  generalize W8 m ρ c = X
  written hostOps0_8

theorem s9_v13 (c : Dev nD) : @Eq (FVec Ideal S896x768 .bf16) (W10 m ρ c (Proc.devRef .tc main_v13)) (truncf .bf16 (transpose S896x768 [1, 0] (W9 m ρ c (Proc.devRef .tc main_v11)) transposes_S768x896_S896x768_1_0) bitsLt_bf16_f32) := by
  show StableHlo.after hostOps0_9 (W9 m ρ c) (Proc.devRef .tc main_v13) = _
  generalize W9 m ρ c = X
  written hostOps0_9

theorem s9_v15 (c : Dev nD) : @Eq (FVec Ideal S768x768 .bf16) (W10 m ρ c (Proc.devRef .tc main_v15)) (truncf .bf16 (transpose S768x768 [1, 0] (W9 m ρ c (Proc.devRef .tc main_arg6)) transposes_S768x768_S768x768_1_0) bitsLt_bf16_f32) := by
  show StableHlo.after hostOps0_9 (W9 m ρ c) (Proc.devRef .tc main_v15) = _
  generalize W9 m ρ c = X
  written hostOps0_9

theorem s9_v17 (c : Dev nD) : @Eq (FVec Ideal S768x768 .bf16) (W10 m ρ c (Proc.devRef .tc main_v17)) (truncf .bf16 (transpose S768x768 [1, 0] (W9 m ρ c (Proc.devRef .tc main_arg12)) transposes_S768x768_S768x768_1_0) bitsLt_bf16_f32) := by
  show StableHlo.after hostOps0_9 (W9 m ρ c) (Proc.devRef .tc main_v17) = _
  generalize W9 m ρ c = X
  written hostOps0_9

theorem s9_v19 (c : Dev nD) : @Eq (FVec Ideal S768x768 .bf16) (W10 m ρ c (Proc.devRef .tc main_v19)) (truncf .bf16 (transpose S768x768 [1, 0] (W9 m ρ c (Proc.devRef .tc main_arg18)) transposes_S768x768_S768x768_1_0) bitsLt_bf16_f32) := by
  show StableHlo.after hostOps0_9 (W9 m ρ c) (Proc.devRef .tc main_v19) = _
  generalize W9 m ρ c = X
  written hostOps0_9

theorem s9_v26 (c : Dev nD) : @Eq (FVec Ideal S1x768 .f32) (W10 m ρ c (Proc.devRef .tc main_v26)) (shapeCast S1x768 (W9 m ρ c (Proc.devRef .tc main_arg5)) shapeCasts_S768_S1x768) := by
  show StableHlo.after hostOps0_9 (W9 m ρ c) (Proc.devRef .tc main_v26) = _
  generalize W9 m ρ c = X
  written hostOps0_9

theorem s9_v27 (c : Dev nD) : @Eq (FVec Ideal S1x768 .f32) (W10 m ρ c (Proc.devRef .tc main_v27)) (shapeCast S1x768 (W9 m ρ c (Proc.devRef .tc main_arg11)) shapeCasts_S768_S1x768) := by
  show StableHlo.after hostOps0_9 (W9 m ρ c) (Proc.devRef .tc main_v27) = _
  generalize W9 m ρ c = X
  written hostOps0_9

theorem s9_v28 (c : Dev nD) : @Eq (FVec Ideal S1x768 .f32) (W10 m ρ c (Proc.devRef .tc main_v28)) (shapeCast S1x768 (W9 m ρ c (Proc.devRef .tc main_arg17)) shapeCasts_S768_S1x768) := by
  show StableHlo.after hostOps0_9 (W9 m ρ c) (Proc.devRef .tc main_v28) = _
  generalize W9 m ρ c = X
  written hostOps0_9

/-! ## The kernel's eleven input arrays at its launch -/

theorem V10_w0 (c : Dev nD) : @Eq (FVec Ideal S8192x896 .f32) (V10 m ρ c (Pipeline.arrRef spec0 0)) (msgsP (m ((c : Thread nD τ).loc main_arg1)) (m ((c : Thread nD τ).loc main_arg2))) := by
  show W10 m ρ c (Proc.devRef .tc main_v4) = _
  rw [W10_v4_carried m ρ c, s3_v4 m ρ c, s2_v1 m ρ c, s1_v0 m ρ c, s0_c m ρ c, W1_arg1 m ρ c, W3_arg2 m ρ c]
  rfl

theorem V10_w1 (c : Dev nD) : @Eq (FVec Ideal S8192x768 .f32) (V10 m ρ c (Pipeline.arrRef spec0 1)) (m ((c : Thread nD τ).loc main_arg0)) :=
  W10_arg0 m ρ c

theorem V10_w2 (c : Dev nD) : @Eq (FVec Ideal S896x768 .bf16) (V10 m ρ c (Pipeline.arrRef spec0 2)) (weT (m ((c : Thread nD τ).loc main_arg4))) := by
  show W10 m ρ c (Proc.devRef .tc main_v7) = _
  rw [W10_v7_carried m ρ c, s5_v7 m ρ c, s4_v5 m ρ c, s3_c0 m ρ c, W4_arg4 m ρ c]
  rfl

theorem V10_w3 (c : Dev nD) : @Eq (FVec Ideal S1x768 .f32) (V10 m ρ c (Pipeline.arrRef spec0 3)) (beR (m ((c : Thread nD τ).loc main_arg5))) := by
  show W10 m ρ c (Proc.devRef .tc main_v26) = _
  rw [s9_v26 m ρ c, W9_arg5 m ρ c]
  rfl

theorem V10_w4 (c : Dev nD) : @Eq (FVec Ideal S768x768 .bf16) (V10 m ρ c (Pipeline.arrRef spec0 4)) (waT (m ((c : Thread nD τ).loc main_arg6))) := by
  show W10 m ρ c (Proc.devRef .tc main_v15) = _
  rw [s9_v15 m ρ c, W9_arg6 m ρ c]
  rfl

theorem V10_w5 (c : Dev nD) : @Eq (FVec Ideal S896x768 .bf16) (V10 m ρ c (Pipeline.arrRef spec0 5)) (weT (m ((c : Thread nD τ).loc main_arg10))) := by
  show W10 m ρ c (Proc.devRef .tc main_v10) = _
  rw [W10_v10_carried m ρ c, s7_v10 m ρ c, s6_v8 m ρ c, s5_c1 m ρ c, W6_arg10 m ρ c]
  rfl

theorem V10_w6 (c : Dev nD) : @Eq (FVec Ideal S1x768 .f32) (V10 m ρ c (Pipeline.arrRef spec0 6)) (beR (m ((c : Thread nD τ).loc main_arg11))) := by
  show W10 m ρ c (Proc.devRef .tc main_v27) = _
  rw [s9_v27 m ρ c, W9_arg11 m ρ c]
  rfl

theorem V10_w7 (c : Dev nD) : @Eq (FVec Ideal S768x768 .bf16) (V10 m ρ c (Pipeline.arrRef spec0 7)) (waT (m ((c : Thread nD τ).loc main_arg12))) := by
  show W10 m ρ c (Proc.devRef .tc main_v17) = _
  rw [s9_v17 m ρ c, W9_arg12 m ρ c]
  rfl

theorem V10_w8 (c : Dev nD) : @Eq (FVec Ideal S896x768 .bf16) (V10 m ρ c (Pipeline.arrRef spec0 8)) (weT (m ((c : Thread nD τ).loc main_arg16))) := by
  show W10 m ρ c (Proc.devRef .tc main_v13) = _
  rw [s9_v13 m ρ c, s8_v11 m ρ c, s7_c2 m ρ c, W8_arg16 m ρ c]
  rfl

theorem V10_w9 (c : Dev nD) : @Eq (FVec Ideal S1x768 .f32) (V10 m ρ c (Pipeline.arrRef spec0 9)) (beR (m ((c : Thread nD τ).loc main_arg17))) := by
  show W10 m ρ c (Proc.devRef .tc main_v28) = _
  rw [s9_v28 m ρ c, W9_arg17 m ρ c]
  rfl

theorem V10_w10 (c : Dev nD) : @Eq (FVec Ideal S768x768 .bf16) (V10 m ρ c (Pipeline.arrRef spec0 10)) (waT (m ((c : Thread nD τ).loc main_arg18))) := by
  show W10 m ρ c (Proc.devRef .tc main_v19) = _
  rw [s9_v19 m ρ c, W9_arg18 m ρ c]
  rfl

end Cert.KernelIdeal.KerConv

end
-- ==== Proof.ScatterPad.lean ====
/-
  A segment sum whose feature columns are padded with extra columns, against the unpadded one.

  The scatter-add here has one index per update row: update row s, column e lands at row idx[s] (read as a signed
  integer), column e of the operand, when that row is in range, and is dropped otherwise. So element (n, e) of the result
  is the operand's element plus the sum, over the update rows s whose index is n, of update element (s, e): a sum over
  ROWS that does not see the other columns. Two such scatter-adds over the same indices, whose updates and operands agree
  on a column, therefore agree on that column, whatever the number of columns on either side.
-/
import Idealize.ShloMosaic.PureOps.Ideal
import Idealize.ShloMosaic.Lib.ValueIdx

noncomputable section

open scoped BigOperators

namespace Cert.ScatterPad

open Idealize.ShloMosaic Idealize.ShloMosaic.ValueIdx

/-- A matrix shape, and the shape of one index per row. -/
abbrev SO (N C : Nat) : Shape := ⟨2, ![N, C]⟩
abbrev SI (E : Nat) : Shape := ⟨2, ![E, 1]⟩

/-- The dimension numbers of a row scatter: the update's column axis is the window, the operand's row axis is the
    inserted one and the one the index names, the index vector sits on the indices' second axis. -/
abbrev dims (N E C : Nat) (wf : ScatterDims.WF (SO N C) (SI E) (SO E C) [1] [0] [0] 1) : ScatterDims (SO N C) (SI E) (SO E C) :=
  ⟨[1], [0], [0], 1, wf⟩

/-- The window of update (s, e) starts, on the row axis, at index s read signed. -/
theorem start0 {N E C w : Nat} (wf) (idx : IVec (SI E) w) (s : Fin E) (e : Fin C) :
    (dims N E C wf).start (ix2 s e) idx 0 = (idx (ix2 s (0 : Fin 1))).toInt := by
  unfold ScatterDims.start
  rw [dif_pos (show (0 : Fin 2) ∈ ([0] : List (Fin 2)) from List.mem_singleton.mpr rfl)]
  refine congrArg (fun k => (idx k).toInt) ?_
  funext b; refine Fin.ext ?_
  match b with
  | ⟨0, _⟩ => rfl
  | ⟨1, _⟩ => rfl

/-- Where update (s, e) lands: row idx[s], column e, when that row exists. -/
theorem resultIdx_eq {N E C w : Nat} (wf) (idx : IVec (SI E) w) (s : Fin E) (e : Fin C) :
    (dims N E C wf).resultIdx? (ix2 s e) idx
      = if h : 0 ≤ (idx (ix2 s (0 : Fin 1))).toInt ∧ (idx (ix2 s (0 : Fin 1))).toInt < (N : Int) then
          some (ix2 ⟨(idx (ix2 s (0 : Fin 1))).toInt.toNat, by omega⟩ e) else none := by
  have s0 := start0 (N := N) wf idx s e
  have s1 : (dims N E C wf).start (ix2 s e) idx 1 = 0 := rfl
  have w0 : (dims N E C wf).window (ix2 s e) 0 = 0 := rfl
  have w1 : (dims N E C wf).window (ix2 s e) 1 = e.val := rfl
  have he := e.isLt
  unfold ScatterDims.resultIdx?
  by_cases h' : 0 ≤ (idx (ix2 s (0 : Fin 1))).toInt ∧ (idx (ix2 s (0 : Fin 1))).toInt < (N : Int)
  · have hall : ∀ a : Fin 2, 0 ≤ (dims N E C wf).start (ix2 s e) idx a + ((dims N E C wf).window (ix2 s e) a : Int)
        ∧ (dims N E C wf).start (ix2 s e) idx a + ((dims N E C wf).window (ix2 s e) a : Int) < ((SO N C).size a : Int) := by
      intro a
      match a with
      | ⟨0, _⟩ =>
        show 0 ≤ (dims N E C wf).start (ix2 s e) idx 0 + ((dims N E C wf).window (ix2 s e) 0 : Int)
          ∧ (dims N E C wf).start (ix2 s e) idx 0 + ((dims N E C wf).window (ix2 s e) 0 : Int) < (N : Int)
        rw [s0, w0]; omega
      | ⟨1, _⟩ =>
        show 0 ≤ (dims N E C wf).start (ix2 s e) idx 1 + ((dims N E C wf).window (ix2 s e) 1 : Int)
          ∧ (dims N E C wf).start (ix2 s e) idx 1 + ((dims N E C wf).window (ix2 s e) 1 : Int) < (C : Int)
        rw [s1, w1]; omega
    rw [dif_pos hall, dif_pos h']
    refine congrArg some (funext fun a => Fin.ext ?_)
    match a with
    | ⟨0, _⟩ =>
      show ((dims N E C wf).start (ix2 s e) idx 0 + ((dims N E C wf).window (ix2 s e) 0 : Int)).toNat = (idx (ix2 s (0 : Fin 1))).toInt.toNat
      rw [s0, w0]; simp
    | ⟨1, _⟩ =>
      show ((dims N E C wf).start (ix2 s e) idx 1 + ((dims N E C wf).window (ix2 s e) 1 : Int)).toNat = e.val
      rw [s1, w1]; simp
  · rw [dif_neg h', dif_neg]
    intro hall
    have h0 := hall 0
    change 0 ≤ (dims N E C wf).start (ix2 s e) idx 0 + ((dims N E C wf).window (ix2 s e) 0 : Int)
          ∧ (dims N E C wf).start (ix2 s e) idx 0 + ((dims N E C wf).window (ix2 s e) 0 : Int) < (N : Int) at h0
    rw [s0, w0] at h0
    exact h' (by omega)

/-- Update j lands at (n, c) exactly when its row's index is n and its column is c. -/
theorem resultIdx_eq_some_iff {N E C w : Nat} (wf) (idx : IVec (SI E) w) (j : (SO E C).Idx) (n : Fin N) (c : Fin C) :
    (dims N E C wf).resultIdx? j idx = some (ix2 n c)
      ↔ (idx (ix2 (j 0) (0 : Fin 1))).toInt = (n.val : Int) ∧ j 1 = c := by
  obtain ⟨s, e, rfl⟩ : ∃ (s : Fin E) (e : Fin C), j = ix2 s e := ⟨j 0, j 1, eq_ix2 j⟩
  show (dims N E C wf).resultIdx? (ix2 s e) idx = some (ix2 n c)
      ↔ (idx (ix2 s (0 : Fin 1))).toInt = (n.val : Int) ∧ e = c
  rw [resultIdx_eq]
  have hn := n.isLt
  constructor
  · intro hEq
    by_cases h : 0 ≤ (idx (ix2 s (0 : Fin 1))).toInt ∧ (idx (ix2 s (0 : Fin 1))).toInt < (N : Int)
    · rw [dif_pos h] at hEq
      have hf := Option.some.inj hEq
      have h0 : (idx (ix2 s (0 : Fin 1))).toInt.toNat = n.val := congrArg Fin.val (congrFun hf 0)
      have h1 : e = c := congrFun hf 1
      exact ⟨by omega, h1⟩
    · rw [dif_neg h] at hEq; cases hEq
  · rintro ⟨hx, hc⟩
    have hc' : e = c := hc
    subst hc'
    have hx' : (idx (ix2 s (0 : Fin 1))).toInt = (n.val : Int) := hx
    have h : 0 ≤ (idx (ix2 s (0 : Fin 1))).toInt ∧ (idx (ix2 s (0 : Fin 1))).toInt < (N : Int) := by omega
    rw [dif_pos h]
    refine congrArg some (funext fun a => ?_)
    match a with
    | ⟨0, _⟩ => exact Fin.ext (by show (idx (ix2 s (0 : Fin 1))).toInt.toNat = n.val; omega)
    | ⟨1, _⟩ => rfl

/-- THE ROW SCATTER-ADD AT AN ELEMENT: the operand's element plus the update elements of the same column in the rows
    whose index is n. -/
theorem scatter_apply {N E C w : Nat} (wf) (x : (SO N C).Idx → EReal) (idx : IVec (SI E) w) (upd : (SO E C).Idx → EReal)
    (n : Fin N) (c : Fin C) :
    Ideal.hostScatterAdd (dims N E C wf) x idx upd (ix2 n c)
      = x (ix2 n c) + ∑ s ∈ Finset.univ.filter (fun s : Fin E => (idx (ix2 s (0 : Fin 1))).toInt = (n.val : Int)), upd (ix2 s c) := by
  unfold Ideal.hostScatterAdd
  refine congrArg (x (ix2 n c) + ·) ?_
  refine Finset.sum_nbij' (fun j => (j 0 : Fin E)) (fun s => ix2 s c) ?_ ?_ ?_ ?_ ?_
  · intro j hj
    exact Finset.mem_filter.mpr ⟨Finset.mem_univ _, ((resultIdx_eq_some_iff wf idx j n c).mp (Finset.mem_filter.mp hj).2).1⟩
  · intro s hs
    exact Finset.mem_filter.mpr ⟨Finset.mem_univ _, (resultIdx_eq_some_iff wf idx (ix2 s c) n c).mpr ⟨(Finset.mem_filter.mp hs).2, rfl⟩⟩
  · intro j hj
    have hc := ((resultIdx_eq_some_iff wf idx j n c).mp (Finset.mem_filter.mp hj).2).2
    show ix2 (j 0) c = j
    rw [← hc]; exact (eq_ix2 j).symm
  · intro s _; rfl
  · intro j hj
    have hc := ((resultIdx_eq_some_iff wf idx j n c).mp (Finset.mem_filter.mp hj).2).2
    show upd j = upd (ix2 (j 0) c)
    rw [← hc]; exact congrArg upd (eq_ix2 j)

/-- The same for any record with these dimension numbers. -/
theorem scatter_apply_of {N E C w : Nat} (d : ScatterDims (SO N C) (SI E) (SO E C)) (h1 : d.updateWindowDims = [1])
    (h2 : d.insertedWindowDims = [0]) (h3 : d.scatterDimsToOperandDims = [0]) (h4 : d.indexVectorDim = 1)
    (x : (SO N C).Idx → EReal) (idx : IVec (SI E) w) (upd : (SO E C).Idx → EReal) (n : Fin N) (c : Fin C) :
    Ideal.hostScatterAdd d x idx upd (ix2 n c)
      = x (ix2 n c) + ∑ s ∈ Finset.univ.filter (fun s : Fin E => (idx (ix2 s (0 : Fin 1))).toInt = (n.val : Int)), upd (ix2 s c) := by
  obtain ⟨uw, iw, sd, iv, wf⟩ := d
  dsimp only at h1 h2 h3 h4
  subst h1 h2 h3 h4
  exact scatter_apply wf x idx upd n c

/-- PADDED AGAINST UNPADDED: two row scatter-adds over the same indices, with C' ≥ C columns and C columns, whose
    operands agree at (n, e) and whose updates agree on column e, agree at (n, e). -/
theorem scatter_pad {N E C C' w : Nat} (hC : C ≤ C') (dP : ScatterDims (SO N C') (SI E) (SO E C'))
    (dR : ScatterDims (SO N C) (SI E) (SO E C))
    (p1 : dP.updateWindowDims = [1]) (p2 : dP.insertedWindowDims = [0]) (p3 : dP.scatterDimsToOperandDims = [0])
    (p4 : dP.indexVectorDim = 1)
    (r1 : dR.updateWindowDims = [1]) (r2 : dR.insertedWindowDims = [0]) (r3 : dR.scatterDimsToOperandDims = [0])
    (r4 : dR.indexVectorDim = 1)
    (xP : (SO N C').Idx → EReal) (xR : (SO N C).Idx → EReal) (idx : IVec (SI E) w)
    (updP : (SO E C').Idx → EReal) (updR : (SO E C).Idx → EReal) (n : Fin N) (e : Fin C)
    (hx : xP (ix2 n (⟨e.val, by omega⟩ : Fin C')) = xR (ix2 n e))
    (hupd : ∀ s : Fin E, updP (ix2 s (⟨e.val, by omega⟩ : Fin C')) = updR (ix2 s e)) :
    Ideal.hostScatterAdd dP xP idx updP (ix2 n (⟨e.val, by omega⟩ : Fin C')) = Ideal.hostScatterAdd dR xR idx updR (ix2 n e) := by
  rw [scatter_apply_of dP p1 p2 p3 p4, scatter_apply_of dR r1 r2 r3 r4, hx]
  exact congrArg _ (Finset.sum_congr rfl fun s _ => hupd s)

end Cert.ScatterPad

end
-- ==== Proof.ConvValue.lean ====
/-
  The first kernel's three outputs against the specification.

  Each output array of the first kernel is, at row n and column j,
    ∑ k, ((src[n,k] + ∑ e < 896, msgsP[n,e] · WeT[e,k]) + beR[0,k]) · WaT[k,j]
  over the arrays the host operations prepared: the segment sums over 896 padded columns, the padded transposed
  first-layer weight, the bias as a row, the transposed second-layer weight. The padded weight is zero on columns
  876 … 895, and x · 0 = 0 for every extended real x, so the inner sum stops at 876; on the columns below 876 the padded
  segment sums are the unpadded ones (a scatter-add by rows does not mix columns), the padded weight is the weight
  transposed, and the result is the specification's z = ((src + M · Weᵀ) + be) · Waᵀ.
-/
import proofs.«165818_j2173253452173_2_alg».proof.Proof.ConvRegion
import proofs.«165818_j2173253452173_2_alg».proof.Proof.ConvHost
import proofs.«165818_j2173253452173_2_alg».proof.Proof.ScatterPad
import proofs.«165818_j2173253452173_2_alg».proof.Proof.SpecMsgs

noncomputable section

open scoped BigOperators

namespace Cert.KernelIdeal.KerConv

open Idealize.ShloMosaic Idealize.ShloMosaic.TcCoe Idealize.SL.Sem Idealize.ShloMosaic.ValueIdx
open Cert.KernelIdeal Cert.KernelIdeal.Gen

/-- On a column below 876 the padded segment sums are the specification's. -/
theorem msgsP_apply (A1 : FVec Ideal S131072x876 .f32) (A2 : IVec S131072 32) (n : Fin 8192) (e : Fin 876) :
    msgsP A1 A2 (ix2 n (⟨e.val, by omega⟩ : Fin 896)) = Cert.Spec.msgs A1 A2 (ix2 n e) := by
  unfold msgsP Cert.Spec.msgs
  refine Cert.ScatterPad.scatter_pad (N := 8192) (E := 131072) (C := 876) (C' := 896) (by omega)
    scatter_S8192x896_S131072x1_S131072x896_1_0_0_1 Cert.Spec.scat rfl rfl rfl rfl rfl rfl rfl rfl _ _ _ _ _ n e rfl ?_
  intro s
  exact edgeP_apply A1 s e

/-- The inner sum over the 896 padded columns is the sum over the 876 columns of the specification. -/
theorem inner_sum (A1 : FVec Ideal S131072x876 .f32) (A2 : IVec S131072 32) (We : FVec Ideal S768x876 .f32)
    (n : Fin 8192) (k : Fin 768) :
    ∑ e : Fin 896, msgsP A1 A2 (ix2 n e) * weT We (ix2 e k) = ∑ e : Fin 876, Cert.Spec.msgs A1 A2 (ix2 n e) * We (ix2 k e) := by
  show ∑ e : Fin (876 + 20), msgsP A1 A2 (ix2 n e) * weT We (ix2 e k) = _
  rw [Fin.sum_univ_add]
  have htail : ∑ i : Fin 20, msgsP A1 A2 (ix2 n (Fin.natAdd 876 i)) * weT We (ix2 (Fin.natAdd 876 i) k) = 0 := by
    refine Finset.sum_eq_zero fun i _ => ?_
    rw [weT_apply, dif_neg (by show ¬(876 + i.val < 876); omega), mul_zero]
  rw [htail, add_zero]
  refine Finset.sum_congr rfl fun e _ => ?_
  rw [weT_apply, dif_pos (show (Fin.castAdd 20 e).val < 876 from e.isLt)]
  exact congrArg (· * We (ix2 k e)) (msgsP_apply A1 A2 n e)

/-- One output element is the specification's z. -/
theorem zRow_spec (A1 : FVec Ideal S131072x876 .f32) (A2 : IVec S131072 32) (A0 : FVec Ideal S8192x768 .f32)
    (We : FVec Ideal S768x876 .f32) (be : FVec Ideal S768 .f32) (Wa : FVec Ideal S768x768 .f32) (n : Fin 8192) (j : Fin 768) :
    zRow (msgsP A1 A2) A0 (weT We) (beR be) (waT Wa) n j = Cert.Spec.zed (Cert.Spec.hid (Cert.Spec.msgs A1 A2) A0 We be) Wa n j := by
  unfold zRow Cert.Spec.zed Cert.Spec.hid
  refine Finset.sum_congr rfl fun k _ => ?_
  rw [inner_sum, beR_apply, waT_apply]

theorem conv_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) (n : Fin 8192) (j : Fin 768) :
    (Cert.KernelIdeal.Gen.W11 m ρ c (Proc.devRef .tc Cert.KernelIdeal.main_v29_0)) (ix2 n j) = Cert.Spec.zed (Cert.Spec.hid (Cert.Spec.msgs (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) n j
    ∧ (Cert.KernelIdeal.Gen.W11 m ρ c (Proc.devRef .tc Cert.KernelIdeal.main_v29_1)) (ix2 n j) = Cert.Spec.zed (Cert.Spec.hid (Cert.Spec.msgs (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg12)) n j
    ∧ (Cert.KernelIdeal.Gen.W11 m ρ c (Proc.devRef .tc Cert.KernelIdeal.main_v29_2)) (ix2 n j) = Cert.Spec.zed (Cert.Spec.hid (Cert.Spec.msgs (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (m ((c.tc : Thread Cert.KernelIdeal.nD Cert.KernelIdeal.τ).loc Cert.KernelIdeal.main_arg18)) n j := by
  refine ⟨?_, ?_, ?_⟩
  · rw [W11_main_v29_0 m ρ c, V10_w0 m ρ c, V10_w1 m ρ c, V10_w2 m ρ c, V10_w3 m ρ c, V10_w4 m ρ c]
    exact zRow_spec _ _ _ _ _ _ n j
  · rw [W11_main_v29_1 m ρ c, V10_w0 m ρ c, V10_w1 m ρ c, V10_w5 m ρ c, V10_w6 m ρ c, V10_w7 m ρ c]
    exact zRow_spec _ _ _ _ _ _ n j
  · rw [W11_main_v29_2 m ρ c, V10_w0 m ρ c, V10_w1 m ρ c, V10_w8 m ρ c, V10_w9 m ρ c, V10_w10 m ρ c]
    exact zRow_spec _ _ _ _ _ _ n j

end Cert.KernelIdeal.KerConv

end
-- ==== Proof.RefRun.lean ====
/-
  The reference's @main as one straight line of host operations, and its run.

  @main calls four outlined functions (the rectification of the edge features, the rectification of a matrix of rows,
  the column variance, and the selection inside the variance); a call means the callee's operations on the call's own
  buffers, so each call is replaced here by those operations, in order. The line is cut where the mathematics cuts it.
  Each of the three branches is four stretches: the segment sums M of the rectified edge features; h = (src + M · Weᵀ) + be
  and z = h · Waᵀ; the column mean and variance of z; the normalisation and o = max(y, 0) · Wbᵀ. The head is three: the
  three results side by side; their product with lin1ᵀ; the rest. The run then says that every buffer ends at the fold of
  the line's operations over the contents at launch.
-/
import proofs.«165818_j2173253452173_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The segment sums of the rectified edge features, first copy (`main_v3`): the rectification in its call's place, the zero array, the segment ids as a column, the scatter-add. -/
abbrev opsM1 : List (HloOp τ sig (Elt F)) :=
  [ StableHlo.TRef.nullary main_call0.cst (constant S_ .f32 0x00000000#32),
    StableHlo.TRef.unary main_call0.cst main_call0.v0 (broadcastInDim S131072x876 ![] bcast_S_S131072x876),
    StableHlo.TRef.binary (.of main_arg1 : StableHlo.TRef sig ⟨S131072x876, .f32⟩) main_call0.v0 main_call0.v1 maximumf,
    StableHlo.nullary main_cst (constant S_ .f32 0x00000000#32),
    StableHlo.unary main_cst main_v1 (broadcastInDim S8192x876 ![] bcast_S_S8192x876 : (⟨S_, .f32⟩ : BufTy).Contents (Elt F) → (⟨S8192x876, .f32⟩ : BufTy).Contents (Elt F)),
    StableHlo.unary main_arg2 main_v2 (broadcastInDim S131072x1 ![0] bcast_S131072_S131072x1_0 : (⟨S131072, .i32⟩ : BufTy).Contents (Elt F) → (⟨S131072x1, .i32⟩ : BufTy).Contents (Elt F)),
    StableHlo.ternary main_v1 main_v2 main_v0 main_v3 ((fun x i u => Host.scatterAdd scatter_S8192x876_S131072x1_S131072x876_1_0_0_1 x i u) : (⟨S8192x876, .f32⟩ : BufTy).Contents (Elt F) → (⟨S131072x1, .i32⟩ : BufTy).Contents (Elt F) → (⟨S131072x876, .f32⟩ : BufTy).Contents (Elt F) → (⟨S8192x876, .f32⟩ : BufTy).Contents (Elt F)) ]

/-- h₁ = (src + M · We₁ᵀ) + be₁ and z₁ = h₁ · Wa₁ᵀ (`main_v11`). -/
abbrev opsZ1 : List (HloOp τ sig (Elt F)) :=
  [ StableHlo.unary main_arg4 main_v4 ((transpose S876x768 [1, 0] · transposes_S768x876_S876x768_1_0) : (⟨S768x876, .f32⟩ : BufTy).Contents (Elt F) → (⟨S876x768, .f32⟩ : BufTy).Contents (Elt F)),
    StableHlo.binary main_v3 main_v4 main_v5 ((fun l r => Host.dotGeneral dot_S8192x876_S876x768_S8192x768_1_0_0_1_n_n none l r) : (⟨S8192x876, .f32⟩ : BufTy).Contents (Elt F) → (⟨S876x768, .f32⟩ : BufTy).Contents (Elt F) → (⟨S8192x768, .f32⟩ : BufTy).Contents (Elt F)),
    StableHlo.binary main_arg0 main_v5 main_v6 (addf : (⟨S8192x768, .f32⟩ : BufTy).Contents (Elt F) → (⟨S8192x768, .f32⟩ : BufTy).Contents (Elt F) → (⟨S8192x768, .f32⟩ : BufTy).Contents (Elt F)),
    StableHlo.unary main_arg5 main_v7 (broadcastInDim S1x768 ![1] bcast_S768_S1x768_1 : (⟨S768, .f32⟩ : BufTy).Contents (Elt F) → (⟨S1x768, .f32⟩ : BufTy).Contents (Elt F)),
    StableHlo.unary main_v7 main_v8 (broadcastInDim S8192x768 ![0, 1] bcast_S1x768_S8192x768_0_1 : (⟨S1x768, .f32⟩ : BufTy).Contents (Elt F) → (⟨S8192x768, .f32⟩ : BufTy).Contents (Elt F)),
    StableHlo.binary main_v6 main_v8 main_v9 (addf : (⟨S8192x768, .f32⟩ : BufTy).Contents (Elt F) → (⟨S8192x768, .f32⟩ : BufTy).Contents (Elt F) → (⟨S8192x768, .f32⟩ : BufTy).Contents (Elt F)),
    StableHlo.unary main_arg6 main_v10 ((transpose S768x768 [1, 0] · transposes_S768x768_S768x768_1_0) : (⟨S768x768, .f32⟩ : BufTy).Contents (Elt F) → (⟨S768x768, .f32⟩ : BufTy).Contents (Elt F)),
    StableHlo.binary main_v9 main_v10 main_v11 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)) ]

/-- The column mean of z₁ (`main_v14`) and its column variance, the outlined function's operations in the call's place (`main_v15`). -/
abbrev opsS1 : List (HloOp τ sig (Elt F)) :=
  [ StableHlo.nullary main_cst_0 (constant S_ .f32 0x00000000#32),
    StableHlo.binary main_v11 main_cst_0 main_v12 ((fun x v => Host.reduceAdd x v reducesTo_S8192x768_S768_d0 h_S_) : (⟨S8192x768, .f32⟩ : BufTy).Contents (Elt F) → (⟨S_, .f32⟩ : BufTy).Contents (Elt F) → (⟨S768, .f32⟩ : BufTy).Contents (Elt F)),
    StableHlo.nullary main_cst_1 (constant S_ .f32 0x46000000#32),
    StableHlo.unary main_cst_1 main_v13 (broadcastInDim S768 ![] bcast_S_S768 : (⟨S_, .f32⟩ : BufTy).Contents (Elt F) → (⟨S768, .f32⟩ : BufTy).Contents (Elt F)),
    StableHlo.binary main_v12 main_v13 main_v14 (Host.divf : (⟨S768, .f32⟩ : BufTy).Contents (Elt F) → (⟨S768, .f32⟩ : BufTy).Contents (Elt F) → (⟨S768, .f32⟩ : BufTy).Contents (Elt F)),
    StableHlo.nullary main_c (constantI S_ 32 0#32),
    StableHlo.TRef.nullary main_call1.cst (constant S_ .f32 0x00000000#32),
    StableHlo.TRef.binary (.of main_v11 : StableHlo.TRef sig ⟨S8192x768, .f32⟩) main_call1.cst main_call1.v0 (fun x v => Host.reduceAdd x v reducesTo_S8192x768_S768_d0 h_S_),
    StableHlo.TRef.unary main_call1.v0 main_call1.v1 (broadcastInDim S1x768 ![1] bcast_S768_S1x768_1),
    StableHlo.TRef.nullary main_call1.cst_0 (constant S_ .f32 0x46000000#32),
    StableHlo.TRef.unary main_call1.cst_0 main_call1.v2 (broadcastInDim S1x768 ![] bcast_S_S1x768),
    StableHlo.TRef.binary main_call1.v1 main_call1.v2 main_call1.v3 Host.divf,
    StableHlo.TRef.unary main_call1.v3 main_call1.v4 (broadcastInDim S8192x768 ![0, 1] bcast_S1x768_S8192x768_0_1),
    StableHlo.TRef.binary (.of main_v11 : StableHlo.TRef sig ⟨S8192x768, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x46000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x768_S768_d0 h_S_),
    StableHlo.TRef.unary main_call1.v8 main_call1.v10 (broadcastInDim S768 ![] bcast_S_S768),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S768 ![] bcast_S_S768),
    StableHlo.TRef.ternary main_call1.v12 main_call1.v11 main_call1.call0.v1 main_call1.call0.v2 (fun p a b => select (broadcastInDim S768 ![] bcast_S_S768 p) a b) ]

/-- The first branch's normalisation y₁ = ((z₁ − mean) / sqrt (var + ε)) · g + b and o₁ = max(y₁, 0) · Wb₁ᵀ (`main_v33`). -/
abbrev opsO1 : List (HloOp τ sig (Elt F)) :=
  [ StableHlo.unary main_v14 main_v16 (broadcastInDim S1x768 ![1] bcast_S768_S1x768_1 : (⟨S768, .f32⟩ : BufTy).Contents (Elt F) → (⟨S1x768, .f32⟩ : BufTy).Contents (Elt F)),
    StableHlo.unary main_v16 main_v17 (broadcastInDim S8192x768 ![0, 1] bcast_S1x768_S8192x768_0_1 : (⟨S1x768, .f32⟩ : BufTy).Contents (Elt F) → (⟨S8192x768, .f32⟩ : BufTy).Contents (Elt F)),
    StableHlo.binary main_v11 main_v17 main_v18 (subf : (⟨S8192x768, .f32⟩ : BufTy).Contents (Elt F) → (⟨S8192x768, .f32⟩ : BufTy).Contents (Elt F) → (⟨S8192x768, .f32⟩ : BufTy).Contents (Elt F)),
    StableHlo.nullary main_cst_2 (constant S_ .f32 0x3727C5AC#32),
    StableHlo.unary main_cst_2 main_v19 (broadcastInDim S768 ![] bcast_S_S768 : (⟨S_, .f32⟩ : BufTy).Contents (Elt F) → (⟨S768, .f32⟩ : BufTy).Contents (Elt F)),
    StableHlo.binary main_v15 main_v19 main_v20 (addf : (⟨S768, .f32⟩ : BufTy).Contents (Elt F) → (⟨S768, .f32⟩ : BufTy).Contents (Elt F) → (⟨S768, .f32⟩ : BufTy).Contents (Elt F)),
    StableHlo.unary main_v20 main_v21 (Host.sqrt : (⟨S768, .f32⟩ : BufTy).Contents (Elt F) → (⟨S768, .f32⟩ : BufTy).Contents (Elt F)),
    StableHlo.unary main_v21 main_v22 (broadcastInDim S1x768 ![1] bcast_S768_S1x768_1 : (⟨S768, .f32⟩ : BufTy).Contents (Elt F) → (⟨S1x768, .f32⟩ : BufTy).Contents (Elt F)),
    StableHlo.unary main_v22 main_v23 (broadcastInDim S8192x768 ![0, 1] bcast_S1x768_S8192x768_0_1 : (⟨S1x768, .f32⟩ : BufTy).Contents (Elt F) → (⟨S8192x768, .f32⟩ : BufTy).Contents (Elt F)),
    StableHlo.binary main_v18 main_v23 main_v24 (Host.divf : (⟨S8192x768, .f32⟩ : BufTy).Contents (Elt F) → (⟨S8192x768, .f32⟩ : BufTy).Contents (Elt F) → (⟨S8192x768, .f32⟩ : BufTy).Contents (Elt F)),
    StableHlo.unary main_arg8 main_v25 (broadcastInDim S1x768 ![1] bcast_S768_S1x768_1 : (⟨S768, .f32⟩ : BufTy).Contents (Elt F) → (⟨S1x768, .f32⟩ : BufTy).Contents (Elt F)),
    StableHlo.unary main_v25 main_v26 (broadcastInDim S8192x768 ![0, 1] bcast_S1x768_S8192x768_0_1 : (⟨S1x768, .f32⟩ : BufTy).Contents (Elt F) → (⟨S8192x768, .f32⟩ : BufTy).Contents (Elt F)),
    StableHlo.binary main_v24 main_v26 main_v27 (mulf : (⟨S8192x768, .f32⟩ : BufTy).Contents (Elt F) → (⟨S8192x768, .f32⟩ : BufTy).Contents (Elt F) → (⟨S8192x768, .f32⟩ : BufTy).Contents (Elt F)),
    StableHlo.unary main_arg9 main_v28 (broadcastInDim S1x768 ![1] bcast_S768_S1x768_1 : (⟨S768, .f32⟩ : BufTy).Contents (Elt F) → (⟨S1x768, .f32⟩ : BufTy).Contents (Elt F)),
    StableHlo.unary main_v28 main_v29 (broadcastInDim S8192x768 ![0, 1] bcast_S1x768_S8192x768_0_1 : (⟨S1x768, .f32⟩ : BufTy).Contents (Elt F) → (⟨S8192x768, .f32⟩ : BufTy).Contents (Elt F)),
    StableHlo.binary main_v27 main_v29 main_v30 (addf : (⟨S8192x768, .f32⟩ : BufTy).Contents (Elt F) → (⟨S8192x768, .f32⟩ : BufTy).Contents (Elt F) → (⟨S8192x768, .f32⟩ : BufTy).Contents (Elt F)),
    StableHlo.TRef.nullary main_call2.cst (constant S_ .f32 0x00000000#32),
    StableHlo.TRef.unary main_call2.cst main_call2.v0 (broadcastInDim S8192x768 ![] bcast_S_S8192x768),
    StableHlo.TRef.binary (.of main_v30 : StableHlo.TRef sig ⟨S8192x768, .f32⟩) main_call2.v0 main_call2.v1 maximumf,
    StableHlo.unary main_arg7 main_v32 ((transpose S768x768 [1, 0] · transposes_S768x768_S768x768_1_0) : (⟨S768x768, .f32⟩ : BufTy).Contents (Elt F) → (⟨S768x768, .f32⟩ : BufTy).Contents (Elt F)),
    StableHlo.binary main_v31 main_v32 main_v33 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)) ]

/-- The segment sums, second copy (`main_v37`). -/
abbrev opsM2 : List (HloOp τ sig (Elt F)) :=
  [ StableHlo.TRef.nullary main_call3.cst (constant S_ .f32 0x00000000#32),
    StableHlo.TRef.unary main_call3.cst main_call3.v0 (broadcastInDim S131072x876 ![] bcast_S_S131072x876),
    StableHlo.TRef.binary (.of main_arg1 : StableHlo.TRef sig ⟨S131072x876, .f32⟩) main_call3.v0 main_call3.v1 maximumf,
    StableHlo.nullary main_cst_3 (constant S_ .f32 0x00000000#32),
    StableHlo.unary main_cst_3 main_v35 (broadcastInDim S8192x876 ![] bcast_S_S8192x876 : (⟨S_, .f32⟩ : BufTy).Contents (Elt F) → (⟨S8192x876, .f32⟩ : BufTy).Contents (Elt F)),
    StableHlo.unary main_arg2 main_v36 (broadcastInDim S131072x1 ![0] bcast_S131072_S131072x1_0 : (⟨S131072, .i32⟩ : BufTy).Contents (Elt F) → (⟨S131072x1, .i32⟩ : BufTy).Contents (Elt F)),
    StableHlo.ternary main_v35 main_v36 main_v34 main_v37 ((fun x i u => Host.scatterAdd scatter_S8192x876_S131072x1_S131072x876_1_0_0_1 x i u) : (⟨S8192x876, .f32⟩ : BufTy).Contents (Elt F) → (⟨S131072x1, .i32⟩ : BufTy).Contents (Elt F) → (⟨S131072x876, .f32⟩ : BufTy).Contents (Elt F) → (⟨S8192x876, .f32⟩ : BufTy).Contents (Elt F)) ]

/-- h₂ and z₂ (`main_v45`). -/
abbrev opsZ2 : List (HloOp τ sig (Elt F)) :=
  [ StableHlo.unary main_arg10 main_v38 ((transpose S876x768 [1, 0] · transposes_S768x876_S876x768_1_0) : (⟨S768x876, .f32⟩ : BufTy).Contents (Elt F) → (⟨S876x768, .f32⟩ : BufTy).Contents (Elt F)),
    StableHlo.binary main_v37 main_v38 main_v39 ((fun l r => Host.dotGeneral dot_S8192x876_S876x768_S8192x768_1_0_0_1_n_n none l r) : (⟨S8192x876, .f32⟩ : BufTy).Contents (Elt F) → (⟨S876x768, .f32⟩ : BufTy).Contents (Elt F) → (⟨S8192x768, .f32⟩ : BufTy).Contents (Elt F)),
    StableHlo.binary main_arg0 main_v39 main_v40 (addf : (⟨S8192x768, .f32⟩ : BufTy).Contents (Elt F) → (⟨S8192x768, .f32⟩ : BufTy).Contents (Elt F) → (⟨S8192x768, .f32⟩ : BufTy).Contents (Elt F)),
    StableHlo.unary main_arg11 main_v41 (broadcastInDim S1x768 ![1] bcast_S768_S1x768_1 : (⟨S768, .f32⟩ : BufTy).Contents (Elt F) → (⟨S1x768, .f32⟩ : BufTy).Contents (Elt F)),
    StableHlo.unary main_v41 main_v42 (broadcastInDim S8192x768 ![0, 1] bcast_S1x768_S8192x768_0_1 : (⟨S1x768, .f32⟩ : BufTy).Contents (Elt F) → (⟨S8192x768, .f32⟩ : BufTy).Contents (Elt F)),
    StableHlo.binary main_v40 main_v42 main_v43 (addf : (⟨S8192x768, .f32⟩ : BufTy).Contents (Elt F) → (⟨S8192x768, .f32⟩ : BufTy).Contents (Elt F) → (⟨S8192x768, .f32⟩ : BufTy).Contents (Elt F)),
    StableHlo.unary main_arg12 main_v44 ((transpose S768x768 [1, 0] · transposes_S768x768_S768x768_1_0) : (⟨S768x768, .f32⟩ : BufTy).Contents (Elt F) → (⟨S768x768, .f32⟩ : BufTy).Contents (Elt F)),
    StableHlo.binary main_v43 main_v44 main_v45 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)) ]

/-- The column mean (`main_v48`) and variance (`main_v49`) of z₂. -/
abbrev opsS2 : List (HloOp τ sig (Elt F)) :=
  [ StableHlo.nullary main_cst_4 (constant S_ .f32 0x00000000#32),
    StableHlo.binary main_v45 main_cst_4 main_v46 ((fun x v => Host.reduceAdd x v reducesTo_S8192x768_S768_d0 h_S_) : (⟨S8192x768, .f32⟩ : BufTy).Contents (Elt F) → (⟨S_, .f32⟩ : BufTy).Contents (Elt F) → (⟨S768, .f32⟩ : BufTy).Contents (Elt F)),
    StableHlo.nullary main_cst_5 (constant S_ .f32 0x46000000#32),
    StableHlo.unary main_cst_5 main_v47 (broadcastInDim S768 ![] bcast_S_S768 : (⟨S_, .f32⟩ : BufTy).Contents (Elt F) → (⟨S768, .f32⟩ : BufTy).Contents (Elt F)),
    StableHlo.binary main_v46 main_v47 main_v48 (Host.divf : (⟨S768, .f32⟩ : BufTy).Contents (Elt F) → (⟨S768, .f32⟩ : BufTy).Contents (Elt F) → (⟨S768, .f32⟩ : BufTy).Contents (Elt F)),
    StableHlo.nullary main_c_6 (constantI S_ 32 0#32),
    StableHlo.TRef.nullary main_call4.cst (constant S_ .f32 0x00000000#32),
    StableHlo.TRef.binary (.of main_v45 : StableHlo.TRef sig ⟨S8192x768, .f32⟩) main_call4.cst main_call4.v0 (fun x v => Host.reduceAdd x v reducesTo_S8192x768_S768_d0 h_S_),
    StableHlo.TRef.unary main_call4.v0 main_call4.v1 (broadcastInDim S1x768 ![1] bcast_S768_S1x768_1),
    StableHlo.TRef.nullary main_call4.cst_0 (constant S_ .f32 0x46000000#32),
    StableHlo.TRef.unary main_call4.cst_0 main_call4.v2 (broadcastInDim S1x768 ![] bcast_S_S1x768),
    StableHlo.TRef.binary main_call4.v1 main_call4.v2 main_call4.v3 Host.divf,
    StableHlo.TRef.unary main_call4.v3 main_call4.v4 (broadcastInDim S8192x768 ![0, 1] bcast_S1x768_S8192x768_0_1),
    StableHlo.TRef.binary (.of main_v45 : StableHlo.TRef sig ⟨S8192x768, .f32⟩) main_call4.v4 main_call4.v5 subf,
    StableHlo.TRef.binary main_call4.v5 main_call4.v5 main_call4.v6 mulf,
    StableHlo.TRef.unary (.of main_c_6 : StableHlo.TRef sig ⟨S_, .i32⟩) main_call4.v7 (sitofp .f32),
    StableHlo.TRef.nullary main_call4.cst_1 (constant S_ .f32 0x46000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S8192x768_S768_d0 h_S_),
    StableHlo.TRef.unary main_call4.v8 main_call4.v10 (broadcastInDim S768 ![] bcast_S_S768),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S768 ![] bcast_S_S768),
    StableHlo.TRef.ternary main_call4.v12 main_call4.v11 main_call4.call0.v1 main_call4.call0.v2 (fun p a b => select (broadcastInDim S768 ![] bcast_S_S768 p) a b) ]

/-- The second branch's mean as one row (`main_v50`): the first operation of its normalisation. -/
abbrev opsO2a : List (HloOp τ sig (Elt F)) :=
  [ StableHlo.unary main_v48 main_v50 (broadcastInDim S1x768 ![1] bcast_S768_S1x768_1 : (⟨S768, .f32⟩ : BufTy).Contents (Elt F) → (⟨S1x768, .f32⟩ : BufTy).Contents (Elt F)) ]

/-- The rest of the second branch's normalisation, and o₂ (`main_v67`). -/
abbrev opsO2b : List (HloOp τ sig (Elt F)) :=
  [ StableHlo.unary main_v50 main_v51 (broadcastInDim S8192x768 ![0, 1] bcast_S1x768_S8192x768_0_1 : (⟨S1x768, .f32⟩ : BufTy).Contents (Elt F) → (⟨S8192x768, .f32⟩ : BufTy).Contents (Elt F)),
    StableHlo.binary main_v45 main_v51 main_v52 (subf : (⟨S8192x768, .f32⟩ : BufTy).Contents (Elt F) → (⟨S8192x768, .f32⟩ : BufTy).Contents (Elt F) → (⟨S8192x768, .f32⟩ : BufTy).Contents (Elt F)),
    StableHlo.nullary main_cst_7 (constant S_ .f32 0x3727C5AC#32),
    StableHlo.unary main_cst_7 main_v53 (broadcastInDim S768 ![] bcast_S_S768 : (⟨S_, .f32⟩ : BufTy).Contents (Elt F) → (⟨S768, .f32⟩ : BufTy).Contents (Elt F)),
    StableHlo.binary main_v49 main_v53 main_v54 (addf : (⟨S768, .f32⟩ : BufTy).Contents (Elt F) → (⟨S768, .f32⟩ : BufTy).Contents (Elt F) → (⟨S768, .f32⟩ : BufTy).Contents (Elt F)),
    StableHlo.unary main_v54 main_v55 (Host.sqrt : (⟨S768, .f32⟩ : BufTy).Contents (Elt F) → (⟨S768, .f32⟩ : BufTy).Contents (Elt F)),
    StableHlo.unary main_v55 main_v56 (broadcastInDim S1x768 ![1] bcast_S768_S1x768_1 : (⟨S768, .f32⟩ : BufTy).Contents (Elt F) → (⟨S1x768, .f32⟩ : BufTy).Contents (Elt F)),
    StableHlo.unary main_v56 main_v57 (broadcastInDim S8192x768 ![0, 1] bcast_S1x768_S8192x768_0_1 : (⟨S1x768, .f32⟩ : BufTy).Contents (Elt F) → (⟨S8192x768, .f32⟩ : BufTy).Contents (Elt F)),
    StableHlo.binary main_v52 main_v57 main_v58 (Host.divf : (⟨S8192x768, .f32⟩ : BufTy).Contents (Elt F) → (⟨S8192x768, .f32⟩ : BufTy).Contents (Elt F) → (⟨S8192x768, .f32⟩ : BufTy).Contents (Elt F)),
    StableHlo.unary main_arg14 main_v59 (broadcastInDim S1x768 ![1] bcast_S768_S1x768_1 : (⟨S768, .f32⟩ : BufTy).Contents (Elt F) → (⟨S1x768, .f32⟩ : BufTy).Contents (Elt F)),
    StableHlo.unary main_v59 main_v60 (broadcastInDim S8192x768 ![0, 1] bcast_S1x768_S8192x768_0_1 : (⟨S1x768, .f32⟩ : BufTy).Contents (Elt F) → (⟨S8192x768, .f32⟩ : BufTy).Contents (Elt F)),
    StableHlo.binary main_v58 main_v60 main_v61 (mulf : (⟨S8192x768, .f32⟩ : BufTy).Contents (Elt F) → (⟨S8192x768, .f32⟩ : BufTy).Contents (Elt F) → (⟨S8192x768, .f32⟩ : BufTy).Contents (Elt F)),
    StableHlo.unary main_arg15 main_v62 (broadcastInDim S1x768 ![1] bcast_S768_S1x768_1 : (⟨S768, .f32⟩ : BufTy).Contents (Elt F) → (⟨S1x768, .f32⟩ : BufTy).Contents (Elt F)),
    StableHlo.unary main_v62 main_v63 (broadcastInDim S8192x768 ![0, 1] bcast_S1x768_S8192x768_0_1 : (⟨S1x768, .f32⟩ : BufTy).Contents (Elt F) → (⟨S8192x768, .f32⟩ : BufTy).Contents (Elt F)),
    StableHlo.binary main_v61 main_v63 main_v64 (addf : (⟨S8192x768, .f32⟩ : BufTy).Contents (Elt F) → (⟨S8192x768, .f32⟩ : BufTy).Contents (Elt F) → (⟨S8192x768, .f32⟩ : BufTy).Contents (Elt F)),
    StableHlo.TRef.nullary main_call5.cst (constant S_ .f32 0x00000000#32),
    StableHlo.TRef.unary main_call5.cst main_call5.v0 (broadcastInDim S8192x768 ![] bcast_S_S8192x768),
    StableHlo.TRef.binary (.of main_v64 : StableHlo.TRef sig ⟨S8192x768, .f32⟩) main_call5.v0 main_call5.v1 maximumf,
    StableHlo.unary main_arg13 main_v66 ((transpose S768x768 [1, 0] · transposes_S768x768_S768x768_1_0) : (⟨S768x768, .f32⟩ : BufTy).Contents (Elt F) → (⟨S768x768, .f32⟩ : BufTy).Contents (Elt F)),
    StableHlo.binary main_v65 main_v66 main_v67 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)) ]

/-- The segment sums, third copy (`main_v71`). -/
abbrev opsM3 : List (HloOp τ sig (Elt F)) :=
  [ StableHlo.TRef.nullary main_call6.cst (constant S_ .f32 0x00000000#32),
    StableHlo.TRef.unary main_call6.cst main_call6.v0 (broadcastInDim S131072x876 ![] bcast_S_S131072x876),
    StableHlo.TRef.binary (.of main_arg1 : StableHlo.TRef sig ⟨S131072x876, .f32⟩) main_call6.v0 main_call6.v1 maximumf,
    StableHlo.nullary main_cst_8 (constant S_ .f32 0x00000000#32),
    StableHlo.unary main_cst_8 main_v69 (broadcastInDim S8192x876 ![] bcast_S_S8192x876 : (⟨S_, .f32⟩ : BufTy).Contents (Elt F) → (⟨S8192x876, .f32⟩ : BufTy).Contents (Elt F)),
    StableHlo.unary main_arg2 main_v70 (broadcastInDim S131072x1 ![0] bcast_S131072_S131072x1_0 : (⟨S131072, .i32⟩ : BufTy).Contents (Elt F) → (⟨S131072x1, .i32⟩ : BufTy).Contents (Elt F)),
    StableHlo.ternary main_v69 main_v70 main_v68 main_v71 ((fun x i u => Host.scatterAdd scatter_S8192x876_S131072x1_S131072x876_1_0_0_1 x i u) : (⟨S8192x876, .f32⟩ : BufTy).Contents (Elt F) → (⟨S131072x1, .i32⟩ : BufTy).Contents (Elt F) → (⟨S131072x876, .f32⟩ : BufTy).Contents (Elt F) → (⟨S8192x876, .f32⟩ : BufTy).Contents (Elt F)) ]

/-- h₃ and z₃ (`main_v79`). -/
abbrev opsZ3 : List (HloOp τ sig (Elt F)) :=
  [ StableHlo.unary main_arg16 main_v72 ((transpose S876x768 [1, 0] · transposes_S768x876_S876x768_1_0) : (⟨S768x876, .f32⟩ : BufTy).Contents (Elt F) → (⟨S876x768, .f32⟩ : BufTy).Contents (Elt F)),
    StableHlo.binary main_v71 main_v72 main_v73 ((fun l r => Host.dotGeneral dot_S8192x876_S876x768_S8192x768_1_0_0_1_n_n none l r) : (⟨S8192x876, .f32⟩ : BufTy).Contents (Elt F) → (⟨S876x768, .f32⟩ : BufTy).Contents (Elt F) → (⟨S8192x768, .f32⟩ : BufTy).Contents (Elt F)),
    StableHlo.binary main_arg0 main_v73 main_v74 (addf : (⟨S8192x768, .f32⟩ : BufTy).Contents (Elt F) → (⟨S8192x768, .f32⟩ : BufTy).Contents (Elt F) → (⟨S8192x768, .f32⟩ : BufTy).Contents (Elt F)),
    StableHlo.unary main_arg17 main_v75 (broadcastInDim S1x768 ![1] bcast_S768_S1x768_1 : (⟨S768, .f32⟩ : BufTy).Contents (Elt F) → (⟨S1x768, .f32⟩ : BufTy).Contents (Elt F)),
    StableHlo.unary main_v75 main_v76 (broadcastInDim S8192x768 ![0, 1] bcast_S1x768_S8192x768_0_1 : (⟨S1x768, .f32⟩ : BufTy).Contents (Elt F) → (⟨S8192x768, .f32⟩ : BufTy).Contents (Elt F)),
    StableHlo.binary main_v74 main_v76 main_v77 (addf : (⟨S8192x768, .f32⟩ : BufTy).Contents (Elt F) → (⟨S8192x768, .f32⟩ : BufTy).Contents (Elt F) → (⟨S8192x768, .f32⟩ : BufTy).Contents (Elt F)),
    StableHlo.unary main_arg18 main_v78 ((transpose S768x768 [1, 0] · transposes_S768x768_S768x768_1_0) : (⟨S768x768, .f32⟩ : BufTy).Contents (Elt F) → (⟨S768x768, .f32⟩ : BufTy).Contents (Elt F)),
    StableHlo.binary main_v77 main_v78 main_v79 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)) ]

/-- The column mean (`main_v82`) and variance (`main_v83`) of z₃. -/
abbrev opsS3 : List (HloOp τ sig (Elt F)) :=
  [ StableHlo.nullary main_cst_9 (constant S_ .f32 0x00000000#32),
    StableHlo.binary main_v79 main_cst_9 main_v80 ((fun x v => Host.reduceAdd x v reducesTo_S8192x768_S768_d0 h_S_) : (⟨S8192x768, .f32⟩ : BufTy).Contents (Elt F) → (⟨S_, .f32⟩ : BufTy).Contents (Elt F) → (⟨S768, .f32⟩ : BufTy).Contents (Elt F)),
    StableHlo.nullary main_cst_10 (constant S_ .f32 0x46000000#32),
    StableHlo.unary main_cst_10 main_v81 (broadcastInDim S768 ![] bcast_S_S768 : (⟨S_, .f32⟩ : BufTy).Contents (Elt F) → (⟨S768, .f32⟩ : BufTy).Contents (Elt F)),
    StableHlo.binary main_v80 main_v81 main_v82 (Host.divf : (⟨S768, .f32⟩ : BufTy).Contents (Elt F) → (⟨S768, .f32⟩ : BufTy).Contents (Elt F) → (⟨S768, .f32⟩ : BufTy).Contents (Elt F)),
    StableHlo.nullary main_c_11 (constantI S_ 32 0#32),
    StableHlo.TRef.nullary main_call7.cst (constant S_ .f32 0x00000000#32),
    StableHlo.TRef.binary (.of main_v79 : StableHlo.TRef sig ⟨S8192x768, .f32⟩) main_call7.cst main_call7.v0 (fun x v => Host.reduceAdd x v reducesTo_S8192x768_S768_d0 h_S_),
    StableHlo.TRef.unary main_call7.v0 main_call7.v1 (broadcastInDim S1x768 ![1] bcast_S768_S1x768_1),
    StableHlo.TRef.nullary main_call7.cst_0 (constant S_ .f32 0x46000000#32),
    StableHlo.TRef.unary main_call7.cst_0 main_call7.v2 (broadcastInDim S1x768 ![] bcast_S_S1x768),
    StableHlo.TRef.binary main_call7.v1 main_call7.v2 main_call7.v3 Host.divf,
    StableHlo.TRef.unary main_call7.v3 main_call7.v4 (broadcastInDim S8192x768 ![0, 1] bcast_S1x768_S8192x768_0_1),
    StableHlo.TRef.binary (.of main_v79 : StableHlo.TRef sig ⟨S8192x768, .f32⟩) main_call7.v4 main_call7.v5 subf,
    StableHlo.TRef.binary main_call7.v5 main_call7.v5 main_call7.v6 mulf,
    StableHlo.TRef.unary (.of main_c_11 : StableHlo.TRef sig ⟨S_, .i32⟩) main_call7.v7 (sitofp .f32),
    StableHlo.TRef.nullary main_call7.cst_1 (constant S_ .f32 0x46000000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S8192x768_S768_d0 h_S_),
    StableHlo.TRef.unary main_call7.v8 main_call7.v10 (broadcastInDim S768 ![] bcast_S_S768),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S768 ![] bcast_S_S768),
    StableHlo.TRef.ternary main_call7.v12 main_call7.v11 main_call7.call0.v1 main_call7.call0.v2 (fun p a b => select (broadcastInDim S768 ![] bcast_S_S768 p) a b) ]

/-- The third branch's normalisation, and o₃ (`main_v101`). -/
abbrev opsO3 : List (HloOp τ sig (Elt F)) :=
  [ StableHlo.unary main_v82 main_v84 (broadcastInDim S1x768 ![1] bcast_S768_S1x768_1 : (⟨S768, .f32⟩ : BufTy).Contents (Elt F) → (⟨S1x768, .f32⟩ : BufTy).Contents (Elt F)),
    StableHlo.unary main_v84 main_v85 (broadcastInDim S8192x768 ![0, 1] bcast_S1x768_S8192x768_0_1 : (⟨S1x768, .f32⟩ : BufTy).Contents (Elt F) → (⟨S8192x768, .f32⟩ : BufTy).Contents (Elt F)),
    StableHlo.binary main_v79 main_v85 main_v86 (subf : (⟨S8192x768, .f32⟩ : BufTy).Contents (Elt F) → (⟨S8192x768, .f32⟩ : BufTy).Contents (Elt F) → (⟨S8192x768, .f32⟩ : BufTy).Contents (Elt F)),
    StableHlo.nullary main_cst_12 (constant S_ .f32 0x3727C5AC#32),
    StableHlo.unary main_cst_12 main_v87 (broadcastInDim S768 ![] bcast_S_S768 : (⟨S_, .f32⟩ : BufTy).Contents (Elt F) → (⟨S768, .f32⟩ : BufTy).Contents (Elt F)),
    StableHlo.binary main_v83 main_v87 main_v88 (addf : (⟨S768, .f32⟩ : BufTy).Contents (Elt F) → (⟨S768, .f32⟩ : BufTy).Contents (Elt F) → (⟨S768, .f32⟩ : BufTy).Contents (Elt F)),
    StableHlo.unary main_v88 main_v89 (Host.sqrt : (⟨S768, .f32⟩ : BufTy).Contents (Elt F) → (⟨S768, .f32⟩ : BufTy).Contents (Elt F)),
    StableHlo.unary main_v89 main_v90 (broadcastInDim S1x768 ![1] bcast_S768_S1x768_1 : (⟨S768, .f32⟩ : BufTy).Contents (Elt F) → (⟨S1x768, .f32⟩ : BufTy).Contents (Elt F)),
    StableHlo.unary main_v90 main_v91 (broadcastInDim S8192x768 ![0, 1] bcast_S1x768_S8192x768_0_1 : (⟨S1x768, .f32⟩ : BufTy).Contents (Elt F) → (⟨S8192x768, .f32⟩ : BufTy).Contents (Elt F)),
    StableHlo.binary main_v86 main_v91 main_v92 (Host.divf : (⟨S8192x768, .f32⟩ : BufTy).Contents (Elt F) → (⟨S8192x768, .f32⟩ : BufTy).Contents (Elt F) → (⟨S8192x768, .f32⟩ : BufTy).Contents (Elt F)),
    StableHlo.unary main_arg20 main_v93 (broadcastInDim S1x768 ![1] bcast_S768_S1x768_1 : (⟨S768, .f32⟩ : BufTy).Contents (Elt F) → (⟨S1x768, .f32⟩ : BufTy).Contents (Elt F)),
    StableHlo.unary main_v93 main_v94 (broadcastInDim S8192x768 ![0, 1] bcast_S1x768_S8192x768_0_1 : (⟨S1x768, .f32⟩ : BufTy).Contents (Elt F) → (⟨S8192x768, .f32⟩ : BufTy).Contents (Elt F)),
    StableHlo.binary main_v92 main_v94 main_v95 (mulf : (⟨S8192x768, .f32⟩ : BufTy).Contents (Elt F) → (⟨S8192x768, .f32⟩ : BufTy).Contents (Elt F) → (⟨S8192x768, .f32⟩ : BufTy).Contents (Elt F)),
    StableHlo.unary main_arg21 main_v96 (broadcastInDim S1x768 ![1] bcast_S768_S1x768_1 : (⟨S768, .f32⟩ : BufTy).Contents (Elt F) → (⟨S1x768, .f32⟩ : BufTy).Contents (Elt F)),
    StableHlo.unary main_v96 main_v97 (broadcastInDim S8192x768 ![0, 1] bcast_S1x768_S8192x768_0_1 : (⟨S1x768, .f32⟩ : BufTy).Contents (Elt F) → (⟨S8192x768, .f32⟩ : BufTy).Contents (Elt F)),
    StableHlo.binary main_v95 main_v97 main_v98 (addf : (⟨S8192x768, .f32⟩ : BufTy).Contents (Elt F) → (⟨S8192x768, .f32⟩ : BufTy).Contents (Elt F) → (⟨S8192x768, .f32⟩ : BufTy).Contents (Elt F)),
    StableHlo.TRef.nullary main_call8.cst (constant S_ .f32 0x00000000#32),
    StableHlo.TRef.unary main_call8.cst main_call8.v0 (broadcastInDim S8192x768 ![] bcast_S_S8192x768),
    StableHlo.TRef.binary (.of main_v98 : StableHlo.TRef sig ⟨S8192x768, .f32⟩) main_call8.v0 main_call8.v1 maximumf,
    StableHlo.unary main_arg19 main_v100 ((transpose S768x768 [1, 0] · transposes_S768x768_S768x768_1_0) : (⟨S768x768, .f32⟩ : BufTy).Contents (Elt F) → (⟨S768x768, .f32⟩ : BufTy).Contents (Elt F)),
    StableHlo.binary main_v99 main_v100 main_v101 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)) ]

/-- The three branch results side by side (`main_v102`). -/
abbrev opsCat : List (HloOp τ sig (Elt F)) :=
  [ StableHlo.nary ![main_v33, main_v67, main_v101] main_v102 (fun u => concatenate S8192x2304 1 [⟨S8192x768, u 0⟩, ⟨S8192x768, u 1⟩, ⟨S8192x768, u 2⟩] concatenates_S8192x768_S8192x768_S8192x768_S8192x2304_d1) ]

/-- The product of the concatenated rows with lin1ᵀ (`main_v104`). -/
abbrev opsHa : List (HloOp τ sig (Elt F)) :=
  [ StableHlo.unary main_arg22 main_v103 ((transpose S2304x768 [1, 0] · transposes_S768x2304_S2304x768_1_0) : (⟨S768x2304, .f32⟩ : BufTy).Contents (Elt F) → (⟨S2304x768, .f32⟩ : BufTy).Contents (Elt F)),
    StableHlo.binary main_v102 main_v103 main_v104 ((fun l r => Host.dotGeneral dot_S8192x2304_S2304x768_S8192x768_1_0_0_1_n_n none l r) : (⟨S8192x2304, .f32⟩ : BufTy).Contents (Elt F) → (⟨S2304x768, .f32⟩ : BufTy).Contents (Elt F) → (⟨S8192x768, .f32⟩ : BufTy).Contents (Elt F)) ]

/-- The rest of the head: the bias, the rectification, the dropout mask, the product with lin2ᵀ and its bias (`main_v114`). -/
abbrev opsHb : List (HloOp τ sig (Elt F)) :=
  [ StableHlo.unary main_arg23 main_v105 (broadcastInDim S1x768 ![1] bcast_S768_S1x768_1 : (⟨S768, .f32⟩ : BufTy).Contents (Elt F) → (⟨S1x768, .f32⟩ : BufTy).Contents (Elt F)),
    StableHlo.unary main_v105 main_v106 (broadcastInDim S8192x768 ![0, 1] bcast_S1x768_S8192x768_0_1 : (⟨S1x768, .f32⟩ : BufTy).Contents (Elt F) → (⟨S8192x768, .f32⟩ : BufTy).Contents (Elt F)),
    StableHlo.binary main_v104 main_v106 main_v107 (addf : (⟨S8192x768, .f32⟩ : BufTy).Contents (Elt F) → (⟨S8192x768, .f32⟩ : BufTy).Contents (Elt F) → (⟨S8192x768, .f32⟩ : BufTy).Contents (Elt F)),
    StableHlo.TRef.nullary main_call9.cst (constant S_ .f32 0x00000000#32),
    StableHlo.TRef.unary main_call9.cst main_call9.v0 (broadcastInDim S8192x768 ![] bcast_S_S8192x768),
    StableHlo.TRef.binary (.of main_v107 : StableHlo.TRef sig ⟨S8192x768, .f32⟩) main_call9.v0 main_call9.v1 maximumf,
    StableHlo.binary main_v108 main_arg3 main_v109 (mulf : (⟨S8192x768, .f32⟩ : BufTy).Contents (Elt F) → (⟨S8192x768, .f32⟩ : BufTy).Contents (Elt F) → (⟨S8192x768, .f32⟩ : BufTy).Contents (Elt F)),
    StableHlo.unary main_arg24 main_v110 ((transpose S768x768 [1, 0] · transposes_S768x768_S768x768_1_0) : (⟨S768x768, .f32⟩ : BufTy).Contents (Elt F) → (⟨S768x768, .f32⟩ : BufTy).Contents (Elt F)),
    StableHlo.binary main_v109 main_v110 main_v111 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)),
    StableHlo.unary main_arg25 main_v112 (broadcastInDim S1x768 ![1] bcast_S768_S1x768_1 : (⟨S768, .f32⟩ : BufTy).Contents (Elt F) → (⟨S1x768, .f32⟩ : BufTy).Contents (Elt F)),
    StableHlo.unary main_v112 main_v113 (broadcastInDim S8192x768 ![0, 1] bcast_S1x768_S8192x768_0_1 : (⟨S1x768, .f32⟩ : BufTy).Contents (Elt F) → (⟨S8192x768, .f32⟩ : BufTy).Contents (Elt F)),
    StableHlo.binary main_v111 main_v113 main_v114 (addf : (⟨S8192x768, .f32⟩ : BufTy).Contents (Elt F) → (⟨S8192x768, .f32⟩ : BufTy).Contents (Elt F) → (⟨S8192x768, .f32⟩ : BufTy).Contents (Elt F)) ]

/-- The first branch. -/
abbrev opsB1 : List (HloOp τ sig (Elt F)) := opsM1 ++ opsZ1 ++ opsS1 ++ opsO1

/-- The second branch. -/
abbrev opsB2 : List (HloOp τ sig (Elt F)) := opsM2 ++ opsZ2 ++ opsS2 ++ (opsO2a ++ opsO2b)

/-- The third branch. -/
abbrev opsB3 : List (HloOp τ sig (Elt F)) := opsM3 ++ opsZ3 ++ opsS3 ++ opsO3

/-- The head: from the three branch results side by side to the result. -/
abbrev opsH : List (HloOp τ sig (Elt F)) := opsCat ++ opsHa ++ opsHb

/-- The whole line: the three branches, then the head. -/
abbrev ops : List (HloOp τ sig (Elt F)) := opsB1 ++ opsB2 ++ opsB3 ++ opsH

/-! ## @main is that line -/

set_option maxRecDepth 16384 in
set_option maxHeartbeats 4000000 in
/-- The first window of @main: the first branch and the second up to its mean as one row. The callees' definitions
    unfold at their calls, and both sides are one chain of steps once sequencing is reassociated. -/
theorem part0_eq (c : Dev nD) : main_part0 (F := F) c = seq (opsM1 ++ opsZ1 ++ opsS1 ++ opsO1 ++ opsM2 ++ opsZ2 ++ opsS2 ++ opsO2a) := by
  simp only [seq_append, main_part0, fn_relu.body, fn_var.body, fn_where.body, fn_relu_0.body, opsM1, opsZ1, opsS1, opsO1, opsM2, opsZ2, opsS2, opsO2a, seq, bind_assoc, pure_bind]
  try rfl

set_option maxRecDepth 16384 in
set_option maxHeartbeats 4000000 in
/-- The second window: the rest of the second branch, the third branch, and the head's first product. -/
theorem part1_eq (c : Dev nD) : main_part1 (F := F) c = seq (opsO2b ++ opsM3 ++ opsZ3 ++ opsS3 ++ opsO3 ++ opsCat ++ opsHa) := by
  simp only [seq_append, main_part1, fn_relu.body, fn_var.body, fn_where.body, fn_relu_0.body, opsO2b, opsM3, opsZ3, opsS3, opsO3, opsCat, opsHa, seq, bind_assoc, pure_bind]
  try rfl

set_option maxRecDepth 16384 in
/-- The third window: the rest of the head. -/
theorem part2_eq (c : Dev nD) : main_part2 (F := F) c = seq opsHb := by
  simp only [main_part2, fn_relu.body, fn_var.body, fn_where.body, fn_relu_0.body, opsHb, seq, bind_assoc, pure_bind]

/-- @main is the whole line: its three windows in order, each a piece of the line, joined as lists are. -/
theorem main_eq (c : Dev nD) : main (F := F) c = seq ops := by
  simp only [ops, opsB1, opsB2, opsB3, opsH, seq_append, main, part0_eq, part1_eq, part2_eq, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation stays among the TensorCore's buffers and determines its result -/

theorem opsM1_sub : (opsM1 : List (HloOp τ sig (Elt F))).Forall fun op => op.bufs ⊆ tcRefs τ sig :=
  ⟨nullary_bufs_sub .., unary_bufs_sub .., binary_bufs_sub .., nullary_bufs_sub .., unary_bufs_sub .., unary_bufs_sub ..,
    ternary_bufs_sub ..⟩

theorem opsZ1_sub : (opsZ1 : List (HloOp τ sig (Elt F))).Forall fun op => op.bufs ⊆ tcRefs τ sig :=
  ⟨unary_bufs_sub .., binary_bufs_sub .., binary_bufs_sub .., unary_bufs_sub .., unary_bufs_sub .., binary_bufs_sub ..,
    unary_bufs_sub .., binary_bufs_sub ..⟩

theorem opsS1_sub : (opsS1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsO1_sub : (opsO1 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub ..⟩

theorem opsM2_sub : (opsM2 : List (HloOp τ sig (Elt F))).Forall fun op => op.bufs ⊆ tcRefs τ sig :=
  ⟨nullary_bufs_sub .., unary_bufs_sub .., binary_bufs_sub .., nullary_bufs_sub .., unary_bufs_sub .., unary_bufs_sub ..,
    ternary_bufs_sub ..⟩

theorem opsZ2_sub : (opsZ2 : List (HloOp τ sig (Elt F))).Forall fun op => op.bufs ⊆ tcRefs τ sig :=
  ⟨unary_bufs_sub .., binary_bufs_sub .., binary_bufs_sub .., unary_bufs_sub .., unary_bufs_sub .., binary_bufs_sub ..,
    unary_bufs_sub .., binary_bufs_sub ..⟩

theorem opsS2_sub : (opsS2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsO2a_sub : (opsO2a : List (HloOp τ sig (Elt F))).Forall fun op => op.bufs ⊆ tcRefs τ sig :=
  unary_bufs_sub ..

theorem opsO2b_sub : (opsO2b : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub ..⟩

theorem opsM3_sub : (opsM3 : List (HloOp τ sig (Elt F))).Forall fun op => op.bufs ⊆ tcRefs τ sig :=
  ⟨nullary_bufs_sub .., unary_bufs_sub .., binary_bufs_sub .., nullary_bufs_sub .., unary_bufs_sub .., unary_bufs_sub ..,
    ternary_bufs_sub ..⟩

theorem opsZ3_sub : (opsZ3 : List (HloOp τ sig (Elt F))).Forall fun op => op.bufs ⊆ tcRefs τ sig :=
  ⟨unary_bufs_sub .., binary_bufs_sub .., binary_bufs_sub .., unary_bufs_sub .., unary_bufs_sub .., binary_bufs_sub ..,
    unary_bufs_sub .., binary_bufs_sub ..⟩

theorem opsS3_sub : (opsS3 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsO3_sub : (opsO3 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub ..⟩

theorem opsCat_sub : (opsCat : List (HloOp τ sig (Elt F))).Forall fun op => op.bufs ⊆ tcRefs τ sig :=
  nary_bufs_sub ..

theorem opsHa_sub : (opsHa : List (HloOp τ sig (Elt F))).Forall fun op => op.bufs ⊆ tcRefs τ sig :=
  ⟨unary_bufs_sub .., binary_bufs_sub ..⟩

theorem opsHb_sub : (opsHb : List (HloOp τ sig (Elt F))).Forall fun op => op.bufs ⊆ tcRefs τ sig :=
  ⟨unary_bufs_sub .., unary_bufs_sub .., binary_bufs_sub .., nullary_bufs_sub .., unary_bufs_sub .., binary_bufs_sub ..,
    binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, opsB1, opsB2, opsB3, opsH, List.mem_append, or_assoc] at h
    rcases h with h | h | h | h | h | h | h | h | h | h | h | h | h | h | h | h
    exacts [List.forall_iff_forall_mem.mp opsM1_sub op h,
      List.forall_iff_forall_mem.mp opsZ1_sub op h,
      List.forall_iff_forall_mem.mp opsS1_sub op h,
      List.forall_iff_forall_mem.mp opsO1_sub op h,
      List.forall_iff_forall_mem.mp opsM2_sub op h,
      List.forall_iff_forall_mem.mp opsZ2_sub op h,
      List.forall_iff_forall_mem.mp opsS2_sub op h,
      List.forall_iff_forall_mem.mp opsO2a_sub op h,
      List.forall_iff_forall_mem.mp opsO2b_sub op h,
      List.forall_iff_forall_mem.mp opsM3_sub op h,
      List.forall_iff_forall_mem.mp opsZ3_sub op h,
      List.forall_iff_forall_mem.mp opsS3_sub op h,
      List.forall_iff_forall_mem.mp opsO3_sub op h,
      List.forall_iff_forall_mem.mp opsCat_sub op h,
      List.forall_iff_forall_mem.mp opsHa_sub op h,
      List.forall_iff_forall_mem.mp opsHb_sub op h]

theorem opsM1_fresh : ∀ op ∈ (opsM1 : List (HloOp τ sig (Elt F))), op.fresh = ∅ := by
  intro _ h; (repeat (cases h with | head => rfl | tail _ h => ?_)); exact nomatch h

theorem opsZ1_fresh : ∀ op ∈ (opsZ1 : List (HloOp τ sig (Elt F))), op.fresh = ∅ := by
  intro _ h; (repeat (cases h with | head => rfl | tail _ h => ?_)); exact nomatch h

theorem opsS1_fresh : ∀ op ∈ (opsS1 : List (HloOp τ sig (Elt F))), op.fresh = ∅ := by
  intro _ h; (repeat (cases h with | head => rfl | tail _ h => ?_)); exact nomatch h

theorem opsO1_fresh : ∀ op ∈ (opsO1 : List (HloOp τ sig (Elt F))), op.fresh = ∅ := by
  intro _ h; (repeat (cases h with | head => rfl | tail _ h => ?_)); exact nomatch h

theorem opsM2_fresh : ∀ op ∈ (opsM2 : List (HloOp τ sig (Elt F))), op.fresh = ∅ := by
  intro _ h; (repeat (cases h with | head => rfl | tail _ h => ?_)); exact nomatch h

theorem opsZ2_fresh : ∀ op ∈ (opsZ2 : List (HloOp τ sig (Elt F))), op.fresh = ∅ := by
  intro _ h; (repeat (cases h with | head => rfl | tail _ h => ?_)); exact nomatch h

theorem opsS2_fresh : ∀ op ∈ (opsS2 : List (HloOp τ sig (Elt F))), op.fresh = ∅ := by
  intro _ h; (repeat (cases h with | head => rfl | tail _ h => ?_)); exact nomatch h

theorem opsO2a_fresh : ∀ op ∈ (opsO2a : List (HloOp τ sig (Elt F))), op.fresh = ∅ := by
  intro _ h; (repeat (cases h with | head => rfl | tail _ h => ?_)); exact nomatch h

theorem opsO2b_fresh : ∀ op ∈ (opsO2b : List (HloOp τ sig (Elt F))), op.fresh = ∅ := by
  intro _ h; (repeat (cases h with | head => rfl | tail _ h => ?_)); exact nomatch h

theorem opsM3_fresh : ∀ op ∈ (opsM3 : List (HloOp τ sig (Elt F))), op.fresh = ∅ := by
  intro _ h; (repeat (cases h with | head => rfl | tail _ h => ?_)); exact nomatch h

theorem opsZ3_fresh : ∀ op ∈ (opsZ3 : List (HloOp τ sig (Elt F))), op.fresh = ∅ := by
  intro _ h; (repeat (cases h with | head => rfl | tail _ h => ?_)); exact nomatch h

theorem opsS3_fresh : ∀ op ∈ (opsS3 : List (HloOp τ sig (Elt F))), op.fresh = ∅ := by
  intro _ h; (repeat (cases h with | head => rfl | tail _ h => ?_)); exact nomatch h

theorem opsO3_fresh : ∀ op ∈ (opsO3 : List (HloOp τ sig (Elt F))), op.fresh = ∅ := by
  intro _ h; (repeat (cases h with | head => rfl | tail _ h => ?_)); exact nomatch h

theorem opsCat_fresh : ∀ op ∈ (opsCat : List (HloOp τ sig (Elt F))), op.fresh = ∅ := by
  intro _ h; (repeat (cases h with | head => rfl | tail _ h => ?_)); exact nomatch h

theorem opsHa_fresh : ∀ op ∈ (opsHa : List (HloOp τ sig (Elt F))), op.fresh = ∅ := by
  intro _ h; (repeat (cases h with | head => rfl | tail _ h => ?_)); exact nomatch h

theorem opsHb_fresh : ∀ op ∈ (opsHb : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, opsB1, opsB2, opsB3, opsH, List.mem_append, or_assoc] at h
  rcases h with h | h | h | h | h | h | h | h | h | h | h | h | h | h | h | h
  exacts [opsM1_fresh op h, opsZ1_fresh op h, opsS1_fresh op h, opsO1_fresh op h, opsM2_fresh op h, opsZ2_fresh op h, opsS2_fresh op h, opsO2a_fresh op h, opsO2b_fresh op h, opsM3_fresh op h, opsZ3_fresh op h, opsS3_fresh op h, opsO3_fresh op h, opsCat_fresh op h, opsHa_fresh op h, opsHb_fresh op h]

/-! ## The run -/

/-- On every device, for any float values, from any memory with zero counters: every weakly fair execution of @main
    terminates, and every final state has each buffer at the fold of the line's operations over the contents at launch. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefIdx.lean ====
/-
  The reference's arithmetic, stretch by stretch, as whole-array terms of its inputs, and each read at an index.

  One branch is: z = ((src + M · Weᵀ) + be) · Waᵀ (`zT`), then o = max(y, 0) · Wbᵀ with
  y = ((z − mean) / sqrt (var + ε)) · g + b (`oT`; the column vectors spread over the 8192 rows). The head puts the three
  results side by side (`catT`) and computes (max(C · lin1ᵀ + b1, 0) · dropout) · lin2ᵀ + b2 (`headT`). Read at row n and
  column j, a product of matrices is the sum over the contracted coordinate, a transposed matrix is the matrix at the
  swapped index, a spread vector is its entry at the column, and the three-way concatenation is the piece the column falls in:
  these are the specification's index-level formulas.
-/
import proofs.«165818_j2173253452173_2_alg».proof.Proof.Gen.ReferenceIdeal
import proofs.«165818_j2173253452173_2_alg».proof.Proof.SpecResult
import Idealize.ShloMosaic.Lib.StackMember

noncomputable section

namespace Cert.ReferenceIdeal.RefRun

open Cert.ReferenceIdeal Cert.ReferenceIdeal.Facts₀ Idealize.ShloMosaic Idealize.ShloMosaic.ValueIdx

/-! ## The whole-array terms -/

/-- A vector of 768 entries as every row of an 8192 × 768 matrix. -/
def rows (v : FVec Ideal S768 .f32) : FVec Ideal S8192x768 .f32 :=
  broadcastInDim S8192x768 ![0, 1] bcast_S1x768_S8192x768_0_1 (broadcastInDim S1x768 ![1] bcast_S768_S1x768_1 v)

/-- The 8192 × 768 matrix of zeros. -/
def zeros : FVec Ideal S8192x768 .f32 :=
  broadcastInDim S8192x768 ![] bcast_S_S8192x768 (constant S_ .f32 0x00000000#32)

/-- z = ((src + M · Weᵀ) + be) · Waᵀ. -/
def zT (M : FVec Ideal S8192x876 .f32) (A0 : FVec Ideal S8192x768 .f32) (We : FVec Ideal S768x876 .f32)
    (be : FVec Ideal S768 .f32) (Wa : FVec Ideal S768x768 .f32) : FVec Ideal S8192x768 .f32 :=
  Host.dotGeneral dot_S8192x768_S768x768_S8192x768_1_0_0_1_n_n none
    (addf (addf A0 (Host.dotGeneral dot_S8192x876_S876x768_S8192x768_1_0_0_1_n_n none M
        (transpose S876x768 [1, 0] We transposes_S768x876_S876x768_1_0)))
      (rows be))
    (transpose S768x768 [1, 0] Wa transposes_S768x768_S768x768_1_0)

/-- o = max(((z − mean) / sqrt (var + ε)) · g + b, 0) · Wbᵀ, the mean given as one row. -/
def oTr (Z : FVec Ideal S8192x768 .f32) (muRow : FVec Ideal S1x768 .f32) (va g b : FVec Ideal S768 .f32)
    (Wb : FVec Ideal S768x768 .f32) : FVec Ideal S8192x768 .f32 :=
  Host.dotGeneral dot_S8192x768_S768x768_S8192x768_1_0_0_1_n_n none
    (maximumf
      (addf (mulf (Host.divf (subf Z (broadcastInDim S8192x768 ![0, 1] bcast_S1x768_S8192x768_0_1 muRow))
          (rows (Host.sqrt (addf va (broadcastInDim S768 ![] bcast_S_S768 (constant S_ .f32 0x3727C5AC#32))))))
        (rows g)) (rows b))
      zeros)
    (transpose S768x768 [1, 0] Wb transposes_S768x768_S768x768_1_0)

/-- The same from the mean as a vector. -/
def oT (Z : FVec Ideal S8192x768 .f32) (mu va g b : FVec Ideal S768 .f32) (Wb : FVec Ideal S768x768 .f32) :
    FVec Ideal S8192x768 .f32 :=
  oTr Z (broadcastInDim S1x768 ![1] bcast_S768_S1x768_1 mu) va g b Wb

/-- The three branch results side by side. -/
def catT (o1 o2 o3 : FVec Ideal S8192x768 .f32) : FVec Ideal S8192x2304 .f32 :=
  concatenate S8192x2304 1 [⟨S8192x768, o1⟩, ⟨S8192x768, o2⟩, ⟨S8192x768, o3⟩]
    concatenates_S8192x768_S8192x768_S8192x768_S8192x2304_d1

/-- The head's first product: C · lin1ᵀ. -/
def haT (C : FVec Ideal S8192x2304 .f32) (lin1 : FVec Ideal S768x2304 .f32) : FVec Ideal S8192x768 .f32 :=
  Host.dotGeneral dot_S8192x2304_S2304x768_S8192x768_1_0_0_1_n_n none C
    (transpose S2304x768 [1, 0] lin1 transposes_S768x2304_S2304x768_1_0)

/-- The rest of the head from that product D: (max(D + b1, 0) · dropout) · lin2ᵀ + b2. -/
def hbT (D : FVec Ideal S8192x768 .f32) (l1b : FVec Ideal S768 .f32) (drop : FVec Ideal S8192x768 .f32)
    (lin2 : FVec Ideal S768x768 .f32) (l2b : FVec Ideal S768 .f32) : FVec Ideal S8192x768 .f32 :=
  addf (Host.dotGeneral dot_S8192x768_S768x768_S8192x768_1_0_0_1_n_n none
      (mulf (maximumf (addf D (rows l1b)) zeros) drop)
      (transpose S768x768 [1, 0] lin2 transposes_S768x768_S768x768_1_0))
    (rows l2b)

/-- The head: (max(C · lin1ᵀ + b1, 0) · dropout) · lin2ᵀ + b2. -/
def headT (C : FVec Ideal S8192x2304 .f32) (lin1 : FVec Ideal S768x2304 .f32) (l1b : FVec Ideal S768 .f32)
    (drop : FVec Ideal S8192x768 .f32) (lin2 : FVec Ideal S768x768 .f32) (l2b : FVec Ideal S768 .f32) :
    FVec Ideal S8192x768 .f32 :=
  hbT (haT C lin1) l1b drop lin2 l2b

/-! ## The layout operations at an index -/

/-- A transposed matrix at (a, b) is the matrix at (b, a). -/
theorem transpose2_apply {m n : Nat} {α : Type} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply [1, 0] x h (ix2 a b) (ix2 b a) (fun c => match c with | ⟨0, _⟩ => rfl | ⟨1, _⟩ => rfl)

/-- The three transposes of the program at their literal shapes. -/
theorem trWe_apply (x : FVec Ideal S768x876 .f32) (h : S768x876.Transposes [1, 0] S876x768) (e : Fin 876) (k : Fin 768) :
    transpose S876x768 [1, 0] x h (ix2 e k) = x (ix2 k e) := transpose2_apply (m := 768) (n := 876) x h e k
theorem trW_apply (x : FVec Ideal S768x768 .f32) (h : S768x768.Transposes [1, 0] S768x768) (a b : Fin 768) :
    transpose S768x768 [1, 0] x h (ix2 a b) = x (ix2 b a) := transpose2_apply (m := 768) (n := 768) x h a b
theorem trLin1_apply (x : FVec Ideal S768x2304 .f32) (h : S768x2304.Transposes [1, 0] S2304x768) (q : Fin 2304) (k : Fin 768) :
    transpose S2304x768 [1, 0] x h (ix2 q k) = x (ix2 k q) := transpose2_apply (m := 768) (n := 2304) x h q k

/-- A vector spread over the rows, at row n and column k, is its entry k. -/
theorem rows_apply (v : FVec Ideal S768 .f32) (n : Fin 8192) (k : Fin 768) : rows v (ix2 n k) = v (ix1 k) := by
  unfold rows
  refine (broadcastInDim_apply _ _ _ (ix2 n k) (ix2 (0 : Fin 1) k) ?_).trans ?_
  · intro a; match a with
    | ⟨0, _⟩ => rfl
    | ⟨1, _⟩ => rfl
  · exact broadcastInDim_apply _ _ _ (ix2 (0 : Fin 1) k) (ix1 k) (fun a => match a with | ⟨0, _⟩ => rfl)

/-- The matrix of zeros at an index is the zero pattern's value. -/
theorem zeros_apply (i : S8192x768.Idx) : zeros i = Ideal.ofBits .f32 0x00000000#32 := by
  unfold zeros
  exact (broadcastInDim_apply _ _ _ i ix0 (fun a => a.elim0)).trans rfl

/-- A scalar spread over 768 entries, at an entry, is the scalar. -/
theorem splat768_apply (x : FVec Ideal S_ .f32) (i : S768.Idx) :
    broadcastInDim S768 ![] bcast_S_S768 x i = x ix0 :=
  broadcastInDim_apply _ _ _ i ix0 (fun a => a.elim0)

/-- The host's quotient and square root at an index are the extended reals'. -/
theorem hdivf_apply {s : Shape} (a b : FVec Ideal s .f32) (i : s.Idx) : Host.divf a b i = Ideal.div (a i) (b i) := rfl
theorem hsqrt_apply {s : Shape} (a : FVec Ideal s .f32) (i : s.Idx) : Host.sqrt a i = Ideal.sqrt (a i) := rfl

/-! ## The three products at an index -/

theorem dot768_apply (A : FVec Ideal S8192x768 .f32) (B : FVec Ideal S768x768 .f32) (n : Fin 8192) (j : Fin 768) :
    Host.dotGeneral dot_S8192x768_S768x768_S8192x768_1_0_0_1_n_n none A B (ix2 n j)
      = ∑ k : Fin 768, A (ix2 n k) * B (ix2 k j) :=
  StackMember.dotGeneral_plain_apply (m := 8192) (k := 768) (n := 768) none A B n j

theorem dot876_apply (A : FVec Ideal S8192x876 .f32) (B : FVec Ideal S876x768 .f32) (n : Fin 8192) (j : Fin 768) :
    Host.dotGeneral dot_S8192x876_S876x768_S8192x768_1_0_0_1_n_n none A B (ix2 n j)
      = ∑ e : Fin 876, A (ix2 n e) * B (ix2 e j) :=
  StackMember.dotGeneral_plain_apply (m := 8192) (k := 876) (n := 768) none A B n j

theorem dot2304_apply (A : FVec Ideal S8192x2304 .f32) (B : FVec Ideal S2304x768 .f32) (n : Fin 8192) (j : Fin 768) :
    Host.dotGeneral dot_S8192x2304_S2304x768_S8192x768_1_0_0_1_n_n none A B (ix2 n j)
      = ∑ q : Fin 2304, A (ix2 n q) * B (ix2 q j) :=
  StackMember.dotGeneral_plain_apply (m := 8192) (k := 2304) (n := 768) none A B n j

/-! ## The terms at an index: the specification's formulas -/

/-- A row spread over the rows, then read: the mean's two broadcasts. -/
theorem rows_apply' (v : FVec Ideal S768 .f32) (n : Fin 8192) (k : Fin 768) :
    broadcastInDim S8192x768 ![0, 1] bcast_S1x768_S8192x768_0_1 (broadcastInDim S1x768 ![1] bcast_S768_S1x768_1 v) (ix2 n k)
      = v (ix1 k) := rows_apply v n k

/-- z at row n and column j. -/
theorem zT_apply (M : FVec Ideal S8192x876 .f32) (A0 : FVec Ideal S8192x768 .f32) (We : FVec Ideal S768x876 .f32)
    (be : FVec Ideal S768 .f32) (Wa : FVec Ideal S768x768 .f32) (n : Fin 8192) (j : Fin 768) :
    zT M A0 We be Wa (ix2 n j) = Cert.Spec.zed (Cert.Spec.hid M A0 We be) Wa n j := by
  unfold zT Cert.Spec.zed Cert.Spec.hid
  rw [dot768_apply]
  refine Finset.sum_congr rfl fun k _ => ?_
  rw [trW_apply, addf_apply, addf_apply, rows_apply, dot876_apply]
  refine congrArg (fun s => (A0 (ix2 n k) + s + be (ix1 k)) * Wa (ix2 j k)) (Finset.sum_congr rfl fun e _ => ?_)
  rw [trWe_apply]

/-- o at row n and column l, from z given by row and column. -/
theorem oT_apply (z : Cert.Spec.Rows) (mu va g b : FVec Ideal S768 .f32) (Wb : FVec Ideal S768x768 .f32)
    (n : Fin 8192) (l : Fin 768) :
    oT (Cert.Spec.arr z) mu va g b Wb (ix2 n l) = Cert.Spec.outB (Cert.Spec.yR z mu va g b) Wb n l := by
  unfold oT oTr Cert.Spec.outB Cert.Spec.yR
  rw [dot768_apply]
  refine Finset.sum_congr rfl fun p _ => ?_
  rw [trW_apply, maximumf_apply, zeros_apply, addf_apply, mulf_apply, hdivf_apply, subf_apply, rows_apply',
    rows_apply, rows_apply, rows_apply, hsqrt_apply, addf_apply, splat768_apply, constant_apply]
  rfl

/-- The three results side by side, at row n and column q of the 2304: the piece q falls in. -/
theorem catT_apply (o1 o2 o3 : Cert.Spec.Rows) (n : Fin 8192) (q : Fin 2304) :
    catT (Cert.Spec.arr o1) (Cert.Spec.arr o2) (Cert.Spec.arr o3) (ix2 n q) = Cert.Spec.cat o1 o2 o3 n q := by
  unfold catT Cert.Spec.cat
  split_ifs with h1 h2
  · exact concatenate_apply_piece (1 : Fin S8192x2304.rank) _ _ (ix2 n q) 0 (by show 0 < 3; omega) S8192x768 (Cert.Spec.arr o1) rfl rfl
      0 rfl (ix2 n (⟨q.val, h1⟩ : Fin 768)) (fun b hb => match b with | ⟨0, _⟩ => rfl | ⟨1, _⟩ => absurd rfl hb)
      (by show 0 + q.val = q.val; omega)
  · exact concatenate_apply_piece (1 : Fin S8192x2304.rank) _ _ (ix2 n q) 1 (by show 1 < 3; omega) S8192x768 (Cert.Spec.arr o2) rfl rfl
      768 rfl (ix2 n (⟨q.val - 768, by omega⟩ : Fin 768)) (fun b hb => match b with | ⟨0, _⟩ => rfl | ⟨1, _⟩ => absurd rfl hb)
      (by show 768 + (q.val - 768) = q.val; omega)
  · exact concatenate_apply_piece (1 : Fin S8192x2304.rank) _ _ (ix2 n q) 2 (by show 2 < 3; omega) S8192x768 (Cert.Spec.arr o3) rfl rfl
      1536 rfl (ix2 n (⟨q.val - 1536, by omega⟩ : Fin 768)) (fun b hb => match b with | ⟨0, _⟩ => rfl | ⟨1, _⟩ => absurd rfl hb)
      (by show 1536 + (q.val - 1536) = q.val; omega)

/-- The head at row n and column j, from the three results given by row and column. -/
theorem headT_apply (o1 o2 o3 : Cert.Spec.Rows) (lin1 : FVec Ideal S768x2304 .f32) (l1b : FVec Ideal S768 .f32)
    (drop : FVec Ideal S8192x768 .f32) (lin2 : FVec Ideal S768x768 .f32) (l2b : FVec Ideal S768 .f32)
    (n : Fin 8192) (j : Fin 768) :
    headT (catT (Cert.Spec.arr o1) (Cert.Spec.arr o2) (Cert.Spec.arr o3)) lin1 l1b drop lin2 l2b (ix2 n j)
      = Cert.Spec.fin (Cert.Spec.aR o1 o2 o3 lin1 l1b) drop lin2 l2b n j := by
  unfold headT hbT haT Cert.Spec.fin Cert.Spec.aR
  rw [addf_apply, rows_apply, dot768_apply]
  refine congrArg (· + l2b (ix1 j)) (Finset.sum_congr rfl fun k _ => ?_)
  rw [trW_apply, mulf_apply, maximumf_apply, zeros_apply, addf_apply, rows_apply, dot2304_apply]
  refine congrArg (fun s => max (s + l1b (ix1 k)) Cert.Spec.c0 * drop (ix2 n k) * lin2 (ix2 j k))
    (Finset.sum_congr rfl fun q _ => ?_)
  rw [trLin1_apply, catT_apply]

/-! ## The whole result -/

/-- An array is the matrix of its entries by row and column. -/
theorem eq_arr (Z : FVec Ideal S8192x768 .f32) (z : Cert.Spec.Rows) (h : ∀ n j, Z (ix2 n j) = z n j) : Z = Cert.Spec.arr z := by
  funext i
  obtain ⟨n, j, rfl⟩ : ∃ (n : Fin 8192) (j : Fin 768), i = ix2 n j := ⟨i 0, i 1, eq_ix2 i⟩
  exact h n j

/-- One branch, whole: from the segment sums to o, is the specification's branch over the specification's z. -/
theorem branch_eq (M : FVec Ideal S8192x876 .f32) (A0 : FVec Ideal S8192x768 .f32) (We : FVec Ideal S768x876 .f32)
    (be : FVec Ideal S768 .f32) (Wa Wb : FVec Ideal S768x768 .f32) (g b : FVec Ideal S768 .f32) :
    oT (zT M A0 We be Wa) (Cert.Spec.meanChain (zT M A0 We be Wa)) (Cert.Spec.varChain (zT M A0 We be Wa)) g b Wb
      = Cert.Spec.arr (Cert.Spec.branchR (Cert.Spec.zed (Cert.Spec.hid M A0 We be) Wa) Wb g b) := by
  rw [eq_arr (zT M A0 We be Wa) _ (zT_apply M A0 We be Wa)]
  exact eq_arr _ _ fun n l => oT_apply _ _ _ g b Wb n l

/-- The reference's result as a term of its twenty-six arguments is the specification's result. -/
theorem refTerm_eq (A0 : FVec Ideal S8192x768 .f32) (A1 : FVec Ideal S131072x876 .f32) (A2 : IVec S131072 32)
    (A3 : FVec Ideal S8192x768 .f32) (A4 : FVec Ideal S768x876 .f32) (A5 : FVec Ideal S768 .f32)
    (A6 A7 : FVec Ideal S768x768 .f32) (A8 A9 : FVec Ideal S768 .f32) (A10 : FVec Ideal S768x876 .f32)
    (A11 : FVec Ideal S768 .f32) (A12 A13 : FVec Ideal S768x768 .f32) (A14 A15 : FVec Ideal S768 .f32)
    (A16 : FVec Ideal S768x876 .f32) (A17 : FVec Ideal S768 .f32) (A18 A19 : FVec Ideal S768x768 .f32)
    (A20 A21 : FVec Ideal S768 .f32) (A22 : FVec Ideal S768x2304 .f32) (A23 : FVec Ideal S768 .f32)
    (A24 : FVec Ideal S768x768 .f32) (A25 : FVec Ideal S768 .f32) :
    headT (catT
        (oT (zT (Cert.Spec.msgs A1 A2) A0 A4 A5 A6) (Cert.Spec.meanChain (zT (Cert.Spec.msgs A1 A2) A0 A4 A5 A6))
          (Cert.Spec.varChain (zT (Cert.Spec.msgs A1 A2) A0 A4 A5 A6)) A8 A9 A7)
        (oT (zT (Cert.Spec.msgs A1 A2) A0 A10 A11 A12) (Cert.Spec.meanChain (zT (Cert.Spec.msgs A1 A2) A0 A10 A11 A12))
          (Cert.Spec.varChain (zT (Cert.Spec.msgs A1 A2) A0 A10 A11 A12)) A14 A15 A13)
        (oT (zT (Cert.Spec.msgs A1 A2) A0 A16 A17 A18) (Cert.Spec.meanChain (zT (Cert.Spec.msgs A1 A2) A0 A16 A17 A18))
          (Cert.Spec.varChain (zT (Cert.Spec.msgs A1 A2) A0 A16 A17 A18)) A20 A21 A19))
      A22 A23 A3 A24 A25
      = Cert.Spec.result A0 A1 A2 A3 A4 A5 A6 A7 A8 A9 A10 A11 A12 A13 A14 A15 A16 A17 A18 A19 A20 A21 A22 A23 A24 A25 := by
  rw [branch_eq, branch_eq, branch_eq]
  funext i
  obtain ⟨n, j, rfl⟩ : ∃ (n : Fin 8192) (j : Fin 768), i = ix2 n j := ⟨i 0, i 1, eq_ix2 i⟩
  rw [headT_apply]
  rfl

end Cert.ReferenceIdeal.RefRun

end
-- ==== Proof.RefRead.lean ====
/-
  The reference's line read back at the ideal values, a stretch at a time.

  Each stretch writes its own buffers and no other, so a buffer outside a stretch's list keeps its contents through it;
  and each stretch's result is a whole-array term of what it reads: the segment sums, z, the column mean and variance
  (the two shared chains), o, the three results side by side, the head's product and the rest of the head. Composed from
  the last stretch back to the first, the result buffer holds the head over the three branches as a term of the
  twenty-six arguments at launch, and every argument buffer is unchanged.
-/
import proofs.«165818_j2173253452173_2_alg».proof.Proof.RefRun
import proofs.«165818_j2173253452173_2_alg».proof.Proof.RefIdx
import proofs.«165818_j2173253452173_2_alg».proof.Proof.LibTypedRefs

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- The buffers' contents at the ideal values. -/
abbrev Vals := Valuation τ sig (Elt Ideal)

/-- An operation that writes one buffer of a list writes within the list. -/
theorem mem_writes {w : List (Ref sig .tc)} (y : Ref sig .tc) (h : y ∈ w) :
    ({Proc.devRef .tc y} : Finset (DevRef τ sig)) ⊆ (w.map (Proc.devRef (τ := τ) .tc)).toFinset :=
  Finset.singleton_subset_iff.2 (List.mem_toFinset.2 (List.mem_map.2 ⟨y, h, rfl⟩))

/-! ## What each stretch writes, and what it therefore keeps -/

abbrev wM1 : List (Ref sig .tc) :=
  [main_call0_cst, main_call0_v0, main_v0, main_cst, main_v1, main_v2, main_v3]
theorem opsM1_writes : (opsM1 : List (HloOp τ sig (Elt Ideal))).Forall fun op => op.writes ⊆ (wM1.map (Proc.devRef (τ := τ) .tc)).toFinset :=
  ⟨mem_writes main_call0_cst (by decide), mem_writes main_call0_v0 (by decide), mem_writes main_v0 (by decide),
    mem_writes main_cst (by decide), mem_writes main_v1 (by decide), mem_writes main_v2 (by decide),
    mem_writes main_v3 (by decide)⟩
theorem keep_M1 (V : Vals) {r : Ref sig .tc} (hr : r ∉ wM1) : after opsM1 V (Proc.devRef .tc r) = V (Proc.devRef .tc r) :=
  after_of_writes_sub opsM1 V opsM1_writes hr

abbrev wZ1 : List (Ref sig .tc) :=
  [main_v4, main_v5, main_v6, main_v7, main_v8, main_v9, main_v10, main_v11]
theorem opsZ1_writes : (opsZ1 : List (HloOp τ sig (Elt Ideal))).Forall fun op => op.writes ⊆ (wZ1.map (Proc.devRef (τ := τ) .tc)).toFinset :=
  ⟨mem_writes main_v4 (by decide), mem_writes main_v5 (by decide), mem_writes main_v6 (by decide),
    mem_writes main_v7 (by decide), mem_writes main_v8 (by decide), mem_writes main_v9 (by decide),
    mem_writes main_v10 (by decide), mem_writes main_v11 (by decide)⟩
theorem keep_Z1 (V : Vals) {r : Ref sig .tc} (hr : r ∉ wZ1) : after opsZ1 V (Proc.devRef .tc r) = V (Proc.devRef .tc r) :=
  after_of_writes_sub opsZ1 V opsZ1_writes hr

abbrev wS1 : List (Ref sig .tc) :=
  [main_cst_0, main_v12, main_cst_1, main_v13, main_v14, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v15]
theorem opsS1_writes : (opsS1 : List (HloOp τ sig (Elt Ideal))).Forall fun op => op.writes ⊆ (wS1.map (Proc.devRef (τ := τ) .tc)).toFinset :=
  ⟨mem_writes main_cst_0 (by decide), mem_writes main_v12 (by decide), mem_writes main_cst_1 (by decide),
    mem_writes main_v13 (by decide), mem_writes main_v14 (by decide), mem_writes main_c (by decide),
    mem_writes main_call1_cst (by decide), mem_writes main_call1_v0 (by decide), mem_writes main_call1_v1 (by decide),
    mem_writes main_call1_cst_0 (by decide), mem_writes main_call1_v2 (by decide), mem_writes main_call1_v3 (by decide),
    mem_writes main_call1_v4 (by decide), mem_writes main_call1_v5 (by decide), mem_writes main_call1_v6 (by decide),
    mem_writes main_call1_v7 (by decide), mem_writes main_call1_cst_1 (by decide), mem_writes main_call1_v8 (by decide),
    mem_writes main_call1_cst_2 (by decide), mem_writes main_call1_v9 (by decide), mem_writes main_call1_v10 (by decide),
    mem_writes main_call1_v11 (by decide), mem_writes main_call1_cst_3 (by decide), mem_writes main_call1_v12 (by decide),
    mem_writes main_call1_cst_4 (by decide), mem_writes main_call1_call0_v0 (by decide), mem_writes main_call1_call0_v1 (by decide),
    mem_writes main_v15 (by decide)⟩
theorem keep_S1 (V : Vals) {r : Ref sig .tc} (hr : r ∉ wS1) : after opsS1 V (Proc.devRef .tc r) = V (Proc.devRef .tc r) :=
  after_of_writes_sub opsS1 V opsS1_writes hr

abbrev wO1 : List (Ref sig .tc) :=
  [main_v16, main_v17, main_v18, main_cst_2, main_v19, main_v20, main_v21, main_v22, main_v23, main_v24, main_v25, main_v26, main_v27, main_v28, main_v29, main_v30, main_call2_cst, main_call2_v0, main_v31, main_v32, main_v33]
theorem opsO1_writes : (opsO1 : List (HloOp τ sig (Elt Ideal))).Forall fun op => op.writes ⊆ (wO1.map (Proc.devRef (τ := τ) .tc)).toFinset :=
  ⟨mem_writes main_v16 (by decide), mem_writes main_v17 (by decide), mem_writes main_v18 (by decide),
    mem_writes main_cst_2 (by decide), mem_writes main_v19 (by decide), mem_writes main_v20 (by decide),
    mem_writes main_v21 (by decide), mem_writes main_v22 (by decide), mem_writes main_v23 (by decide),
    mem_writes main_v24 (by decide), mem_writes main_v25 (by decide), mem_writes main_v26 (by decide),
    mem_writes main_v27 (by decide), mem_writes main_v28 (by decide), mem_writes main_v29 (by decide),
    mem_writes main_v30 (by decide), mem_writes main_call2_cst (by decide), mem_writes main_call2_v0 (by decide),
    mem_writes main_v31 (by decide), mem_writes main_v32 (by decide), mem_writes main_v33 (by decide)⟩
theorem keep_O1 (V : Vals) {r : Ref sig .tc} (hr : r ∉ wO1) : after opsO1 V (Proc.devRef .tc r) = V (Proc.devRef .tc r) :=
  after_of_writes_sub opsO1 V opsO1_writes hr

abbrev wM2 : List (Ref sig .tc) :=
  [main_call3_cst, main_call3_v0, main_v34, main_cst_3, main_v35, main_v36, main_v37]
theorem opsM2_writes : (opsM2 : List (HloOp τ sig (Elt Ideal))).Forall fun op => op.writes ⊆ (wM2.map (Proc.devRef (τ := τ) .tc)).toFinset :=
  ⟨mem_writes main_call3_cst (by decide), mem_writes main_call3_v0 (by decide), mem_writes main_v34 (by decide),
    mem_writes main_cst_3 (by decide), mem_writes main_v35 (by decide), mem_writes main_v36 (by decide),
    mem_writes main_v37 (by decide)⟩
theorem keep_M2 (V : Vals) {r : Ref sig .tc} (hr : r ∉ wM2) : after opsM2 V (Proc.devRef .tc r) = V (Proc.devRef .tc r) :=
  after_of_writes_sub opsM2 V opsM2_writes hr

abbrev wZ2 : List (Ref sig .tc) :=
  [main_v38, main_v39, main_v40, main_v41, main_v42, main_v43, main_v44, main_v45]
theorem opsZ2_writes : (opsZ2 : List (HloOp τ sig (Elt Ideal))).Forall fun op => op.writes ⊆ (wZ2.map (Proc.devRef (τ := τ) .tc)).toFinset :=
  ⟨mem_writes main_v38 (by decide), mem_writes main_v39 (by decide), mem_writes main_v40 (by decide),
    mem_writes main_v41 (by decide), mem_writes main_v42 (by decide), mem_writes main_v43 (by decide),
    mem_writes main_v44 (by decide), mem_writes main_v45 (by decide)⟩
theorem keep_Z2 (V : Vals) {r : Ref sig .tc} (hr : r ∉ wZ2) : after opsZ2 V (Proc.devRef .tc r) = V (Proc.devRef .tc r) :=
  after_of_writes_sub opsZ2 V opsZ2_writes hr

abbrev wS2 : List (Ref sig .tc) :=
  [main_cst_4, main_v46, main_cst_5, main_v47, main_v48, main_c_6, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v49]
theorem opsS2_writes : (opsS2 : List (HloOp τ sig (Elt Ideal))).Forall fun op => op.writes ⊆ (wS2.map (Proc.devRef (τ := τ) .tc)).toFinset :=
  ⟨mem_writes main_cst_4 (by decide), mem_writes main_v46 (by decide), mem_writes main_cst_5 (by decide),
    mem_writes main_v47 (by decide), mem_writes main_v48 (by decide), mem_writes main_c_6 (by decide),
    mem_writes main_call4_cst (by decide), mem_writes main_call4_v0 (by decide), mem_writes main_call4_v1 (by decide),
    mem_writes main_call4_cst_0 (by decide), mem_writes main_call4_v2 (by decide), mem_writes main_call4_v3 (by decide),
    mem_writes main_call4_v4 (by decide), mem_writes main_call4_v5 (by decide), mem_writes main_call4_v6 (by decide),
    mem_writes main_call4_v7 (by decide), mem_writes main_call4_cst_1 (by decide), mem_writes main_call4_v8 (by decide),
    mem_writes main_call4_cst_2 (by decide), mem_writes main_call4_v9 (by decide), mem_writes main_call4_v10 (by decide),
    mem_writes main_call4_v11 (by decide), mem_writes main_call4_cst_3 (by decide), mem_writes main_call4_v12 (by decide),
    mem_writes main_call4_cst_4 (by decide), mem_writes main_call4_call0_v0 (by decide), mem_writes main_call4_call0_v1 (by decide),
    mem_writes main_v49 (by decide)⟩
theorem keep_S2 (V : Vals) {r : Ref sig .tc} (hr : r ∉ wS2) : after opsS2 V (Proc.devRef .tc r) = V (Proc.devRef .tc r) :=
  after_of_writes_sub opsS2 V opsS2_writes hr

abbrev wO2a : List (Ref sig .tc) :=
  [main_v50]
theorem opsO2a_writes : (opsO2a : List (HloOp τ sig (Elt Ideal))).Forall fun op => op.writes ⊆ (wO2a.map (Proc.devRef (τ := τ) .tc)).toFinset :=
  mem_writes main_v50 (by decide)
theorem keep_O2a (V : Vals) {r : Ref sig .tc} (hr : r ∉ wO2a) : after opsO2a V (Proc.devRef .tc r) = V (Proc.devRef .tc r) :=
  after_of_writes_sub opsO2a V opsO2a_writes hr

abbrev wO2b : List (Ref sig .tc) :=
  [main_v51, main_v52, main_cst_7, main_v53, main_v54, main_v55, main_v56, main_v57, main_v58, main_v59, main_v60, main_v61, main_v62, main_v63, main_v64, main_call5_cst, main_call5_v0, main_v65, main_v66, main_v67]
theorem opsO2b_writes : (opsO2b : List (HloOp τ sig (Elt Ideal))).Forall fun op => op.writes ⊆ (wO2b.map (Proc.devRef (τ := τ) .tc)).toFinset :=
  ⟨mem_writes main_v51 (by decide), mem_writes main_v52 (by decide), mem_writes main_cst_7 (by decide),
    mem_writes main_v53 (by decide), mem_writes main_v54 (by decide), mem_writes main_v55 (by decide),
    mem_writes main_v56 (by decide), mem_writes main_v57 (by decide), mem_writes main_v58 (by decide),
    mem_writes main_v59 (by decide), mem_writes main_v60 (by decide), mem_writes main_v61 (by decide),
    mem_writes main_v62 (by decide), mem_writes main_v63 (by decide), mem_writes main_v64 (by decide),
    mem_writes main_call5_cst (by decide), mem_writes main_call5_v0 (by decide), mem_writes main_v65 (by decide),
    mem_writes main_v66 (by decide), mem_writes main_v67 (by decide)⟩
theorem keep_O2b (V : Vals) {r : Ref sig .tc} (hr : r ∉ wO2b) : after opsO2b V (Proc.devRef .tc r) = V (Proc.devRef .tc r) :=
  after_of_writes_sub opsO2b V opsO2b_writes hr

abbrev wM3 : List (Ref sig .tc) :=
  [main_call6_cst, main_call6_v0, main_v68, main_cst_8, main_v69, main_v70, main_v71]
theorem opsM3_writes : (opsM3 : List (HloOp τ sig (Elt Ideal))).Forall fun op => op.writes ⊆ (wM3.map (Proc.devRef (τ := τ) .tc)).toFinset :=
  ⟨mem_writes main_call6_cst (by decide), mem_writes main_call6_v0 (by decide), mem_writes main_v68 (by decide),
    mem_writes main_cst_8 (by decide), mem_writes main_v69 (by decide), mem_writes main_v70 (by decide),
    mem_writes main_v71 (by decide)⟩
theorem keep_M3 (V : Vals) {r : Ref sig .tc} (hr : r ∉ wM3) : after opsM3 V (Proc.devRef .tc r) = V (Proc.devRef .tc r) :=
  after_of_writes_sub opsM3 V opsM3_writes hr

abbrev wZ3 : List (Ref sig .tc) :=
  [main_v72, main_v73, main_v74, main_v75, main_v76, main_v77, main_v78, main_v79]
theorem opsZ3_writes : (opsZ3 : List (HloOp τ sig (Elt Ideal))).Forall fun op => op.writes ⊆ (wZ3.map (Proc.devRef (τ := τ) .tc)).toFinset :=
  ⟨mem_writes main_v72 (by decide), mem_writes main_v73 (by decide), mem_writes main_v74 (by decide),
    mem_writes main_v75 (by decide), mem_writes main_v76 (by decide), mem_writes main_v77 (by decide),
    mem_writes main_v78 (by decide), mem_writes main_v79 (by decide)⟩
theorem keep_Z3 (V : Vals) {r : Ref sig .tc} (hr : r ∉ wZ3) : after opsZ3 V (Proc.devRef .tc r) = V (Proc.devRef .tc r) :=
  after_of_writes_sub opsZ3 V opsZ3_writes hr

abbrev wS3 : List (Ref sig .tc) :=
  [main_cst_9, main_v80, main_cst_10, main_v81, main_v82, main_c_11, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v83]
theorem opsS3_writes : (opsS3 : List (HloOp τ sig (Elt Ideal))).Forall fun op => op.writes ⊆ (wS3.map (Proc.devRef (τ := τ) .tc)).toFinset :=
  ⟨mem_writes main_cst_9 (by decide), mem_writes main_v80 (by decide), mem_writes main_cst_10 (by decide),
    mem_writes main_v81 (by decide), mem_writes main_v82 (by decide), mem_writes main_c_11 (by decide),
    mem_writes main_call7_cst (by decide), mem_writes main_call7_v0 (by decide), mem_writes main_call7_v1 (by decide),
    mem_writes main_call7_cst_0 (by decide), mem_writes main_call7_v2 (by decide), mem_writes main_call7_v3 (by decide),
    mem_writes main_call7_v4 (by decide), mem_writes main_call7_v5 (by decide), mem_writes main_call7_v6 (by decide),
    mem_writes main_call7_v7 (by decide), mem_writes main_call7_cst_1 (by decide), mem_writes main_call7_v8 (by decide),
    mem_writes main_call7_cst_2 (by decide), mem_writes main_call7_v9 (by decide), mem_writes main_call7_v10 (by decide),
    mem_writes main_call7_v11 (by decide), mem_writes main_call7_cst_3 (by decide), mem_writes main_call7_v12 (by decide),
    mem_writes main_call7_cst_4 (by decide), mem_writes main_call7_call0_v0 (by decide), mem_writes main_call7_call0_v1 (by decide),
    mem_writes main_v83 (by decide)⟩
theorem keep_S3 (V : Vals) {r : Ref sig .tc} (hr : r ∉ wS3) : after opsS3 V (Proc.devRef .tc r) = V (Proc.devRef .tc r) :=
  after_of_writes_sub opsS3 V opsS3_writes hr

abbrev wO3 : List (Ref sig .tc) :=
  [main_v84, main_v85, main_v86, main_cst_12, main_v87, main_v88, main_v89, main_v90, main_v91, main_v92, main_v93, main_v94, main_v95, main_v96, main_v97, main_v98, main_call8_cst, main_call8_v0, main_v99, main_v100, main_v101]
theorem opsO3_writes : (opsO3 : List (HloOp τ sig (Elt Ideal))).Forall fun op => op.writes ⊆ (wO3.map (Proc.devRef (τ := τ) .tc)).toFinset :=
  ⟨mem_writes main_v84 (by decide), mem_writes main_v85 (by decide), mem_writes main_v86 (by decide),
    mem_writes main_cst_12 (by decide), mem_writes main_v87 (by decide), mem_writes main_v88 (by decide),
    mem_writes main_v89 (by decide), mem_writes main_v90 (by decide), mem_writes main_v91 (by decide),
    mem_writes main_v92 (by decide), mem_writes main_v93 (by decide), mem_writes main_v94 (by decide),
    mem_writes main_v95 (by decide), mem_writes main_v96 (by decide), mem_writes main_v97 (by decide),
    mem_writes main_v98 (by decide), mem_writes main_call8_cst (by decide), mem_writes main_call8_v0 (by decide),
    mem_writes main_v99 (by decide), mem_writes main_v100 (by decide), mem_writes main_v101 (by decide)⟩
theorem keep_O3 (V : Vals) {r : Ref sig .tc} (hr : r ∉ wO3) : after opsO3 V (Proc.devRef .tc r) = V (Proc.devRef .tc r) :=
  after_of_writes_sub opsO3 V opsO3_writes hr

abbrev wCat : List (Ref sig .tc) :=
  [main_v102]
theorem opsCat_writes : (opsCat : List (HloOp τ sig (Elt Ideal))).Forall fun op => op.writes ⊆ (wCat.map (Proc.devRef (τ := τ) .tc)).toFinset :=
  mem_writes main_v102 (by decide)
theorem keep_Cat (V : Vals) {r : Ref sig .tc} (hr : r ∉ wCat) : after opsCat V (Proc.devRef .tc r) = V (Proc.devRef .tc r) :=
  after_of_writes_sub opsCat V opsCat_writes hr

abbrev wHa : List (Ref sig .tc) :=
  [main_v103, main_v104]
theorem opsHa_writes : (opsHa : List (HloOp τ sig (Elt Ideal))).Forall fun op => op.writes ⊆ (wHa.map (Proc.devRef (τ := τ) .tc)).toFinset :=
  ⟨mem_writes main_v103 (by decide), mem_writes main_v104 (by decide)⟩
theorem keep_Ha (V : Vals) {r : Ref sig .tc} (hr : r ∉ wHa) : after opsHa V (Proc.devRef .tc r) = V (Proc.devRef .tc r) :=
  after_of_writes_sub opsHa V opsHa_writes hr

abbrev wHb : List (Ref sig .tc) :=
  [main_v105, main_v106, main_v107, main_call9_cst, main_call9_v0, main_v108, main_v109, main_v110, main_v111, main_v112, main_v113, main_v114]
theorem opsHb_writes : (opsHb : List (HloOp τ sig (Elt Ideal))).Forall fun op => op.writes ⊆ (wHb.map (Proc.devRef (τ := τ) .tc)).toFinset :=
  ⟨mem_writes main_v105 (by decide), mem_writes main_v106 (by decide), mem_writes main_v107 (by decide),
    mem_writes main_call9_cst (by decide), mem_writes main_call9_v0 (by decide), mem_writes main_v108 (by decide),
    mem_writes main_v109 (by decide), mem_writes main_v110 (by decide), mem_writes main_v111 (by decide),
    mem_writes main_v112 (by decide), mem_writes main_v113 (by decide), mem_writes main_v114 (by decide)⟩
theorem keep_Hb (V : Vals) {r : Ref sig .tc} (hr : r ∉ wHb) : after opsHb V (Proc.devRef .tc r) = V (Proc.devRef .tc r) :=
  after_of_writes_sub opsHb V opsHb_writes hr

/-! ## What each stretch computes -/

theorem read_M1 (V : Vals) :
    after opsM1 V (Proc.devRef .tc main_v3) = Cert.Spec.msgs (V (Proc.devRef .tc main_arg1)) (V (Proc.devRef .tc main_arg2)) := by
  after_results
  rfl

theorem read_Z1 (V : Vals) :
    after opsZ1 V (Proc.devRef .tc main_v11) = zT (V (Proc.devRef .tc main_v3)) (V (Proc.devRef .tc main_arg0)) (V (Proc.devRef .tc main_arg4)) (V (Proc.devRef .tc main_arg5)) (V (Proc.devRef .tc main_arg6)) := by
  after_results
  rfl

set_option maxRecDepth 16384 in
set_option maxHeartbeats 4000000 in
theorem read_S1m (V : Vals) :
    after opsS1 V (Proc.devRef .tc main_v14) = Cert.Spec.meanChain (V (Proc.devRef .tc main_v11)) := by
  after_results_simp
  rfl

set_option maxRecDepth 16384 in
set_option maxHeartbeats 4000000 in
theorem read_S1v (V : Vals) :
    after opsS1 V (Proc.devRef .tc main_v15) = Cert.Spec.varChain (V (Proc.devRef .tc main_v11)) := by
  after_results_simp
  rfl

set_option maxRecDepth 16384 in
set_option maxHeartbeats 4000000 in
theorem read_O1 (V : Vals) :
    after opsO1 V (Proc.devRef .tc main_v33) = oT (V (Proc.devRef .tc main_v11)) (V (Proc.devRef .tc main_v14)) (V (Proc.devRef .tc main_v15)) (V (Proc.devRef .tc main_arg8)) (V (Proc.devRef .tc main_arg9)) (V (Proc.devRef .tc main_arg7)) := by
  after_results_simp
  rfl

theorem read_M2 (V : Vals) :
    after opsM2 V (Proc.devRef .tc main_v37) = Cert.Spec.msgs (V (Proc.devRef .tc main_arg1)) (V (Proc.devRef .tc main_arg2)) := by
  after_results
  rfl

theorem read_Z2 (V : Vals) :
    after opsZ2 V (Proc.devRef .tc main_v45) = zT (V (Proc.devRef .tc main_v37)) (V (Proc.devRef .tc main_arg0)) (V (Proc.devRef .tc main_arg10)) (V (Proc.devRef .tc main_arg11)) (V (Proc.devRef .tc main_arg12)) := by
  after_results
  rfl

set_option maxRecDepth 16384 in
set_option maxHeartbeats 4000000 in
theorem read_S2m (V : Vals) :
    after opsS2 V (Proc.devRef .tc main_v48) = Cert.Spec.meanChain (V (Proc.devRef .tc main_v45)) := by
  after_results_simp
  rfl

set_option maxRecDepth 16384 in
set_option maxHeartbeats 4000000 in
theorem read_S2v (V : Vals) :
    after opsS2 V (Proc.devRef .tc main_v49) = Cert.Spec.varChain (V (Proc.devRef .tc main_v45)) := by
  after_results_simp
  rfl

theorem read_O2a (V : Vals) :
    after opsO2a V (Proc.devRef .tc main_v50) = broadcastInDim S1x768 ![1] bcast_S768_S1x768_1 (V (Proc.devRef .tc main_v48)) := by
  after_results

set_option maxRecDepth 16384 in
set_option maxHeartbeats 4000000 in
theorem read_O2b (V : Vals) :
    after opsO2b V (Proc.devRef .tc main_v67) = oTr (V (Proc.devRef .tc main_v45)) (V (Proc.devRef .tc main_v50)) (V (Proc.devRef .tc main_v49)) (V (Proc.devRef .tc main_arg14)) (V (Proc.devRef .tc main_arg15)) (V (Proc.devRef .tc main_arg13)) := by
  after_results_simp
  rfl

theorem read_M3 (V : Vals) :
    after opsM3 V (Proc.devRef .tc main_v71) = Cert.Spec.msgs (V (Proc.devRef .tc main_arg1)) (V (Proc.devRef .tc main_arg2)) := by
  after_results
  rfl

theorem read_Z3 (V : Vals) :
    after opsZ3 V (Proc.devRef .tc main_v79) = zT (V (Proc.devRef .tc main_v71)) (V (Proc.devRef .tc main_arg0)) (V (Proc.devRef .tc main_arg16)) (V (Proc.devRef .tc main_arg17)) (V (Proc.devRef .tc main_arg18)) := by
  after_results
  rfl

set_option maxRecDepth 16384 in
set_option maxHeartbeats 4000000 in
theorem read_S3m (V : Vals) :
    after opsS3 V (Proc.devRef .tc main_v82) = Cert.Spec.meanChain (V (Proc.devRef .tc main_v79)) := by
  after_results_simp
  rfl

set_option maxRecDepth 16384 in
set_option maxHeartbeats 4000000 in
theorem read_S3v (V : Vals) :
    after opsS3 V (Proc.devRef .tc main_v83) = Cert.Spec.varChain (V (Proc.devRef .tc main_v79)) := by
  after_results_simp
  rfl

set_option maxRecDepth 16384 in
set_option maxHeartbeats 4000000 in
theorem read_O3 (V : Vals) :
    after opsO3 V (Proc.devRef .tc main_v101) = oT (V (Proc.devRef .tc main_v79)) (V (Proc.devRef .tc main_v82)) (V (Proc.devRef .tc main_v83)) (V (Proc.devRef .tc main_arg20)) (V (Proc.devRef .tc main_arg21)) (V (Proc.devRef .tc main_arg19)) := by
  after_results_simp
  rfl

theorem read_Cat (V : Vals) :
    after opsCat V (Proc.devRef .tc main_v102) = catT (V (Proc.devRef .tc main_v33)) (V (Proc.devRef .tc main_v67)) (V (Proc.devRef .tc main_v101)) := by
  after_results
  rfl

theorem read_Ha (V : Vals) :
    after opsHa V (Proc.devRef .tc main_v104) = haT (V (Proc.devRef .tc main_v102)) (V (Proc.devRef .tc main_arg22)) := by
  after_results
  rfl

theorem read_Hb (V : Vals) :
    after opsHb V (Proc.devRef .tc main_v114) = hbT (V (Proc.devRef .tc main_v104)) (V (Proc.devRef .tc main_arg23)) (V (Proc.devRef .tc main_arg3)) (V (Proc.devRef .tc main_arg24)) (V (Proc.devRef .tc main_arg25)) := by
  after_results
  rfl

/-! ## The whole line -/

/-- The line as its sixteen stretches, folded one after the other. -/
theorem after_ops (W : Vals) : after ops W
    = after opsHb (after opsHa (after opsCat (after opsO3 (after opsS3 (after opsZ3 (after opsM3 (after opsO2b (after opsO2a (after opsS2 (after opsZ2 (after opsM2 (after opsO1 (after opsS1 (after opsZ1 (after opsM1 (W)))))))))))))))) := by
  simp only [ops, opsB1, opsB2, opsB3, opsH, after_append]

set_option maxRecDepth 16384 in
set_option maxHeartbeats 4000000 in
/-- The result buffer after the whole line, as a term of the arguments at launch. -/
theorem read_ops (W : Vals) : after ops W (Proc.devRef .tc main_v114)
    = headT (catT
        (oT (zT (Cert.Spec.msgs (W (Proc.devRef .tc main_arg1)) (W (Proc.devRef .tc main_arg2))) (W (Proc.devRef .tc main_arg0)) (W (Proc.devRef .tc main_arg4)) (W (Proc.devRef .tc main_arg5)) (W (Proc.devRef .tc main_arg6))) (Cert.Spec.meanChain (zT (Cert.Spec.msgs (W (Proc.devRef .tc main_arg1)) (W (Proc.devRef .tc main_arg2))) (W (Proc.devRef .tc main_arg0)) (W (Proc.devRef .tc main_arg4)) (W (Proc.devRef .tc main_arg5)) (W (Proc.devRef .tc main_arg6))))
          (Cert.Spec.varChain (zT (Cert.Spec.msgs (W (Proc.devRef .tc main_arg1)) (W (Proc.devRef .tc main_arg2))) (W (Proc.devRef .tc main_arg0)) (W (Proc.devRef .tc main_arg4)) (W (Proc.devRef .tc main_arg5)) (W (Proc.devRef .tc main_arg6)))) (W (Proc.devRef .tc main_arg8)) (W (Proc.devRef .tc main_arg9)) (W (Proc.devRef .tc main_arg7)))
        (oT (zT (Cert.Spec.msgs (W (Proc.devRef .tc main_arg1)) (W (Proc.devRef .tc main_arg2))) (W (Proc.devRef .tc main_arg0)) (W (Proc.devRef .tc main_arg10)) (W (Proc.devRef .tc main_arg11)) (W (Proc.devRef .tc main_arg12))) (Cert.Spec.meanChain (zT (Cert.Spec.msgs (W (Proc.devRef .tc main_arg1)) (W (Proc.devRef .tc main_arg2))) (W (Proc.devRef .tc main_arg0)) (W (Proc.devRef .tc main_arg10)) (W (Proc.devRef .tc main_arg11)) (W (Proc.devRef .tc main_arg12))))
          (Cert.Spec.varChain (zT (Cert.Spec.msgs (W (Proc.devRef .tc main_arg1)) (W (Proc.devRef .tc main_arg2))) (W (Proc.devRef .tc main_arg0)) (W (Proc.devRef .tc main_arg10)) (W (Proc.devRef .tc main_arg11)) (W (Proc.devRef .tc main_arg12)))) (W (Proc.devRef .tc main_arg14)) (W (Proc.devRef .tc main_arg15)) (W (Proc.devRef .tc main_arg13)))
        (oT (zT (Cert.Spec.msgs (W (Proc.devRef .tc main_arg1)) (W (Proc.devRef .tc main_arg2))) (W (Proc.devRef .tc main_arg0)) (W (Proc.devRef .tc main_arg16)) (W (Proc.devRef .tc main_arg17)) (W (Proc.devRef .tc main_arg18))) (Cert.Spec.meanChain (zT (Cert.Spec.msgs (W (Proc.devRef .tc main_arg1)) (W (Proc.devRef .tc main_arg2))) (W (Proc.devRef .tc main_arg0)) (W (Proc.devRef .tc main_arg16)) (W (Proc.devRef .tc main_arg17)) (W (Proc.devRef .tc main_arg18))))
          (Cert.Spec.varChain (zT (Cert.Spec.msgs (W (Proc.devRef .tc main_arg1)) (W (Proc.devRef .tc main_arg2))) (W (Proc.devRef .tc main_arg0)) (W (Proc.devRef .tc main_arg16)) (W (Proc.devRef .tc main_arg17)) (W (Proc.devRef .tc main_arg18)))) (W (Proc.devRef .tc main_arg20)) (W (Proc.devRef .tc main_arg21)) (W (Proc.devRef .tc main_arg19))))
      (W (Proc.devRef .tc main_arg22)) (W (Proc.devRef .tc main_arg23)) (W (Proc.devRef .tc main_arg3)) (W (Proc.devRef .tc main_arg24)) (W (Proc.devRef .tc main_arg25)) := by
  rw [after_ops]
  rw [read_Hb]
  rw [read_Ha,
    keep_Ha _ (r := main_arg23) (by decide),
    keep_Ha _ (r := main_arg3) (by decide),
    keep_Ha _ (r := main_arg24) (by decide),
    keep_Ha _ (r := main_arg25) (by decide)]
  rw [read_Cat,
    keep_Cat _ (r := main_arg22) (by decide),
    keep_Cat _ (r := main_arg23) (by decide),
    keep_Cat _ (r := main_arg3) (by decide),
    keep_Cat _ (r := main_arg24) (by decide),
    keep_Cat _ (r := main_arg25) (by decide)]
  rw [read_O3,
    keep_O3 _ (r := main_v33) (by decide),
    keep_O3 _ (r := main_v67) (by decide),
    keep_O3 _ (r := main_arg22) (by decide),
    keep_O3 _ (r := main_arg23) (by decide),
    keep_O3 _ (r := main_arg3) (by decide),
    keep_O3 _ (r := main_arg24) (by decide),
    keep_O3 _ (r := main_arg25) (by decide)]
  rw [read_S3m,
    read_S3v,
    keep_S3 _ (r := main_v33) (by decide),
    keep_S3 _ (r := main_v67) (by decide),
    keep_S3 _ (r := main_v79) (by decide),
    keep_S3 _ (r := main_arg20) (by decide),
    keep_S3 _ (r := main_arg21) (by decide),
    keep_S3 _ (r := main_arg19) (by decide),
    keep_S3 _ (r := main_arg22) (by decide),
    keep_S3 _ (r := main_arg23) (by decide),
    keep_S3 _ (r := main_arg3) (by decide),
    keep_S3 _ (r := main_arg24) (by decide),
    keep_S3 _ (r := main_arg25) (by decide)]
  rw [read_Z3,
    keep_Z3 _ (r := main_v33) (by decide),
    keep_Z3 _ (r := main_v67) (by decide),
    keep_Z3 _ (r := main_arg20) (by decide),
    keep_Z3 _ (r := main_arg21) (by decide),
    keep_Z3 _ (r := main_arg19) (by decide),
    keep_Z3 _ (r := main_arg22) (by decide),
    keep_Z3 _ (r := main_arg23) (by decide),
    keep_Z3 _ (r := main_arg3) (by decide),
    keep_Z3 _ (r := main_arg24) (by decide),
    keep_Z3 _ (r := main_arg25) (by decide)]
  rw [read_M3,
    keep_M3 _ (r := main_v33) (by decide),
    keep_M3 _ (r := main_v67) (by decide),
    keep_M3 _ (r := main_arg0) (by decide),
    keep_M3 _ (r := main_arg16) (by decide),
    keep_M3 _ (r := main_arg17) (by decide),
    keep_M3 _ (r := main_arg18) (by decide),
    keep_M3 _ (r := main_arg20) (by decide),
    keep_M3 _ (r := main_arg21) (by decide),
    keep_M3 _ (r := main_arg19) (by decide),
    keep_M3 _ (r := main_arg22) (by decide),
    keep_M3 _ (r := main_arg23) (by decide),
    keep_M3 _ (r := main_arg3) (by decide),
    keep_M3 _ (r := main_arg24) (by decide),
    keep_M3 _ (r := main_arg25) (by decide)]
  rw [read_O2b,
    keep_O2b _ (r := main_v33) (by decide),
    keep_O2b _ (r := main_arg1) (by decide),
    keep_O2b _ (r := main_arg2) (by decide),
    keep_O2b _ (r := main_arg0) (by decide),
    keep_O2b _ (r := main_arg16) (by decide),
    keep_O2b _ (r := main_arg17) (by decide),
    keep_O2b _ (r := main_arg18) (by decide),
    keep_O2b _ (r := main_arg20) (by decide),
    keep_O2b _ (r := main_arg21) (by decide),
    keep_O2b _ (r := main_arg19) (by decide),
    keep_O2b _ (r := main_arg22) (by decide),
    keep_O2b _ (r := main_arg23) (by decide),
    keep_O2b _ (r := main_arg3) (by decide),
    keep_O2b _ (r := main_arg24) (by decide),
    keep_O2b _ (r := main_arg25) (by decide)]
  rw [read_O2a,
    keep_O2a _ (r := main_v33) (by decide),
    keep_O2a _ (r := main_v45) (by decide),
    keep_O2a _ (r := main_v49) (by decide),
    keep_O2a _ (r := main_arg14) (by decide),
    keep_O2a _ (r := main_arg15) (by decide),
    keep_O2a _ (r := main_arg13) (by decide),
    keep_O2a _ (r := main_arg1) (by decide),
    keep_O2a _ (r := main_arg2) (by decide),
    keep_O2a _ (r := main_arg0) (by decide),
    keep_O2a _ (r := main_arg16) (by decide),
    keep_O2a _ (r := main_arg17) (by decide),
    keep_O2a _ (r := main_arg18) (by decide),
    keep_O2a _ (r := main_arg20) (by decide),
    keep_O2a _ (r := main_arg21) (by decide),
    keep_O2a _ (r := main_arg19) (by decide),
    keep_O2a _ (r := main_arg22) (by decide),
    keep_O2a _ (r := main_arg23) (by decide),
    keep_O2a _ (r := main_arg3) (by decide),
    keep_O2a _ (r := main_arg24) (by decide),
    keep_O2a _ (r := main_arg25) (by decide)]
  rw [read_S2m,
    read_S2v,
    keep_S2 _ (r := main_v33) (by decide),
    keep_S2 _ (r := main_v45) (by decide),
    keep_S2 _ (r := main_arg14) (by decide),
    keep_S2 _ (r := main_arg15) (by decide),
    keep_S2 _ (r := main_arg13) (by decide),
    keep_S2 _ (r := main_arg1) (by decide),
    keep_S2 _ (r := main_arg2) (by decide),
    keep_S2 _ (r := main_arg0) (by decide),
    keep_S2 _ (r := main_arg16) (by decide),
    keep_S2 _ (r := main_arg17) (by decide),
    keep_S2 _ (r := main_arg18) (by decide),
    keep_S2 _ (r := main_arg20) (by decide),
    keep_S2 _ (r := main_arg21) (by decide),
    keep_S2 _ (r := main_arg19) (by decide),
    keep_S2 _ (r := main_arg22) (by decide),
    keep_S2 _ (r := main_arg23) (by decide),
    keep_S2 _ (r := main_arg3) (by decide),
    keep_S2 _ (r := main_arg24) (by decide),
    keep_S2 _ (r := main_arg25) (by decide)]
  rw [read_Z2,
    keep_Z2 _ (r := main_v33) (by decide),
    keep_Z2 _ (r := main_arg14) (by decide),
    keep_Z2 _ (r := main_arg15) (by decide),
    keep_Z2 _ (r := main_arg13) (by decide),
    keep_Z2 _ (r := main_arg1) (by decide),
    keep_Z2 _ (r := main_arg2) (by decide),
    keep_Z2 _ (r := main_arg0) (by decide),
    keep_Z2 _ (r := main_arg16) (by decide),
    keep_Z2 _ (r := main_arg17) (by decide),
    keep_Z2 _ (r := main_arg18) (by decide),
    keep_Z2 _ (r := main_arg20) (by decide),
    keep_Z2 _ (r := main_arg21) (by decide),
    keep_Z2 _ (r := main_arg19) (by decide),
    keep_Z2 _ (r := main_arg22) (by decide),
    keep_Z2 _ (r := main_arg23) (by decide),
    keep_Z2 _ (r := main_arg3) (by decide),
    keep_Z2 _ (r := main_arg24) (by decide),
    keep_Z2 _ (r := main_arg25) (by decide)]
  rw [read_M2,
    keep_M2 _ (r := main_v33) (by decide),
    keep_M2 _ (r := main_arg0) (by decide),
    keep_M2 _ (r := main_arg10) (by decide),
    keep_M2 _ (r := main_arg11) (by decide),
    keep_M2 _ (r := main_arg12) (by decide),
    keep_M2 _ (r := main_arg14) (by decide),
    keep_M2 _ (r := main_arg15) (by decide),
    keep_M2 _ (r := main_arg13) (by decide),
    keep_M2 _ (r := main_arg1) (by decide),
    keep_M2 _ (r := main_arg2) (by decide),
    keep_M2 _ (r := main_arg16) (by decide),
    keep_M2 _ (r := main_arg17) (by decide),
    keep_M2 _ (r := main_arg18) (by decide),
    keep_M2 _ (r := main_arg20) (by decide),
    keep_M2 _ (r := main_arg21) (by decide),
    keep_M2 _ (r := main_arg19) (by decide),
    keep_M2 _ (r := main_arg22) (by decide),
    keep_M2 _ (r := main_arg23) (by decide),
    keep_M2 _ (r := main_arg3) (by decide),
    keep_M2 _ (r := main_arg24) (by decide),
    keep_M2 _ (r := main_arg25) (by decide)]
  rw [read_O1,
    keep_O1 _ (r := main_arg1) (by decide),
    keep_O1 _ (r := main_arg2) (by decide),
    keep_O1 _ (r := main_arg0) (by decide),
    keep_O1 _ (r := main_arg10) (by decide),
    keep_O1 _ (r := main_arg11) (by decide),
    keep_O1 _ (r := main_arg12) (by decide),
    keep_O1 _ (r := main_arg14) (by decide),
    keep_O1 _ (r := main_arg15) (by decide),
    keep_O1 _ (r := main_arg13) (by decide),
    keep_O1 _ (r := main_arg16) (by decide),
    keep_O1 _ (r := main_arg17) (by decide),
    keep_O1 _ (r := main_arg18) (by decide),
    keep_O1 _ (r := main_arg20) (by decide),
    keep_O1 _ (r := main_arg21) (by decide),
    keep_O1 _ (r := main_arg19) (by decide),
    keep_O1 _ (r := main_arg22) (by decide),
    keep_O1 _ (r := main_arg23) (by decide),
    keep_O1 _ (r := main_arg3) (by decide),
    keep_O1 _ (r := main_arg24) (by decide),
    keep_O1 _ (r := main_arg25) (by decide)]
  rw [read_S1m,
    read_S1v,
    keep_S1 _ (r := main_v11) (by decide),
    keep_S1 _ (r := main_arg8) (by decide),
    keep_S1 _ (r := main_arg9) (by decide),
    keep_S1 _ (r := main_arg7) (by decide),
    keep_S1 _ (r := main_arg1) (by decide),
    keep_S1 _ (r := main_arg2) (by decide),
    keep_S1 _ (r := main_arg0) (by decide),
    keep_S1 _ (r := main_arg10) (by decide),
    keep_S1 _ (r := main_arg11) (by decide),
    keep_S1 _ (r := main_arg12) (by decide),
    keep_S1 _ (r := main_arg14) (by decide),
    keep_S1 _ (r := main_arg15) (by decide),
    keep_S1 _ (r := main_arg13) (by decide),
    keep_S1 _ (r := main_arg16) (by decide),
    keep_S1 _ (r := main_arg17) (by decide),
    keep_S1 _ (r := main_arg18) (by decide),
    keep_S1 _ (r := main_arg20) (by decide),
    keep_S1 _ (r := main_arg21) (by decide),
    keep_S1 _ (r := main_arg19) (by decide),
    keep_S1 _ (r := main_arg22) (by decide),
    keep_S1 _ (r := main_arg23) (by decide),
    keep_S1 _ (r := main_arg3) (by decide),
    keep_S1 _ (r := main_arg24) (by decide),
    keep_S1 _ (r := main_arg25) (by decide)]
  rw [read_Z1,
    keep_Z1 _ (r := main_arg8) (by decide),
    keep_Z1 _ (r := main_arg9) (by decide),
    keep_Z1 _ (r := main_arg7) (by decide),
    keep_Z1 _ (r := main_arg1) (by decide),
    keep_Z1 _ (r := main_arg2) (by decide),
    keep_Z1 _ (r := main_arg0) (by decide),
    keep_Z1 _ (r := main_arg10) (by decide),
    keep_Z1 _ (r := main_arg11) (by decide),
    keep_Z1 _ (r := main_arg12) (by decide),
    keep_Z1 _ (r := main_arg14) (by decide),
    keep_Z1 _ (r := main_arg15) (by decide),
    keep_Z1 _ (r := main_arg13) (by decide),
    keep_Z1 _ (r := main_arg16) (by decide),
    keep_Z1 _ (r := main_arg17) (by decide),
    keep_Z1 _ (r := main_arg18) (by decide),
    keep_Z1 _ (r := main_arg20) (by decide),
    keep_Z1 _ (r := main_arg21) (by decide),
    keep_Z1 _ (r := main_arg19) (by decide),
    keep_Z1 _ (r := main_arg22) (by decide),
    keep_Z1 _ (r := main_arg23) (by decide),
    keep_Z1 _ (r := main_arg3) (by decide),
    keep_Z1 _ (r := main_arg24) (by decide),
    keep_Z1 _ (r := main_arg25) (by decide)]
  rw [read_M1,
    keep_M1 _ (r := main_arg0) (by decide),
    keep_M1 _ (r := main_arg4) (by decide),
    keep_M1 _ (r := main_arg5) (by decide),
    keep_M1 _ (r := main_arg6) (by decide),
    keep_M1 _ (r := main_arg8) (by decide),
    keep_M1 _ (r := main_arg9) (by decide),
    keep_M1 _ (r := main_arg7) (by decide),
    keep_M1 _ (r := main_arg1) (by decide),
    keep_M1 _ (r := main_arg2) (by decide),
    keep_M1 _ (r := main_arg10) (by decide),
    keep_M1 _ (r := main_arg11) (by decide),
    keep_M1 _ (r := main_arg12) (by decide),
    keep_M1 _ (r := main_arg14) (by decide),
    keep_M1 _ (r := main_arg15) (by decide),
    keep_M1 _ (r := main_arg13) (by decide),
    keep_M1 _ (r := main_arg16) (by decide),
    keep_M1 _ (r := main_arg17) (by decide),
    keep_M1 _ (r := main_arg18) (by decide),
    keep_M1 _ (r := main_arg20) (by decide),
    keep_M1 _ (r := main_arg21) (by decide),
    keep_M1 _ (r := main_arg19) (by decide),
    keep_M1 _ (r := main_arg22) (by decide),
    keep_M1 _ (r := main_arg23) (by decide),
    keep_M1 _ (r := main_arg3) (by decide),
    keep_M1 _ (r := main_arg24) (by decide),
    keep_M1 _ (r := main_arg25) (by decide)]
  rfl

/-- A buffer no stretch writes is unchanged by the whole line. -/
theorem keep_ops (W : Vals) {r : Ref sig .tc}
    (h0 : r ∉ wM1)
    (h1 : r ∉ wZ1)
    (h2 : r ∉ wS1)
    (h3 : r ∉ wO1)
    (h4 : r ∉ wM2)
    (h5 : r ∉ wZ2)
    (h6 : r ∉ wS2)
    (h7 : r ∉ wO2a)
    (h8 : r ∉ wO2b)
    (h9 : r ∉ wM3)
    (h10 : r ∉ wZ3)
    (h11 : r ∉ wS3)
    (h12 : r ∉ wO3)
    (h13 : r ∉ wCat)
    (h14 : r ∉ wHa)
    (h15 : r ∉ wHb) :
    after ops W (Proc.devRef .tc r) = W (Proc.devRef .tc r) := by
  rw [after_ops, keep_Hb _ h15, keep_Ha _ h14, keep_Cat _ h13, keep_O3 _ h12, keep_S3 _ h11, keep_Z3 _ h10, keep_M3 _ h9, keep_O2b _ h8, keep_O2a _ h7, keep_S2 _ h6, keep_Z2 _ h5, keep_M2 _ h4, keep_O1 _ h3, keep_S1 _ h2, keep_Z1 _ h1, keep_M1 _ h0]

end Cert.ReferenceIdeal.RefRun

end
-- ==== Proof.RefValue.lean ====
/-
  The reference's run, read to the end: every weakly fair execution of its @main terminates with the result buffer
  holding the specification's result of the twenty-six argument arrays at launch, and every argument buffer unchanged.
  The run gives each buffer as the fold of the line's operations; the fold at the result buffer is the head over the
  three branches as a whole-array term; and that term, read at each row and column, is the specification's formula.
-/
import proofs.«165818_j2173253452173_2_alg».proof.Proof.RefRead

noncomputable section

open Idealize.ShloMosaic Idealize.ShloMosaic.TcCoe Idealize.SL.Sem Idealize.ShloMosaic.ValueIdx Idealize.ShloMosaic.StableHlo

namespace Cert.ReferenceIdeal.RefRun

set_option maxRecDepth 16384 in
set_option maxHeartbeats 4000000 in
theorem ref_value (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v114) = Cert.Spec.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)) :=
  (θ_run (Cert.ReferenceIdeal.defs (F := Ideal)) _ _).mono (fun _ h c =>
    ⟨(h c Cert.ReferenceIdeal.main_v114).trans ((read_ops (launchContents m' c)).trans
        (refTerm_eq (launchContents m' c (Proc.devRef .tc Cert.ReferenceIdeal.main_arg0))
          (launchContents m' c (Proc.devRef .tc Cert.ReferenceIdeal.main_arg1))
          (launchContents m' c (Proc.devRef .tc Cert.ReferenceIdeal.main_arg2))
          (launchContents m' c (Proc.devRef .tc Cert.ReferenceIdeal.main_arg3))
          (launchContents m' c (Proc.devRef .tc Cert.ReferenceIdeal.main_arg4))
          (launchContents m' c (Proc.devRef .tc Cert.ReferenceIdeal.main_arg5))
          (launchContents m' c (Proc.devRef .tc Cert.ReferenceIdeal.main_arg6))
          (launchContents m' c (Proc.devRef .tc Cert.ReferenceIdeal.main_arg7))
          (launchContents m' c (Proc.devRef .tc Cert.ReferenceIdeal.main_arg8))
          (launchContents m' c (Proc.devRef .tc Cert.ReferenceIdeal.main_arg9))
          (launchContents m' c (Proc.devRef .tc Cert.ReferenceIdeal.main_arg10))
          (launchContents m' c (Proc.devRef .tc Cert.ReferenceIdeal.main_arg11))
          (launchContents m' c (Proc.devRef .tc Cert.ReferenceIdeal.main_arg12))
          (launchContents m' c (Proc.devRef .tc Cert.ReferenceIdeal.main_arg13))
          (launchContents m' c (Proc.devRef .tc Cert.ReferenceIdeal.main_arg14))
          (launchContents m' c (Proc.devRef .tc Cert.ReferenceIdeal.main_arg15))
          (launchContents m' c (Proc.devRef .tc Cert.ReferenceIdeal.main_arg16))
          (launchContents m' c (Proc.devRef .tc Cert.ReferenceIdeal.main_arg17))
          (launchContents m' c (Proc.devRef .tc Cert.ReferenceIdeal.main_arg18))
          (launchContents m' c (Proc.devRef .tc Cert.ReferenceIdeal.main_arg19))
          (launchContents m' c (Proc.devRef .tc Cert.ReferenceIdeal.main_arg20))
          (launchContents m' c (Proc.devRef .tc Cert.ReferenceIdeal.main_arg21))
          (launchContents m' c (Proc.devRef .tc Cert.ReferenceIdeal.main_arg22))
          (launchContents m' c (Proc.devRef .tc Cert.ReferenceIdeal.main_arg23))
          (launchContents m' c (Proc.devRef .tc Cert.ReferenceIdeal.main_arg24))
          (launchContents m' c (Proc.devRef .tc Cert.ReferenceIdeal.main_arg25)))),
     (h c Cert.ReferenceIdeal.main_arg0).trans (keep_ops (launchContents m' c) (by decide) (by decide) (by decide) (by decide) (by decide) (by decide) (by decide) (by decide) (by decide) (by decide) (by decide) (by decide) (by decide) (by decide) (by decide) (by decide)),
     (h c Cert.ReferenceIdeal.main_arg1).trans (keep_ops (launchContents m' c) (by decide) (by decide) (by decide) (by decide) (by decide) (by decide) (by decide) (by decide) (by decide) (by decide) (by decide) (by decide) (by decide) (by decide) (by decide) (by decide)),
     (h c Cert.ReferenceIdeal.main_arg2).trans (keep_ops (launchContents m' c) (by decide) (by decide) (by decide) (by decide) (by decide) (by decide) (by decide) (by decide) (by decide) (by decide) (by decide) (by decide) (by decide) (by decide) (by decide) (by decide)),
     (h c Cert.ReferenceIdeal.main_arg3).trans (keep_ops (launchContents m' c) (by decide) (by decide) (by decide) (by decide) (by decide) (by decide) (by decide) (by decide) (by decide) (by decide) (by decide) (by decide) (by decide) (by decide) (by decide) (by decide)),
     (h c Cert.ReferenceIdeal.main_arg4).trans (keep_ops (launchContents m' c) (by decide) (by decide) (by decide) (by decide) (by decide) (by decide) (by decide) (by decide) (by decide) (by decide) (by decide) (by decide) (by decide) (by decide) (by decide) (by decide)),
     (h c Cert.ReferenceIdeal.main_arg5).trans (keep_ops (launchContents m' c) (by decide) (by decide) (by decide) (by decide) (by decide) (by decide) (by decide) (by decide) (by decide) (by decide) (by decide) (by decide) (by decide) (by decide) (by decide) (by decide)),
     (h c Cert.ReferenceIdeal.main_arg6).trans (keep_ops (launchContents m' c) (by decide) (by decide) (by decide) (by decide) (by decide) (by decide) (by decide) (by decide) (by decide) (by decide) (by decide) (by decide) (by decide) (by decide) (by decide) (by decide)),
     (h c Cert.ReferenceIdeal.main_arg7).trans (keep_ops (launchContents m' c) (by decide) (by decide) (by decide) (by decide) (by decide) (by decide) (by decide) (by decide) (by decide) (by decide) (by decide) (by decide) (by decide) (by decide) (by decide) (by decide)),
     (h c Cert.ReferenceIdeal.main_arg8).trans (keep_ops (launchContents m' c) (by decide) (by decide) (by decide) (by decide) (by decide) (by decide) (by decide) (by decide) (by decide) (by decide) (by decide) (by decide) (by decide) (by decide) (by decide) (by decide)),
     (h c Cert.ReferenceIdeal.main_arg9).trans (keep_ops (launchContents m' c) (by decide) (by decide) (by decide) (by decide) (by decide) (by decide) (by decide) (by decide) (by decide) (by decide) (by decide) (by decide) (by decide) (by decide) (by decide) (by decide)),
     (h c Cert.ReferenceIdeal.main_arg10).trans (keep_ops (launchContents m' c) (by decide) (by decide) (by decide) (by decide) (by decide) (by decide) (by decide) (by decide) (by decide) (by decide) (by decide) (by decide) (by decide) (by decide) (by decide) (by decide)),
     (h c Cert.ReferenceIdeal.main_arg11).trans (keep_ops (launchContents m' c) (by decide) (by decide) (by decide) (by decide) (by decide) (by decide) (by decide) (by decide) (by decide) (by decide) (by decide) (by decide) (by decide) (by decide) (by decide) (by decide)),
     (h c Cert.ReferenceIdeal.main_arg12).trans (keep_ops (launchContents m' c) (by decide) (by decide) (by decide) (by decide) (by decide) (by decide) (by decide) (by decide) (by decide) (by decide) (by decide) (by decide) (by decide) (by decide) (by decide) (by decide)),
     (h c Cert.ReferenceIdeal.main_arg13).trans (keep_ops (launchContents m' c) (by decide) (by decide) (by decide) (by decide) (by decide) (by decide) (by decide) (by decide) (by decide) (by decide) (by decide) (by decide) (by decide) (by decide) (by decide) (by decide)),
     (h c Cert.ReferenceIdeal.main_arg14).trans (keep_ops (launchContents m' c) (by decide) (by decide) (by decide) (by decide) (by decide) (by decide) (by decide) (by decide) (by decide) (by decide) (by decide) (by decide) (by decide) (by decide) (by decide) (by decide)),
     (h c Cert.ReferenceIdeal.main_arg15).trans (keep_ops (launchContents m' c) (by decide) (by decide) (by decide) (by decide) (by decide) (by decide) (by decide) (by decide) (by decide) (by decide) (by decide) (by decide) (by decide) (by decide) (by decide) (by decide)),
     (h c Cert.ReferenceIdeal.main_arg16).trans (keep_ops (launchContents m' c) (by decide) (by decide) (by decide) (by decide) (by decide) (by decide) (by decide) (by decide) (by decide) (by decide) (by decide) (by decide) (by decide) (by decide) (by decide) (by decide)),
     (h c Cert.ReferenceIdeal.main_arg17).trans (keep_ops (launchContents m' c) (by decide) (by decide) (by decide) (by decide) (by decide) (by decide) (by decide) (by decide) (by decide) (by decide) (by decide) (by decide) (by decide) (by decide) (by decide) (by decide)),
     (h c Cert.ReferenceIdeal.main_arg18).trans (keep_ops (launchContents m' c) (by decide) (by decide) (by decide) (by decide) (by decide) (by decide) (by decide) (by decide) (by decide) (by decide) (by decide) (by decide) (by decide) (by decide) (by decide) (by decide)),
     (h c Cert.ReferenceIdeal.main_arg19).trans (keep_ops (launchContents m' c) (by decide) (by decide) (by decide) (by decide) (by decide) (by decide) (by decide) (by decide) (by decide) (by decide) (by decide) (by decide) (by decide) (by decide) (by decide) (by decide)),
     (h c Cert.ReferenceIdeal.main_arg20).trans (keep_ops (launchContents m' c) (by decide) (by decide) (by decide) (by decide) (by decide) (by decide) (by decide) (by decide) (by decide) (by decide) (by decide) (by decide) (by decide) (by decide) (by decide) (by decide)),
     (h c Cert.ReferenceIdeal.main_arg21).trans (keep_ops (launchContents m' c) (by decide) (by decide) (by decide) (by decide) (by decide) (by decide) (by decide) (by decide) (by decide) (by decide) (by decide) (by decide) (by decide) (by decide) (by decide) (by decide)),
     (h c Cert.ReferenceIdeal.main_arg22).trans (keep_ops (launchContents m' c) (by decide) (by decide) (by decide) (by decide) (by decide) (by decide) (by decide) (by decide) (by decide) (by decide) (by decide) (by decide) (by decide) (by decide) (by decide) (by decide)),
     (h c Cert.ReferenceIdeal.main_arg23).trans (keep_ops (launchContents m' c) (by decide) (by decide) (by decide) (by decide) (by decide) (by decide) (by decide) (by decide) (by decide) (by decide) (by decide) (by decide) (by decide) (by decide) (by decide) (by decide)),
     (h c Cert.ReferenceIdeal.main_arg24).trans (keep_ops (launchContents m' c) (by decide) (by decide) (by decide) (by decide) (by decide) (by decide) (by decide) (by decide) (by decide) (by decide) (by decide) (by decide) (by decide) (by decide) (by decide) (by decide)),
     (h c Cert.ReferenceIdeal.main_arg25).trans (keep_ops (launchContents m' c) (by decide) (by decide) (by decide) (by decide) (by decide) (by decide) (by decide) (by decide) (by decide) (by decide) (by decide) (by decide) (by decide) (by decide) (by decide) (by decide))⟩)
    (run_fold m' ρ')

end Cert.ReferenceIdeal.RefRun

end
-- ==== Proof.Claims.lean ====
/-
  The five claims. The frames of the two kernel programs are the generated ones; the reference's frame is its run with
  the result forgotten. The ideal pass rewrote nothing, so there is nothing to preserve. The value claim: the kernel's
  run ends with its own arrangement of the computation over the three matrices its first stage leaves, which are the
  three z matrices of the specification; under the precondition every float argument holds real numbers only, so that
  arrangement is the reference's (scale-and-shift against subtract-divide-multiply-add needs the reals; the three
  partial sums against the one sum over the concatenation do not); and the reference's run ends with exactly that
  function of its own arguments, which agree with the kernel's.
-/
import proofs.«165818_j2173253452173_2_alg».proof.Defs
import proofs.«165818_j2173253452173_2_alg».proof.Proof.Gen.Kernel
import proofs.«165818_j2173253452173_2_alg».proof.Proof.Gen.Kernel.Frame
import proofs.«165818_j2173253452173_2_alg».proof.Proof.Gen.KernelIdeal
import proofs.«165818_j2173253452173_2_alg».proof.Proof.Gen.KernelIdeal.Frame
import proofs.«165818_j2173253452173_2_alg».proof.Proof.Gen.ReferenceIdeal
import proofs.«165818_j2173253452173_2_alg».proof.Proof.Gen.Pre_finite_inputs
import proofs.«165818_j2173253452173_2_alg».proof.Proof.SpecResult
import proofs.«165818_j2173253452173_2_alg».proof.Proof.PreFinite
import proofs.«165818_j2173253452173_2_alg».proof.Proof.KerValue
import proofs.«165818_j2173253452173_2_alg».proof.Proof.ConvValue
import proofs.«165818_j2173253452173_2_alg».proof.Proof.RefValue

noncomputable section

namespace Cert.Proof.Claims

open Idealize.ShloMosaic Idealize.ShloMosaic.TcCoe Idealize.SL.Sem Idealize.ShloMosaic.ValueIdx

/-- The word-level kernel's frame: generated. -/
theorem frame_p : Cert.frame_Kernel := fun m ρ _ => Cert.Kernel.Gen.frame m ρ
/-- The idealized kernel's frame: generated. -/
theorem frame_pi : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefRun.ref_value m ρ)
/-- The ideal pass rewrote nothing. -/
theorem preserves : Cert.preserves_Kernel_KernelIdeal := trivial

/-- Both programs end at the one result function of the arguments. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)), ?_, ?_⟩
  · refine (θ_run Cert.KernelIdeal.defs _ _).mono (fun r h c => ⟨(h c).1.trans ?_, (h c).2⟩) (Cert.KernelIdeal.KerVal.ker_value m ρ)
    obtain ⟨h0, h1, h3, h4, h5, h6, h7, h8, h9, h10, h11, h12, h13, h14, h15, h16, h17, h18, h19, h20, h21, h22, h23, h24, h25⟩ := Cert.PreFinite.all_real _ _ _ _ _ _ _ _ _ _ _ _ _ _ _ _ _ _ _ _ _ _ _ _ _ _ (hpre c)
    exact Cert.Spec.result_of_kernel _ _ _ _ _ _ _ _ _ _ _ _ _ _ _ _ _ _ _ _ _ _ _ _ _ _ _ _ _ h0 h1 h4 h5 h6 h8 h9 h10 h11 h12 h14 h15 h16 h17 h18 h20 h21
      (fun n j => (Cert.KernelIdeal.KerConv.conv_value m ρ c n j).1) (fun n j => (Cert.KernelIdeal.KerConv.conv_value m ρ c n j).2.1) (fun n j => (Cert.KernelIdeal.KerConv.conv_value m ρ c n j).2.2)
  · refine (θ_run Cert.ReferenceIdeal.defs _ _).mono (fun r h c => ⟨(h c).1.trans ?_, (h c).2⟩) (Cert.ReferenceIdeal.RefRun.ref_value m' ρ')
    obtain ⟨e0, e1, e2, e3, e4, e5, e6, e7, e8, e9, e10, e11, e12, e13, e14, e15, e16, e17, e18, e19, e20, e21, e22, e23, e24, e25⟩ := hagree c
    rw [e0, e1, e2, e3, e4, e5, e6, e7, e8, e9, e10, e11, e12, e13, e14, e15, e16, e17, e18, e19, e20, e21, e22, e23, e24, e25]

end Cert.Proof.Claims

end
-- ==== Proof.lean ====
/-
  The certificate of a three-branch graph-convolution stack followed by a two-layer head, computed by two blocked
  kernels with host operations around them, against its plain reference.

  Both programs are read at the ideal values: floats are extended reals, every operation exact, every change of format
  the identity. Each branch sums the rectified edge features by segment, maps the sums and the source rows through two
  linear layers to a matrix z, normalises z column by column with its own mean and variance, rectifies, and maps
  through a third linear layer; the head concatenates the three branch results, applies a linear layer, rectifies,
  masks, and applies a last linear layer.

  The kernel's side differs from the reference's in four ways, none of which changes the result where the arguments are
  real numbers: it pads the edge features and the first weights with twenty zero columns (a zero column adds nothing to
  a sum of products); it splits the rows into sixteen blocks of 512 (each result row depends on its own rows only, and
  the blocks tile the array); it folds the normalisation into a per-column scale and shift (distributivity over the
  reals, the variance plus its positive offset being positive); and it multiplies the three branch results by the three
  column slices of the head's first weights and adds the products (a regrouping of one finite sum). The modules under
  Proof/ state the specification (Spec, SpecMsgs, SpecResult), its algebra (SpecNorm, SpecChains, SpecAlgebra), the
  precondition read back (PreFinite), each program's run and value, and the five claims (Claims).
-/
import proofs.«165818_j2173253452173_2_alg».proof.Defs
import proofs.«165818_j2173253452173_2_alg».proof.Proof.Gen.Kernel
import proofs.«165818_j2173253452173_2_alg».proof.Proof.Gen.Kernel.Skeleton
import proofs.«165818_j2173253452173_2_alg».proof.Proof.Gen.Kernel.Launch
import proofs.«165818_j2173253452173_2_alg».proof.Proof.Gen.Kernel.Points
import proofs.«165818_j2173253452173_2_alg».proof.Proof.Gen.Kernel.Frame
import proofs.«165818_j2173253452173_2_alg».proof.Proof.Gen.KernelIdeal
import proofs.«165818_j2173253452173_2_alg».proof.Proof.Gen.KernelIdeal.Skeleton
import proofs.«165818_j2173253452173_2_alg».proof.Proof.Gen.KernelIdeal.Launch
import proofs.«165818_j2173253452173_2_alg».proof.Proof.Gen.KernelIdeal.Points
import proofs.«165818_j2173253452173_2_alg».proof.Proof.Gen.KernelIdeal.Frame
import proofs.«165818_j2173253452173_2_alg».proof.Proof.Gen.ReferenceIdeal
import proofs.«165818_j2173253452173_2_alg».proof.Proof.Gen.Pre_finite_inputs
import proofs.«165818_j2173253452173_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
